-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x512x20 : Shape := ⟨3, ![16, 512, 20]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16x512x20 : S_.BroadcastsInDim S16x512x20 (![] : Fin 0 → Fin S16x512x20.rank)
  reducesTo_S16x512x20_S_d0_1_2 : S16x512x20.ReducesTo [0, 1, 2] S_

variable [Facts]

def fn {F : FTy → Type} [FloatOps F] (main_arg0 : IVec S16x512x20 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16x512x20 32 := broadcastInDim S16x512x20 ![] bcast_S_S16x512x20 main_c_0
  let main_v5 : IVec S16x512x20 1 := cmpi .sge main_arg0 main_v4
  let main_c_1 : IVec S_ 32 := constantI S_ 32 99999#32
  let main_v6 : IVec S16x512x20 32 := broadcastInDim S16x512x20 ![] bcast_S_S16x512x20 main_c_1
  let main_v7 : IVec S16x512x20 1 := cmpi .sle main_arg0 main_v6
  let main_v8 : IVec S16x512x20 1 := andi main_v5 main_v7
  let main_c_2 : IVec S_ 1 := constantI S_ 1 1#1
  let main_v9 : IVec S_ 1 := (fun x v => Host.reduce IntOp.andi x v reducesTo_S16x512x20_S_d0_1_2 h_S_) main_v8 main_c_2
  let main_v10 : IVec S_ 1 := andi main_v3 main_v9
  main_v10
-- ==== Kernel.lean ====
abbrev S16x512x20 : Shape := ⟨3, ![16, 512, 20]⟩
abbrev S100000x128 : Shape := ⟨2, ![100000, 128]⟩
abbrev S8192x128 : Shape := ⟨2, ![8192, 128]⟩
abbrev S256x20 : Shape := ⟨2, ![256, 20]⟩
abbrev S4x20x128 : Shape := ⟨3, ![4, 20, 128]⟩
abbrev S256x128 : Shape := ⟨2, ![256, 128]⟩
abbrev S_ : Shape := ⟨0, ![]⟩
abbrev S1x256x20 : Shape := ⟨3, ![1, 256, 20]⟩
abbrev S1x20x128 : Shape := ⟨3, ![1, 20, 128]⟩
abbrev S20x128 : Shape := ⟨2, ![20, 128]⟩
abbrev S1x20 : Shape := ⟨2, ![1, 20]⟩
abbrev S20 : Shape := ⟨1, ![20]⟩
abbrev S1x1x16 : Shape := ⟨3, ![1, 1, 16]⟩
abbrev S16 : Shape := ⟨1, ![16]⟩
abbrev S1x16 : Shape := ⟨2, ![1, 16]⟩
abbrev S64x128 : Shape := ⟨2, ![64, 128]⟩
abbrev S16x512x128 : Shape := ⟨3, ![16, 512, 128]⟩

abbrev nBuf : Table → Nat
  | .hbm => 4
  | .local .scVector .vmem => 3
  | _ => 0

abbrev bufTy : (tb : Table) → Fin (nBuf tb) → BufTy
  | .hbm, ⟨0, _⟩ => ⟨S16x512x20, .i32⟩
  | .hbm, ⟨1, _⟩ => ⟨S100000x128, .f32⟩
  | .hbm, ⟨2, _⟩ => ⟨S8192x128, .f32⟩
  | .hbm, ⟨3, _⟩ => ⟨S16x512x128, .f32⟩
  | .local .scVector .vmem, ⟨0, _⟩ => ⟨S256x20, .i32⟩
  | .local .scVector .vmem, ⟨1, _⟩ => ⟨S4x20x128, .f32⟩
  | .local .scVector .vmem, ⟨2, _⟩ => ⟨S256x128, .f32⟩
  | _, _ => ⟨S16x512x20, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_66_r0 : BitVec 32 := 0#32
  ![v18.toNat, v29.toNat, 0]
@[reducible] def k0_t1_loop : Scf.Loop 32 :=
  let c0_i32_33 : BitVec 32 := 0#32
  let c64_i32 : BitVec 32 := 64#32
  let v45 : BitVec 32 := Scalar.addi c0_i32_33 c64_i32
  let c1_i32_34 : BitVec 32 := 1#32
  ⟨c0_i32_33, v45, c1_i32_34⟩
def k0_cond1 (k0_t1 : Fin k0_t1_loop.trips) : BitVec 1 :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let c0_i32_66 : BitVec 32 := 0#32
  let v72 : BitVec 32 := Scalar.addi v71 c0_i32_66
  let c4_i32_67 : BitVec 32 := 4#32
  let v73 : BitVec 32 := Scalar.addi v72 c4_i32_67
  let c1_i32_68 : BitVec 32 := 1#32
  let v74 : BitVec 32 := Scalar.subi v73 c1_i32_68
  let c256_i32_69 : BitVec 32 := 256#32
  let v75 : BitVec 1 := Scalar.cmpi .slt v74 c256_i32_69
  let v76 : BitVec 32 := Scalar.extui v75
  let c0_i32_70 : BitVec 32 := 0#32
  let v77 : BitVec 1 := Scalar.cmpi .ne v76 c0_i32_70
  v77

def k0_off2 (k0_t1 : Fin k0_t1_loop.trips) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let c0_i32_66 : BitVec 32 := 0#32
  let v72 : BitVec 32 := Scalar.addi v71 c0_i32_66
  let c4_i32_67 : BitVec 32 := 4#32
  let v73 : BitVec 32 := Scalar.addi v72 c4_i32_67
  let c1_i32_68 : BitVec 32 := 1#32
  let v74 : BitVec 32 := Scalar.subi v73 c1_i32_68
  let c0_i32_2053 : BitVec 32 := 0#32
  ![v74.toNat, 0]
def k0_off3 (k0_t1 : Fin k0_t1_loop.trips) (c0_i32_66 : BitVec 32) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let v72 : BitVec 32 := Scalar.addi v71 c0_i32_66
  let c0_i32_74 : BitVec 32 := 0#32
  ![v72.toNat, 0]
def k0_off4 (k0_t1 : Fin k0_t1_loop.trips) (c0_i32_66 : BitVec 32) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let v72 : BitVec 32 := Scalar.addi v71 c0_i32_66
  let v182 : Index := Scalar.indexCast v72
  let c0_120 : Index := 0#32
  ![v182.toNat, 0]
def k0_off5 (k0_t1 : Fin k0_t1_loop.trips) (c0_i32_66 : BitVec 32) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let v72 : BitVec 32 := Scalar.addi v71 c0_i32_66
  let v285 : Index := Scalar.indexCast v72
  let c16_180 : Index := 16#32
  ![v285.toNat, 16]
def k0_off6 (k0_t1 : Fin k0_t1_loop.trips) (c0_i32_66 : BitVec 32) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let v72 : BitVec 32 := Scalar.addi v71 c0_i32_66
  let v388 : Index := Scalar.indexCast v72
  let c32_240 : Index := 32#32
  ![v388.toNat, 32]
def k0_off7 (k0_t1 : Fin k0_t1_loop.trips) (c0_i32_66 : BitVec 32) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let v72 : BitVec 32 := Scalar.addi v71 c0_i32_66
  let v491 : Index := Scalar.indexCast v72
  let c48_300 : Index := 48#32
  ![v491.toNat, 48]
def k0_off8 (k0_t1 : Fin k0_t1_loop.trips) (c0_i32_66 : BitVec 32) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let v72 : BitVec 32 := Scalar.addi v71 c0_i32_66
  let v594 : Index := Scalar.indexCast v72
  let c64_360 : Index := 64#32
  ![v594.toNat, 64]
def k0_off9 (k0_t1 : Fin k0_t1_loop.trips) (c0_i32_66 : BitVec 32) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let v72 : BitVec 32 := Scalar.addi v71 c0_i32_66
  let v697 : Index := Scalar.indexCast v72
  let c80_420 : Index := 80#32
  ![v697.toNat, 80]
def k0_off10 (k0_t1 : Fin k0_t1_loop.trips) (c0_i32_66 : BitVec 32) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let v72 : BitVec 32 := Scalar.addi v71 c0_i32_66
  let v800 : Index := Scalar.indexCast v72
  let c96_480 : Index := 96#32
  ![v800.toNat, 96]
def k0_off11 (k0_t1 : Fin k0_t1_loop.trips) (c0_i32_66 : BitVec 32) : Fin 2 → Nat :=
  let c0_i32_33 : BitVec 32 := 0#32
  let c1_i32_34 : BitVec 32 := 1#32
  let arg13 : BitVec 32 := Scf.iv c0_i32_33 c1_i32_34 k0_t1
  let c4_i32 : BitVec 32 := 4#32
  let v71 : BitVec 32 := Scalar.muli arg13 c4_i32
  let v72 : BitVec 32 := Scalar.addi v71 c0_i32_66
  let v903 : Index := Scalar.indexCast v72
  let c112_540 : Index := 112#32
  ![v903.toNat, 112]
def k0_cond2 (k0_t1 : Fin k0_t1_loop.trips) : BitVec 1 :=
  let c0_i32_33 : BitVec 32 := 0#32
  let c1_i32_34 : BitVec 32 := 1#32
  let arg13 : BitVec 32 := Scf.iv c0_i32_33 c1_i32_34 k0_t1
  let c4_i32_541 : BitVec 32 := 4#32
  let v907 : BitVec 32 := Scalar.muli arg13 c4_i32_541
  let c1_i32_542 : BitVec 32 := 1#32
  let v908 : BitVec 32 := Scalar.addi v907 c1_i32_542
  let c4_i32_543 : BitVec 32 := 4#32
  let v909 : BitVec 32 := Scalar.addi v908 c4_i32_543
  let c1_i32_544 : BitVec 32 := 1#32
  let v910 : BitVec 32 := Scalar.subi v909 c1_i32_544
  let c256_i32_545 : BitVec 32 := 256#32
  let v911 : BitVec 1 := Scalar.cmpi .slt v910 c256_i32_545
  let v912 : BitVec 32 := Scalar.extui v911
  let c0_i32_546 : BitVec 32 := 0#32
  let v913 : BitVec 1 := Scalar.cmpi .ne v912 c0_i32_546
  v913

def k0_off12 (k0_t1 : Fin k0_t1_loop.trips) : Fin 2 → Nat :=
  let c0_i32_33 : BitVec 32 := 0#32
  let c1_i32_34 : BitVec 32 := 1#32
  let arg13 : BitVec 32 := Scf.iv c0_i32_33 c1_i32_34 k0_t1
  let c4_i32_541 : BitVec 32 := 4#32
  let v907 : BitVec 32 := Scalar.muli arg13 c4_i32_541
  let c1_i32_542 : BitVec 32 := 1#32
  let v908 : BitVec 32 := Scalar.addi v907 c1_i32_542
  let c4_i32_543 : BitVec 32 := 4#32
  let v909 : BitVec 32 := Scalar.addi v908 c4_i32_543
  let c1_i32_544 : BitVec 32 := 1#32
  let v910 : BitVec 32 := Scalar.subi v909 c1_i32_544
  let c0_i32_2053 : BitVec 32 := 0#32
  ![v910.toNat, 0]
def k0_cond3 (k0_t1 : Fin k0_t1_loop.trips) : BitVec 1 :=
  let c0_i32_33 : BitVec 32 := 0#32
  let c1_i32_34 : BitVec 32 := 1#32
  let arg13 : BitVec 32 := Scf.iv c0_i32_33 c1_i32_34 k0_t1
  let c4_i32_1041 : BitVec 32 := 4#32
  let v1743 : BitVec 32 := Scalar.muli arg13 c4_i32_1041
  let c2_i32_1042 : BitVec 32 := 2#32
  let v1744 : BitVec 32 := Scalar.addi v1743 c2_i32_1042
  let c4_i32_1043 : BitVec 32 := 4#32
  let v1745 : BitVec 32 := Scalar.addi v1744 c4_i32_1043
  let c1_i32_1044 : BitVec 32 := 1#32
  let v1746 : BitVec 32 := Scalar.subi v1745 c1_i32_1044
  let c256_i32_1045 : BitVec 32 := 256#32
  let v1747 : BitVec 1 := Scalar.cmpi .slt v1746 c256_i32_1045
  let v1748 : BitVec 32 := Scalar.extui v1747
  let c0_i32_1046 : BitVec 32 := 0#32
  let v1749 : BitVec 1 := Scalar.cmpi .ne v1748 c0_i32_1046
  v1749

def k0_off13 (k0_t1 : Fin k0_t1_loop.trips) : Fin 2 → Nat :=
  let c0_i32_33 : BitVec 32 := 0#32
  let c1_i32_34 : BitVec 32 := 1#32
  let arg13 : BitVec 32 := Scf.iv c0_i32_33 c1_i32_34 k0_t1
  let c4_i32_1041 : BitVec 32 := 4#32
  let v1743 : BitVec 32 := Scalar.muli arg13 c4_i32_1041
  let c2_i32_1042 : BitVec 32 := 2#32
  let v1744 : BitVec 32 := Scalar.addi v1743 c2_i32_1042
  let c4_i32_1043 : BitVec 32 := 4#32
  let v1745 : BitVec 32 := Scalar.addi v1744 c4_i32_1043
  let c1_i32_1044 : BitVec 32 := 1#32
  let v1746 : BitVec 32 := Scalar.subi v1745 c1_i32_1044
  let c0_i32_2053 : BitVec 32 := 0#32
  ![v1746.toNat, 0]
def k0_cond4 (k0_t1 : Fin k0_t1_loop.trips) : BitVec 1 :=
  let c0_i32_33 : BitVec 32 := 0#32
  let c1_i32_34 : BitVec 32 := 1#32
  let arg13 : BitVec 32 := Scf.iv c0_i32_33 c1_i32_34 k0_t1
  let c4_i32_1541 : BitVec 32 := 4#32
  let v2579 : BitVec 32 := Scalar.muli arg13 c4_i32_1541
  let c3_i32_1542 : BitVec 32 := 3#32
  let v2580 : BitVec 32 := Scalar.addi v2579 c3_i32_1542
  let c4_i32_1543 : BitVec 32 := 4#32
  let v2581 : BitVec 32 := Scalar.addi v2580 c4_i32_1543
  let c1_i32_1544 : BitVec 32 := 1#32
  let v2582 : BitVec 32 := Scalar.subi v2581 c1_i32_1544
  let c256_i32_1545 : BitVec 32 := 256#32
  let v2583 : BitVec 1 := Scalar.cmpi .slt v2582 c256_i32_1545
  let v2584 : BitVec 32 := Scalar.extui v2583
  let c0_i32_1546 : BitVec 32 := 0#32
  let v2585 : BitVec 1 := Scalar.cmpi .ne v2584 c0_i32_1546
  v2585

def k0_off14 (k0_t1 : Fin k0_t1_loop.trips) : Fin 2 → Nat :=
  let c0_i32_33 : BitVec 32 := 0#32
  let c1_i32_34 : BitVec 32 := 1#32
  let arg13 : BitVec 32 := Scf.iv c0_i32_33 c1_i32_34 k0_t1
  let c4_i32_1541 : BitVec 32 := 4#32
  let v2579 : BitVec 32 := Scalar.muli arg13 c4_i32_1541
  let c3_i32_1542 : BitVec 32 := 3#32
  let v2580 : BitVec 32 := Scalar.addi v2579 c3_i32_1542
  let c4_i32_1543 : BitVec 32 := 4#32
  let v2581 : BitVec 32 := Scalar.addi v2580 c4_i32_1543
  let c1_i32_1544 : BitVec 32 := 1#32
  let v2582 : BitVec 32 := Scalar.subi v2581 c1_i32_1544
  let c0_i32_2053 : BitVec 32 := 0#32
  ![v2582.toNat, 0]
def k0_cond5 (k0_t1 : Fin k0_t1_loop.trips) : BitVec 1 :=
  let c0_i32_33 : BitVec 32 := 0#32
  let c1_i32_34 : BitVec 32 := 1#32
  let arg13 : BitVec 32 := Scf.iv c0_i32_33 c1_i32_34 k0_t1
  let c16_i32_2041 : BitVec 32 := 16#32
  let c0_i32_2042 : BitVec 32 := 0#32
  let v3415 : BitVec 1 := Scalar.cmpi .eq c16_i32_2041 c0_i32_2042
  let c1_i32_2043 : BitVec 32 := 1#32
  let v3416 : BitVec 32 := Scalar.select v3415 c1_i32_2043 c16_i32_2041
  let v3417 : BitVec 32 := Scalar.remsi arg13 v3416
  let c0_i32_2045 : BitVec 32 := 0#32
  let v3419 : BitVec 1 := Scalar.cmpi .slt v3417 c0_i32_2045
  let c0_i32_2046 : BitVec 32 := 0#32
  let v3420 : BitVec 1 := Scalar.cmpi .slt v3416 c0_i32_2046
  let v3421 : BitVec 1 := Scalar.xori v3419 v3420
  let c0_i32_2044 : BitVec 32 := 0#32
  let v3418 : BitVec 1 := Scalar.cmpi .ne v3417 c0_i32_2044
  let v3422 : BitVec 1 := Scalar.andi v3421 v3418
  let v3423 : BitVec 32 := Scalar.addi v3417 v3416
  let v3424 : BitVec 32 := Scalar.select v3422 v3423 v3417
  let c15_i32_2047 : BitVec 32 := 15#32
  let v3425 : BitVec 1 := Scalar.cmpi .eq v3424 c15_i32_2047
  let v3426 : BitVec 32 := Scalar.extui v3425
  let c0_i32_2048 : BitVec 32 := 0#32
  let v3427 : BitVec 1 := Scalar.cmpi .ne v3426 c0_i32_2048
  v3427

def k0_off15 (k0_t1 : Fin k0_t1_loop.trips) : Fin 2 → Nat :=
  let c0_i32_33 : BitVec 32 := 0#32
  let c1_i32_34 : BitVec 32 := 1#32
  let arg13 : BitVec 32 := Scf.iv c0_i32_33 c1_i32_34 k0_t1
  let c0_i32_2051 : BitVec 32 := 0#32
  let v3429 : BitVec 1 := Scalar.cmpi .sgt arg13 c0_i32_2051
  let v3430 : BitVec 32 := Scalar.extui v3429
  let c0_i32_2052 : BitVec 32 := 0#32
  let v3431 : BitVec 1 := Scalar.cmpi .slt arg13 c0_i32_2052
  let v3432 : BitVec 32 := Scalar.extui v3431
  let v3433 : BitVec 32 := Scalar.subi v3430 v3432
  let c16_i32_2050 : BitVec 32 := 16#32
  let c0_i32_2053 : BitVec 32 := 0#32
  let v3434 : BitVec 1 := Scalar.cmpi .sgt c16_i32_2050 c0_i32_2053
  let v3435 : BitVec 32 := Scalar.extui v3434
  let c0_i32_2054 : BitVec 32 := 0#32
  let v3436 : BitVec 1 := Scalar.cmpi .slt c16_i32_2050 c0_i32_2054
  let v3437 : BitVec 32 := Scalar.extui v3436
  let v3438 : BitVec 32 := Scalar.subi v3435 v3437
  let v3439 : BitVec 1 := Scalar.cmpi .ne v3433 v3438
  let v3440 : BitVec 32 := Scalar.remsi arg13 c16_i32_2050
  let c0_i32_2055 : BitVec 32 := 0#32
  let v3441 : BitVec 1 := Scalar.cmpi .ne v3440 c0_i32_2055
  let v3442 : BitVec 1 := Scalar.andi v3439 v3441
  let v3428 : BitVec 32 := Scalar.divsi arg13 c16_i32_2050
  let c1_i32_2056 : BitVec 32 := 1#32
  let v3443 : BitVec 32 := Scalar.subi v3428 c1_i32_2056
  let v3444 : BitVec 32 := Scalar.select v3442 v3443 v3428
  let c64_i32_2057 : BitVec 32 := 64#32
  let v3445 : BitVec 32 := Scalar.muli v3444 c64_i32_2057
  let c0_i32_2060 : BitVec 32 := 0#32
  ![v3445.toNat, 0]
def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_2058 : BitVec 32 := 256#32
  let v3446 : BitVec 32 := Scalar.muli v1 c256_i32_2058
  let c0_i32_33 : BitVec 32 := 0#32
  let c1_i32_34 : BitVec 32 := 1#32
  let arg13 : BitVec 32 := Scf.iv c0_i32_33 c1_i32_34 k0_t1
  let c0_i32_2051 : BitVec 32 := 0#32
  let v3429 : BitVec 1 := Scalar.cmpi .sgt arg13 c0_i32_2051
  let v3430 : BitVec 32 := Scalar.extui v3429
  let c0_i32_2052 : BitVec 32 := 0#32
  let v3431 : BitVec 1 := Scalar.cmpi .slt arg13 c0_i32_2052
  let v3432 : BitVec 32 := Scalar.extui v3431
  let v3433 : BitVec 32 := Scalar.subi v3430 v3432
  let c16_i32_2050 : BitVec 32 := 16#32
  let c0_i32_2053 : BitVec 32 := 0#32
  let v3434 : BitVec 1 := Scalar.cmpi .sgt c16_i32_2050 c0_i32_2053
  let v3435 : BitVec 32 := Scalar.extui v3434
  let c0_i32_2054 : BitVec 32 := 0#32
  let v3436 : BitVec 1 := Scalar.cmpi .slt c16_i32_2050 c0_i32_2054
  let v3437 : BitVec 32 := Scalar.extui v3436
  let v3438 : BitVec 32 := Scalar.subi v3435 v3437
  let v3439 : BitVec 1 := Scalar.cmpi .ne v3433 v3438
  let v3440 : BitVec 32 := Scalar.remsi arg13 c16_i32_2050
  let c0_i32_2055 : BitVec 32 := 0#32
  let v3441 : BitVec 1 := Scalar.cmpi .ne v3440 c0_i32_2055
  let v3442 : BitVec 1 := Scalar.andi v3439 v3441
  let v3428 : BitVec 32 := Scalar.divsi arg13 c16_i32_2050
  let c1_i32_2056 : BitVec 32 := 1#32
  let v3443 : BitVec 32 := Scalar.subi v3428 c1_i32_2056
  let v3444 : BitVec 32 := Scalar.select v3442 v3443 v3428
  let c64_i32_2059 : BitVec 32 := 64#32
  let v3447 : BitVec 32 := Scalar.muli v3444 c64_i32_2059
  let v3448 : BitVec 32 := Scalar.addi v3446 v3447
  let c0_i32_2061 : BitVec 32 := 0#32
  ![v3448.toNat, 0]
def k0_off17 (i : grid0.Coords) (c0_i32_37 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_36 : BitVec 32 := 256#32
  let v47 : BitVec 32 := Scalar.muli v1 c256_i32_36
  let v48 : BitVec 32 := Scalar.addi v47 c0_i32_37
  let c0_i32_40 : BitVec 32 := 0#32
  ![v48.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x256x20_S256x20 : S1x256x20.Squeezes S256x20
  inb_S4x20x128_S1x20x128_0_0_0 : ∀ a, (![0, 0, 0] : Fin 3 → Nat) a + S1x20x128.size a ≤ S4x20x128.size a
  squeezes_S1x20x128_S20x128 : S1x20x128.Squeezes S20x128
  inb_S256x20_S1x20_0_0 : ∀ a, (![0, 0] : Fin 2 → Nat) a + S1x20.size a ≤ S256x20.size a
  squeezes_S1x20_S20 : S1x20.Squeezes S20
  inb_S100000x128_S100000x128_0_0 : ∀ a, (![0, 0] : Fin 2 → Nat) a + S100000x128.size a ≤ S100000x128.size a
  gathers_S100000x128_S20x128 : S100000x128.Gathers 0 S20x128
  inb_S4x20x128_S1x20x128_1_0_0 : ∀ a, (![1, 0, 0] : Fin 3 → Nat) a + S1x20x128.size a ≤ S4x20x128.size a
  inb_S256x20_S1x20_1_0 : ∀ a, (![1, 0] : Fin 2 → Nat) a + S1x20.size a ≤ S256x20.size a
  inb_S4x20x128_S1x20x128_2_0_0 : ∀ a, (![2, 0, 0] : Fin 3 → Nat) a + S1x20x128.size a ≤ S4x20x128.size a
  inb_S256x20_S1x20_2_0 : ∀ a, (![2, 0] : Fin 2 → Nat) a + S1x20.size a ≤ S256x20.size a
  inb_S4x20x128_S1x20x128_3_0_0 : ∀ a, (![3, 0, 0] : Fin 3 → Nat) a + S1x20x128.size a ≤ S4x20x128.size a
  inb_S4x20x128_S1x1x16_0_0_0 : ∀ a, (![0, 0, 0] : Fin 3 → Nat) a + S1x1x16.size a ≤ S4x20x128.size a
  h_S1x1x16 : 0 < S1x1x16.numel
  shapeCasts_S1x1x16_S16 : S1x1x16.ShapeCasts S16
  inb_S4x20x128_S1x1x16_0_1_0 : ∀ a, (![0, 1, 0] : Fin 3 → Nat) a + S1x1x16.size a ≤ S4x20x128.size a
  inb_S4x20x128_S1x1x16_0_2_0 : ∀ a, (![0, 2, 0] : Fin 3 → Nat) a + S1x1x16.size a ≤ S4x20x128.size a
  inb_S4x20x128_S1x1x16_0_3_0 : ∀ a, (![0, 3, 0] : Fin 3 → Nat) a + S1x1x16.size a ≤ S4x20x128.size a
  inb_S4x20x128_S1x1x16_0_4_0 : ∀ a, (![0, 4, 0] : Fin 3 → Nat) a + S1x1x16.size a ≤ S4x20x128.size a
  inb_S4x20x128_S1x1x16_0_5_0 : ∀ a, (![0, 5, 0] : Fin 3 → Nat) a + S1x1x16.size a ≤ S4x20x128.size a
  inb_S4x20x128_S1x1x16_0_6_0 : ∀ a, (![0, 6, 0] : Fin 3 → Nat) a + S1x1x16.size a ≤ S4x20x128.size a
  inb_S4x20x128_S1x1x16_0_7_0 : ∀ a, (![0, 7, 0] : Fin 3 → Nat) a + S1x1x16.size a ≤ S4x20x128.size a
  inb_S4x20x128_S1x1x16_0_8_0 : ∀ a, (![0, 8, 0] : Fin 3 → Nat) a + S1x1x16.size a ≤ S4x20x128.size a
  inb_S4x20x128_S1x1x16_0_9_0 : ∀ a, (![0, 9, 0] : Fin 3 → Nat) a + S1x1x16.size a ≤ S4x20x128.size a
  inb_S4x20x128_S1x1x16_0_10_0 : ∀ a, (![0, 10, 0] : Fin 3 → Nat) a + S1x1x16.size a ≤ S4x20x128.size a
  inb_S4x20x128_S1x1x16_0_11_0 : ∀ a, (![0, 11, 0] : Fin 3 → Nat) a + S1x1x16.size a ≤ S4x20x128.size a
  inb_S4x20x128_S1x1x16_0_12_0 : ∀ a, (![0, 12, 0] : Fin 3 → Nat) a + S1x1x16.size a ≤ S4x20x128.size a
  inb_S4x20x128_S1x1x16_0_13_0 : ∀ a, (![0, 13, 0] : Fin 3 → Nat) a + S1x1x16.size a ≤ S4x20x128.size a
  inb_S4x20x128_S1x1x16_0_14_0 : ∀ a, (![0, 14, 0] : Fin 3 → Nat) a + S1x1x16.size a ≤ S4x20x128.size a
  inb_S4x20x128_S1x1x16_0_15_0 : ∀ a, (![0, 15, 0] : Fin 3 → Nat) a + S1x1x16.size a ≤ S4x20x128.size a
  inb_S4x20x128_S1x1x16_0_16_0 : ∀ a, (![0, 16, 0] : Fin 3 → Nat) a + S1x1x16.size a ≤ S4x20x128.size a
  inb_S4x20x128_S1x1x16_0_17_0 : ∀ a, (![0, 17, 0] : Fin 3 → Nat) a + S1x1x16.size a ≤ S4x20x128.size a
  inb_S4x20x128_S1x1x16_0_18_0 : ∀ a, (![0, 18, 0] : Fin 3 → Nat) a + S1x1x16.size a ≤ S4x20x128.size a
  inb_S4x20x128_S1x1x16_0_19_0 : ∀ a, (![0, 19, 0] : Fin 3 → Nat) a + S1x1x16.size a ≤ S4x20x128.size a
  h_S1x16 : 0 < S1x16.numel
  shapeCasts_S1x16_S16 : S1x16.ShapeCasts S16
  shapeCasts_S16_S1x16 : S16.ShapeCasts S1x16
  inb_S4x20x128_S1x1x16_0_0_16 : ∀ a, (![0, 0, 16] : Fin 3 → Nat) a + S1x1x16.size a ≤ S4x20x128.size a
  inb_S4x20x128_S1x1x16_0_1_16 : ∀ a, (![0, 1, 16] : Fin 3 → Nat) a + S1x1x16.size a ≤ S4x20x128.size a
  inb_S4x20x128_S1x1x16_0_2_16 : ∀ a, (![0, 2, 16] : Fin 3 → Nat) a + S1x1x16.size a ≤ S4x20x128.size a
  inb_S4x20x128_S1x1x16_0_3_16 : ∀ a, (![0, 3, 16] : Fin 3 → Nat) a + S1x1x16.size a ≤ S4x20x128.size a
  inb_S4x20x128_S1x1x16_0_4_16 : ∀ a, (![0, 4, 16] : Fin 3 → Nat) a + S1x1x16.size a ≤ S4x20x128.size a
  inb_S4x20x128_S1x1x16_0_5_16 : ∀ a, (![0, 5, 16] : Fin 3 → Nat) a + S1x1x16.size a ≤ S4x20x128.size a
  inb_S4x20x128_S1x1x16_0_6_16 : ∀ a, (![0, 6, 16] : Fin 3 → Nat) a + S1x1x16.size a ≤ S4x20x128.size a
  inb_S4x20x128_S1x1x16_0_7_16 : ∀ a, (![0, 7, 16] : Fin 3 → Nat) a + S1x1x16.size a ≤ S4x20x128.size a
  inb_S4x20x128_S1x1x16_0_8_16 : ∀ a, (![0, 8, 16] : Fin 3 → Nat) a + S1x1x16.size a ≤ S4x20x128.size a
  inb_S4x20x128_S1x1x16_0_9_16 : ∀ a, (![0, 9, 16] : Fin 3 → Nat) a + S1x1x16.size a ≤ S4x20x128.size a
  inb_S4x20x128_S1x1x16_0_10_16 : ∀ a, (![0, 10, 16] : Fin 3 → Nat) a + S1x1x16.size a ≤ S4x20x128.size a
  inb_S4x20x128_S1x1x16_0_11_16 : ∀ a, (![0, 11, 16] : Fin 3 → Nat) a + S1x1x16.size a ≤ S4x20x128.size a
  inb_S4x20x128_S1x1x16_0_12_16 : ∀ a, (![0, 12, 16] : Fin 3 → Nat) a + S1x1x16.size a ≤ S4x20x128.size a
  inb_S4x20x128_S1x1x16_0_13_16 : ∀ a, (![0, 13, 16] : Fin 3 → Nat) a + S1x1x16.size a ≤ S4x20x128.size a
  inb_S4x20x128_S1x1x16_0_14_16 : ∀ a, (![0, 14, 16] : Fin 3 → Nat) a + S1x1x16.size a ≤ S4x20x128.size a
  inb_S4x20x128_S1x1x16_0_15_16 : ∀ a, (![0, 15, 16] : Fin 3 → Nat) a + S1x1x16.size a ≤ S4x20x128.size a
  inb_S4x20x128_S1x1x16_0_16_16 : ∀ a, (![0, 16, 16] : Fin 3 → Nat) a + S1x1x16.size a ≤ S4x20x128.size a
  inb_S4x20x128_S1x1x16_0_17_16 : ∀ a, (![0, 17, 16] : Fin 3 → Nat) a + S1x1x16.size a ≤ S4x20x128.size a
  inb_S4x20x128_S1x1x16_0_18_16 : ∀ a, (![0, 18, 16] : Fin 3 → Nat) a + S1x1x16.size a ≤ S4x20x128.size a
  inb_S4x20x128_S1x1x16_0_19_16 : ∀ a, (![0, 19, 16] : Fin 3 → Nat) a + S1x1x16.size a ≤ S4x20x128.size a
  inb_S4x20x128_S1x1x16_0_0_32 : ∀ a, (![0, 0, 32] : Fin 3 → Nat) a + S1x1x16.size a ≤ S4x20x128.size a
  inb_S4x20x128_S1x1x16_0_1_32 : ∀ a, (![0, 1, 32] : Fin 3 → Nat) a + S1x1x16.size a ≤ S4x20x128.size a
  inb_S4x20x128_S1x1x16_0_2_32 : ∀ a, (![0, 2, 32] : Fin 3 → Nat) a + S1x1x16.size a ≤ S4x20x128.size a
  inb_S4x20x128_S1x1x16_0_3_32 : ∀ a, (![0, 3, 32] : Fin 3 → Nat) a + S1x1x16.size a ≤ S4x20x128.size a
  inb_S4x20x128_S1x1x16_0_4_32 : ∀ a, (![0, 4, 32] : Fin 3 → Nat) a + S1x1x16.size a ≤ S4x20x128.size a
  inb_S4x20x128_S1x1x16_0_5_32 : ∀ a, (![0, 5, 32] : Fin 3 → Nat) a + S1x1x16.size a ≤ S4x20x128.size a
  inb_S4x20x128_S1x1x16_0_6_32 : ∀ a, (![0, 6, 32] : Fin 3 → Nat) a + S1x1x16.size a ≤ S4x20x128.size a
  inb_S4x20x128_S1x1x16_0_7_32 : ∀ a, (![0, 7, 32] : Fin 3 → Nat) a + S1x1x16.size a ≤ S4x20x128.size a
  inb_S4x20x128_S1x1x16_0_8_32 : ∀ a, (![0, 8, 32] : Fin 3 → Nat) a + S1x1x16.size a ≤ S4x20x128.size a
  inb_S4x20x128_S1x1x16_0_9_32 : ∀ a, (![0, 9, 32] : Fin 3 → Nat) a + S1x1x16.size a ≤ S4x20x128.size a
  inb_S4x20x128_S1x1x16_0_10_32 : ∀ a, (![0, 10, 32] : Fin 3 → Nat) a + S1x1x16.size a ≤ S4x20x128.size a
  inb_S4x20x128_S1x1x16_0_11_32 : ∀ a, (![0, 11, 32] : Fin 3 → Nat) a + S1x1x16.size a ≤ S4x20x128.size a
  inb_S4x20x128_S1x1x16_0_12_32 : ∀ a, (![0, 12, 32] : Fin 3 → Nat) a + S1x1x16.size a ≤ S4x20x128.size a
  inb_S4x20x128_S1x1x16_0_13_32 : ∀ a, (![0, 13, 32] : Fin 3 → Nat) a + S1x1x16.size a ≤ S4x20x128.size a
  inb_S4x20x128_S1x1x16_0_14_32 : ∀ a, (![0, 14, 32] : Fin 3 → Nat) a + S1x1x16.size a ≤ S4x20x128.size a
  inb_S4x20x128_S1x1x16_0_15_32 : ∀ a, (![0, 15, 32] : Fin 3 → Nat) a + S1x1x16.size a ≤ S4x20x128.size a
  inb_S4x20x128_S1x1x16_0_16_32 : ∀ a, (![0, 16, 32] : Fin 3 → Nat) a + S1x1x16.size a ≤ S4x20x128.size a
  inb_S4x20x128_S1x1x16_0_17_32 : ∀ a, (![0, 17, 32] : Fin 3 → Nat) a + S1x1x16.size a ≤ S4x20x128.size a
  inb_S4x20x128_S1x1x16_0_18_32 : ∀ a, (![0, 18, 32] : Fin 3 → Nat) a + S1x1x16.size a ≤ S4x20x128.size a
  inb_S4x20x128_S1x1x16_0_19_32 : ∀ a, (![0, 19, 32] : Fin 3 → Nat) a + S1x1x16.size a ≤ S4x20x128.size a
  inb_S4x20x128_S1x1x16_0_0_48 : ∀ a, (![0, 0, 48] : Fin 3 → Nat) a + S1x1x16.size a ≤ S4x20x128.size a
  inb_S4x20x128_S1x1x16_0_1_48 : ∀ a, (![0, 1, 48] : Fin 3 → Nat) a + S1x1x16.size a ≤ S4x20x128.size a
  inb_S4x20x128_S1x1x16_0_2_48 : ∀ a, (![0, 2, 48] : Fin 3 → Nat) a + S1x1x16.size a ≤ S4x20x128.size a
  inb_S4x20x128_S1x1x16_0_3_48 : ∀ a, (![0, 3, 48] : Fin 3 → Nat) a + S1x1x16.size a ≤ S4x20x128.size a
  inb_S4x20x128_S1x1x16_0_4_48 : ∀ a, (![0, 4, 48] : Fin 3 → Nat) a + S1x1x16.size a ≤ S4x20x128.size a
  inb_S4x20x128_S1x1x16_0_5_48 : ∀ a, (![0, 5, 48] : Fin 3 → Nat) a + S1x1x16.size a ≤ S4x20x128.size a
  inb_S4x20x128_S1x1x16_0_6_48 : ∀ a, (![0, 6, 48] : Fin 3 → Nat) a + S1x1x16.size a ≤ S4x20x128.size a
  inb_S4x20x128_S1x1x16_0_7_48 : ∀ a, (![0, 7, 48] : Fin 3 → Nat) a + S1x1x16.size a ≤ S4x20x128.size a
  inb_S4x20x128_S1x1x16_0_8_48 : ∀ a, (![0, 8, 48] : Fin 3 → Nat) a + S1x1x16.size a ≤ S4x20x128.size a
  inb_S4x20x128_S1x1x16_0_9_48 : ∀ a, (![0, 9, 48] : Fin 3 → Nat) a + S1x1x16.size a ≤ S4x20x128.size a
  inb_S4x20x128_S1x1x16_0_10_48 : ∀ a, (![0, 10, 48] : Fin 3 → Nat) a + S1x1x16.size a ≤ S4x20x128.size a
  inb_S4x20x128_S1x1x16_0_11_48 : ∀ a, (![0, 11, 48] : Fin 3 → Nat) a + S1x1x16.size a ≤ S4x20x128.size a
  inb_S4x20x128_S1x1x16_0_12_48 : ∀ a, (![0, 12, 48] : Fin 3 → Nat) a + S1x1x16.size a ≤ S4x20x128.size a
  inb_S4x20x128_S1x1x16_0_13_48 : ∀ a, (![0, 13, 48] : Fin 3 → Nat) a + S1x1x16.size a ≤ S4x20x128.size a
  inb_S4x20x128_S1x1x16_0_14_48 : ∀ a, (![0, 14, 48] : Fin 3 → Nat) a + S1x1x16.size a ≤ S4x20x128.size a
  inb_S4x20x128_S1x1x16_0_15_48 : ∀ a, (![0, 15, 48] : Fin 3 → Nat) a + S1x1x16.size a ≤ S4x20x128.size a
  inb_S4x20x128_S1x1x16_0_16_48 : ∀ a, (![0, 16, 48] : Fin 3 → Nat) a + S1x1x16.size a ≤ S4x20x128.size a
  inb_S4x20x128_S1x1x16_0_17_48 : ∀ a, (![0, 17, 48] : Fin 3 → Nat) a + S1x1x16.size a ≤ S4x20x128.size a
  inb_S4x20x128_S1x1x16_0_18_48 : ∀ a, (![0, 18, 48] : Fin 3 → Nat) a + S1x1x16.size a ≤ S4x20x128.size a
  inb_S4x20x128_S1x1x16_0_19_48 : ∀ a, (![0, 19, 48] : Fin 3 → Nat) a + S1x1x16.size a ≤ S4x20x128.size a
  inb_S4x20x128_S1x1x16_0_0_64 : ∀ a, (![0, 0, 64] : Fin 3 → Nat) a + S1x1x16.size a ≤ S4x20x128.size a
  inb_S4x20x128_S1x1x16_0_1_64 : ∀ a, (![0, 1, 64] : Fin 3 → Nat) a + S1x1x16.size a ≤ S4x20x128.size a
  inb_S4x20x128_S1x1x16_0_2_64 : ∀ a, (![0, 2, 64] : Fin 3 → Nat) a + S1x1x16.size a ≤ S4x20x128.size a
  inb_S4x20x128_S1x1x16_0_3_64 : ∀ a, (![0, 3, 64] : Fin 3 → Nat) a + S1x1x16.size a ≤ S4x20x128.size a
  inb_S4x20x128_S1x1x16_0_4_64 : ∀ a, (![0, 4, 64] : Fin 3 → Nat) a + S1x1x16.size a ≤ S4x20x128.size a
  inb_S4x20x128_S1x1x16_0_5_64 : ∀ a, (![0, 5, 64] : Fin 3 → Nat) a + S1x1x16.size a ≤ S4x20x128.size a
  inb_S4x20x128_S1x1x16_0_6_64 : ∀ a, (![0, 6, 64] : Fin 3 → Nat) a + S1x1x16.size a ≤ S4x20x128.size a
  inb_S4x20x128_S1x1x16_0_7_64 : ∀ a, (![0, 7, 64] : Fin 3 → Nat) a + S1x1x16.size a ≤ S4x20x128.size a
  inb_S4x20x128_S1x1x16_0_8_64 : ∀ a, (![0, 8, 64] : Fin 3 → Nat) a + S1x1x16.size a ≤ S4x20x128.size a
  inb_S4x20x128_S1x1x16_0_9_64 : ∀ a, (![0, 9, 64] : Fin 3 → Nat) a + S1x1x16.size a ≤ S4x20x128.size a
  inb_S4x20x128_S1x1x16_0_10_64 : ∀ a, (![0, 10, 64] : Fin 3 → Nat) a + S1x1x16.size a ≤ S4x20x128.size a
  inb_S4x20x128_S1x1x16_0_11_64 : ∀ a, (![0, 11, 64] : Fin 3 → Nat) a + S1x1x16.size a ≤ S4x20x128.size a
  inb_S4x20x128_S1x1x16_0_12_64 : ∀ a, (![0, 12, 64] : Fin 3 → Nat) a + S1x1x16.size a ≤ S4x20x128.size a
  inb_S4x20x128_S1x1x16_0_13_64 : ∀ a, (![0, 13, 64] : Fin 3 → Nat) a + S1x1x16.size a ≤ S4x20x128.size a
  inb_S4x20x128_S1x1x16_0_14_64 : ∀ a, (![0, 14, 64] : Fin 3 → Nat) a + S1x1x16.size a ≤ S4x20x128.size a
  inb_S4x20x128_S1x1x16_0_15_64 : ∀ a, (![0, 15, 64] : Fin 3 → Nat) a + S1x1x16.size a ≤ S4x20x128.size a
  inb_S4x20x128_S1x1x16_0_16_64 : ∀ a, (![0, 16, 64] : Fin 3 → Nat) a + S1x1x16.size a ≤ S4x20x128.size a
  inb_S4x20x128_S1x1x16_0_17_64 : ∀ a, (![0, 17, 64] : Fin 3 → Nat) a + S1x1x16.size a ≤ S4x20x128.size a
  inb_S4x20x128_S1x1x16_0_18_64 : ∀ a, (![0, 18, 64] : Fin 3 → Nat) a + S1x1x16.size a ≤ S4x20x128.size a
  inb_S4x20x128_S1x1x16_0_19_64 : ∀ a, (![0, 19, 64] : Fin 3 → Nat) a + S1x1x16.size a ≤ S4x20x128.size a
  inb_S4x20x128_S1x1x16_0_0_80 : ∀ a, (![0, 0, 80] : Fin 3 → Nat) a + S1x1x16.size a ≤ S4x20x128.size a
  inb_S4x20x128_S1x1x16_0_1_80 : ∀ a, (![0, 1, 80] : Fin 3 → Nat) a + S1x1x16.size a ≤ S4x20x128.size a
  inb_S4x20x128_S1x1x16_0_2_80 : ∀ a, (![0, 2, 80] : Fin 3 → Nat) a + S1x1x16.size a ≤ S4x20x128.size a
  inb_S4x20x128_S1x1x16_0_3_80 : ∀ a, (![0, 3, 80] : Fin 3 → Nat) a + S1x1x16.size a ≤ S4x20x128.size a
  inb_S4x20x128_S1x1x16_0_4_80 : ∀ a, (![0, 4, 80] : Fin 3 → Nat) a + S1x1x16.size a ≤ S4x20x128.size a
  inb_S4x20x128_S1x1x16_0_5_80 : ∀ a, (![0, 5, 80] : Fin 3 → Nat) a + S1x1x16.size a ≤ S4x20x128.size a
  inb_S4x20x128_S1x1x16_0_6_80 : ∀ a, (![0, 6, 80] : Fin 3 → Nat) a + S1x1x16.size a ≤ S4x20x128.size a
  inb_S4x20x128_S1x1x16_0_7_80 : ∀ a, (![0, 7, 80] : Fin 3 → Nat) a + S1x1x16.size a ≤ S4x20x128.size a
  inb_S4x20x128_S1x1x16_0_8_80 : ∀ a, (![0, 8, 80] : Fin 3 → Nat) a + S1x1x16.size a ≤ S4x20x128.size a
  inb_S4x20x128_S1x1x16_0_9_80 : ∀ a, (![0, 9, 80] : Fin 3 → Nat) a + S1x1x16.size a ≤ S4x20x128.size a
  inb_S4x20x128_S1x1x16_0_10_80 : ∀ a, (![0, 10, 80] : Fin 3 → Nat) a + S1x1x16.size a ≤ S4x20x128.size a
  inb_S4x20x128_S1x1x16_0_11_80 : ∀ a, (![0, 11, 80] : Fin 3 → Nat) a + S1x1x16.size a ≤ S4x20x128.size a
  inb_S4x20x128_S1x1x16_0_12_80 : ∀ a, (![0, 12, 80] : Fin 3 → Nat) a + S1x1x16.size a ≤ S4x20x128.size a
  inb_S4x20x128_S1x1x16_0_13_80 : ∀ a, (![0, 13, 80] : Fin 3 → Nat) a + S1x1x16.size a ≤ S4x20x128.size a
  inb_S4x20x128_S1x1x16_0_14_80 : ∀ a, (![0, 14, 80] : Fin 3 → Nat) a + S1x1x16.size a ≤ S4x20x128.size a
  inb_S4x20x128_S1x1x16_0_15_80 : ∀ a, (![0, 15, 80] : Fin 3 → Nat) a + S1x1x16.size a ≤ S4x20x128.size a
  inb_S4x20x128_S1x1x16_0_16_80 : ∀ a, (![0, 16, 80] : Fin 3 → Nat) a + S1x1x16.size a ≤ S4x20x128.size a
  inb_S4x20x128_S1x1x16_0_17_80 : ∀ a, (![0, 17, 80] : Fin 3 → Nat) a + S1x1x16.size a ≤ S4x20x128.size a
  inb_S4x20x128_S1x1x16_0_18_80 : ∀ a, (![0, 18, 80] : Fin 3 → Nat) a + S1x1x16.size a ≤ S4x20x128.size a
  inb_S4x20x128_S1x1x16_0_19_80 : ∀ a, (![0, 19, 80] : Fin 3 → Nat) a + S1x1x16.size a ≤ S4x20x128.size a
  inb_S4x20x128_S1x1x16_0_0_96 : ∀ a, (![0, 0, 96] : Fin 3 → Nat) a + S1x1x16.size a ≤ S4x20x128.size a
  inb_S4x20x128_S1x1x16_0_1_96 : ∀ a, (![0, 1, 96] : Fin 3 → Nat) a + S1x1x16.size a ≤ S4x20x128.size a
  inb_S4x20x128_S1x1x16_0_2_96 : ∀ a, (![0, 2, 96] : Fin 3 → Nat) a + S1x1x16.size a ≤ S4x20x128.size a
  inb_S4x20x128_S1x1x16_0_3_96 : ∀ a, (![0, 3, 96] : Fin 3 → Nat) a + S1x1x16.size a ≤ S4x20x128.size a
  inb_S4x20x128_S1x1x16_0_4_96 : ∀ a, (![0, 4, 96] : Fin 3 → Nat) a + S1x1x16.size a ≤ S4x20x128.size a
  inb_S4x20x128_S1x1x16_0_5_96 : ∀ a, (![0, 5, 96] : Fin 3 → Nat) a + S1x1x16.size a ≤ S4x20x128.size a
  inb_S4x20x128_S1x1x16_0_6_96 : ∀ a, (![0, 6, 96] : Fin 3 → Nat) a + S1x1x16.size a ≤ S4x20x128.size a
  inb_S4x20x128_S1x1x16_0_7_96 : ∀ a, (![0, 7, 96] : Fin 3 → Nat) a + S1x1x16.size a ≤ S4x20x128.size a
  inb_S4x20x128_S1x1x16_0_8_96 : ∀ a, (![0, 8, 96] : Fin 3 → Nat) a + S1x1x16.size a ≤ S4x20x128.size a
  inb_S4x20x128_S1x1x16_0_9_96 : ∀ a, (![0, 9, 96] : Fin 3 → Nat) a + S1x1x16.size a ≤ S4x20x128.size a
  inb_S4x20x128_S1x1x16_0_10_96 : ∀ a, (![0, 10, 96] : Fin 3 → Nat) a + S1x1x16.size a ≤ S4x20x128.size a
  inb_S4x20x128_S1x1x16_0_11_96 : ∀ a, (![0, 11, 96] : Fin 3 → Nat) a + S1x1x16.size a ≤ S4x20x128.size a
  inb_S4x20x128_S1x1x16_0_12_96 : ∀ a, (![0, 12, 96] : Fin 3 → Nat) a + S1x1x16.size a ≤ S4x20x128.size a
  inb_S4x20x128_S1x1x16_0_13_96 : ∀ a, (![0, 13, 96] : Fin 3 → Nat) a + S1x1x16.size a ≤ S4x20x128.size a
  inb_S4x20x128_S1x1x16_0_14_96 : ∀ a, (![0, 14, 96] : Fin 3 → Nat) a + S1x1x16.size a ≤ S4x20x128.size a
  inb_S4x20x128_S1x1x16_0_15_96 : ∀ a, (![0, 15, 96] : Fin 3 → Nat) a + S1x1x16.size a ≤ S4x20x128.size a
  inb_S4x20x128_S1x1x16_0_16_96 : ∀ a, (![0, 16, 96] : Fin 3 → Nat) a + S1x1x16.size a ≤ S4x20x128.size a
  inb_S4x20x128_S1x1x16_0_17_96 : ∀ a, (![0, 17, 96] : Fin 3 → Nat) a + S1x1x16.size a ≤ S4x20x128.size a
  inb_S4x20x128_S1x1x16_0_18_96 : ∀ a, (![0, 18, 96] : Fin 3 → Nat) a + S1x1x16.size a ≤ S4x20x128.size a
  inb_S4x20x128_S1x1x16_0_19_96 : ∀ a, (![0, 19, 96] : Fin 3 → Nat) a + S1x1x16.size a ≤ S4x20x128.size a
  inb_S4x20x128_S1x1x16_0_0_112 : ∀ a, (![0, 0, 112] : Fin 3 → Nat) a + S1x1x16.size a ≤ S4x20x128.size a
  inb_S4x20x128_S1x1x16_0_1_112 : ∀ a, (![0, 1, 112] : Fin 3 → Nat) a + S1x1x16.size a ≤ S4x20x128.size a
  inb_S4x20x128_S1x1x16_0_2_112 : ∀ a, (![0, 2, 112] : Fin 3 → Nat) a + S1x1x16.size a ≤ S4x20x128.size a
  inb_S4x20x128_S1x1x16_0_3_112 : ∀ a, (![0, 3, 112] : Fin 3 → Nat) a + S1x1x16.size a ≤ S4x20x128.size a
  inb_S4x20x128_S1x1x16_0_4_112 : ∀ a, (![0, 4, 112] : Fin 3 → Nat) a + S1x1x16.size a ≤ S4x20x128.size a
  inb_S4x20x128_S1x1x16_0_5_112 : ∀ a, (![0, 5, 112] : Fin 3 → Nat) a + S1x1x16.size a ≤ S4x20x128.size a
  inb_S4x20x128_S1x1x16_0_6_112 : ∀ a, (![0, 6, 112] : Fin 3 → Nat) a + S1x1x16.size a ≤ S4x20x128.size a
  inb_S4x20x128_S1x1x16_0_7_112 : ∀ a, (![0, 7, 112] : Fin 3 → Nat) a + S1x1x16.size a ≤ S4x20x128.size a
  inb_S4x20x128_S1x1x16_0_8_112 : ∀ a, (![0, 8, 112] : Fin 3 → Nat) a + S1x1x16.size a ≤ S4x20x128.size a
  inb_S4x20x128_S1x1x16_0_9_112 : ∀ a, (![0, 9, 112] : Fin 3 → Nat) a + S1x1x16.size a ≤ S4x20x128.size a
  inb_S4x20x128_S1x1x16_0_10_112 : ∀ a, (![0, 10, 112] : Fin 3 → Nat) a + S1x1x16.size a ≤ S4x20x128.size a
  inb_S4x20x128_S1x1x16_0_11_112 : ∀ a, (![0, 11, 112] : Fin 3 → Nat) a + S1x1x16.size a ≤ S4x20x128.size a
  inb_S4x20x128_S1x1x16_0_12_112 : ∀ a, (![0, 12, 112] : Fin 3 → Nat) a + S1x1x16.size a ≤ S4x20x128.size a
  inb_S4x20x128_S1x1x16_0_13_112 : ∀ a, (![0, 13, 112] : Fin 3 → Nat) a + S1x1x16.size a ≤ S4x20x128.size a
  inb_S4x20x128_S1x1x16_0_14_112 : ∀ a, (![0, 14, 112] : Fin 3 → Nat) a + S1x1x16.size a ≤ S4x20x128.size a
  inb_S4x20x128_S1x1x16_0_15_112 : ∀ a, (![0, 15, 112] : Fin 3 → Nat) a + S1x1x16.size a ≤ S4x20x128.size a
  inb_S4x20x128_S1x1x16_0_16_112 : ∀ a, (![0, 16, 112] : Fin 3 → Nat) a + S1x1x16.size a ≤ S4x20x128.size a
  inb_S4x20x128_S1x1x16_0_17_112 : ∀ a, (![0, 17, 112] : Fin 3 → Nat) a + S1x1x16.size a ≤ S4x20x128.size a
  inb_S4x20x128_S1x1x16_0_18_112 : ∀ a, (![0, 18, 112] : Fin 3 → Nat) a + S1x1x16.size a ≤ S4x20x128.size a
  inb_S4x20x128_S1x1x16_0_19_112 : ∀ a, (![0, 19, 112] : Fin 3 → Nat) a + S1x1x16.size a ≤ S4x20x128.size a
  inb_S4x20x128_S1x1x16_1_0_0 : ∀ a, (![1, 0, 0] : Fin 3 → Nat) a + S1x1x16.size a ≤ S4x20x128.size a
  inb_S4x20x128_S1x1x16_1_1_0 : ∀ a, (![1, 1, 0] : Fin 3 → Nat) a + S1x1x16.size a ≤ S4x20x128.size a
  inb_S4x20x128_S1x1x16_1_2_0 : ∀ a, (![1, 2, 0] : Fin 3 → Nat) a + S1x1x16.size a ≤ S4x20x128.size a
  inb_S4x20x128_S1x1x16_1_3_0 : ∀ a, (![1, 3, 0] : Fin 3 → Nat) a + S1x1x16.size a ≤ S4x20x128.size a
  inb_S4x20x128_S1x1x16_1_4_0 : ∀ a, (![1, 4, 0] : Fin 3 → Nat) a + S1x1x16.size a ≤ S4x20x128.size a
  inb_S4x20x128_S1x1x16_1_5_0 : ∀ a, (![1, 5, 0] : Fin 3 → Nat) a + S1x1x16.size a ≤ S4x20x128.size a
  inb_S4x20x128_S1x1x16_1_6_0 : ∀ a, (![1, 6, 0] : Fin 3 → Nat) a + S1x1x16.size a ≤ S4x20x128.size a
  inb_S4x20x128_S1x1x16_1_7_0 : ∀ a, (![1, 7, 0] : Fin 3 → Nat) a + S1x1x16.size a ≤ S4x20x128.size a
  inb_S4x20x128_S1x1x16_1_8_0 : ∀ a, (![1, 8, 0] : Fin 3 → Nat) a + S1x1x16.size a ≤ S4x20x128.size a
  inb_S4x20x128_S1x1x16_1_9_0 : ∀ a, (![1, 9, 0] : Fin 3 → Nat) a + S1x1x16.size a ≤ S4x20x128.size a
  inb_S4x20x128_S1x1x16_1_10_0 : ∀ a, (![1, 10, 0] : Fin 3 → Nat) a + S1x1x16.size a ≤ S4x20x128.size a
  inb_S4x20x128_S1x1x16_1_11_0 : ∀ a, (![1, 11, 0] : Fin 3 → Nat) a + S1x1x16.size a ≤ S4x20x128.size a
  inb_S4x20x128_S1x1x16_1_12_0 : ∀ a, (![1, 12, 0] : Fin 3 → Nat) a + S1x1x16.size a ≤ S4x20x128.size a
  inb_S4x20x128_S1x1x16_1_13_0 : ∀ a, (![1, 13, 0] : Fin 3 → Nat) a + S1x1x16.size a ≤ S4x20x128.size a
  inb_S4x20x128_S1x1x16_1_14_0 : ∀ a, (![1, 14, 0] : Fin 3 → Nat) a + S1x1x16.size a ≤ S4x20x128.size a
  inb_S4x20x128_S1x1x16_1_15_0 : ∀ a, (![1, 15, 0] : Fin 3 → Nat) a + S1x1x16.size a ≤ S4x20x128.size a
  inb_S4x20x128_S1x1x16_1_16_0 : ∀ a, (![1, 16, 0] : Fin 3 → Nat) a + S1x1x16.size a ≤ S4x20x128.size a
  inb_S4x20x128_S1x1x16_1_17_0 : ∀ a, (![1, 17, 0] : Fin 3 → Nat) a + S1x1x16.size a ≤ S4x20x128.size a
  inb_S4x20x128_S1x1x16_1_18_0 : ∀ a, (![1, 18, 0] : Fin 3 → Nat) a + S1x1x16.size a ≤ S4x20x128.size a
  inb_S4x20x128_S1x1x16_1_19_0 : ∀ a, (![1, 19, 0] : Fin 3 → Nat) a + S1x1x16.size a ≤ S4x20x128.size a
  inb_S4x20x128_S1x1x16_1_0_16 : ∀ a, (![1, 0, 16] : Fin 3 → Nat) a + S1x1x16.size a ≤ S4x20x128.size a
  inb_S4x20x128_S1x1x16_1_1_16 : ∀ a, (![1, 1, 16] : Fin 3 → Nat) a + S1x1x16.size a ≤ S4x20x128.size a
  inb_S4x20x128_S1x1x16_1_2_16 : ∀ a, (![1, 2, 16] : Fin 3 → Nat) a + S1x1x16.size a ≤ S4x20x128.size a
  inb_S4x20x128_S1x1x16_1_3_16 : ∀ a, (![1, 3, 16] : Fin 3 → Nat) a + S1x1x16.size a ≤ S4x20x128.size a
  inb_S4x20x128_S1x1x16_1_4_16 : ∀ a, (![1, 4, 16] : Fin 3 → Nat) a + S1x1x16.size a ≤ S4x20x128.size a
  inb_S4x20x128_S1x1x16_1_5_16 : ∀ a, (![1, 5, 16] : Fin 3 → Nat) a + S1x1x16.size a ≤ S4x20x128.size a
  inb_S4x20x128_S1x1x16_1_6_16 : ∀ a, (![1, 6, 16] : Fin 3 → Nat) a + S1x1x16.size a ≤ S4x20x128.size a
  inb_S4x20x128_S1x1x16_1_7_16 : ∀ a, (![1, 7, 16] : Fin 3 → Nat) a + S1x1x16.size a ≤ S4x20x128.size a
  inb_S4x20x128_S1x1x16_1_8_16 : ∀ a, (![1, 8, 16] : Fin 3 → Nat) a + S1x1x16.size a ≤ S4x20x128.size a
  inb_S4x20x128_S1x1x16_1_9_16 : ∀ a, (![1, 9, 16] : Fin 3 → Nat) a + S1x1x16.size a ≤ S4x20x128.size a
  inb_S4x20x128_S1x1x16_1_10_16 : ∀ a, (![1, 10, 16] : Fin 3 → Nat) a + S1x1x16.size a ≤ S4x20x128.size a
  inb_S4x20x128_S1x1x16_1_11_16 : ∀ a, (![1, 11, 16] : Fin 3 → Nat) a + S1x1x16.size a ≤ S4x20x128.size a
  inb_S4x20x128_S1x1x16_1_12_16 : ∀ a, (![1, 12, 16] : Fin 3 → Nat) a + S1x1x16.size a ≤ S4x20x128.size a
  inb_S4x20x128_S1x1x16_1_13_16 : ∀ a, (![1, 13, 16] : Fin 3 → Nat) a + S1x1x16.size a ≤ S4x20x128.size a
  inb_S4x20x128_S1x1x16_1_14_16 : ∀ a, (![1, 14, 16] : Fin 3 → Nat) a + S1x1x16.size a ≤ S4x20x128.size a
  inb_S4x20x128_S1x1x16_1_15_16 : ∀ a, (![1, 15, 16] : Fin 3 → Nat) a + S1x1x16.size a ≤ S4x20x128.size a
  inb_S4x20x128_S1x1x16_1_16_16 : ∀ a, (![1, 16, 16] : Fin 3 → Nat) a + S1x1x16.size a ≤ S4x20x128.size a
  inb_S4x20x128_S1x1x16_1_17_16 : ∀ a, (![1, 17, 16] : Fin 3 → Nat) a + S1x1x16.size a ≤ S4x20x128.size a
  inb_S4x20x128_S1x1x16_1_18_16 : ∀ a, (![1, 18, 16] : Fin 3 → Nat) a + S1x1x16.size a ≤ S4x20x128.size a
  inb_S4x20x128_S1x1x16_1_19_16 : ∀ a, (![1, 19, 16] : Fin 3 → Nat) a + S1x1x16.size a ≤ S4x20x128.size a
  inb_S4x20x128_S1x1x16_1_0_32 : ∀ a, (![1, 0, 32] : Fin 3 → Nat) a + S1x1x16.size a ≤ S4x20x128.size a
  inb_S4x20x128_S1x1x16_1_1_32 : ∀ a, (![1, 1, 32] : Fin 3 → Nat) a + S1x1x16.size a ≤ S4x20x128.size a
  inb_S4x20x128_S1x1x16_1_2_32 : ∀ a, (![1, 2, 32] : Fin 3 → Nat) a + S1x1x16.size a ≤ S4x20x128.size a
  inb_S4x20x128_S1x1x16_1_3_32 : ∀ a, (![1, 3, 32] : Fin 3 → Nat) a + S1x1x16.size a ≤ S4x20x128.size a
  inb_S4x20x128_S1x1x16_1_4_32 : ∀ a, (![1, 4, 32] : Fin 3 → Nat) a + S1x1x16.size a ≤ S4x20x128.size a
  inb_S4x20x128_S1x1x16_1_5_32 : ∀ a, (![1, 5, 32] : Fin 3 → Nat) a + S1x1x16.size a ≤ S4x20x128.size a
  inb_S4x20x128_S1x1x16_1_6_32 : ∀ a, (![1, 6, 32] : Fin 3 → Nat) a + S1x1x16.size a ≤ S4x20x128.size a
  inb_S4x20x128_S1x1x16_1_7_32 : ∀ a, (![1, 7, 32] : Fin 3 → Nat) a + S1x1x16.size a ≤ S4x20x128.size a
  inb_S4x20x128_S1x1x16_1_8_32 : ∀ a, (![1, 8, 32] : Fin 3 → Nat) a + S1x1x16.size a ≤ S4x20x128.size a
  inb_S4x20x128_S1x1x16_1_9_32 : ∀ a, (![1, 9, 32] : Fin 3 → Nat) a + S1x1x16.size a ≤ S4x20x128.size a
  inb_S4x20x128_S1x1x16_1_10_32 : ∀ a, (![1, 10, 32] : Fin 3 → Nat) a + S1x1x16.size a ≤ S4x20x128.size a
  inb_S4x20x128_S1x1x16_1_11_32 : ∀ a, (![1, 11, 32] : Fin 3 → Nat) a + S1x1x16.size a ≤ S4x20x128.size a
  inb_S4x20x128_S1x1x16_1_12_32 : ∀ a, (![1, 12, 32] : Fin 3 → Nat) a + S1x1x16.size a ≤ S4x20x128.size a
  inb_S4x20x128_S1x1x16_1_13_32 : ∀ a, (![1, 13, 32] : Fin 3 → Nat) a + S1x1x16.size a ≤ S4x20x128.size a
  inb_S4x20x128_S1x1x16_1_14_32 : ∀ a, (![1, 14, 32] : Fin 3 → Nat) a + S1x1x16.size a ≤ S4x20x128.size a
  inb_S4x20x128_S1x1x16_1_15_32 : ∀ a, (![1, 15, 32] : Fin 3 → Nat) a + S1x1x16.size a ≤ S4x20x128.size a
  inb_S4x20x128_S1x1x16_1_16_32 : ∀ a, (![1, 16, 32] : Fin 3 → Nat) a + S1x1x16.size a ≤ S4x20x128.size a
  inb_S4x20x128_S1x1x16_1_17_32 : ∀ a, (![1, 17, 32] : Fin 3 → Nat) a + S1x1x16.size a ≤ S4x20x128.size a
  inb_S4x20x128_S1x1x16_1_18_32 : ∀ a, (![1, 18, 32] : Fin 3 → Nat) a + S1x1x16.size a ≤ S4x20x128.size a
  inb_S4x20x128_S1x1x16_1_19_32 : ∀ a, (![1, 19, 32] : Fin 3 → Nat) a + S1x1x16.size a ≤ S4x20x128.size a
  inb_S4x20x128_S1x1x16_1_0_48 : ∀ a, (![1, 0, 48] : Fin 3 → Nat) a + S1x1x16.size a ≤ S4x20x128.size a
  inb_S4x20x128_S1x1x16_1_1_48 : ∀ a, (![1, 1, 48] : Fin 3 → Nat) a + S1x1x16.size a ≤ S4x20x128.size a
  inb_S4x20x128_S1x1x16_1_2_48 : ∀ a, (![1, 2, 48] : Fin 3 → Nat) a + S1x1x16.size a ≤ S4x20x128.size a
  inb_S4x20x128_S1x1x16_1_3_48 : ∀ a, (![1, 3, 48] : Fin 3 → Nat) a + S1x1x16.size a ≤ S4x20x128.size a
  inb_S4x20x128_S1x1x16_1_4_48 : ∀ a, (![1, 4, 48] : Fin 3 → Nat) a + S1x1x16.size a ≤ S4x20x128.size a
  inb_S4x20x128_S1x1x16_1_5_48 : ∀ a, (![1, 5, 48] : Fin 3 → Nat) a + S1x1x16.size a ≤ S4x20x128.size a
  inb_S4x20x128_S1x1x16_1_6_48 : ∀ a, (![1, 6, 48] : Fin 3 → Nat) a + S1x1x16.size a ≤ S4x20x128.size a
  inb_S4x20x128_S1x1x16_1_7_48 : ∀ a, (![1, 7, 48] : Fin 3 → Nat) a + S1x1x16.size a ≤ S4x20x128.size a
  inb_S4x20x128_S1x1x16_1_8_48 : ∀ a, (![1, 8, 48] : Fin 3 → Nat) a + S1x1x16.size a ≤ S4x20x128.size a
  inb_S4x20x128_S1x1x16_1_9_48 : ∀ a, (![1, 9, 48] : Fin 3 → Nat) a + S1x1x16.size a ≤ S4x20x128.size a
  inb_S4x20x128_S1x1x16_1_10_48 : ∀ a, (![1, 10, 48] : Fin 3 → Nat) a + S1x1x16.size a ≤ S4x20x128.size a
  inb_S4x20x128_S1x1x16_1_11_48 : ∀ a, (![1, 11, 48] : Fin 3 → Nat) a + S1x1x16.size a ≤ S4x20x128.size a
  inb_S4x20x128_S1x1x16_1_12_48 : ∀ a, (![1, 12, 48] : Fin 3 → Nat) a + S1x1x16.size a ≤ S4x20x128.size a
  inb_S4x20x128_S1x1x16_1_13_48 : ∀ a, (![1, 13, 48] : Fin 3 → Nat) a + S1x1x16.size a ≤ S4x20x128.size a
  inb_S4x20x128_S1x1x16_1_14_48 : ∀ a, (![1, 14, 48] : Fin 3 → Nat) a + S1x1x16.size a ≤ S4x20x128.size a
  inb_S4x20x128_S1x1x16_1_15_48 : ∀ a, (![1, 15, 48] : Fin 3 → Nat) a + S1x1x16.size a ≤ S4x20x128.size a
  inb_S4x20x128_S1x1x16_1_16_48 : ∀ a, (![1, 16, 48] : Fin 3 → Nat) a + S1x1x16.size a ≤ S4x20x128.size a
  inb_S4x20x128_S1x1x16_1_17_48 : ∀ a, (![1, 17, 48] : Fin 3 → Nat) a + S1x1x16.size a ≤ S4x20x128.size a
  inb_S4x20x128_S1x1x16_1_18_48 : ∀ a, (![1, 18, 48] : Fin 3 → Nat) a + S1x1x16.size a ≤ S4x20x128.size a
  inb_S4x20x128_S1x1x16_1_19_48 : ∀ a, (![1, 19, 48] : Fin 3 → Nat) a + S1x1x16.size a ≤ S4x20x128.size a
  inb_S4x20x128_S1x1x16_1_0_64 : ∀ a, (![1, 0, 64] : Fin 3 → Nat) a + S1x1x16.size a ≤ S4x20x128.size a
  inb_S4x20x128_S1x1x16_1_1_64 : ∀ a, (![1, 1, 64] : Fin 3 → Nat) a + S1x1x16.size a ≤ S4x20x128.size a
  inb_S4x20x128_S1x1x16_1_2_64 : ∀ a, (![1, 2, 64] : Fin 3 → Nat) a + S1x1x16.size a ≤ S4x20x128.size a
  inb_S4x20x128_S1x1x16_1_3_64 : ∀ a, (![1, 3, 64] : Fin 3 → Nat) a + S1x1x16.size a ≤ S4x20x128.size a
  inb_S4x20x128_S1x1x16_1_4_64 : ∀ a, (![1, 4, 64] : Fin 3 → Nat) a + S1x1x16.size a ≤ S4x20x128.size a
  inb_S4x20x128_S1x1x16_1_5_64 : ∀ a, (![1, 5, 64] : Fin 3 → Nat) a + S1x1x16.size a ≤ S4x20x128.size a
  inb_S4x20x128_S1x1x16_1_6_64 : ∀ a, (![1, 6, 64] : Fin 3 → Nat) a + S1x1x16.size a ≤ S4x20x128.size a
  inb_S4x20x128_S1x1x16_1_7_64 : ∀ a, (![1, 7, 64] : Fin 3 → Nat) a + S1x1x16.size a ≤ S4x20x128.size a
  inb_S4x20x128_S1x1x16_1_8_64 : ∀ a, (![1, 8, 64] : Fin 3 → Nat) a + S1x1x16.size a ≤ S4x20x128.size a
  inb_S4x20x128_S1x1x16_1_9_64 : ∀ a, (![1, 9, 64] : Fin 3 → Nat) a + S1x1x16.size a ≤ S4x20x128.size a
  inb_S4x20x128_S1x1x16_1_10_64 : ∀ a, (![1, 10, 64] : Fin 3 → Nat) a + S1x1x16.size a ≤ S4x20x128.size a
  inb_S4x20x128_S1x1x16_1_11_64 : ∀ a, (![1, 11, 64] : Fin 3 → Nat) a + S1x1x16.size a ≤ S4x20x128.size a
  inb_S4x20x128_S1x1x16_1_12_64 : ∀ a, (![1, 12, 64] : Fin 3 → Nat) a + S1x1x16.size a ≤ S4x20x128.size a
  inb_S4x20x128_S1x1x16_1_13_64 : ∀ a, (![1, 13, 64] : Fin 3 → Nat) a + S1x1x16.size a ≤ S4x20x128.size a
  inb_S4x20x128_S1x1x16_1_14_64 : ∀ a, (![1, 14, 64] : Fin 3 → Nat) a + S1x1x16.size a ≤ S4x20x128.size a
  inb_S4x20x128_S1x1x16_1_15_64 : ∀ a, (![1, 15, 64] : Fin 3 → Nat) a + S1x1x16.size a ≤ S4x20x128.size a
  inb_S4x20x128_S1x1x16_1_16_64 : ∀ a, (![1, 16, 64] : Fin 3 → Nat) a + S1x1x16.size a ≤ S4x20x128.size a
  inb_S4x20x128_S1x1x16_1_17_64 : ∀ a, (![1, 17, 64] : Fin 3 → Nat) a + S1x1x16.size a ≤ S4x20x128.size a
  inb_S4x20x128_S1x1x16_1_18_64 : ∀ a, (![1, 18, 64] : Fin 3 → Nat) a + S1x1x16.size a ≤ S4x20x128.size a
  inb_S4x20x128_S1x1x16_1_19_64 : ∀ a, (![1, 19, 64] : Fin 3 → Nat) a + S1x1x16.size a ≤ S4x20x128.size a
  inb_S4x20x128_S1x1x16_1_0_80 : ∀ a, (![1, 0, 80] : Fin 3 → Nat) a + S1x1x16.size a ≤ S4x20x128.size a
  inb_S4x20x128_S1x1x16_1_1_80 : ∀ a, (![1, 1, 80] : Fin 3 → Nat) a + S1x1x16.size a ≤ S4x20x128.size a
  inb_S4x20x128_S1x1x16_1_2_80 : ∀ a, (![1, 2, 80] : Fin 3 → Nat) a + S1x1x16.size a ≤ S4x20x128.size a
  inb_S4x20x128_S1x1x16_1_3_80 : ∀ a, (![1, 3, 80] : Fin 3 → Nat) a + S1x1x16.size a ≤ S4x20x128.size a
  inb_S4x20x128_S1x1x16_1_4_80 : ∀ a, (![1, 4, 80] : Fin 3 → Nat) a + S1x1x16.size a ≤ S4x20x128.size a
  inb_S4x20x128_S1x1x16_1_5_80 : ∀ a, (![1, 5, 80] : Fin 3 → Nat) a + S1x1x16.size a ≤ S4x20x128.size a
  inb_S4x20x128_S1x1x16_1_6_80 : ∀ a, (![1, 6, 80] : Fin 3 → Nat) a + S1x1x16.size a ≤ S4x20x128.size a
  inb_S4x20x128_S1x1x16_1_7_80 : ∀ a, (![1, 7, 80] : Fin 3 → Nat) a + S1x1x16.size a ≤ S4x20x128.size a
  inb_S4x20x128_S1x1x16_1_8_80 : ∀ a, (![1, 8, 80] : Fin 3 → Nat) a + S1x1x16.size a ≤ S4x20x128.size a
  inb_S4x20x128_S1x1x16_1_9_80 : ∀ a, (![1, 9, 80] : Fin 3 → Nat) a + S1x1x16.size a ≤ S4x20x128.size a
  inb_S4x20x128_S1x1x16_1_10_80 : ∀ a, (![1, 10, 80] : Fin 3 → Nat) a + S1x1x16.size a ≤ S4x20x128.size a
  inb_S4x20x128_S1x1x16_1_11_80 : ∀ a, (![1, 11, 80] : Fin 3 → Nat) a + S1x1x16.size a ≤ S4x20x128.size a
  inb_S4x20x128_S1x1x16_1_12_80 : ∀ a, (![1, 12, 80] : Fin 3 → Nat) a + S1x1x16.size a ≤ S4x20x128.size a
  inb_S4x20x128_S1x1x16_1_13_80 : ∀ a, (![1, 13, 80] : Fin 3 → Nat) a + S1x1x16.size a ≤ S4x20x128.size a
  inb_S4x20x128_S1x1x16_1_14_80 : ∀ a, (![1, 14, 80] : Fin 3 → Nat) a + S1x1x16.size a ≤ S4x20x128.size a
  inb_S4x20x128_S1x1x16_1_15_80 : ∀ a, (![1, 15, 80] : Fin 3 → Nat) a + S1x1x16.size a ≤ S4x20x128.size a
  inb_S4x20x128_S1x1x16_1_16_80 : ∀ a, (![1, 16, 80] : Fin 3 → Nat) a + S1x1x16.size a ≤ S4x20x128.size a
  inb_S4x20x128_S1x1x16_1_17_80 : ∀ a, (![1, 17, 80] : Fin 3 → Nat) a + S1x1x16.size a ≤ S4x20x128.size a
  inb_S4x20x128_S1x1x16_1_18_80 : ∀ a, (![1, 18, 80] : Fin 3 → Nat) a + S1x1x16.size a ≤ S4x20x128.size a
  inb_S4x20x128_S1x1x16_1_19_80 : ∀ a, (![1, 19, 80] : Fin 3 → Nat) a + S1x1x16.size a ≤ S4x20x128.size a
  inb_S4x20x128_S1x1x16_1_0_96 : ∀ a, (![1, 0, 96] : Fin 3 → Nat) a + S1x1x16.size a ≤ S4x20x128.size a
  inb_S4x20x128_S1x1x16_1_1_96 : ∀ a, (![1, 1, 96] : Fin 3 → Nat) a + S1x1x16.size a ≤ S4x20x128.size a
  inb_S4x20x128_S1x1x16_1_2_96 : ∀ a, (![1, 2, 96] : Fin 3 → Nat) a + S1x1x16.size a ≤ S4x20x128.size a
  inb_S4x20x128_S1x1x16_1_3_96 : ∀ a, (![1, 3, 96] : Fin 3 → Nat) a + S1x1x16.size a ≤ S4x20x128.size a
  inb_S4x20x128_S1x1x16_1_4_96 : ∀ a, (![1, 4, 96] : Fin 3 → Nat) a + S1x1x16.size a ≤ S4x20x128.size a
  inb_S4x20x128_S1x1x16_1_5_96 : ∀ a, (![1, 5, 96] : Fin 3 → Nat) a + S1x1x16.size a ≤ S4x20x128.size a
  inb_S4x20x128_S1x1x16_1_6_96 : ∀ a, (![1, 6, 96] : Fin 3 → Nat) a + S1x1x16.size a ≤ S4x20x128.size a
  inb_S4x20x128_S1x1x16_1_7_96 : ∀ a, (![1, 7, 96] : Fin 3 → Nat) a + S1x1x16.size a ≤ S4x20x128.size a
  inb_S4x20x128_S1x1x16_1_8_96 : ∀ a, (![1, 8, 96] : Fin 3 → Nat) a + S1x1x16.size a ≤ S4x20x128.size a
  inb_S4x20x128_S1x1x16_1_9_96 : ∀ a, (![1, 9, 96] : Fin 3 → Nat) a + S1x1x16.size a ≤ S4x20x128.size a
  inb_S4x20x128_S1x1x16_1_10_96 : ∀ a, (![1, 10, 96] : Fin 3 → Nat) a + S1x1x16.size a ≤ S4x20x128.size a
  inb_S4x20x128_S1x1x16_1_11_96 : ∀ a, (![1, 11, 96] : Fin 3 → Nat) a + S1x1x16.size a ≤ S4x20x128.size a
  inb_S4x20x128_S1x1x16_1_12_96 : ∀ a, (![1, 12, 96] : Fin 3 → Nat) a + S1x1x16.size a ≤ S4x20x128.size a
  inb_S4x20x128_S1x1x16_1_13_96 : ∀ a, (![1, 13, 96] : Fin 3 → Nat) a + S1x1x16.size a ≤ S4x20x128.size a
  inb_S4x20x128_S1x1x16_1_14_96 : ∀ a, (![1, 14, 96] : Fin 3 → Nat) a + S1x1x16.size a ≤ S4x20x128.size a
  inb_S4x20x128_S1x1x16_1_15_96 : ∀ a, (![1, 15, 96] : Fin 3 → Nat) a + S1x1x16.size a ≤ S4x20x128.size a
  inb_S4x20x128_S1x1x16_1_16_96 : ∀ a, (![1, 16, 96] : Fin 3 → Nat) a + S1x1x16.size a ≤ S4x20x128.size a
  inb_S4x20x128_S1x1x16_1_17_96 : ∀ a, (![1, 17, 96] : Fin 3 → Nat) a + S1x1x16.size a ≤ S4x20x128.size a
  inb_S4x20x128_S1x1x16_1_18_96 : ∀ a, (![1, 18, 96] : Fin 3 → Nat) a + S1x1x16.size a ≤ S4x20x128.size a
  inb_S4x20x128_S1x1x16_1_19_96 : ∀ a, (![1, 19, 96] : Fin 3 → Nat) a + S1x1x16.size a ≤ S4x20x128.size a
  inb_S4x20x128_S1x1x16_1_0_112 : ∀ a, (![1, 0, 112] : Fin 3 → Nat) a + S1x1x16.size a ≤ S4x20x128.size a
  inb_S4x20x128_S1x1x16_1_1_112 : ∀ a, (![1, 1, 112] : Fin 3 → Nat) a + S1x1x16.size a ≤ S4x20x128.size a
  inb_S4x20x128_S1x1x16_1_2_112 : ∀ a, (![1, 2, 112] : Fin 3 → Nat) a + S1x1x16.size a ≤ S4x20x128.size a
  inb_S4x20x128_S1x1x16_1_3_112 : ∀ a, (![1, 3, 112] : Fin 3 → Nat) a + S1x1x16.size a ≤ S4x20x128.size a
  inb_S4x20x128_S1x1x16_1_4_112 : ∀ a, (![1, 4, 112] : Fin 3 → Nat) a + S1x1x16.size a ≤ S4x20x128.size a
  inb_S4x20x128_S1x1x16_1_5_112 : ∀ a, (![1, 5, 112] : Fin 3 → Nat) a + S1x1x16.size a ≤ S4x20x128.size a
  inb_S4x20x128_S1x1x16_1_6_112 : ∀ a, (![1, 6, 112] : Fin 3 → Nat) a + S1x1x16.size a ≤ S4x20x128.size a
  inb_S4x20x128_S1x1x16_1_7_112 : ∀ a, (![1, 7, 112] : Fin 3 → Nat) a + S1x1x16.size a ≤ S4x20x128.size a
  inb_S4x20x128_S1x1x16_1_8_112 : ∀ a, (![1, 8, 112] : Fin 3 → Nat) a + S1x1x16.size a ≤ S4x20x128.size a
  inb_S4x20x128_S1x1x16_1_9_112 : ∀ a, (![1, 9, 112] : Fin 3 → Nat) a + S1x1x16.size a ≤ S4x20x128.size a
  inb_S4x20x128_S1x1x16_1_10_112 : ∀ a, (![1, 10, 112] : Fin 3 → Nat) a + S1x1x16.size a ≤ S4x20x128.size a
  inb_S4x20x128_S1x1x16_1_11_112 : ∀ a, (![1, 11, 112] : Fin 3 → Nat) a + S1x1x16.size a ≤ S4x20x128.size a
  inb_S4x20x128_S1x1x16_1_12_112 : ∀ a, (![1, 12, 112] : Fin 3 → Nat) a + S1x1x16.size a ≤ S4x20x128.size a
  inb_S4x20x128_S1x1x16_1_13_112 : ∀ a, (![1, 13, 112] : Fin 3 → Nat) a + S1x1x16.size a ≤ S4x20x128.size a
  inb_S4x20x128_S1x1x16_1_14_112 : ∀ a, (![1, 14, 112] : Fin 3 → Nat) a + S1x1x16.size a ≤ S4x20x128.size a
  inb_S4x20x128_S1x1x16_1_15_112 : ∀ a, (![1, 15, 112] : Fin 3 → Nat) a + S1x1x16.size a ≤ S4x20x128.size a
  inb_S4x20x128_S1x1x16_1_16_112 : ∀ a, (![1, 16, 112] : Fin 3 → Nat) a + S1x1x16.size a ≤ S4x20x128.size a
  inb_S4x20x128_S1x1x16_1_17_112 : ∀ a, (![1, 17, 112] : Fin 3 → Nat) a + S1x1x16.size a ≤ S4x20x128.size a
  inb_S4x20x128_S1x1x16_1_18_112 : ∀ a, (![1, 18, 112] : Fin 3 → Nat) a + S1x1x16.size a ≤ S4x20x128.size a
  inb_S4x20x128_S1x1x16_1_19_112 : ∀ a, (![1, 19, 112] : Fin 3 → Nat) a + S1x1x16.size a ≤ S4x20x128.size a
  inb_S4x20x128_S1x1x16_2_0_0 : ∀ a, (![2, 0, 0] : Fin 3 → Nat) a + S1x1x16.size a ≤ S4x20x128.size a
  inb_S4x20x128_S1x1x16_2_1_0 : ∀ a, (![2, 1, 0] : Fin 3 → Nat) a + S1x1x16.size a ≤ S4x20x128.size a
  inb_S4x20x128_S1x1x16_2_2_0 : ∀ a, (![2, 2, 0] : Fin 3 → Nat) a + S1x1x16.size a ≤ S4x20x128.size a
  inb_S4x20x128_S1x1x16_2_3_0 : ∀ a, (![2, 3, 0] : Fin 3 → Nat) a + S1x1x16.size a ≤ S4x20x128.size a
  inb_S4x20x128_S1x1x16_2_4_0 : ∀ a, (![2, 4, 0] : Fin 3 → Nat) a + S1x1x16.size a ≤ S4x20x128.size a
  inb_S4x20x128_S1x1x16_2_5_0 : ∀ a, (![2, 5, 0] : Fin 3 → Nat) a + S1x1x16.size a ≤ S4x20x128.size a
  inb_S4x20x128_S1x1x16_2_6_0 : ∀ a, (![2, 6, 0] : Fin 3 → Nat) a + S1x1x16.size a ≤ S4x20x128.size a
  inb_S4x20x128_S1x1x16_2_7_0 : ∀ a, (![2, 7, 0] : Fin 3 → Nat) a + S1x1x16.size a ≤ S4x20x128.size a
  inb_S4x20x128_S1x1x16_2_8_0 : ∀ a, (![2, 8, 0] : Fin 3 → Nat) a + S1x1x16.size a ≤ S4x20x128.size a
  inb_S4x20x128_S1x1x16_2_9_0 : ∀ a, (![2, 9, 0] : Fin 3 → Nat) a + S1x1x16.size a ≤ S4x20x128.size a
  inb_S4x20x128_S1x1x16_2_10_0 : ∀ a, (![2, 10, 0] : Fin 3 → Nat) a + S1x1x16.size a ≤ S4x20x128.size a
  inb_S4x20x128_S1x1x16_2_11_0 : ∀ a, (![2, 11, 0] : Fin 3 → Nat) a + S1x1x16.size a ≤ S4x20x128.size a
  inb_S4x20x128_S1x1x16_2_12_0 : ∀ a, (![2, 12, 0] : Fin 3 → Nat) a + S1x1x16.size a ≤ S4x20x128.size a
  inb_S4x20x128_S1x1x16_2_13_0 : ∀ a, (![2, 13, 0] : Fin 3 → Nat) a + S1x1x16.size a ≤ S4x20x128.size a
  inb_S4x20x128_S1x1x16_2_14_0 : ∀ a, (![2, 14, 0] : Fin 3 → Nat) a + S1x1x16.size a ≤ S4x20x128.size a
  inb_S4x20x128_S1x1x16_2_15_0 : ∀ a, (![2, 15, 0] : Fin 3 → Nat) a + S1x1x16.size a ≤ S4x20x128.size a
  inb_S4x20x128_S1x1x16_2_16_0 : ∀ a, (![2, 16, 0] : Fin 3 → Nat) a + S1x1x16.size a ≤ S4x20x128.size a
  inb_S4x20x128_S1x1x16_2_17_0 : ∀ a, (![2, 17, 0] : Fin 3 → Nat) a + S1x1x16.size a ≤ S4x20x128.size a
  inb_S4x20x128_S1x1x16_2_18_0 : ∀ a, (![2, 18, 0] : Fin 3 → Nat) a + S1x1x16.size a ≤ S4x20x128.size a
  inb_S4x20x128_S1x1x16_2_19_0 : ∀ a, (![2, 19, 0] : Fin 3 → Nat) a + S1x1x16.size a ≤ S4x20x128.size a
  inb_S4x20x128_S1x1x16_2_0_16 : ∀ a, (![2, 0, 16] : Fin 3 → Nat) a + S1x1x16.size a ≤ S4x20x128.size a
  inb_S4x20x128_S1x1x16_2_1_16 : ∀ a, (![2, 1, 16] : Fin 3 → Nat) a + S1x1x16.size a ≤ S4x20x128.size a
  inb_S4x20x128_S1x1x16_2_2_16 : ∀ a, (![2, 2, 16] : Fin 3 → Nat) a + S1x1x16.size a ≤ S4x20x128.size a
  inb_S4x20x128_S1x1x16_2_3_16 : ∀ a, (![2, 3, 16] : Fin 3 → Nat) a + S1x1x16.size a ≤ S4x20x128.size a
  inb_S4x20x128_S1x1x16_2_4_16 : ∀ a, (![2, 4, 16] : Fin 3 → Nat) a + S1x1x16.size a ≤ S4x20x128.size a
  inb_S4x20x128_S1x1x16_2_5_16 : ∀ a, (![2, 5, 16] : Fin 3 → Nat) a + S1x1x16.size a ≤ S4x20x128.size a
  inb_S4x20x128_S1x1x16_2_6_16 : ∀ a, (![2, 6, 16] : Fin 3 → Nat) a + S1x1x16.size a ≤ S4x20x128.size a
  inb_S4x20x128_S1x1x16_2_7_16 : ∀ a, (![2, 7, 16] : Fin 3 → Nat) a + S1x1x16.size a ≤ S4x20x128.size a
  inb_S4x20x128_S1x1x16_2_8_16 : ∀ a, (![2, 8, 16] : Fin 3 → Nat) a + S1x1x16.size a ≤ S4x20x128.size a
  inb_S4x20x128_S1x1x16_2_9_16 : ∀ a, (![2, 9, 16] : Fin 3 → Nat) a + S1x1x16.size a ≤ S4x20x128.size a
  inb_S4x20x128_S1x1x16_2_10_16 : ∀ a, (![2, 10, 16] : Fin 3 → Nat) a + S1x1x16.size a ≤ S4x20x128.size a
  inb_S4x20x128_S1x1x16_2_11_16 : ∀ a, (![2, 11, 16] : Fin 3 → Nat) a + S1x1x16.size a ≤ S4x20x128.size a
  inb_S4x20x128_S1x1x16_2_12_16 : ∀ a, (![2, 12, 16] : Fin 3 → Nat) a + S1x1x16.size a ≤ S4x20x128.size a
  inb_S4x20x128_S1x1x16_2_13_16 : ∀ a, (![2, 13, 16] : Fin 3 → Nat) a + S1x1x16.size a ≤ S4x20x128.size a
  inb_S4x20x128_S1x1x16_2_14_16 : ∀ a, (![2, 14, 16] : Fin 3 → Nat) a + S1x1x16.size a ≤ S4x20x128.size a
  inb_S4x20x128_S1x1x16_2_15_16 : ∀ a, (![2, 15, 16] : Fin 3 → Nat) a + S1x1x16.size a ≤ S4x20x128.size a
  inb_S4x20x128_S1x1x16_2_16_16 : ∀ a, (![2, 16, 16] : Fin 3 → Nat) a + S1x1x16.size a ≤ S4x20x128.size a
  inb_S4x20x128_S1x1x16_2_17_16 : ∀ a, (![2, 17, 16] : Fin 3 → Nat) a + S1x1x16.size a ≤ S4x20x128.size a
  inb_S4x20x128_S1x1x16_2_18_16 : ∀ a, (![2, 18, 16] : Fin 3 → Nat) a + S1x1x16.size a ≤ S4x20x128.size a
  inb_S4x20x128_S1x1x16_2_19_16 : ∀ a, (![2, 19, 16] : Fin 3 → Nat) a + S1x1x16.size a ≤ S4x20x128.size a
  inb_S4x20x128_S1x1x16_2_0_32 : ∀ a, (![2, 0, 32] : Fin 3 → Nat) a + S1x1x16.size a ≤ S4x20x128.size a
  inb_S4x20x128_S1x1x16_2_1_32 : ∀ a, (![2, 1, 32] : Fin 3 → Nat) a + S1x1x16.size a ≤ S4x20x128.size a
  inb_S4x20x128_S1x1x16_2_2_32 : ∀ a, (![2, 2, 32] : Fin 3 → Nat) a + S1x1x16.size a ≤ S4x20x128.size a
  inb_S4x20x128_S1x1x16_2_3_32 : ∀ a, (![2, 3, 32] : Fin 3 → Nat) a + S1x1x16.size a ≤ S4x20x128.size a
  inb_S4x20x128_S1x1x16_2_4_32 : ∀ a, (![2, 4, 32] : Fin 3 → Nat) a + S1x1x16.size a ≤ S4x20x128.size a
  inb_S4x20x128_S1x1x16_2_5_32 : ∀ a, (![2, 5, 32] : Fin 3 → Nat) a + S1x1x16.size a ≤ S4x20x128.size a
  inb_S4x20x128_S1x1x16_2_6_32 : ∀ a, (![2, 6, 32] : Fin 3 → Nat) a + S1x1x16.size a ≤ S4x20x128.size a
  inb_S4x20x128_S1x1x16_2_7_32 : ∀ a, (![2, 7, 32] : Fin 3 → Nat) a + S1x1x16.size a ≤ S4x20x128.size a
  inb_S4x20x128_S1x1x16_2_8_32 : ∀ a, (![2, 8, 32] : Fin 3 → Nat) a + S1x1x16.size a ≤ S4x20x128.size a
  inb_S4x20x128_S1x1x16_2_9_32 : ∀ a, (![2, 9, 32] : Fin 3 → Nat) a + S1x1x16.size a ≤ S4x20x128.size a
  inb_S4x20x128_S1x1x16_2_10_32 : ∀ a, (![2, 10, 32] : Fin 3 → Nat) a + S1x1x16.size a ≤ S4x20x128.size a
  inb_S4x20x128_S1x1x16_2_11_32 : ∀ a, (![2, 11, 32] : Fin 3 → Nat) a + S1x1x16.size a ≤ S4x20x128.size a
  inb_S4x20x128_S1x1x16_2_12_32 : ∀ a, (![2, 12, 32] : Fin 3 → Nat) a + S1x1x16.size a ≤ S4x20x128.size a
  inb_S4x20x128_S1x1x16_2_13_32 : ∀ a, (![2, 13, 32] : Fin 3 → Nat) a + S1x1x16.size a ≤ S4x20x128.size a
  inb_S4x20x128_S1x1x16_2_14_32 : ∀ a, (![2, 14, 32] : Fin 3 → Nat) a + S1x1x16.size a ≤ S4x20x128.size a
  inb_S4x20x128_S1x1x16_2_15_32 : ∀ a, (![2, 15, 32] : Fin 3 → Nat) a + S1x1x16.size a ≤ S4x20x128.size a
  inb_S4x20x128_S1x1x16_2_16_32 : ∀ a, (![2, 16, 32] : Fin 3 → Nat) a + S1x1x16.size a ≤ S4x20x128.size a
  inb_S4x20x128_S1x1x16_2_17_32 : ∀ a, (![2, 17, 32] : Fin 3 → Nat) a + S1x1x16.size a ≤ S4x20x128.size a
  inb_S4x20x128_S1x1x16_2_18_32 : ∀ a, (![2, 18, 32] : Fin 3 → Nat) a + S1x1x16.size a ≤ S4x20x128.size a
  inb_S4x20x128_S1x1x16_2_19_32 : ∀ a, (![2, 19, 32] : Fin 3 → Nat) a + S1x1x16.size a ≤ S4x20x128.size a
  inb_S4x20x128_S1x1x16_2_0_48 : ∀ a, (![2, 0, 48] : Fin 3 → Nat) a + S1x1x16.size a ≤ S4x20x128.size a
  inb_S4x20x128_S1x1x16_2_1_48 : ∀ a, (![2, 1, 48] : Fin 3 → Nat) a + S1x1x16.size a ≤ S4x20x128.size a
  inb_S4x20x128_S1x1x16_2_2_48 : ∀ a, (![2, 2, 48] : Fin 3 → Nat) a + S1x1x16.size a ≤ S4x20x128.size a
  inb_S4x20x128_S1x1x16_2_3_48 : ∀ a, (![2, 3, 48] : Fin 3 → Nat) a + S1x1x16.size a ≤ S4x20x128.size a
  inb_S4x20x128_S1x1x16_2_4_48 : ∀ a, (![2, 4, 48] : Fin 3 → Nat) a + S1x1x16.size a ≤ S4x20x128.size a
  inb_S4x20x128_S1x1x16_2_5_48 : ∀ a, (![2, 5, 48] : Fin 3 → Nat) a + S1x1x16.size a ≤ S4x20x128.size a
  inb_S4x20x128_S1x1x16_2_6_48 : ∀ a, (![2, 6, 48] : Fin 3 → Nat) a + S1x1x16.size a ≤ S4x20x128.size a
  inb_S4x20x128_S1x1x16_2_7_48 : ∀ a, (![2, 7, 48] : Fin 3 → Nat) a + S1x1x16.size a ≤ S4x20x128.size a
  inb_S4x20x128_S1x1x16_2_8_48 : ∀ a, (![2, 8, 48] : Fin 3 → Nat) a + S1x1x16.size a ≤ S4x20x128.size a
  inb_S4x20x128_S1x1x16_2_9_48 : ∀ a, (![2, 9, 48] : Fin 3 → Nat) a + S1x1x16.size a ≤ S4x20x128.size a
  inb_S4x20x128_S1x1x16_2_10_48 : ∀ a, (![2, 10, 48] : Fin 3 → Nat) a + S1x1x16.size a ≤ S4x20x128.size a
  inb_S4x20x128_S1x1x16_2_11_48 : ∀ a, (![2, 11, 48] : Fin 3 → Nat) a + S1x1x16.size a ≤ S4x20x128.size a
  inb_S4x20x128_S1x1x16_2_12_48 : ∀ a, (![2, 12, 48] : Fin 3 → Nat) a + S1x1x16.size a ≤ S4x20x128.size a
  inb_S4x20x128_S1x1x16_2_13_48 : ∀ a, (![2, 13, 48] : Fin 3 → Nat) a + S1x1x16.size a ≤ S4x20x128.size a
  inb_S4x20x128_S1x1x16_2_14_48 : ∀ a, (![2, 14, 48] : Fin 3 → Nat) a + S1x1x16.size a ≤ S4x20x128.size a
  inb_S4x20x128_S1x1x16_2_15_48 : ∀ a, (![2, 15, 48] : Fin 3 → Nat) a + S1x1x16.size a ≤ S4x20x128.size a
  inb_S4x20x128_S1x1x16_2_16_48 : ∀ a, (![2, 16, 48] : Fin 3 → Nat) a + S1x1x16.size a ≤ S4x20x128.size a
  inb_S4x20x128_S1x1x16_2_17_48 : ∀ a, (![2, 17, 48] : Fin 3 → Nat) a + S1x1x16.size a ≤ S4x20x128.size a
  inb_S4x20x128_S1x1x16_2_18_48 : ∀ a, (![2, 18, 48] : Fin 3 → Nat) a + S1x1x16.size a ≤ S4x20x128.size a
  inb_S4x20x128_S1x1x16_2_19_48 : ∀ a, (![2, 19, 48] : Fin 3 → Nat) a + S1x1x16.size a ≤ S4x20x128.size a
  inb_S4x20x128_S1x1x16_2_0_64 : ∀ a, (![2, 0, 64] : Fin 3 → Nat) a + S1x1x16.size a ≤ S4x20x128.size a
  inb_S4x20x128_S1x1x16_2_1_64 : ∀ a, (![2, 1, 64] : Fin 3 → Nat) a + S1x1x16.size a ≤ S4x20x128.size a
  inb_S4x20x128_S1x1x16_2_2_64 : ∀ a, (![2, 2, 64] : Fin 3 → Nat) a + S1x1x16.size a ≤ S4x20x128.size a
  inb_S4x20x128_S1x1x16_2_3_64 : ∀ a, (![2, 3, 64] : Fin 3 → Nat) a + S1x1x16.size a ≤ S4x20x128.size a
  inb_S4x20x128_S1x1x16_2_4_64 : ∀ a, (![2, 4, 64] : Fin 3 → Nat) a + S1x1x16.size a ≤ S4x20x128.size a
  inb_S4x20x128_S1x1x16_2_5_64 : ∀ a, (![2, 5, 64] : Fin 3 → Nat) a + S1x1x16.size a ≤ S4x20x128.size a
  inb_S4x20x128_S1x1x16_2_6_64 : ∀ a, (![2, 6, 64] : Fin 3 → Nat) a + S1x1x16.size a ≤ S4x20x128.size a
  inb_S4x20x128_S1x1x16_2_7_64 : ∀ a, (![2, 7, 64] : Fin 3 → Nat) a + S1x1x16.size a ≤ S4x20x128.size a
  inb_S4x20x128_S1x1x16_2_8_64 : ∀ a, (![2, 8, 64] : Fin 3 → Nat) a + S1x1x16.size a ≤ S4x20x128.size a
  inb_S4x20x128_S1x1x16_2_9_64 : ∀ a, (![2, 9, 64] : Fin 3 → Nat) a + S1x1x16.size a ≤ S4x20x128.size a
  inb_S4x20x128_S1x1x16_2_10_64 : ∀ a, (![2, 10, 64] : Fin 3 → Nat) a + S1x1x16.size a ≤ S4x20x128.size a
  inb_S4x20x128_S1x1x16_2_11_64 : ∀ a, (![2, 11, 64] : Fin 3 → Nat) a + S1x1x16.size a ≤ S4x20x128.size a
  inb_S4x20x128_S1x1x16_2_12_64 : ∀ a, (![2, 12, 64] : Fin 3 → Nat) a + S1x1x16.size a ≤ S4x20x128.size a
  inb_S4x20x128_S1x1x16_2_13_64 : ∀ a, (![2, 13, 64] : Fin 3 → Nat) a + S1x1x16.size a ≤ S4x20x128.size a
  inb_S4x20x128_S1x1x16_2_14_64 : ∀ a, (![2, 14, 64] : Fin 3 → Nat) a + S1x1x16.size a ≤ S4x20x128.size a
  inb_S4x20x128_S1x1x16_2_15_64 : ∀ a, (![2, 15, 64] : Fin 3 → Nat) a + S1x1x16.size a ≤ S4x20x128.size a
  inb_S4x20x128_S1x1x16_2_16_64 : ∀ a, (![2, 16, 64] : Fin 3 → Nat) a + S1x1x16.size a ≤ S4x20x128.size a
  inb_S4x20x128_S1x1x16_2_17_64 : ∀ a, (![2, 17, 64] : Fin 3 → Nat) a + S1x1x16.size a ≤ S4x20x128.size a
  inb_S4x20x128_S1x1x16_2_18_64 : ∀ a, (![2, 18, 64] : Fin 3 → Nat) a + S1x1x16.size a ≤ S4x20x128.size a
  inb_S4x20x128_S1x1x16_2_19_64 : ∀ a, (![2, 19, 64] : Fin 3 → Nat) a + S1x1x16.size a ≤ S4x20x128.size a
  inb_S4x20x128_S1x1x16_2_0_80 : ∀ a, (![2, 0, 80] : Fin 3 → Nat) a + S1x1x16.size a ≤ S4x20x128.size a
  inb_S4x20x128_S1x1x16_2_1_80 : ∀ a, (![2, 1, 80] : Fin 3 → Nat) a + S1x1x16.size a ≤ S4x20x128.size a
  inb_S4x20x128_S1x1x16_2_2_80 : ∀ a, (![2, 2, 80] : Fin 3 → Nat) a + S1x1x16.size a ≤ S4x20x128.size a
  inb_S4x20x128_S1x1x16_2_3_80 : ∀ a, (![2, 3, 80] : Fin 3 → Nat) a + S1x1x16.size a ≤ S4x20x128.size a
  inb_S4x20x128_S1x1x16_2_4_80 : ∀ a, (![2, 4, 80] : Fin 3 → Nat) a + S1x1x16.size a ≤ S4x20x128.size a
  inb_S4x20x128_S1x1x16_2_5_80 : ∀ a, (![2, 5, 80] : Fin 3 → Nat) a + S1x1x16.size a ≤ S4x20x128.size a
  inb_S4x20x128_S1x1x16_2_6_80 : ∀ a, (![2, 6, 80] : Fin 3 → Nat) a + S1x1x16.size a ≤ S4x20x128.size a
  inb_S4x20x128_S1x1x16_2_7_80 : ∀ a, (![2, 7, 80] : Fin 3 → Nat) a + S1x1x16.size a ≤ S4x20x128.size a
  inb_S4x20x128_S1x1x16_2_8_80 : ∀ a, (![2, 8, 80] : Fin 3 → Nat) a + S1x1x16.size a ≤ S4x20x128.size a
  inb_S4x20x128_S1x1x16_2_9_80 : ∀ a, (![2, 9, 80] : Fin 3 → Nat) a + S1x1x16.size a ≤ S4x20x128.size a
  inb_S4x20x128_S1x1x16_2_10_80 : ∀ a, (![2, 10, 80] : Fin 3 → Nat) a + S1x1x16.size a ≤ S4x20x128.size a
  inb_S4x20x128_S1x1x16_2_11_80 : ∀ a, (![2, 11, 80] : Fin 3 → Nat) a + S1x1x16.size a ≤ S4x20x128.size a
  inb_S4x20x128_S1x1x16_2_12_80 : ∀ a, (![2, 12, 80] : Fin 3 → Nat) a + S1x1x16.size a ≤ S4x20x128.size a
  inb_S4x20x128_S1x1x16_2_13_80 : ∀ a, (![2, 13, 80] : Fin 3 → Nat) a + S1x1x16.size a ≤ S4x20x128.size a
  inb_S4x20x128_S1x1x16_2_14_80 : ∀ a, (![2, 14, 80] : Fin 3 → Nat) a + S1x1x16.size a ≤ S4x20x128.size a
  inb_S4x20x128_S1x1x16_2_15_80 : ∀ a, (![2, 15, 80] : Fin 3 → Nat) a + S1x1x16.size a ≤ S4x20x128.size a
  inb_S4x20x128_S1x1x16_2_16_80 : ∀ a, (![2, 16, 80] : Fin 3 → Nat) a + S1x1x16.size a ≤ S4x20x128.size a
  inb_S4x20x128_S1x1x16_2_17_80 : ∀ a, (![2, 17, 80] : Fin 3 → Nat) a + S1x1x16.size a ≤ S4x20x128.size a
  inb_S4x20x128_S1x1x16_2_18_80 : ∀ a, (![2, 18, 80] : Fin 3 → Nat) a + S1x1x16.size a ≤ S4x20x128.size a
  inb_S4x20x128_S1x1x16_2_19_80 : ∀ a, (![2, 19, 80] : Fin 3 → Nat) a + S1x1x16.size a ≤ S4x20x128.size a
  inb_S4x20x128_S1x1x16_2_0_96 : ∀ a, (![2, 0, 96] : Fin 3 → Nat) a + S1x1x16.size a ≤ S4x20x128.size a
  inb_S4x20x128_S1x1x16_2_1_96 : ∀ a, (![2, 1, 96] : Fin 3 → Nat) a + S1x1x16.size a ≤ S4x20x128.size a
  inb_S4x20x128_S1x1x16_2_2_96 : ∀ a, (![2, 2, 96] : Fin 3 → Nat) a + S1x1x16.size a ≤ S4x20x128.size a
  inb_S4x20x128_S1x1x16_2_3_96 : ∀ a, (![2, 3, 96] : Fin 3 → Nat) a + S1x1x16.size a ≤ S4x20x128.size a
  inb_S4x20x128_S1x1x16_2_4_96 : ∀ a, (![2, 4, 96] : Fin 3 → Nat) a + S1x1x16.size a ≤ S4x20x128.size a
  inb_S4x20x128_S1x1x16_2_5_96 : ∀ a, (![2, 5, 96] : Fin 3 → Nat) a + S1x1x16.size a ≤ S4x20x128.size a
  inb_S4x20x128_S1x1x16_2_6_96 : ∀ a, (![2, 6, 96] : Fin 3 → Nat) a + S1x1x16.size a ≤ S4x20x128.size a
  inb_S4x20x128_S1x1x16_2_7_96 : ∀ a, (![2, 7, 96] : Fin 3 → Nat) a + S1x1x16.size a ≤ S4x20x128.size a
  inb_S4x20x128_S1x1x16_2_8_96 : ∀ a, (![2, 8, 96] : Fin 3 → Nat) a + S1x1x16.size a ≤ S4x20x128.size a
  inb_S4x20x128_S1x1x16_2_9_96 : ∀ a, (![2, 9, 96] : Fin 3 → Nat) a + S1x1x16.size a ≤ S4x20x128.size a
  inb_S4x20x128_S1x1x16_2_10_96 : ∀ a, (![2, 10, 96] : Fin 3 → Nat) a + S1x1x16.size a ≤ S4x20x128.size a
  inb_S4x20x128_S1x1x16_2_11_96 : ∀ a, (![2, 11, 96] : Fin 3 → Nat) a + S1x1x16.size a ≤ S4x20x128.size a
  inb_S4x20x128_S1x1x16_2_12_96 : ∀ a, (![2, 12, 96] : Fin 3 → Nat) a + S1x1x16.size a ≤ S4x20x128.size a
  inb_S4x20x128_S1x1x16_2_13_96 : ∀ a, (![2, 13, 96] : Fin 3 → Nat) a + S1x1x16.size a ≤ S4x20x128.size a
  inb_S4x20x128_S1x1x16_2_14_96 : ∀ a, (![2, 14, 96] : Fin 3 → Nat) a + S1x1x16.size a ≤ S4x20x128.size a
  inb_S4x20x128_S1x1x16_2_15_96 : ∀ a, (![2, 15, 96] : Fin 3 → Nat) a + S1x1x16.size a ≤ S4x20x128.size a
  inb_S4x20x128_S1x1x16_2_16_96 : ∀ a, (![2, 16, 96] : Fin 3 → Nat) a + S1x1x16.size a ≤ S4x20x128.size a
  inb_S4x20x128_S1x1x16_2_17_96 : ∀ a, (![2, 17, 96] : Fin 3 → Nat) a + S1x1x16.size a ≤ S4x20x128.size a
  inb_S4x20x128_S1x1x16_2_18_96 : ∀ a, (![2, 18, 96] : Fin 3 → Nat) a + S1x1x16.size a ≤ S4x20x128.size a
  inb_S4x20x128_S1x1x16_2_19_96 : ∀ a, (![2, 19, 96] : Fin 3 → Nat) a + S1x1x16.size a ≤ S4x20x128.size a
  inb_S4x20x128_S1x1x16_2_0_112 : ∀ a, (![2, 0, 112] : Fin 3 → Nat) a + S1x1x16.size a ≤ S4x20x128.size a
  inb_S4x20x128_S1x1x16_2_1_112 : ∀ a, (![2, 1, 112] : Fin 3 → Nat) a + S1x1x16.size a ≤ S4x20x128.size a
  inb_S4x20x128_S1x1x16_2_2_112 : ∀ a, (![2, 2, 112] : Fin 3 → Nat) a + S1x1x16.size a ≤ S4x20x128.size a
  inb_S4x20x128_S1x1x16_2_3_112 : ∀ a, (![2, 3, 112] : Fin 3 → Nat) a + S1x1x16.size a ≤ S4x20x128.size a
  inb_S4x20x128_S1x1x16_2_4_112 : ∀ a, (![2, 4, 112] : Fin 3 → Nat) a + S1x1x16.size a ≤ S4x20x128.size a
  inb_S4x20x128_S1x1x16_2_5_112 : ∀ a, (![2, 5, 112] : Fin 3 → Nat) a + S1x1x16.size a ≤ S4x20x128.size a
  inb_S4x20x128_S1x1x16_2_6_112 : ∀ a, (![2, 6, 112] : Fin 3 → Nat) a + S1x1x16.size a ≤ S4x20x128.size a
  inb_S4x20x128_S1x1x16_2_7_112 : ∀ a, (![2, 7, 112] : Fin 3 → Nat) a + S1x1x16.size a ≤ S4x20x128.size a
  inb_S4x20x128_S1x1x16_2_8_112 : ∀ a, (![2, 8, 112] : Fin 3 → Nat) a + S1x1x16.size a ≤ S4x20x128.size a
  inb_S4x20x128_S1x1x16_2_9_112 : ∀ a, (![2, 9, 112] : Fin 3 → Nat) a + S1x1x16.size a ≤ S4x20x128.size a
  inb_S4x20x128_S1x1x16_2_10_112 : ∀ a, (![2, 10, 112] : Fin 3 → Nat) a + S1x1x16.size a ≤ S4x20x128.size a
  inb_S4x20x128_S1x1x16_2_11_112 : ∀ a, (![2, 11, 112] : Fin 3 → Nat) a + S1x1x16.size a ≤ S4x20x128.size a
  inb_S4x20x128_S1x1x16_2_12_112 : ∀ a, (![2, 12, 112] : Fin 3 → Nat) a + S1x1x16.size a ≤ S4x20x128.size a
  inb_S4x20x128_S1x1x16_2_13_112 : ∀ a, (![2, 13, 112] : Fin 3 → Nat) a + S1x1x16.size a ≤ S4x20x128.size a
  inb_S4x20x128_S1x1x16_2_14_112 : ∀ a, (![2, 14, 112] : Fin 3 → Nat) a + S1x1x16.size a ≤ S4x20x128.size a
  inb_S4x20x128_S1x1x16_2_15_112 : ∀ a, (![2, 15, 112] : Fin 3 → Nat) a + S1x1x16.size a ≤ S4x20x128.size a
  inb_S4x20x128_S1x1x16_2_16_112 : ∀ a, (![2, 16, 112] : Fin 3 → Nat) a + S1x1x16.size a ≤ S4x20x128.size a
  inb_S4x20x128_S1x1x16_2_17_112 : ∀ a, (![2, 17, 112] : Fin 3 → Nat) a + S1x1x16.size a ≤ S4x20x128.size a
  inb_S4x20x128_S1x1x16_2_18_112 : ∀ a, (![2, 18, 112] : Fin 3 → Nat) a + S1x1x16.size a ≤ S4x20x128.size a
  inb_S4x20x128_S1x1x16_2_19_112 : ∀ a, (![2, 19, 112] : Fin 3 → Nat) a + S1x1x16.size a ≤ S4x20x128.size a
  inb_S4x20x128_S1x1x16_3_0_0 : ∀ a, (![3, 0, 0] : Fin 3 → Nat) a + S1x1x16.size a ≤ S4x20x128.size a
  inb_S4x20x128_S1x1x16_3_1_0 : ∀ a, (![3, 1, 0] : Fin 3 → Nat) a + S1x1x16.size a ≤ S4x20x128.size a
  inb_S4x20x128_S1x1x16_3_2_0 : ∀ a, (![3, 2, 0] : Fin 3 → Nat) a + S1x1x16.size a ≤ S4x20x128.size a
  inb_S4x20x128_S1x1x16_3_3_0 : ∀ a, (![3, 3, 0] : Fin 3 → Nat) a + S1x1x16.size a ≤ S4x20x128.size a
  inb_S4x20x128_S1x1x16_3_4_0 : ∀ a, (![3, 4, 0] : Fin 3 → Nat) a + S1x1x16.size a ≤ S4x20x128.size a
  inb_S4x20x128_S1x1x16_3_5_0 : ∀ a, (![3, 5, 0] : Fin 3 → Nat) a + S1x1x16.size a ≤ S4x20x128.size a
  inb_S4x20x128_S1x1x16_3_6_0 : ∀ a, (![3, 6, 0] : Fin 3 → Nat) a + S1x1x16.size a ≤ S4x20x128.size a
  inb_S4x20x128_S1x1x16_3_7_0 : ∀ a, (![3, 7, 0] : Fin 3 → Nat) a + S1x1x16.size a ≤ S4x20x128.size a
  inb_S4x20x128_S1x1x16_3_8_0 : ∀ a, (![3, 8, 0] : Fin 3 → Nat) a + S1x1x16.size a ≤ S4x20x128.size a
  inb_S4x20x128_S1x1x16_3_9_0 : ∀ a, (![3, 9, 0] : Fin 3 → Nat) a + S1x1x16.size a ≤ S4x20x128.size a
  inb_S4x20x128_S1x1x16_3_10_0 : ∀ a, (![3, 10, 0] : Fin 3 → Nat) a + S1x1x16.size a ≤ S4x20x128.size a
  inb_S4x20x128_S1x1x16_3_11_0 : ∀ a, (![3, 11, 0] : Fin 3 → Nat) a + S1x1x16.size a ≤ S4x20x128.size a
  inb_S4x20x128_S1x1x16_3_12_0 : ∀ a, (![3, 12, 0] : Fin 3 → Nat) a + S1x1x16.size a ≤ S4x20x128.size a
  inb_S4x20x128_S1x1x16_3_13_0 : ∀ a, (![3, 13, 0] : Fin 3 → Nat) a + S1x1x16.size a ≤ S4x20x128.size a
  inb_S4x20x128_S1x1x16_3_14_0 : ∀ a, (![3, 14, 0] : Fin 3 → Nat) a + S1x1x16.size a ≤ S4x20x128.size a
  inb_S4x20x128_S1x1x16_3_15_0 : ∀ a, (![3, 15, 0] : Fin 3 → Nat) a + S1x1x16.size a ≤ S4x20x128.size a
  inb_S4x20x128_S1x1x16_3_16_0 : ∀ a, (![3, 16, 0] : Fin 3 → Nat) a + S1x1x16.size a ≤ S4x20x128.size a
  inb_S4x20x128_S1x1x16_3_17_0 : ∀ a, (![3, 17, 0] : Fin 3 → Nat) a + S1x1x16.size a ≤ S4x20x128.size a
  inb_S4x20x128_S1x1x16_3_18_0 : ∀ a, (![3, 18, 0] : Fin 3 → Nat) a + S1x1x16.size a ≤ S4x20x128.size a
  inb_S4x20x128_S1x1x16_3_19_0 : ∀ a, (![3, 19, 0] : Fin 3 → Nat) a + S1x1x16.size a ≤ S4x20x128.size a
  inb_S4x20x128_S1x1x16_3_0_16 : ∀ a, (![3, 0, 16] : Fin 3 → Nat) a + S1x1x16.size a ≤ S4x20x128.size a
  inb_S4x20x128_S1x1x16_3_1_16 : ∀ a, (![3, 1, 16] : Fin 3 → Nat) a + S1x1x16.size a ≤ S4x20x128.size a
  inb_S4x20x128_S1x1x16_3_2_16 : ∀ a, (![3, 2, 16] : Fin 3 → Nat) a + S1x1x16.size a ≤ S4x20x128.size a
  inb_S4x20x128_S1x1x16_3_3_16 : ∀ a, (![3, 3, 16] : Fin 3 → Nat) a + S1x1x16.size a ≤ S4x20x128.size a
  inb_S4x20x128_S1x1x16_3_4_16 : ∀ a, (![3, 4, 16] : Fin 3 → Nat) a + S1x1x16.size a ≤ S4x20x128.size a
  inb_S4x20x128_S1x1x16_3_5_16 : ∀ a, (![3, 5, 16] : Fin 3 → Nat) a + S1x1x16.size a ≤ S4x20x128.size a
  inb_S4x20x128_S1x1x16_3_6_16 : ∀ a, (![3, 6, 16] : Fin 3 → Nat) a + S1x1x16.size a ≤ S4x20x128.size a
  inb_S4x20x128_S1x1x16_3_7_16 : ∀ a, (![3, 7, 16] : Fin 3 → Nat) a + S1x1x16.size a ≤ S4x20x128.size a
  inb_S4x20x128_S1x1x16_3_8_16 : ∀ a, (![3, 8, 16] : Fin 3 → Nat) a + S1x1x16.size a ≤ S4x20x128.size a
  inb_S4x20x128_S1x1x16_3_9_16 : ∀ a, (![3, 9, 16] : Fin 3 → Nat) a + S1x1x16.size a ≤ S4x20x128.size a
  inb_S4x20x128_S1x1x16_3_10_16 : ∀ a, (![3, 10, 16] : Fin 3 → Nat) a + S1x1x16.size a ≤ S4x20x128.size a
  inb_S4x20x128_S1x1x16_3_11_16 : ∀ a, (![3, 11, 16] : Fin 3 → Nat) a + S1x1x16.size a ≤ S4x20x128.size a
  inb_S4x20x128_S1x1x16_3_12_16 : ∀ a, (![3, 12, 16] : Fin 3 → Nat) a + S1x1x16.size a ≤ S4x20x128.size a
  inb_S4x20x128_S1x1x16_3_13_16 : ∀ a, (![3, 13, 16] : Fin 3 → Nat) a + S1x1x16.size a ≤ S4x20x128.size a
  inb_S4x20x128_S1x1x16_3_14_16 : ∀ a, (![3, 14, 16] : Fin 3 → Nat) a + S1x1x16.size a ≤ S4x20x128.size a
  inb_S4x20x128_S1x1x16_3_15_16 : ∀ a, (![3, 15, 16] : Fin 3 → Nat) a + S1x1x16.size a ≤ S4x20x128.size a
  inb_S4x20x128_S1x1x16_3_16_16 : ∀ a, (![3, 16, 16] : Fin 3 → Nat) a + S1x1x16.size a ≤ S4x20x128.size a
  inb_S4x20x128_S1x1x16_3_17_16 : ∀ a, (![3, 17, 16] : Fin 3 → Nat) a + S1x1x16.size a ≤ S4x20x128.size a
  inb_S4x20x128_S1x1x16_3_18_16 : ∀ a, (![3, 18, 16] : Fin 3 → Nat) a + S1x1x16.size a ≤ S4x20x128.size a
  inb_S4x20x128_S1x1x16_3_19_16 : ∀ a, (![3, 19, 16] : Fin 3 → Nat) a + S1x1x16.size a ≤ S4x20x128.size a
  inb_S4x20x128_S1x1x16_3_0_32 : ∀ a, (![3, 0, 32] : Fin 3 → Nat) a + S1x1x16.size a ≤ S4x20x128.size a
  inb_S4x20x128_S1x1x16_3_1_32 : ∀ a, (![3, 1, 32] : Fin 3 → Nat) a + S1x1x16.size a ≤ S4x20x128.size a
  inb_S4x20x128_S1x1x16_3_2_32 : ∀ a, (![3, 2, 32] : Fin 3 → Nat) a + S1x1x16.size a ≤ S4x20x128.size a
  inb_S4x20x128_S1x1x16_3_3_32 : ∀ a, (![3, 3, 32] : Fin 3 → Nat) a + S1x1x16.size a ≤ S4x20x128.size a
  inb_S4x20x128_S1x1x16_3_4_32 : ∀ a, (![3, 4, 32] : Fin 3 → Nat) a + S1x1x16.size a ≤ S4x20x128.size a
  inb_S4x20x128_S1x1x16_3_5_32 : ∀ a, (![3, 5, 32] : Fin 3 → Nat) a + S1x1x16.size a ≤ S4x20x128.size a
  inb_S4x20x128_S1x1x16_3_6_32 : ∀ a, (![3, 6, 32] : Fin 3 → Nat) a + S1x1x16.size a ≤ S4x20x128.size a
  inb_S4x20x128_S1x1x16_3_7_32 : ∀ a, (![3, 7, 32] : Fin 3 → Nat) a + S1x1x16.size a ≤ S4x20x128.size a
  inb_S4x20x128_S1x1x16_3_8_32 : ∀ a, (![3, 8, 32] : Fin 3 → Nat) a + S1x1x16.size a ≤ S4x20x128.size a
  inb_S4x20x128_S1x1x16_3_9_32 : ∀ a, (![3, 9, 32] : Fin 3 → Nat) a + S1x1x16.size a ≤ S4x20x128.size a
  inb_S4x20x128_S1x1x16_3_10_32 : ∀ a, (![3, 10, 32] : Fin 3 → Nat) a + S1x1x16.size a ≤ S4x20x128.size a
  inb_S4x20x128_S1x1x16_3_11_32 : ∀ a, (![3, 11, 32] : Fin 3 → Nat) a + S1x1x16.size a ≤ S4x20x128.size a
  inb_S4x20x128_S1x1x16_3_12_32 : ∀ a, (![3, 12, 32] : Fin 3 → Nat) a + S1x1x16.size a ≤ S4x20x128.size a
  inb_S4x20x128_S1x1x16_3_13_32 : ∀ a, (![3, 13, 32] : Fin 3 → Nat) a + S1x1x16.size a ≤ S4x20x128.size a
  inb_S4x20x128_S1x1x16_3_14_32 : ∀ a, (![3, 14, 32] : Fin 3 → Nat) a + S1x1x16.size a ≤ S4x20x128.size a
  inb_S4x20x128_S1x1x16_3_15_32 : ∀ a, (![3, 15, 32] : Fin 3 → Nat) a + S1x1x16.size a ≤ S4x20x128.size a
  inb_S4x20x128_S1x1x16_3_16_32 : ∀ a, (![3, 16, 32] : Fin 3 → Nat) a + S1x1x16.size a ≤ S4x20x128.size a
  inb_S4x20x128_S1x1x16_3_17_32 : ∀ a, (![3, 17, 32] : Fin 3 → Nat) a + S1x1x16.size a ≤ S4x20x128.size a
  inb_S4x20x128_S1x1x16_3_18_32 : ∀ a, (![3, 18, 32] : Fin 3 → Nat) a + S1x1x16.size a ≤ S4x20x128.size a
  inb_S4x20x128_S1x1x16_3_19_32 : ∀ a, (![3, 19, 32] : Fin 3 → Nat) a + S1x1x16.size a ≤ S4x20x128.size a
  inb_S4x20x128_S1x1x16_3_0_48 : ∀ a, (![3, 0, 48] : Fin 3 → Nat) a + S1x1x16.size a ≤ S4x20x128.size a
  inb_S4x20x128_S1x1x16_3_1_48 : ∀ a, (![3, 1, 48] : Fin 3 → Nat) a + S1x1x16.size a ≤ S4x20x128.size a
  inb_S4x20x128_S1x1x16_3_2_48 : ∀ a, (![3, 2, 48] : Fin 3 → Nat) a + S1x1x16.size a ≤ S4x20x128.size a
  inb_S4x20x128_S1x1x16_3_3_48 : ∀ a, (![3, 3, 48] : Fin 3 → Nat) a + S1x1x16.size a ≤ S4x20x128.size a
  inb_S4x20x128_S1x1x16_3_4_48 : ∀ a, (![3, 4, 48] : Fin 3 → Nat) a + S1x1x16.size a ≤ S4x20x128.size a
  inb_S4x20x128_S1x1x16_3_5_48 : ∀ a, (![3, 5, 48] : Fin 3 → Nat) a + S1x1x16.size a ≤ S4x20x128.size a
  inb_S4x20x128_S1x1x16_3_6_48 : ∀ a, (![3, 6, 48] : Fin 3 → Nat) a + S1x1x16.size a ≤ S4x20x128.size a
  inb_S4x20x128_S1x1x16_3_7_48 : ∀ a, (![3, 7, 48] : Fin 3 → Nat) a + S1x1x16.size a ≤ S4x20x128.size a
  inb_S4x20x128_S1x1x16_3_8_48 : ∀ a, (![3, 8, 48] : Fin 3 → Nat) a + S1x1x16.size a ≤ S4x20x128.size a
  inb_S4x20x128_S1x1x16_3_9_48 : ∀ a, (![3, 9, 48] : Fin 3 → Nat) a + S1x1x16.size a ≤ S4x20x128.size a
  inb_S4x20x128_S1x1x16_3_10_48 : ∀ a, (![3, 10, 48] : Fin 3 → Nat) a + S1x1x16.size a ≤ S4x20x128.size a
  inb_S4x20x128_S1x1x16_3_11_48 : ∀ a, (![3, 11, 48] : Fin 3 → Nat) a + S1x1x16.size a ≤ S4x20x128.size a
  inb_S4x20x128_S1x1x16_3_12_48 : ∀ a, (![3, 12, 48] : Fin 3 → Nat) a + S1x1x16.size a ≤ S4x20x128.size a
  inb_S4x20x128_S1x1x16_3_13_48 : ∀ a, (![3, 13, 48] : Fin 3 → Nat) a + S1x1x16.size a ≤ S4x20x128.size a
  inb_S4x20x128_S1x1x16_3_14_48 : ∀ a, (![3, 14, 48] : Fin 3 → Nat) a + S1x1x16.size a ≤ S4x20x128.size a
  inb_S4x20x128_S1x1x16_3_15_48 : ∀ a, (![3, 15, 48] : Fin 3 → Nat) a + S1x1x16.size a ≤ S4x20x128.size a
  inb_S4x20x128_S1x1x16_3_16_48 : ∀ a, (![3, 16, 48] : Fin 3 → Nat) a + S1x1x16.size a ≤ S4x20x128.size a
  inb_S4x20x128_S1x1x16_3_17_48 : ∀ a, (![3, 17, 48] : Fin 3 → Nat) a + S1x1x16.size a ≤ S4x20x128.size a
  inb_S4x20x128_S1x1x16_3_18_48 : ∀ a, (![3, 18, 48] : Fin 3 → Nat) a + S1x1x16.size a ≤ S4x20x128.size a
  inb_S4x20x128_S1x1x16_3_19_48 : ∀ a, (![3, 19, 48] : Fin 3 → Nat) a + S1x1x16.size a ≤ S4x20x128.size a
  inb_S4x20x128_S1x1x16_3_0_64 : ∀ a, (![3, 0, 64] : Fin 3 → Nat) a + S1x1x16.size a ≤ S4x20x128.size a
  inb_S4x20x128_S1x1x16_3_1_64 : ∀ a, (![3, 1, 64] : Fin 3 → Nat) a + S1x1x16.size a ≤ S4x20x128.size a
  inb_S4x20x128_S1x1x16_3_2_64 : ∀ a, (![3, 2, 64] : Fin 3 → Nat) a + S1x1x16.size a ≤ S4x20x128.size a
  inb_S4x20x128_S1x1x16_3_3_64 : ∀ a, (![3, 3, 64] : Fin 3 → Nat) a + S1x1x16.size a ≤ S4x20x128.size a
  inb_S4x20x128_S1x1x16_3_4_64 : ∀ a, (![3, 4, 64] : Fin 3 → Nat) a + S1x1x16.size a ≤ S4x20x128.size a
  inb_S4x20x128_S1x1x16_3_5_64 : ∀ a, (![3, 5, 64] : Fin 3 → Nat) a + S1x1x16.size a ≤ S4x20x128.size a
  inb_S4x20x128_S1x1x16_3_6_64 : ∀ a, (![3, 6, 64] : Fin 3 → Nat) a + S1x1x16.size a ≤ S4x20x128.size a
  inb_S4x20x128_S1x1x16_3_7_64 : ∀ a, (![3, 7, 64] : Fin 3 → Nat) a + S1x1x16.size a ≤ S4x20x128.size a
  inb_S4x20x128_S1x1x16_3_8_64 : ∀ a, (![3, 8, 64] : Fin 3 → Nat) a + S1x1x16.size a ≤ S4x20x128.size a
  inb_S4x20x128_S1x1x16_3_9_64 : ∀ a, (![3, 9, 64] : Fin 3 → Nat) a + S1x1x16.size a ≤ S4x20x128.size a
  inb_S4x20x128_S1x1x16_3_10_64 : ∀ a, (![3, 10, 64] : Fin 3 → Nat) a + S1x1x16.size a ≤ S4x20x128.size a
  inb_S4x20x128_S1x1x16_3_11_64 : ∀ a, (![3, 11, 64] : Fin 3 → Nat) a + S1x1x16.size a ≤ S4x20x128.size a
  inb_S4x20x128_S1x1x16_3_12_64 : ∀ a, (![3, 12, 64] : Fin 3 → Nat) a + S1x1x16.size a ≤ S4x20x128.size a
  inb_S4x20x128_S1x1x16_3_13_64 : ∀ a, (![3, 13, 64] : Fin 3 → Nat) a + S1x1x16.size a ≤ S4x20x128.size a
  inb_S4x20x128_S1x1x16_3_14_64 : ∀ a, (![3, 14, 64] : Fin 3 → Nat) a + S1x1x16.size a ≤ S4x20x128.size a
  inb_S4x20x128_S1x1x16_3_15_64 : ∀ a, (![3, 15, 64] : Fin 3 → Nat) a + S1x1x16.size a ≤ S4x20x128.size a
  inb_S4x20x128_S1x1x16_3_16_64 : ∀ a, (![3, 16, 64] : Fin 3 → Nat) a + S1x1x16.size a ≤ S4x20x128.size a
  inb_S4x20x128_S1x1x16_3_17_64 : ∀ a, (![3, 17, 64] : Fin 3 → Nat) a + S1x1x16.size a ≤ S4x20x128.size a
  inb_S4x20x128_S1x1x16_3_18_64 : ∀ a, (![3, 18, 64] : Fin 3 → Nat) a + S1x1x16.size a ≤ S4x20x128.size a
  inb_S4x20x128_S1x1x16_3_19_64 : ∀ a, (![3, 19, 64] : Fin 3 → Nat) a + S1x1x16.size a ≤ S4x20x128.size a
  inb_S4x20x128_S1x1x16_3_0_80 : ∀ a, (![3, 0, 80] : Fin 3 → Nat) a + S1x1x16.size a ≤ S4x20x128.size a
  inb_S4x20x128_S1x1x16_3_1_80 : ∀ a, (![3, 1, 80] : Fin 3 → Nat) a + S1x1x16.size a ≤ S4x20x128.size a
  inb_S4x20x128_S1x1x16_3_2_80 : ∀ a, (![3, 2, 80] : Fin 3 → Nat) a + S1x1x16.size a ≤ S4x20x128.size a
  inb_S4x20x128_S1x1x16_3_3_80 : ∀ a, (![3, 3, 80] : Fin 3 → Nat) a + S1x1x16.size a ≤ S4x20x128.size a
  inb_S4x20x128_S1x1x16_3_4_80 : ∀ a, (![3, 4, 80] : Fin 3 → Nat) a + S1x1x16.size a ≤ S4x20x128.size a
  inb_S4x20x128_S1x1x16_3_5_80 : ∀ a, (![3, 5, 80] : Fin 3 → Nat) a + S1x1x16.size a ≤ S4x20x128.size a
  inb_S4x20x128_S1x1x16_3_6_80 : ∀ a, (![3, 6, 80] : Fin 3 → Nat) a + S1x1x16.size a ≤ S4x20x128.size a
  inb_S4x20x128_S1x1x16_3_7_80 : ∀ a, (![3, 7, 80] : Fin 3 → Nat) a + S1x1x16.size a ≤ S4x20x128.size a
  inb_S4x20x128_S1x1x16_3_8_80 : ∀ a, (![3, 8, 80] : Fin 3 → Nat) a + S1x1x16.size a ≤ S4x20x128.size a
  inb_S4x20x128_S1x1x16_3_9_80 : ∀ a, (![3, 9, 80] : Fin 3 → Nat) a + S1x1x16.size a ≤ S4x20x128.size a
  inb_S4x20x128_S1x1x16_3_10_80 : ∀ a, (![3, 10, 80] : Fin 3 → Nat) a + S1x1x16.size a ≤ S4x20x128.size a
  inb_S4x20x128_S1x1x16_3_11_80 : ∀ a, (![3, 11, 80] : Fin 3 → Nat) a + S1x1x16.size a ≤ S4x20x128.size a
  inb_S4x20x128_S1x1x16_3_12_80 : ∀ a, (![3, 12, 80] : Fin 3 → Nat) a + S1x1x16.size a ≤ S4x20x128.size a
  inb_S4x20x128_S1x1x16_3_13_80 : ∀ a, (![3, 13, 80] : Fin 3 → Nat) a + S1x1x16.size a ≤ S4x20x128.size a
  inb_S4x20x128_S1x1x16_3_14_80 : ∀ a, (![3, 14, 80] : Fin 3 → Nat) a + S1x1x16.size a ≤ S4x20x128.size a
  inb_S4x20x128_S1x1x16_3_15_80 : ∀ a, (![3, 15, 80] : Fin 3 → Nat) a + S1x1x16.size a ≤ S4x20x128.size a
  inb_S4x20x128_S1x1x16_3_16_80 : ∀ a, (![3, 16, 80] : Fin 3 → Nat) a + S1x1x16.size a ≤ S4x20x128.size a
  inb_S4x20x128_S1x1x16_3_17_80 : ∀ a, (![3, 17, 80] : Fin 3 → Nat) a + S1x1x16.size a ≤ S4x20x128.size a
  inb_S4x20x128_S1x1x16_3_18_80 : ∀ a, (![3, 18, 80] : Fin 3 → Nat) a + S1x1x16.size a ≤ S4x20x128.size a
  inb_S4x20x128_S1x1x16_3_19_80 : ∀ a, (![3, 19, 80] : Fin 3 → Nat) a + S1x1x16.size a ≤ S4x20x128.size a
  inb_S4x20x128_S1x1x16_3_0_96 : ∀ a, (![3, 0, 96] : Fin 3 → Nat) a + S1x1x16.size a ≤ S4x20x128.size a
  inb_S4x20x128_S1x1x16_3_1_96 : ∀ a, (![3, 1, 96] : Fin 3 → Nat) a + S1x1x16.size a ≤ S4x20x128.size a
  inb_S4x20x128_S1x1x16_3_2_96 : ∀ a, (![3, 2, 96] : Fin 3 → Nat) a + S1x1x16.size a ≤ S4x20x128.size a
  inb_S4x20x128_S1x1x16_3_3_96 : ∀ a, (![3, 3, 96] : Fin 3 → Nat) a + S1x1x16.size a ≤ S4x20x128.size a
  inb_S4x20x128_S1x1x16_3_4_96 : ∀ a, (![3, 4, 96] : Fin 3 → Nat) a + S1x1x16.size a ≤ S4x20x128.size a
  inb_S4x20x128_S1x1x16_3_5_96 : ∀ a, (![3, 5, 96] : Fin 3 → Nat) a + S1x1x16.size a ≤ S4x20x128.size a
  inb_S4x20x128_S1x1x16_3_6_96 : ∀ a, (![3, 6, 96] : Fin 3 → Nat) a + S1x1x16.size a ≤ S4x20x128.size a
  inb_S4x20x128_S1x1x16_3_7_96 : ∀ a, (![3, 7, 96] : Fin 3 → Nat) a + S1x1x16.size a ≤ S4x20x128.size a
  inb_S4x20x128_S1x1x16_3_8_96 : ∀ a, (![3, 8, 96] : Fin 3 → Nat) a + S1x1x16.size a ≤ S4x20x128.size a
  inb_S4x20x128_S1x1x16_3_9_96 : ∀ a, (![3, 9, 96] : Fin 3 → Nat) a + S1x1x16.size a ≤ S4x20x128.size a
  inb_S4x20x128_S1x1x16_3_10_96 : ∀ a, (![3, 10, 96] : Fin 3 → Nat) a + S1x1x16.size a ≤ S4x20x128.size a
  inb_S4x20x128_S1x1x16_3_11_96 : ∀ a, (![3, 11, 96] : Fin 3 → Nat) a + S1x1x16.size a ≤ S4x20x128.size a
  inb_S4x20x128_S1x1x16_3_12_96 : ∀ a, (![3, 12, 96] : Fin 3 → Nat) a + S1x1x16.size a ≤ S4x20x128.size a
  inb_S4x20x128_S1x1x16_3_13_96 : ∀ a, (![3, 13, 96] : Fin 3 → Nat) a + S1x1x16.size a ≤ S4x20x128.size a
  inb_S4x20x128_S1x1x16_3_14_96 : ∀ a, (![3, 14, 96] : Fin 3 → Nat) a + S1x1x16.size a ≤ S4x20x128.size a
  inb_S4x20x128_S1x1x16_3_15_96 : ∀ a, (![3, 15, 96] : Fin 3 → Nat) a + S1x1x16.size a ≤ S4x20x128.size a
  inb_S4x20x128_S1x1x16_3_16_96 : ∀ a, (![3, 16, 96] : Fin 3 → Nat) a + S1x1x16.size a ≤ S4x20x128.size a
  inb_S4x20x128_S1x1x16_3_17_96 : ∀ a, (![3, 17, 96] : Fin 3 → Nat) a + S1x1x16.size a ≤ S4x20x128.size a
  inb_S4x20x128_S1x1x16_3_18_96 : ∀ a, (![3, 18, 96] : Fin 3 → Nat) a + S1x1x16.size a ≤ S4x20x128.size a
  inb_S4x20x128_S1x1x16_3_19_96 : ∀ a, (![3, 19, 96] : Fin 3 → Nat) a + S1x1x16.size a ≤ S4x20x128.size a
  inb_S4x20x128_S1x1x16_3_0_112 : ∀ a, (![3, 0, 112] : Fin 3 → Nat) a + S1x1x16.size a ≤ S4x20x128.size a
  inb_S4x20x128_S1x1x16_3_1_112 : ∀ a, (![3, 1, 112] : Fin 3 → Nat) a + S1x1x16.size a ≤ S4x20x128.size a
  inb_S4x20x128_S1x1x16_3_2_112 : ∀ a, (![3, 2, 112] : Fin 3 → Nat) a + S1x1x16.size a ≤ S4x20x128.size a
  inb_S4x20x128_S1x1x16_3_3_112 : ∀ a, (![3, 3, 112] : Fin 3 → Nat) a + S1x1x16.size a ≤ S4x20x128.size a
  inb_S4x20x128_S1x1x16_3_4_112 : ∀ a, (![3, 4, 112] : Fin 3 → Nat) a + S1x1x16.size a ≤ S4x20x128.size a
  inb_S4x20x128_S1x1x16_3_5_112 : ∀ a, (![3, 5, 112] : Fin 3 → Nat) a + S1x1x16.size a ≤ S4x20x128.size a
  inb_S4x20x128_S1x1x16_3_6_112 : ∀ a, (![3, 6, 112] : Fin 3 → Nat) a + S1x1x16.size a ≤ S4x20x128.size a
  inb_S4x20x128_S1x1x16_3_7_112 : ∀ a, (![3, 7, 112] : Fin 3 → Nat) a + S1x1x16.size a ≤ S4x20x128.size a
  inb_S4x20x128_S1x1x16_3_8_112 : ∀ a, (![3, 8, 112] : Fin 3 → Nat) a + S1x1x16.size a ≤ S4x20x128.size a
  inb_S4x20x128_S1x1x16_3_9_112 : ∀ a, (![3, 9, 112] : Fin 3 → Nat) a + S1x1x16.size a ≤ S4x20x128.size a
  inb_S4x20x128_S1x1x16_3_10_112 : ∀ a, (![3, 10, 112] : Fin 3 → Nat) a + S1x1x16.size a ≤ S4x20x128.size a
  inb_S4x20x128_S1x1x16_3_11_112 : ∀ a, (![3, 11, 112] : Fin 3 → Nat) a + S1x1x16.size a ≤ S4x20x128.size a
  inb_S4x20x128_S1x1x16_3_12_112 : ∀ a, (![3, 12, 112] : Fin 3 → Nat) a + S1x1x16.size a ≤ S4x20x128.size a
  inb_S4x20x128_S1x1x16_3_13_112 : ∀ a, (![3, 13, 112] : Fin 3 → Nat) a + S1x1x16.size a ≤ S4x20x128.size a
  inb_S4x20x128_S1x1x16_3_14_112 : ∀ a, (![3, 14, 112] : Fin 3 → Nat) a + S1x1x16.size a ≤ S4x20x128.size a
  inb_S4x20x128_S1x1x16_3_15_112 : ∀ a, (![3, 15, 112] : Fin 3 → Nat) a + S1x1x16.size a ≤ S4x20x128.size a
  inb_S4x20x128_S1x1x16_3_16_112 : ∀ a, (![3, 16, 112] : Fin 3 → Nat) a + S1x1x16.size a ≤ S4x20x128.size a
  inb_S4x20x128_S1x1x16_3_17_112 : ∀ a, (![3, 17, 112] : Fin 3 → Nat) a + S1x1x16.size a ≤ S4x20x128.size a
  inb_S4x20x128_S1x1x16_3_18_112 : ∀ a, (![3, 18, 112] : Fin 3 → Nat) a + S1x1x16.size a ≤ S4x20x128.size a
  inb_S4x20x128_S1x1x16_3_19_112 : ∀ a, (![3, 19, 112] : Fin 3 → Nat) a + S1x1x16.size a ≤ S4x20x128.size a
  inb_S256x128_S64x128_0_0 : ∀ a, (![0, 0] : Fin 2 → Nat) a + S64x128.size a ≤ S256x128.size a
  inb_S256x128_S64x128_64_0 : ∀ a, (![64, 0] : Fin 2 → Nat) a + S64x128.size a ≤ S256x128.size a
  inb_S256x128_S64x128_128_0 : ∀ a, (![128, 0] : Fin 2 → Nat) a + S64x128.size a ≤ S256x128.size a
  inb_S256x128_S64x128_192_0 : ∀ a, (![192, 0] : Fin 2 → Nat) a + S64x128.size a ≤ S256x128.size a
  shapeCasts_S8192x128_S16x512x128 : S8192x128.ShapeCasts S16x512x128
  hcc0_scratch3 : 0 + S_.numel ≤ 6
  hcc0_scratch4 : 1 + S_.numel ≤ 6
  hcc0_scratch5 : 2 + S_.numel ≤ 6
  hcc0_scratch6 : 3 + S_.numel ≤ 6
  hcc0_scratch7 : 4 + S_.numel ≤ 6
  hcc0_scoped0 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x256x20.size a ≤ S16x512x20.size a
  k0_t1_ok : k0_t1_loop.OK
  k0_off2_inb : ∀ k0_t1 : Fin k0_t1_loop.trips, ∀ (k0_h1 : k0_cond1 k0_t1 = 1#1), ∀ a, (k0_off2 k0_t1) a + S1x20.size a ≤ S256x20.size a
  k0_off3_inb : ∀ k0_t1 : Fin k0_t1_loop.trips, ∀ (r : Fin 4), ∀ a, (k0_off3 k0_t1 (BitVec.ofNat 32 r.val)) a + S1x20.size a ≤ S256x20.size a
  k0_off4_inb : ∀ k0_t1 : Fin k0_t1_loop.trips, ∀ (r : Fin 4), ∀ a, (k0_off4 k0_t1 (BitVec.ofNat 32 r.val)) a + S1x16.size a ≤ S256x128.size a
  k0_off5_inb : ∀ k0_t1 : Fin k0_t1_loop.trips, ∀ (r : Fin 4), ∀ a, (k0_off5 k0_t1 (BitVec.ofNat 32 r.val)) a + S1x16.size a ≤ S256x128.size a
  k0_off6_inb : ∀ k0_t1 : Fin k0_t1_loop.trips, ∀ (r : Fin 4), ∀ a, (k0_off6 k0_t1 (BitVec.ofNat 32 r.val)) a + S1x16.size a ≤ S256x128.size a
  k0_off7_inb : ∀ k0_t1 : Fin k0_t1_loop.trips, ∀ (r : Fin 4), ∀ a, (k0_off7 k0_t1 (BitVec.ofNat 32 r.val)) a + S1x16.size a ≤ S256x128.size a
  k0_off8_inb : ∀ k0_t1 : Fin k0_t1_loop.trips, ∀ (r : Fin 4), ∀ a, (k0_off8 k0_t1 (BitVec.ofNat 32 r.val)) a + S1x16.size a ≤ S256x128.size a
  k0_off9_inb : ∀ k0_t1 : Fin k0_t1_loop.trips, ∀ (r : Fin 4), ∀ a, (k0_off9 k0_t1 (BitVec.ofNat 32 r.val)) a + S1x16.size a ≤ S256x128.size a
  k0_off10_inb : ∀ k0_t1 : Fin k0_t1_loop.trips, ∀ (r : Fin 4), ∀ a, (k0_off10 k0_t1 (BitVec.ofNat 32 r.val)) a + S1x16.size a ≤ S256x128.size a
  k0_off11_inb : ∀ k0_t1 : Fin k0_t1_loop.trips, ∀ (r : Fin 4), ∀ a, (k0_off11 k0_t1 (BitVec.ofNat 32 r.val)) a + S1x16.size a ≤ S256x128.size a
  k0_off12_inb : ∀ k0_t1 : Fin k0_t1_loop.trips, ∀ (k0_h2 : k0_cond2 k0_t1 = 1#1), ∀ a, (k0_off12 k0_t1) a + S1x20.size a ≤ S256x20.size a
  k0_off13_inb : ∀ k0_t1 : Fin k0_t1_loop.trips, ∀ (k0_h3 : k0_cond3 k0_t1 = 1#1), ∀ a, (k0_off13 k0_t1) a + S1x20.size a ≤ S256x20.size a
  k0_off14_inb : ∀ k0_t1 : Fin k0_t1_loop.trips, ∀ (k0_h4 : k0_cond4 k0_t1 = 1#1), ∀ a, (k0_off14 k0_t1) a + S1x20.size a ≤ S256x20.size a
  k0_off15_inb : ∀ k0_t1 : Fin k0_t1_loop.trips, ∀ (k0_h5 : k0_cond5 k0_t1 = 1#1), ∀ a, (k0_off15 k0_t1) a + S64x128.size a ≤ S256x128.size a
  k0_off16_inb : ∀ (i : grid0.Coords) (k0_t1 : Fin k0_t1_loop.trips), ∀ (k0_h5 : k0_cond5 k0_t1 = 1#1), ∀ a, (k0_off16 i k0_t1) a + S64x128.size a ≤ S8192x128.size a
  k0_off17_inb : ∀ i : grid0.Coords, ∀ (r : Fin 4), ∀ a, (k0_off17 i (BitVec.ofNat 32 (64 * r.val))) a + S64x128.size a ≤ S8192x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scoped0 : DmaSems sig S_ := SemArray.consecutive 5 S_ hcc0_scoped0

class Facts : Prop extends Facts₀ where

variable [Facts]
-- ==== ReferenceIdeal.lean ====
abbrev S16x512x20 : Shape := ⟨3, ![16, 512, 20]⟩
abbrev S100000x128 : Shape := ⟨2, ![100000, 128]⟩
abbrev S_ : Shape := ⟨0, ![]⟩
abbrev S16x512x20x1 : Shape := ⟨4, ![16, 512, 20, 1]⟩
abbrev S1 : Shape := ⟨1, ![1]⟩
abbrev S1x1x1x1 : Shape := ⟨4, ![1, 1, 1, 1]⟩
abbrev S16x512x20x128 : Shape := ⟨4, ![16, 512, 20, 128]⟩
abbrev S16x512x128 : Shape := ⟨3, ![16, 512, 128]⟩

abbrev nBuf : Space → Nat
  | .hbm => 27
  | .vmem => 0
  | .smem => 0
  | _ => 0

abbrev bufTy : (tb : Table) → Fin (tcTables nBuf tb) → BufTy
  | .hbm, ⟨0, _⟩ => ⟨S16x512x20, .i32⟩
  | .hbm, ⟨1, _⟩ => ⟨S100000x128, .f32⟩
  | .hbm, ⟨2, _⟩ => ⟨S_, .i32⟩
  | .hbm, ⟨3, _⟩ => ⟨S16x512x20, .i32⟩
  | .hbm, ⟨4, _⟩ => ⟨S16x512x20, .i1⟩
  | .hbm, ⟨5, _⟩ => ⟨S_, .i32⟩
  | .hbm, ⟨6, _⟩ => ⟨S16x512x20, .i32⟩
  | .hbm, ⟨7, _⟩ => ⟨S16x512x20, .i32⟩
  | .hbm, ⟨8, _⟩ => ⟨S16x512x20, .i32⟩
  | .hbm, ⟨9, _⟩ => ⟨S16x512x20x1, .i32⟩
  | .hbm, ⟨10, _⟩ => ⟨S1, .i32⟩
  | .hbm, ⟨11, _⟩ => ⟨S_, .i32⟩
  | .hbm, ⟨12, _⟩ => ⟨S16x512x20x1, .i32⟩
  | .hbm, ⟨13, _⟩ => ⟨S16x512x20x1, .i1⟩
  | .hbm, ⟨14, _⟩ => ⟨S1x1x1x1, .i32⟩
  | .hbm, ⟨15, _⟩ => ⟨S16x512x20x1, .i32⟩
  | .hbm, ⟨16, _⟩ => ⟨S16x512x20x1, .i1⟩
  | .hbm, ⟨17, _⟩ => ⟨S16x512x20x1, .i1⟩
  | .hbm, ⟨18, _⟩ => ⟨S_, .i1⟩
  | .hbm, ⟨19, _⟩ => ⟨S16x512x20, .i1⟩
  | .hbm, ⟨20, _⟩ => ⟨S16x512x20x128, .f32⟩
  | .hbm, ⟨21, _⟩ => ⟨S16x512x20x128, .i1⟩
  | .hbm, ⟨22, _⟩ => ⟨S_, .f32⟩
  | .hbm, ⟨23, _⟩ => ⟨S16x512x20x128, .f32⟩
  | .hbm, ⟨24, _⟩ => ⟨S16x512x20x128, .f32⟩
  | .hbm, ⟨25, _⟩ => ⟨S_, .f32⟩
  | .hbm, ⟨26, _⟩ => ⟨S16x512x128, .f32⟩
  | _, _ => ⟨S16x512x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S16x512x20 : S_.BroadcastsInDim S16x512x20 (![] : Fin 0 → Fin S16x512x20.rank)
  bcast_S16x512x20_S16x512x20x1_0_1_2 : S16x512x20.BroadcastsInDim S16x512x20x1 (![0, 1, 2] : Fin 3 → Fin S16x512x20x1.rank)
  bcast_S_S16x512x20x1 : S_.BroadcastsInDim S16x512x20x1 (![] : Fin 0 → Fin S16x512x20x1.rank)
  bcast_S1_S1x1x1x1_3 : S1.BroadcastsInDim S1x1x1x1 (![3] : Fin 1 → Fin S1x1x1x1.rank)
  bcast_S1x1x1x1_S16x512x20x1_0_1_2_3 : S1x1x1x1.BroadcastsInDim S16x512x20x1 (![0, 1, 2, 3] : Fin 4 → Fin S16x512x20x1.rank)
  reducesTo_S16x512x20x1_S16x512x20_d3 : S16x512x20x1.ReducesTo [3] S16x512x20
  h_S_ : 0 < S_.numel
  bcast_S16x512x20_S16x512x20x128_0_1_2 : S16x512x20.BroadcastsInDim S16x512x20x128 (![0, 1, 2] : Fin 3 → Fin S16x512x20x128.rank)
  bcast_S_S16x512x20x128 : S_.BroadcastsInDim S16x512x20x128 (![] : Fin 0 → Fin S16x512x20x128.rank)
  reducesTo_S16x512x20x128_S16x512x128_d2 : S16x512x20x128.ReducesTo [2] S16x512x128
  gather_S100000x128_S16x512x20x1_S16x512x20x128_3_0_n_n_0_3_1128_wf : GatherDims.WF S100000x128 S16x512x20x1 S16x512x20x128 [3] [0] [] [0] [] 3 ![1, 128]

variable [Facts₀]

def gather_S100000x128_S16x512x20x1_S16x512x20x128_3_0_n_n_0_3_1128 : GatherDims S100000x128 S16x512x20x1 S16x512x20x128 where
  offsetDims := [3]
  collapsedSliceDims := [0]
  operandBatchingDims := []
  startIndicesBatchingDims := []
  startIndexMap := [0]
  indexVectorDim := 3
  sliceSizes := ![1, 128]
  wf := gather_S100000x128_S16x512x20x1_S16x512x20x128_3_0_n_n_0_3_1128_wf

class Facts : Prop extends Facts₀ where

variable [Facts]
-- ==== Proof.Spec.lean ====
/-
  The result both programs compute, as ONE function of the two argument arrays: entry (b, l, d) of the result is the
  sum over the twenty terms tt of the table's entry (row, d), where row is the tt-th index word of residue (b, l).
  An index word is read as a row number through its unsigned value; `InRange` says every word names a row.
-/
import Idealize.ShloMosaic.PureOps.Ideal
import Idealize.ShloMosaic.Lib.ValueIdx

noncomputable section

namespace Cert.Spec

open Idealize.ShloMosaic

abbrev SIdx : Shape := ⟨3, ![16, 512, 20]⟩
abbrev STab : Shape := ⟨2, ![100000, 128]⟩
abbrev SOut : Shape := ⟨3, ![16, 512, 128]⟩

/-- Every index word names one of the table's 100000 rows. -/
def InRange (idx : IVec SIdx 32) : Prop := ∀ i, (idx i).toNat < 100000

/-- The row a word names (its unsigned value; reduced so that the definition is total). -/
def row (v : BitVec 32) : Fin 100000 := ⟨v.toNat % 100000, Nat.mod_lt _ (by decide)⟩

/-- Entry (b, l, d): the sum over tt of table[idx[b, l, tt], d], on the extended reals. -/
def G (idx : IVec SIdx 32) (tbl : FVec Ideal STab .f32) : FVec Ideal SOut .f32 :=
  fun j =>
    let b : Fin 16 := j 0
    let l : Fin 512 := j 1
    let d : Fin 128 := j 2
    ∑ tt : Fin 20, tbl (ValueIdx.ix2 (row (idx (ValueIdx.ix3 b l tt))) d)

end Cert.Spec

end
-- ==== Proof.RefPre.lean ====
/-
  The precondition read back: the precondition function all ones says every index word, read signed, lies between 0
  and 99999, hence its unsigned value is below 100000 and it names a row of the table.
-/
import proofs.«208374_g60447369724146_cont_9to1c4b_798_24_alg».proof.Pre_input_domain
import proofs.«208374_g60447369724146_cont_9to1c4b_798_24_alg».proof.Proof.Spec
import Idealize.ShloMosaic.Lib.ReduceAll
import Idealize.ShloMosaic.Lib.ValueIdx

namespace Cert.ReferenceIdeal.RefRun
open Idealize.ShloMosaic

/-- The precondition function all ones gives: every index word names a row. Generic in the float instance. -/
theorem inRange_of_fn {F : FTy → Type} [FloatOps F] [Cert.Pre_input_domain.Facts]
    (idx : IVec Cert.Pre_input_domain.S16x512x20 32) (tbl : FVec F Cert.Pre_input_domain.S100000x128 .f32)
    (h : Cert.Pre_input_domain.fn (F := F) idx tbl = fun _ => 1#1) : Cert.Spec.InRange idx := by
  haveI : Subsingleton Cert.Pre_input_domain.S_.Idx := ⟨fun a b => funext fun d => d.elim0⟩
  have h0 := congrFun h ValueIdx.ix0
  dsimp only [Cert.Pre_input_domain.fn] at h0
  obtain ⟨_, h2⟩ := IntOp.andi_eq_one.1 h0
  intro i
  have hi := Host.reduce_andi_all _ _ _ _ _ h2 i
  obtain ⟨hge, hle⟩ := IntOp.andi_eq_one.1 hi
  have hge' : (0#32 : BitVec 32).toInt ≤ (idx i).toInt := IntOp.cmpi_sge.1 hge
  have hle' : (idx i).toInt ≤ (99999#32 : BitVec 32).toInt := IntOp.cmpi_sle.1 hle
  have e0 : (0#32 : BitVec 32).toInt = 0 := by decide
  have e1 : (99999#32 : BitVec 32).toInt = 99999 := by decide
  rw [e0] at hge'; rw [e1] at hle'
  have hc := BitVec.toInt_eq_toNat_cond (idx i)
  have hlt := (idx i).isLt
  split at hc <;> omega

end Cert.ReferenceIdeal.RefRun
-- ==== Proof.RefTerm.lean ====
/-
  The reference's result as ONE term of the two argument arrays, and that term read index by index. The term is the
  composition of the reference's operations: the index words wrapped (a negative word plus 100000), the wrapped words as
  a column of start indices, the mask "0 ≤ start ≤ 99999" reduced by and over the unit axis, the gather of table rows at
  the starts, the select of the gathered rows against the constant a masked-out row is filled with, and the sum over the
  axis of twenty terms from the initial value 0. When every index word names a row the wrap is the identity, the mask is
  all ones, the gather reads the named row, and the sum from 0 is the plain sum: the term is `Spec.G`.
-/
import proofs.«208374_g60447369724146_cont_9to1c4b_798_24_alg».proof.ReferenceIdeal
import proofs.«208374_g60447369724146_cont_9to1c4b_798_24_alg».proof.Proof.Spec
import Idealize.ShloMosaic.Lib.ValueIdx
import Idealize.ShloMosaic.Lib.Affine
import Idealize.ShloMosaic.PureOps.Reduce
import Idealize.ShloMosaic.PureOps.Ideal.Laws

noncomputable section

namespace Cert.ReferenceIdeal.RefRun

open Idealize.ShloMosaic Idealize.ShloMosaic.ValueIdx Cert.ReferenceIdeal
open scoped BigOperators

variable [Facts₀]
open Facts₀

/-! ## The term -/

/-- The index words after the wrap: a word that reads negative has 100000 added. -/
def wrapped (idx : IVec S16x512x20 32) : IVec S16x512x20 32 :=
  select (cmpi .slt idx (broadcastInDim S16x512x20 ![] bcast_S_S16x512x20 (constantI S_ 32 0#32)))
    (addi idx (broadcastInDim S16x512x20 ![] bcast_S_S16x512x20 (constantI S_ 32 100000#32))) idx

/-- The wrapped words as a column of one-component start indices. -/
def starts (idx : IVec S16x512x20 32) : IVec S16x512x20x1 32 :=
  broadcastInDim S16x512x20x1 ![0, 1, 2] bcast_S16x512x20_S16x512x20x1_0_1_2 (wrapped idx)

/-- The bounds mask: at each position, whether the start lies between 0 and 99999, read signed. -/
def mask (idx : IVec S16x512x20 32) : IVec S16x512x20 1 :=
  Host.reduce IntOp.andi
    (andi (cmpi .sge (starts idx) (broadcastInDim S16x512x20x1 ![] bcast_S_S16x512x20x1 (constantI S_ 32 0#32)))
      (cmpi .sle (starts idx) (broadcastInDim S16x512x20x1 ![0, 1, 2, 3] bcast_S1x1x1x1_S16x512x20x1_0_1_2_3
        (broadcastInDim S1x1x1x1 ![3] bcast_S1_S1x1x1x1_3 (constantI S1 32 99999#32)))))
    (constantI S_ 1 1#1) reducesTo_S16x512x20x1_S16x512x20_d3 h_S_

variable {F : FTy → Type} [FloatOps F]

/-- The rows taken: the gathered row where the mask holds, the fill constant elsewhere. -/
def taken (idx : IVec S16x512x20 32) (tbl : FVec F S100000x128 .f32) : FVec F S16x512x20x128 .f32 :=
  select (broadcastInDim S16x512x20x128 ![0, 1, 2] bcast_S16x512x20_S16x512x20x128_0_1_2 (mask idx))
    (Host.gather gather_S100000x128_S16x512x20x1_S16x512x20x128_3_0_n_n_0_3_1128 tbl (starts idx))
    (broadcastInDim S16x512x20x128 ![] bcast_S_S16x512x20x128 (constant S_ .f32 0x7FC00000#32))

/-- The reference's result: the rows taken, summed over the axis of twenty terms from the initial value 0. -/
def refTerm (idx : IVec S16x512x20 32) (tbl : FVec F S100000x128 .f32) : FVec F S16x512x128 .f32 :=
  Host.reduceAdd (taken idx tbl) (constant S_ .f32 0x00000000#32) reducesTo_S16x512x20x128_S16x512x128_d2 h_S_

/-! ## Words -/

/-- A word whose unsigned value is below 100000 reads the same signed. -/
theorem toInt_of_lt {x : BitVec 32} (h : x.toNat < 100000) : x.toInt = (x.toNat : Int) :=
  BitVec.toInt_eq_toNat_of_lt (by omega)

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-! ## The pieces at an index, when every index word names a row -/

/-- The wrap is the identity on a word that names a row. -/
theorem wrapped_apply {idx : IVec S16x512x20 32} (h : Cert.Spec.InRange idx) (i : S16x512x20.Idx) :
    wrapped idx i = idx i := by
  have hi := toInt_of_lt (h i)
  show Scalar.select (IntOp.cmpi .slt (idx i) 0#32) (IntOp.addi (idx i) 100000#32) (idx i) = idx i
  unfold Scalar.select
  rw [if_neg]
  intro hc
  have := IntOp.cmpi_slt.1 hc
  rw [hi, show (0#32 : BitVec 32).toInt = 0 from by decide] at this
  omega

/-- A start index is the wrapped word at the position's first three coordinates. -/
theorem starts_apply (idx : IVec S16x512x20 32) (b : Fin 16) (l : Fin 512) (k : Fin 20) (z : Fin 1) :
    starts idx (ix4 b l k z) = wrapped idx (ix3 b l k) := by
  unfold starts broadcastInDim
  refine congrArg (wrapped idx) ?_
  funext a
  match a with
  | ⟨0, _⟩ => rfl
  | ⟨1, _⟩ => rfl
  | ⟨2, _⟩ => rfl

/-- The mask is all ones. -/
theorem mask_apply {idx : IVec S16x512x20 32} (h : Cert.Spec.InRange idx) (i : S16x512x20.Idx) : mask idx i = 1#1 := by
  unfold mask
  rw [Host.reduce_eq_foldl]
  refine foldl_andi_one _ _ fun j _ => ?_
  obtain ⟨b, l, k, z, rfl⟩ : ∃ b l k z, j = ix4 b l k z := ⟨_, _, _, _, eq_ix4 j⟩
  show IntOp.andi (IntOp.cmpi .sge (starts idx (ix4 b l k z)) 0#32) (IntOp.cmpi .sle (starts idx (ix4 b l k z)) 99999#32) = 1#1
  rw [starts_apply, wrapped_apply h]
  have hlt := h (ix3 b l k)
  have hi := toInt_of_lt hlt
  refine IntOp.andi_eq_one.2 ⟨IntOp.cmpi_sge.2 ?_, IntOp.cmpi_sle.2 ?_⟩
  · rw [hi, show (0#32 : BitVec 32).toInt = 0 from by decide]; omega
  · rw [hi, show (99999#32 : BitVec 32).toInt = 99999 from by decide]; omega

/-- The gather read at a position: the table at the row the position's start word names — the word read signed and
    clamped into the table — and at the position's last coordinate. -/
theorem gather_apply {α : Type} (x : S100000x128.Idx → α) (st : IVec S16x512x20x1 32)
    (b : Fin 16) (l : Fin 512) (k : Fin 20) (d : Fin 128) :
    Host.gather gather_S100000x128_S16x512x20x1_S16x512x20x128_3_0_n_n_0_3_1128 x st (ix4 b l k d)
      = x (ix2 ⟨min (st (ix4 b l k 0)).toInt.toNat 99999, by omega⟩ d) := by
  unfold Host.gather
  refine congrArg x ?_
  funext a
  refine Fin.ext ?_
  match a with
  | ⟨0, _⟩ =>
    show gather_S100000x128_S16x512x20x1_S16x512x20x128_3_0_n_n_0_3_1128.start (ix4 b l k d) st 0
        + gather_S100000x128_S16x512x20x1_S16x512x20x128_3_0_n_n_0_3_1128.batchCoord (ix4 b l k d) 0
        + gather_S100000x128_S16x512x20x1_S16x512x20x128_3_0_n_n_0_3_1128.offCoord (ix4 b l k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S16x512x20x1_S16x512x20x128_3_0_n_n_0_3_1128.startIndexMap from List.mem_singleton.mpr rfl)]
    have hsi : gather_S100000x128_S16x512x20x1_S16x512x20x128_3_0_n_n_0_3_1128.siIdx (ix4 b l k d)
        ⟨List.idxOf (0 : Fin 2) gather_S100000x128_S16x512x20x1_S16x512x20x128_3_0_n_n_0_3_1128.startIndexMap,
          List.idxOf_lt_length_iff.2 (List.mem_singleton.mpr rfl)⟩ = ix4 b l k 0 := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S100000x128_S16x512x20x1_S16x512x20x128_3_0_n_n_0_3_1128.start (ix4 b l k d) st 1
        + gather_S100000x128_S16x512x20x1_S16x512x20x128_3_0_n_n_0_3_1128.batchCoord (ix4 b l k d) 1
        + gather_S100000x128_S16x512x20x1_S16x512x20x128_3_0_n_n_0_3_1128.offCoord (ix4 b l k d) 1 = d.val
    rw [GatherDims.batchCoord_eq_zero _ _ _ List.not_mem_nil]
    unfold GatherDims.start
    rw [dif_neg (show (1 : Fin 2) ∉ gather_S100000x128_S16x512x20x1_S16x512x20x128_3_0_n_n_0_3_1128.startIndexMap from
      fun h => absurd (List.mem_singleton.1 h) (by decide))]
    unfold GatherDims.offCoord
    rw [dif_pos (show (1 : Fin 2) ∈ gather_S100000x128_S16x512x20x1_S16x512x20x128_3_0_n_n_0_3_1128.sKept from
      (GatherDims.mem_sKept _ _).2 ⟨fun h => absurd (List.mem_singleton.1 h) (by decide), List.not_mem_nil⟩)]
    simp only [Nat.add_zero, Nat.zero_add]
    rfl

/-- A row taken, when every index word names a row: the table's entry at the row the word names. -/
theorem taken_apply {idx : IVec S16x512x20 32} (h : Cert.Spec.InRange idx) (tbl : FVec F S100000x128 .f32)
    (b : Fin 16) (l : Fin 512) (k : Fin 20) (d : Fin 128) :
    taken idx tbl (ix4 b l k d) = tbl (ix2 (Cert.Spec.row (idx (ix3 b l k))) d) := by
  have hm : broadcastInDim S16x512x20x128 ![0, 1, 2] bcast_S16x512x20_S16x512x20x128_0_1_2 (mask idx) (ix4 b l k d) = 1#1 := by
    unfold broadcastInDim; exact mask_apply h _
  unfold taken
  rw [select_apply, hm, select_one, gather_apply]
  refine congrArg tbl (congrArg (fun r => ix2 r d) (Fin.ext ?_))
  show min (starts idx (ix4 b l k 0)).toInt.toNat 99999 = (idx (ix3 b l k)).toNat % 100000
  rw [starts_apply, wrapped_apply h]
  have hlt := h (ix3 b l k)
  rw [toInt_of_lt hlt, Int.toNat_natCast]
  omega

/-- THE REFERENCE'S TERM IS THE SPECIFICATION, when every index word names a row: at each entry the sum from 0 over the
    twenty terms of the rows taken is the plain sum of the table's entries at the named rows. -/
theorem refTerm_eq_G {idx : IVec S16x512x20 32} (h : Cert.Spec.InRange idx) (tbl : FVec Ideal S100000x128 .f32) :
    refTerm (F := Ideal) idx tbl = Cert.Spec.G idx tbl := by
  funext j
  obtain ⟨b, l, d, rfl⟩ : ∃ b l d, j = ix3 b l d := ⟨_, _, _, eq_ix3 j⟩
  have hR : S16x512x20x128.Reduces [2] S16x512x128 := by decide
  show Ideal.hostReduceAdd reducesTo_S16x512x20x128_S16x512x128_d2 (taken (F := Ideal) idx tbl) (Ideal.ofBits .f32 0x00000000#32) (ix3 b l d)
    = ∑ tt : Fin 20, tbl (ix2 (Cert.Spec.row (idx (ix3 b l tt))) d)
  rw [Ideal.hostReduceAdd_single _ hR, Ideal.ofBits_zero_f32, zero_add]
  refine Finset.sum_congr rfl fun k _ => ?_
  have hk : hR.lift (ix3 b l d) k = ix4 b l k d := by
    funext a; refine Fin.ext ?_
    match a with
    | ⟨0, _⟩ => rfl
    | ⟨1, _⟩ => rfl
    | ⟨2, _⟩ => rfl
    | ⟨3, _⟩ => rfl
  rw [hk]
  exact taken_apply h tbl b l k d

end Cert.ReferenceIdeal.RefRun

end
-- ==== Proof.RefOps.lean ====
/-
  The reference program's @main as a LIST of its twenty-five operations — the outlined functions' operations listed in
  line at their calls, over the calls' buffer records — and its run read back: every weakly fair execution ends, each
  buffer at the fold of the operations' results over the launch contents.
-/
import proofs.«208374_g60447369724146_cont_9to1c4b_798_24_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- @main's operations in order, the calls unfolded: the take function's twenty-three (the select of the wrap is the
    where function's one, into that call's buffer), then @main's own two (the zero, the sum). -/
abbrev ops : List (HloOp τ sig (Elt F)) :=
  [ TRef.nullary main_call0.c (constantI S_ 32 0#32),
    TRef.unary main_call0.c main_call0.v0 (broadcastInDim S16x512x20 ![] bcast_S_S16x512x20),
    TRef.binary (.of main_arg0 : TRef sig ⟨S16x512x20, .i32⟩) main_call0.v0 main_call0.v1 (cmpi .slt),
    TRef.nullary main_call0.c_0 (constantI S_ 32 100000#32),
    TRef.unary main_call0.c_0 main_call0.v2 (broadcastInDim S16x512x20 ![] bcast_S_S16x512x20),
    TRef.binary (.of main_arg0 : TRef sig ⟨S16x512x20, .i32⟩) main_call0.v2 main_call0.v3 addi,
    TRef.ternary main_call0.v1 main_call0.v3 (.of main_arg0 : TRef sig ⟨S16x512x20, .i32⟩) main_call0.call0.v0 select,
    TRef.unary main_call0.call0.v0 main_call0.v5 (broadcastInDim S16x512x20x1 ![0, 1, 2] bcast_S16x512x20_S16x512x20x1_0_1_2),
    TRef.nullary main_call0.c_1 (constantI S1 32 99999#32),
    TRef.nullary main_call0.c_2 (constantI S_ 32 0#32),
    TRef.unary main_call0.c_2 main_call0.v6 (broadcastInDim S16x512x20x1 ![] bcast_S_S16x512x20x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S16x512x20x1 ![0, 1, 2, 3] bcast_S1x1x1x1_S16x512x20x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x512x20x1_S16x512x20_d3 h_S_),
    TRef.binary (.of main_arg1 : TRef sig ⟨S100000x128, .f32⟩) main_call0.v5 main_call0.v13 (fun x i => Host.gather gather_S100000x128_S16x512x20x1_S16x512x20x128_3_0_n_n_0_3_1128 x i),
    TRef.unary main_call0.v12 main_call0.v14 (broadcastInDim S16x512x20x128 ![0, 1, 2] bcast_S16x512x20_S16x512x20x128_0_1_2),
    TRef.nullary main_call0.cst (constant S_ .f32 0x7FC00000#32),
    TRef.unary main_call0.cst main_call0.v15 (broadcastInDim S16x512x20x128 ![] bcast_S_S16x512x20x128),
    TRef.ternary main_call0.v14 main_call0.v13 main_call0.v15 main_call0.v16 select,
    nullary main_cst (constant S_ .f32 0x00000000#32),
    binary main_v0 main_cst main_v1 ((fun x v => Host.reduceAdd x v reducesTo_S16x512x20x128_S16x512x128_d2 h_S_) : (⟨S16x512x20x128, .f32⟩ : BufTy).Contents (Elt F) → (⟨S_, .f32⟩ : BufTy).Contents (Elt F) → (⟨S16x512x128, .f32⟩ : BufTy).Contents (Elt F)) ]

set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub ..⟩

/-- At the compiled mesh, for any float values, from any memory with zero counters: every weakly fair execution of
    @main ends, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference's run, read back to the specification. The run of the operation list leaves the result buffer at the
  operations' composed term of the two argument arrays and the argument buffers as they were; when every index word
  names a row that term is `Spec.G` of the arguments, entry by entry.
-/
import proofs.«208374_g60447369724146_cont_9to1c4b_798_24_alg».proof.Defs
import proofs.«208374_g60447369724146_cont_9to1c4b_798_24_alg».proof.Proof.Gen.ReferenceIdeal
import proofs.«208374_g60447369724146_cont_9to1c4b_798_24_alg».proof.Proof.Gen.Pre_input_domain
import proofs.«208374_g60447369724146_cont_9to1c4b_798_24_alg».proof.Proof.Spec
import proofs.«208374_g60447369724146_cont_9to1c4b_798_24_alg».proof.Proof.RefPre
import proofs.«208374_g60447369724146_cont_9to1c4b_798_24_alg».proof.Proof.RefTerm
import proofs.«208374_g60447369724146_cont_9to1c4b_798_24_alg».proof.Proof.RefOps
import Idealize.ShloMosaic.Lib.StableHlo.Run

noncomputable section

namespace Cert.ReferenceIdeal.RefRun

open Idealize.ShloMosaic Idealize.SL.Sem Cert.ReferenceIdeal Idealize.ShloMosaic.TcCoe Idealize.ShloMosaic.StableHlo

section Fold

variable {F : FTy → Type} [FloatOps F] [Cert.ReferenceIdeal.Facts]

/-- The fold of the operations at the result buffer is the composed term of the two argument buffers' contents: each
    operation's result at its own buffer is its function's value, at any other buffer what was there; the transports
    between a buffer's type and its value's type are the identity at these references. -/
theorem out_eq (V : Valuation τ sig (Elt F)) :
    after ops V (main_v1 : DevRef τ sig) = refTerm (V (main_arg0 : DevRef τ sig)) (V (main_arg1 : DevRef τ sig)) := by
  after_results
  simp only [TRef.ofBuf, TRef.toBuf, cast_cast, cast_eq]
  rfl

/-- No operation writes the first argument's buffer. -/
theorem arg0_eq (V : Valuation τ sig (Elt F)) :
    after ops V (main_arg0 : DevRef τ sig) = V (main_arg0 : DevRef τ sig) := by
  after_results

/-- No operation writes the second argument's buffer. -/
theorem arg1_eq (V : Valuation τ sig (Elt F)) :
    after ops V (main_arg1 : DevRef τ sig) = V (main_arg1 : DevRef τ sig) := by
  after_results

end Fold

/-- The reference's run at Ideal: every weakly fair execution ends, the result array is Spec.G of the arguments, the arguments unchanged. -/
theorem run [Cert.ReferenceIdeal.Facts]
    (m : (ℓ : Loc nD τ sig) → Buf (Elt Ideal) ℓ) (ρ : Dev nD → PrngReg)
    (hin : ∀ c : Dev nD, Cert.Spec.InRange (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v1) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v1).trans ((out_eq (launchContents m c)).trans (refTerm_eq_G (hin c) _)),
        (h c main_arg0).trans (arg0_eq (launchContents m c)),
        (h c main_arg1).trans (arg1_eq (launchContents m c))⟩)
    (run_main (F := Ideal) m ρ)

end Cert.ReferenceIdeal.RefRun

end
-- ==== Proof.Setup.lean ====
/-
  The idealized kernel as the launch theorem sees it: the SparseCore configuration, the body table, the ghost state
  (the launch handshakes' rounds beside the transfers' counters), and the tile's buffers under the names the
  program gives them. Generic in the float instance.
-/
import proofs.«208374_g60447369724146_cont_9to1c4b_798_24_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«208374_g60447369724146_cont_9to1c4b_798_24_alg».proof.Proof.Gen.KernelIdeal
import proofs.«208374_g60447369724146_cont_9to1c4b_798_24_alg».proof.Proof.Gen.KernelIdeal.Skeleton

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
abbrev MM (F : FTy → Type) : Type := MT nD τ sig (HIx 1) (Elt F) ℕ UU ℕ
abbrev EH : Emb UH (MM F) := embL

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S16x512x20 .i32 := Memref.whole main_arg0_scv
abbrev xV : Memref sig .scVector .hbm S100000x128 .f32 := Memref.whole main_arg1_scv
abbrev oV : Memref sig .scVector .hbm S8192x128 .f32 := Memref.whole main_v0_scv
abbrev sV : Memref sig .scVector .vmem S256x20 .i32 := Memref.whole cc0_scratch0
abbrev rV : Memref sig .scVector .vmem S4x20x128 .f32 := Memref.whole cc0_scratch1
abbrev aV : Memref sig .scVector .vmem S256x128 .f32 := Memref.whole cc0_scratch2

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_k (coordsV c s)
          iV (Memref.isWhole_whole _) xV (Memref.isWhole_whole _) oV (Memref.isWhole_whole _)
          sV (Memref.isWhole_whole _) rV (Memref.isWhole_whole _) aV (Memref.isWhole_whole _)
          cc0_scratch3 cc0_scratch4 cc0_scratch5 cc0_scratch6 cc0_scratch7 cc0_scoped0) ⟨⟩ c s := rfl

end Cert.KernelIdeal.Tile

end
-- ==== Proof.Pieces.lean ====
/-
  What each of the 32 tiles is handed and hands back. Tile (c, s) — worker 2 s + c — takes rows
  [256 c, 256 c + 256) of batch s of the index array, a read share of the whole table, and rows
  [512 s + 256 c, 512 s + 256 c + 256) of the result in four windows of 64 rows; it leaves the index rows and the
  share as they were and the result rows at the ONE whole-array function `OutF` of the two arguments: row R of the
  result is the pairwise-tree sum over the twenty terms of residue R's table rows.
-/
import proofs.«208374_g60447369724146_cont_9to1c4b_798_24_alg».proof.Proof.Setup
import Idealize.ShloMosaic.Lib.ValueIdx

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The vector subcore that runs the task at grid coordinates `L`. -/
abbrev thr (d : Dev nD) (L : grid0.Coords) : Thread nD τ := V d (cV L) (jV L)

/-- The task's rows of the index array and its four windows of the result, as the program slices them. -/
abbrev iRowK (L : grid0.Coords) : Memref sig .scVector .hbm S256x20 .i32 :=
  ((iV).slice (Rect.unit (s := S16x512x20) (k0_off1 L) S1x256x20.size (k0_off1_inb L)) (fun _ => rfl)).squeeze S256x20 squeezes_S1x256x20_S256x20
abbrev oWinK (L : grid0.Coords) (r : Fin 4) : Memref sig .scVector .hbm S64x128 .f32 :=
  (oV).slice (Rect.unit (s := S8192x128) (k0_off17 L (BitVec.ofNat 32 (64 * r.val))) S64x128.size (k0_off17_inb L r)) (fun _ => rfl)

theorem bound_zero : grid0.bound 0 = 2 := rfl
theorem bound_one : grid0.bound 1 = 16 := rfl

/-- The task's number among the 32: 16 c + s. -/
def tileIx (L : grid0.Coords) : Fin 32 :=
  ⟨16 * (L 0).val + (L 1).val, by have h0 : (L 0).val < 2 := (L 0).isLt; have h1 : (L 1).val < 16 := (L 1).isLt; omega⟩

/-- The task's read share of the table: one of 32 pieces of the full share. -/
def xq (L : grid0.Coords) : PosShare TreeShare := pieceOf fullShare 32 (by decide) (tileIx L)

/-! ## The result as one function of the arguments -/

/-- The sum of twenty terms in the order the kernel adds them: neighbours paired, the pairs paired, and so on, the
    last group of four joined at the end. -/
def treeSum20 [FloatOps F] (f : Fin 20 → F .f32) : F .f32 :=
  let a (i j : Fin 20) : F .f32 := FloatOps.addf (f i) (f j)
  let p0 := a 0 1; let p1 := a 2 3; let p2 := a 4 5; let p3 := a 6 7; let p4 := a 8 9
  let p5 := a 10 11; let p6 := a 12 13; let p7 := a 14 15; let p8 := a 16 17; let p9 := a 18 19
  let q0 := FloatOps.addf p0 p1; let q1 := FloatOps.addf p2 p3; let q2 := FloatOps.addf p4 p5
  let q3 := FloatOps.addf p6 p7; let q4 := FloatOps.addf p8 p9
  let r0 := FloatOps.addf q0 q1; let r1 := FloatOps.addf q2 q3
  FloatOps.addf (FloatOps.addf r0 r1) q4

/-- The table row an index word names (its unsigned value, reduced so that the definition is total). -/
def rowF (v : BitVec 32) : Fin 100000 := ⟨v.toNat % 100000, Nat.mod_lt _ (by decide)⟩

/-- Row R = 512 b + l of the result, lane x: the tree sum over tt of table[idx[b, l, tt], x]. -/
def OutF [FloatOps F] (idx : IVec S16x512x20 32) (tbl : FVec F S100000x128 .f32) : FVec F S8192x128 .f32 :=
  fun y =>
    let R : Fin 8192 := y 0
    let x : Fin 128 := y 1
    treeSum20 fun tt => tbl (ValueIdx.ix2 (rowF (idx (ValueIdx.ix3 (⟨R.val / 512, by omega⟩ : Fin 16) (⟨R.val % 512, by omega⟩ : Fin 512) tt))) x)

variable [FloatOps F] (m : (ℓ : Loc nD τ sig) → Buf (Elt F) ℓ)

/-- The result array's contents after the call, on device `d`. -/
def Out (d : Dev nD) : Buf (Elt F) (oLoc d) := OutF (F := F) (m (iLoc d)) (m (xLoc d))

/-- What the task at `L` is handed: its index rows, its share of the table, its four result windows as launched. -/
def tileGo (d : Dev nD) (L : grid0.Coords) : sProp 𝕄 :=
  iprop(((iRowK L).view.loc (thr d L) ↦[(iRowK L).view.set]{fullShare} m (iLoc d))
    ∗ ((xV).view.loc (thr d L) ↦{xq L} m (xLoc d))
    ∗ bigSep Finset.univ fun r : Fin 4 => (oWinK L r).view.loc (thr d L) ↦[(oWinK L r).view.set]{fullShare} m (oLoc d))

/-- What it hands back: the same, the result windows at `Out`. -/
def tileTd (d : Dev nD) (L : grid0.Coords) : sProp 𝕄 :=
  iprop(((iRowK L).view.loc (thr d L) ↦[(iRowK L).view.set]{fullShare} m (iLoc d))
    ∗ ((xV).view.loc (thr d L) ↦{xq L} m (xLoc d))
    ∗ bigSep Finset.univ fun r : Fin 4 => (oWinK L r).view.loc (thr d L) ↦[(oWinK L r).view.set]{fullShare} Out m d)

/-- The grid coordinates of task `i` of SparseCore `c` of the one call. -/
abbrev coordsK (c : Fin ((K (F := F)).nCore 0)) (i : Fin ((K (F := F)).nSub 0)) : grid0.Coords :=
  coordsV ⟨c.val, c.isLt⟩ ⟨i.val, i.isLt⟩

/-- The call hands each SparseCore its sixteen tasks' operands and takes their results back. -/
def P : (K (F := F)).Pay (nD := nD) (Val := Elt F) (Name := ℕ) (U := UU) where
  st := fun q d c => match q with | 0 => bigSep Finset.univ fun i : Fin ((K (F := F)).nSub 0) => tileGo m d (coordsK c i)
  dn := fun q d c => match q with | 0 => bigSep Finset.univ fun i : Fin ((K (F := F)).nSub 0) => tileTd m d (coordsK c i)
  go := fun q d c i => match q with | 0 => tileGo m d (coordsK c i)
  td := fun q d c i => match q with | 0 => tileTd m d (coordsK c i)
  x := fun _ _ => iprop(emp)

end Cert.KernelIdeal.Tile

end
-- ==== Proof.TileFacts.lean ====
/-
  Facts about what the tile's index scratch holds after the fetch of its rows: the fetched words are the task's rows
  of the index array, so each names a table row whenever every word of the index array does.
-/
import proofs.«208374_g60447369724146_cont_9to1c4b_798_24_alg».proof.Proof.Pieces

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- What the fetch lands in the index scratch: the task's rows of the index array, read through the task's view. -/
def idxPay (fi : Buf (Elt F) (iLoc d)) : S256x20.Idx → Elt F .i32 :=
  ReadAs.same.apply (View.read (Elt F) (iRowK L).view fi)

theorem idxPay_apply (fi : Buf (Elt F) (iLoc d)) (y : S256x20.Idx) : idxPay d L fi y = fi ((iRowK L).view.emb y) :=
  (View.read_apply _ _).trans (cast_eq _ _)

/-- The scratch after the fetch, whatever it held before. -/
def idxBuf (fi : Buf (Elt F) (iLoc d)) (fs : Buf (Elt F) ((thr d L).loc cc0_scratch0)) : Buf (Elt F) ((thr d L).loc cc0_scratch0) :=
  View.write (Elt F) (sV).view fs (idxPay d L fi) Finset.univ

theorem idxBuf_eq (fi : Buf (Elt F) (iLoc d)) (fs : Buf (Elt F) ((thr d L).loc cc0_scratch0)) : idxBuf d L fi fs = idxPay d L fi := by
  exact View.write_whole_univ (Val := Elt F) cc0_scratch0 fs (idxPay d L fi)

/-- Every word of every 20-word row window of the scratch names a table row. -/
theorem hin_all (fi : Buf (Elt F) (iLoc d)) (fs : Buf (Elt F) ((thr d L).loc cc0_scratch0)) (hfi : ∀ j, (fi j).toNat < 100000) :
    ∀ (off : Fin 2 → Nat) (hb : ∀ a, off a + S1x20.size a ≤ S256x20.size a) (hs : ∀ a, (Rect.unit (s := S256x20) off S1x20.size hb).stride a = 1) (x : S20.Idx),
      (((sV.slice (Rect.unit (s := S256x20) off S1x20.size hb) hs).squeeze S20 squeezes_S1x20_S20).view.read (Elt F)
        (View.write (Elt F) (sV).view fs (idxPay d L fi) Finset.univ) x).toNat < 100000 := by
  intro off hb hs x
  have e : View.write (Elt F) (sV).view fs (idxPay d L fi) Finset.univ = idxPay d L fi := idxBuf_eq d L fi fs
  rw [e, View.read_apply, cast_eq, idxPay_apply]
  exact hfi _

end Cert.KernelIdeal.Tile

end
-- ==== Proof.TileRes.lean ====
/-
  The tile's working resources inside the loop: the four slots of the row scratch, the index scratch's 20-word row
  windows, the read shares (one per gather semaphore) of the table and of the index scratch, and what a slot holds
  once the gather for residue row j has landed: entry (tt, x) is the table's entry (row named by word tt of row j, x).
-/
import proofs.«208374_g60447369724146_cont_9to1c4b_798_24_alg».proof.Proof.TileFacts

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

abbrev slot0K : Memref sig .scVector .vmem S20x128 .f32 :=
  ((rV).slice (Rect.unit (s := S4x20x128) ![0, 0, 0] S1x20x128.size inb_S4x20x128_S1x20x128_0_0_0) (fun _ => rfl)).squeeze S20x128 squeezes_S1x20x128_S20x128
abbrev slot1K : Memref sig .scVector .vmem S20x128 .f32 :=
  ((rV).slice (Rect.unit (s := S4x20x128) ![1, 0, 0] S1x20x128.size inb_S4x20x128_S1x20x128_1_0_0) (fun _ => rfl)).squeeze S20x128 squeezes_S1x20x128_S20x128
abbrev slot2K : Memref sig .scVector .vmem S20x128 .f32 :=
  ((rV).slice (Rect.unit (s := S4x20x128) ![2, 0, 0] S1x20x128.size inb_S4x20x128_S1x20x128_2_0_0) (fun _ => rfl)).squeeze S20x128 squeezes_S1x20x128_S20x128
abbrev slot3K : Memref sig .scVector .vmem S20x128 .f32 :=
  ((rV).slice (Rect.unit (s := S4x20x128) ![3, 0, 0] S1x20x128.size inb_S4x20x128_S1x20x128_3_0_0) (fun _ => rfl)).squeeze S20x128 squeezes_S1x20x128_S20x128

/-- The whole table as the gathers name it. -/
abbrev xAllK : Memref sig .scVector .hbm S100000x128 .f32 :=
  (xV).slice (Rect.unit (s := S100000x128) ![0, 0] S100000x128.size inb_S100000x128_S100000x128_0_0) (fun _ => rfl)

/-- The 20-word window of the index scratch at offsets `off`. -/
abbrev listRowK (off : Fin 2 → Nat) (hb : ∀ a, off a + S1x20.size a ≤ S256x20.size a) : Memref sig .scVector .vmem S20 .i32 :=
  ((sV).slice (Rect.unit (s := S256x20) off S1x20.size hb) (fun _ => rfl)).squeeze S20 squeezes_S1x20_S20

/-- The read shares, numbered by gather semaphore (1 to 4). -/
abbrev tokX (i : ℕ) : PosShare TreeShare := Transfers.shareTokN (xq L) i
abbrev tokS (i : ℕ) : PosShare TreeShare := Transfers.shareTokN fullShare i

/-- The row scratch's contents on a slot where residue row `j`'s gather has landed (the slot coordinate is not read). -/
def GR (idxv : S256x20.Idx → Elt F .i32) (fx : Buf (Elt F) (xLoc d)) (j : Fin 256) : Buf (Elt F) ((thr d L).loc cc0_scratch1) :=
  fun y => fx (ValueIdx.ix2 (rowF (idxv (ValueIdx.ix2 j (y 1)))) (y 2))

/-- What a gather in flight on slot memref `sl` delivers: the slot at residue row `j`'s rows, the lent window `w`
    of the index scratch, the lent elements of the table. -/
abbrev gDeliv0 (i : ℕ) (w : Finset S256x20.Idx)
    (fi : Buf (Elt F) (iLoc d)) (fx : Buf (Elt F) (xLoc d)) (fs : Buf (Elt F) ((thr d L).loc cc0_scratch0)) (j : Fin 256) : sProp 𝕄 :=
  iprop((((slot0K).view.loc (thr d L) ↦[(slot0K).view.set]{fullShare} GR d L (idxPay d L fi) fx j)
      ∗ ((sV).view.loc (thr d L) ↦[w]{tokS i} idxBuf d L fi fs))
    ∗ ((xV).view.loc (thr d L) ↦[(xAllK).view.set]{tokX L i} fx))
abbrev gDeliv1 (i : ℕ) (w : Finset S256x20.Idx)
    (fi : Buf (Elt F) (iLoc d)) (fx : Buf (Elt F) (xLoc d)) (fs : Buf (Elt F) ((thr d L).loc cc0_scratch0)) (j : Fin 256) : sProp 𝕄 :=
  iprop((((slot1K).view.loc (thr d L) ↦[(slot1K).view.set]{fullShare} GR d L (idxPay d L fi) fx j)
      ∗ ((sV).view.loc (thr d L) ↦[w]{tokS i} idxBuf d L fi fs))
    ∗ ((xV).view.loc (thr d L) ↦[(xAllK).view.set]{tokX L i} fx))
abbrev gDeliv2 (i : ℕ) (w : Finset S256x20.Idx)
    (fi : Buf (Elt F) (iLoc d)) (fx : Buf (Elt F) (xLoc d)) (fs : Buf (Elt F) ((thr d L).loc cc0_scratch0)) (j : Fin 256) : sProp 𝕄 :=
  iprop((((slot2K).view.loc (thr d L) ↦[(slot2K).view.set]{fullShare} GR d L (idxPay d L fi) fx j)
      ∗ ((sV).view.loc (thr d L) ↦[w]{tokS i} idxBuf d L fi fs))
    ∗ ((xV).view.loc (thr d L) ↦[(xAllK).view.set]{tokX L i} fx))
abbrev gDeliv3 (i : ℕ) (w : Finset S256x20.Idx)
    (fi : Buf (Elt F) (iLoc d)) (fx : Buf (Elt F) (xLoc d)) (fs : Buf (Elt F) ((thr d L).loc cc0_scratch0)) (j : Fin 256) : sProp 𝕄 :=
  iprop((((slot3K).view.loc (thr d L) ↦[(slot3K).view.set]{fullShare} GR d L (idxPay d L fi) fx j)
      ∗ ((sV).view.loc (thr d L) ↦[w]{tokS i} idxBuf d L fi fs))
    ∗ ((xV).view.loc (thr d L) ↦[(xAllK).view.set]{tokX L i} fx))

end Cert.KernelIdeal.Tile

end
-- ==== Proof.ValueEq.lean ====
/-
  The kernel's result, reshaped, is the specification. Row R = 512 b + l of the [8192, 128] array is entry (b, l) of
  the [16, 512, 128] one; the row an index word names is the same function on both sides; and on the extended reals the
  sum of twenty terms taken in the kernel's order — neighbours paired, the pairs paired, the last group joined at the
  end — is the plain sum, addition being commutative and associative.
-/
import proofs.«208374_g60447369724146_cont_9to1c4b_798_24_alg».proof.Proof.TileRes
import proofs.«208374_g60447369724146_cont_9to1c4b_798_24_alg».proof.Proof.Spec
import Idealize.ShloMosaic.PureOps.Ideal
import Idealize.ShloMosaic.PureOps.Ideal.Laws
import Idealize.ShloMosaic.Lib.ValueIdx
import Idealize.ShloMosaic.Lib.ValueLayout

noncomputable section

namespace Cert.KernelIdeal.Tile

open Cert.KernelIdeal
open Idealize.ShloMosaic Idealize.ShloMosaic.ValueIdx
open scoped BigOperators

/-- The twenty indices, listed. -/
theorem univ20 : (Finset.univ : Finset (Fin 20)) = {0, 1, 2, 3, 4, 5, 6, 7, 8, 9, 10, 11, 12, 13, 14, 15, 16, 17, 18, 19} := by
  decide

/-- A sum over the twenty indices, term by term. -/
theorem sum20 {M : Type} [AddCommMonoid M] (f : Fin 20 → M) :
    ∑ tt : Fin 20, f tt = f 0 + (f 1 + (f 2 + (f 3 + (f 4 + (f 5 + (f 6 + (f 7 + (f 8 + (f 9 + (f 10 + (f 11 + (f 12
      + (f 13 + (f 14 + (f 15 + (f 16 + (f 17 + (f 18 + f 19)))))))))))))))))) := by
  rw [univ20]
  simp (disch := decide) only [Finset.sum_insert, Finset.sum_singleton]

/-- On the extended reals the tree sum is the plain sum. -/
theorem treeSum20_eq_sum (f : Fin 20 → Ideal .f32) : treeSum20 (F := Ideal) f = ∑ tt : Fin 20, f tt := by
  rw [sum20]
  unfold treeSum20
  simp only [Ideal.addf_def]
  ac_rfl

/-- THE KERNEL'S RESULT, RESHAPED, IS THE SPECIFICATION. -/
theorem out_eq_G [Cert.KernelIdeal.Facts] (idx : IVec Cert.KernelIdeal.S16x512x20 32) (tbl : FVec Ideal Cert.KernelIdeal.S100000x128 .f32) :
    shapeCast Cert.KernelIdeal.S16x512x128 (OutF (F := Ideal) idx tbl) Cert.KernelIdeal.Facts₀.shapeCasts_S8192x128_S16x512x128
      = Cert.Spec.G idx tbl := by
  funext j
  obtain ⟨b, l, x, rfl⟩ : ∃ b l x, j = ix3 b l x := ⟨_, _, _, eq_ix3 j⟩
  have hb := b.isLt
  have hl := l.isLt
  have hR : 512 * b.val + l.val < 8192 := by omega
  rw [shapeCast_apply (OutF (F := Ideal) idx tbl) _ (ix3 b l x) (ix2 (⟨512 * b.val + l.val, hR⟩ : Fin 8192) x) (by
    rw [Shape.rowMajor_val_two, Shape.rowMajor_val_three]
    show (512 * b.val + l.val) * 128 + x.val = (b.val * 512 + l.val) * 128 + x.val
    omega)]
  unfold OutF
  dsimp only
  rw [treeSum20_eq_sum]
  show _ = ∑ tt : Fin 20, tbl (ix2 (Cert.Spec.row (idx (ix3 b l tt))) x)
  refine Finset.sum_congr rfl fun tt _ => ?_
  refine congrArg tbl (congrArg (fun r => ix2 r x) ?_)
  refine congrArg (fun i => Cert.Spec.row (idx i)) ?_
  funext a
  match a with
  | ⟨0, _⟩ => exact Fin.ext (show (512 * b.val + l.val) / 512 = b.val from by omega)
  | ⟨1, _⟩ => exact Fin.ext (show (512 * b.val + l.val) % 512 = l.val from by omega)
  | ⟨2, _⟩ => rfl

end Cert.KernelIdeal.Tile

end
-- ==== Proof.TileOut.lean ====
/-
  The output scratch during the loop. Its 64-row blocks are sent out one by one; what the tile still holds of it
  after n blocks have gone is the rows from 64 n on. A 1×16 store at a row not below 64 n stays inside that part.
-/
import proofs.«208374_g60447369724146_cont_9to1c4b_798_24_alg».proof.Proof.TileRes

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- The rows of the output scratch from 64 n on. -/
def aRest (n : ℕ) : Finset S256x128.Idx := Finset.univ.filter fun y => 64 * n ≤ (y 0).val

theorem mem_aRest (n : ℕ) (y : S256x128.Idx) : y ∈ aRest n ↔ 64 * n ≤ (y 0).val := by
  unfold aRest; rw [Finset.mem_filter]; exact ⟨fun h => h.2, fun h => ⟨Finset.mem_univ _, h⟩⟩

theorem aRest_zero : aRest 0 = Finset.univ := by
  ext y; rw [mem_aRest]; exact ⟨fun _ => Finset.mem_univ _, fun _ => Nat.zero_le _⟩

/-- A 1×16 store whose row is not below 64 n writes only rows from 64 n on. -/
theorem store_sub (off : Fin 2 → Nat) (hb : ∀ a, off a + S1x16.size a ≤ S256x128.size a) (n : ℕ) (h : 64 * n ≤ off 0) :
    ((aV).access (Rect.unit (s := S256x128) off S1x16.size hb)).setOn Finset.univ ⊆ aRest n := by
  intro y hy
  rw [View.setOn_univ] at hy
  obtain ⟨x, -, rfl⟩ := Finset.mem_map.mp hy
  rw [mem_aRest]
  show 64 * n ≤ off 0 + 1 * (x 0).val
  omega

end Cert.KernelIdeal.Tile

end
-- ==== Proof.LaunchGeom.lean ====
/-
  The three arrays cut among the 32 tasks. The index array's 32 rectangles [s, 256 c .. 256 c + 256, all] tile it;
  the result's 128 windows of 64 rows from row 512 s + 256 c + 64 r tile its 8192 rows; the table's full share is
  its 32 pieces, task (c, s) holding piece 16 c + s. Each is an equation between the whole array's points-to and the
  iterated separating conjunction of the pieces', at any contents.
-/
import proofs.«208374_g60447369724146_cont_9to1c4b_798_24_alg».proof.Proof.Pieces

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The task's offsets into the index array in closed form: batch row s, rows from 256 c. -/
theorem k0_off1_eq : ∀ i : grid0.Coords, k0_off1 i = ![(i 1).val, 256 * (i 0).val, 0] := by decide +kernel

/-- The task's rectangle of the index array and its r-th rectangle of the result. -/
abbrev iRect (L : grid0.Coords) : Rect S16x512x20 := Rect.unit (s := S16x512x20) (k0_off1 L) S1x256x20.size (k0_off1_inb L)
abbrev oRect (L : grid0.Coords) (r : Fin 4) : Rect S8192x128 :=
  Rect.unit (s := S8192x128) (k0_off17 L (BitVec.ofNat 32 (64 * r.val))) S64x128.size (k0_off17_inb L r)

theorem set_iRowK (L : grid0.Coords) : (iRowK L).view.set = (iRect L).set := by
  show (((iV).view.slice (iRect L)).reshape S256x20 squeezes_S1x256x20_S256x20.numel_eq).set = _
  rw [View.set_reshape]
  show ((View.whole (main_arg0_scv : Ref sig .scVector)).slice (iRect L)).set = _
  rw [View.set_slice]; exact Finset.map_refl

theorem set_oWinK (L : grid0.Coords) (r : Fin 4) : (oWinK L r).view.set = (oRect L r).set := by
  show ((View.whole (main_v0_scv : Ref sig .scVector)).slice (oRect L r)).set = _
  rw [View.set_slice]; exact Finset.map_refl

theorem mem_iRect (L : grid0.Coords) (j : S16x512x20.Idx) :
    j ∈ (iRect L).set ↔ (j 0).val = (L 1).val ∧ 256 * (L 0).val ≤ (j 1).val ∧ (j 1).val < 256 * (L 0).val + 256 := by
  rw [Rect.mem_set_unit, k0_off1_eq]
  constructor
  · intro h
    have h0 : (L 1).val ≤ (j 0).val ∧ (j 0).val < (L 1).val + 1 := h 0
    have h1 : 256 * (L 0).val ≤ (j 1).val ∧ (j 1).val < 256 * (L 0).val + 256 := h 1
    omega
  · rintro ⟨e0, lo, hi⟩ a
    have h2 : (j 2).val < 20 := (j 2).isLt
    match a with
    | 0 => exact (show (L 1).val ≤ (j 0).val ∧ (j 0).val < (L 1).val + 1 by omega)
    | 1 => exact (show 256 * (L 0).val ≤ (j 1).val ∧ (j 1).val < 256 * (L 0).val + 256 from ⟨lo, hi⟩)
    | 2 => exact (show 0 ≤ (j 2).val ∧ (j 2).val < 0 + 20 by omega)

theorem mem_oRect (L : grid0.Coords) (r : Fin 4) (j : S8192x128.Idx) :
    j ∈ (oRect L r).set ↔ 512 * (L 1).val + 256 * (L 0).val + 64 * r.val ≤ (j 0).val
      ∧ (j 0).val < 512 * (L 1).val + 256 * (L 0).val + 64 * r.val + 64 := by
  rw [Rect.mem_set_unit, k0_off17_eq]
  constructor
  · intro h
    exact (show 512 * (L 1).val + 256 * (L 0).val + 64 * r.val ≤ (j 0).val
      ∧ (j 0).val < 512 * (L 1).val + 256 * (L 0).val + 64 * r.val + 64 from h 0)
  · rintro ⟨lo, hi⟩ a
    have h1 : (j 1).val < 128 := (j 1).isLt
    match a with
    | 0 => exact (show 512 * (L 1).val + 256 * (L 0).val + 64 * r.val ≤ (j 0).val
        ∧ (j 0).val < 512 * (L 1).val + 256 * (L 0).val + 64 * r.val + 64 from ⟨lo, hi⟩)
    | 1 => exact (show 0 ≤ (j 1).val ∧ (j 1).val < 0 + 128 by omega)

/-! ## The pieces, indexed by (c, s) and by ((c, s), r) -/

abbrev LL (p : Fin 2 × Fin 16) : grid0.Coords := coordsV p.1 p.2

abbrev iSet (p : Fin 2 × Fin 16) : Finset S16x512x20.Idx := (iRowK (LL p)).view.set
abbrev oSet (p : (Fin 2 × Fin 16) × Fin 4) : Finset S8192x128.Idx := (oWinK (LL p.1) p.2).view.set

theorem mem_iSet (p : Fin 2 × Fin 16) (j : S16x512x20.Idx) :
    j ∈ iSet p ↔ (j 0).val = p.2.val ∧ 256 * p.1.val ≤ (j 1).val ∧ (j 1).val < 256 * p.1.val + 256 := by
  unfold iSet; rw [set_iRowK, mem_iRect]; exact Iff.rfl

theorem mem_oSet (p : (Fin 2 × Fin 16) × Fin 4) (j : S8192x128.Idx) :
    j ∈ oSet p ↔ 512 * p.1.2.val + 256 * p.1.1.val + 64 * p.2.val ≤ (j 0).val
      ∧ (j 0).val < 512 * p.1.2.val + 256 * p.1.1.val + 64 * p.2.val + 64 := by
  unfold oSet; rw [set_oWinK, mem_oRect]; exact Iff.rfl

theorem iSet_disjoint : ∀ p ∈ (Finset.univ : Finset (Fin 2 × Fin 16)), ∀ p' ∈ (Finset.univ : Finset (Fin 2 × Fin 16)),
    p ≠ p' → Disjoint (iSet p) (iSet p') := by
  intro p _ p' _ hne
  rw [Finset.disjoint_left]
  intro j h h'
  rw [mem_iSet] at h h'
  have h1 := p.1.isLt; have h1' := p'.1.isLt
  exact hne (Prod.ext (Fin.ext (by omega)) (Fin.ext (by omega)))

theorem iSet_cover : (Finset.univ : Finset (Fin 2 × Fin 16)).biUnion iSet = Finset.univ := by
  ext j
  simp only [Finset.mem_biUnion, Finset.mem_univ, true_and, iff_true]
  have h0 : (j 0).val < 16 := (j 0).isLt
  have h1 : (j 1).val < 512 := (j 1).isLt
  refine ⟨(⟨(j 1).val / 256, by omega⟩, ⟨(j 0).val, h0⟩), ?_⟩
  rw [mem_iSet]
  show (j 0).val = (j 0).val ∧ 256 * ((j 1).val / 256) ≤ (j 1).val ∧ (j 1).val < 256 * ((j 1).val / 256) + 256
  omega

theorem oSet_disjoint : ∀ p ∈ (Finset.univ : Finset ((Fin 2 × Fin 16) × Fin 4)), ∀ p' ∈ (Finset.univ : Finset ((Fin 2 × Fin 16) × Fin 4)),
    p ≠ p' → Disjoint (oSet p) (oSet p') := by
  intro p _ p' _ hne
  rw [Finset.disjoint_left]
  intro j h h'
  rw [mem_oSet] at h h'
  have h1 := p.1.1.isLt; have h1' := p'.1.1.isLt
  have h2 := p.2.isLt; have h2' := p'.2.isLt
  exact hne (Prod.ext (Prod.ext (Fin.ext (by omega)) (Fin.ext (by omega))) (Fin.ext (by omega)))

theorem oSet_cover : (Finset.univ : Finset ((Fin 2 × Fin 16) × Fin 4)).biUnion oSet = Finset.univ := by
  ext j
  simp only [Finset.mem_biUnion, Finset.mem_univ, true_and, iff_true]
  have h0 : (j 0).val < 8192 := (j 0).isLt
  refine ⟨((⟨(j 0).val % 512 / 256, by omega⟩, ⟨(j 0).val / 512, by omega⟩), ⟨(j 0).val % 256 / 64, by omega⟩), ?_⟩
  rw [mem_oSet]
  show 512 * ((j 0).val / 512) + 256 * ((j 0).val % 512 / 256) + 64 * ((j 0).val % 256 / 64) ≤ (j 0).val
    ∧ (j 0).val < 512 * ((j 0).val / 512) + 256 * ((j 0).val % 512 / 256) + 64 * ((j 0).val % 256 / 64) + 64
  omega

/-- The task's number among the 32 as an equivalence: (c, s) ↦ 16 c + s. -/
def tileEquiv : Fin 2 × Fin 16 ≃ Fin 32 := finProdFinEquiv.trans (finCongr (by norm_num))

theorem tileIx_LL (p : Fin 2 × Fin 16) : tileIx (LL p) = tileEquiv p := by
  apply Fin.ext
  show 16 * p.1.val + p.2.val = p.2.val + 16 * p.1.val
  omega

/-! ## The three arrays as their pieces -/

variable (d : Dev nD)

/-- The index array is the 32 tasks' rectangles of it. -/
theorem iPts_tiles (f : Buf (Elt F) (iLoc d)) :
    (iLoc d ↦{fullShare} f : sProp 𝕄)
      = bigSep Finset.univ fun c : Fin 2 => bigSep Finset.univ fun s : Fin 16 =>
          (iRowK (coordsV c s)).view.loc (thr d (coordsV c s)) ↦[(iRowK (coordsV c s)).view.set]{fullShare} f := by
  refine Eq.trans ?_ (bigSep_univ_prod (fun p : Fin 2 × Fin 16 => (iLoc d ↦[iSet p]{fullShare} f : sProp 𝕄)))
  rw [← pointsTo_biUnion Finset.univ (ℓ := iLoc d) iSet iSet_disjoint, iSet_cover]

/-- The result array is the 128 windows of it. -/
theorem oPts_tiles (f : Buf (Elt F) (oLoc d)) :
    (oLoc d ↦{fullShare} f : sProp 𝕄)
      = bigSep Finset.univ fun c : Fin 2 => bigSep Finset.univ fun s : Fin 16 => bigSep Finset.univ fun r : Fin 4 =>
          (oWinK (coordsV c s) r).view.loc (thr d (coordsV c s)) ↦[(oWinK (coordsV c s) r).view.set]{fullShare} f := by
  refine Eq.trans ?_ ((bigSep_univ_prod (fun p : (Fin 2 × Fin 16) × Fin 4 => (oLoc d ↦[oSet p]{fullShare} f : sProp 𝕄))).trans
    (bigSep_univ_prod (fun p : Fin 2 × Fin 16 => bigSep Finset.univ fun r : Fin 4 => (oLoc d ↦[oSet (p, r)]{fullShare} f : sProp 𝕄))))
  rw [← pointsTo_biUnion Finset.univ (ℓ := oLoc d) oSet oSet_disjoint, oSet_cover]

/-- The table at the full share is the 32 tasks' pieces of the share. -/
theorem xPts_tiles (f : Buf (Elt F) (xLoc d)) :
    (xLoc d ↦{fullShare} f : sProp 𝕄)
      = bigSep Finset.univ fun c : Fin 2 => bigSep Finset.univ fun s : Fin 16 =>
          (xV).view.loc (thr d (coordsV c s)) ↦{xq (coordsV c s)} f := by
  rw [pointsTo_piecesOf Finset.univ f (o := 32) (by decide) fullShare, bigSep_univ_equiv tileEquiv, bigSep_univ_prod]
  refine bigSep_congr fun c _ => bigSep_congr fun s _ => ?_
  show (xLoc d ↦{pieceOf fullShare 32 (by decide) (tileEquiv (c, s))} f : sProp 𝕄) = xLoc d ↦{pieceOf fullShare 32 (by decide) (tileIx (LL (c, s)))} f
  rw [tileIx_LL]

end Cert.KernelIdeal.Tile

end
-- ==== Proof.TileVal.lean ====
/-
  The arithmetic of one 16-lane chunk, and the tile's local result. The chunk computation adds the twenty loaded
  16-lane rows in the kernel's fixed association — neighbours paired, the pairs paired, the last group of four joined
  at the end —; lane by lane that is the tree sum of the twenty loaded values. The tile's output scratch is to hold, at
  row y₀, row 512 s + 256 c + y₀ of the result; summed in the tree order over the twenty terms, the landed rows of
  residue row j are that row of the result.
-/
import proofs.«208374_g60447369724146_cont_9to1c4b_798_24_alg».proof.Proof.TileRes
import proofs.«208374_g60447369724146_cont_9to1c4b_798_24_alg».proof.Proof.LaunchGeom
import Idealize.ShloMosaic.Lib.ValueIdx
import Idealize.ShloMosaic.Lib.ValueLayout

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

open Idealize.ShloMosaic.ValueIdx

/-- What the tile's output scratch must hold: row y₀ of it is row 512 s + 256 c + y₀ of the result. -/
def OutLoc (m : (ℓ : Loc nD τ sig) → Buf (Elt F) ℓ) : Buf (Elt F) ((thr d L).loc cc0_scratch2) :=
  fun y => OutF (F := F) (m (iLoc d)) (m (xLoc d))
    (ix2 (⟨512 * (L 1).val + 256 * (L 0).val + (y 0).val, by
        have h1 : (L 1).val < 16 := (L 1).isLt
        have h0 : (L 0).val < 2 := (L 0).isLt
        have hy : (y 0).val < 256 := (y 0).isLt
        omega⟩ : Fin 8192) (y 1))

/-- The chunk computation: the twenty loaded rows, each read as 16 lanes, added in the kernel's association, the sum
    read as a 1×16 row. -/
def chunkTree (v : Fin 20 → Vec F S1x1x16 .f32) : FVec F S1x16 .f32 :=
  let c (tt : Fin 20) : FVec F S16 .f32 := shapeCast S16 (v tt) shapeCasts_S1x1x16_S16
  let p0 := addf (c 0) (c 1); let p1 := addf (c 2) (c 3); let p2 := addf (c 4) (c 5); let p3 := addf (c 6) (c 7); let p4 := addf (c 8) (c 9); let p5 := addf (c 10) (c 11); let p6 := addf (c 12) (c 13); let p7 := addf (c 14) (c 15); let p8 := addf (c 16) (c 17); let p9 := addf (c 18) (c 19)
  let q0 := addf p0 p1; let q1 := addf p2 p3; let q2 := addf p4 p5; let q3 := addf p6 p7; let q4 := addf p8 p9
  let r0 := addf q0 q1; let r1 := addf q2 q3
  shapeCast S1x16 (addf (addf r0 r1) q4) shapeCasts_S16_S1x16

/-- Lane by lane the chunk computation is the tree sum of the twenty loaded values. -/
theorem chunkTree_apply (v : Fin 20 → Vec F S1x1x16 .f32) (lane : Fin 16) :
    chunkTree v (ix2 (0 : Fin 1) lane) = treeSum20 (F := F) fun tt => v tt (ix3 (0 : Fin 1) (0 : Fin 1) lane) := by
  have leaf : ∀ tt, shapeCast S16 (v tt) shapeCasts_S1x1x16_S16 (ix1 lane) = v tt (ix3 (0 : Fin 1) (0 : Fin 1) lane) :=
    fun tt => shapeCast_apply (v tt) shapeCasts_S1x1x16_S16 (ix1 lane) (ix3 (0 : Fin 1) (0 : Fin 1) lane) (by
      rw [Shape.rowMajor_val_three, Shape.rowMajor_val_one]
      show (0 * 1 + 0) * 16 + lane.val = lane.val
      omega)
  unfold chunkTree treeSum20
  rw [shapeCast_a_1a_apply]
  simp only [addf, leaf]

/-- Word (j, tt) of the task's index rows is word (s, 256 c + j, tt) of the index array. -/
theorem iRowK_emb (j : Fin 256) (tt : Fin 20) (a : Fin 3) :
    (((iRowK L).view.emb (ix2 j tt)) a).val = (![(L 1).val, 256 * (L 0).val + j.val, tt.val] : Fin 3 → Nat) a := by
  show (((Rect.unit (s := S16x512x20) (k0_off1 L) S1x256x20.size (k0_off1_inb L)).emb
    (Shape.reshapeEquiv squeezes_S1x256x20_S256x20.numel_eq (ix2 j tt))) a).val = _
  rw [reshapeEquiv_ix2_1ab]
  show (k0_off1 L) a + 1 * ((ix3 (⟨0, Nat.one_pos⟩ : Fin 1) j tt) a).val = _
  rw [k0_off1_eq]
  match a with
  | ⟨0, _⟩ => show (L 1).val + 1 * 0 = (L 1).val; omega
  | ⟨1, _⟩ => show 256 * (L 0).val + 1 * j.val = 256 * (L 0).val + j.val; omega
  | ⟨2, _⟩ => show 0 + 1 * tt.val = tt.val; omega

/-- The landed rows of residue row j, summed in the tree order, are row j of the tile's local result — whichever slot
    they landed in. -/
theorem outLoc_of_rows (m : (ℓ : Loc nD τ sig) → Buf (Elt F) ℓ) (b : Fin 4) (j : Fin 256) (x : Fin 128) :
    treeSum20 (F := F) (fun tt => GR d L (idxPay d L (m (iLoc d))) (m (xLoc d)) j (ix3 b tt x))
      = OutLoc d L m (ix2 j x) := by
  unfold OutLoc OutF GR
  dsimp only
  refine congrArg (treeSum20 (F := F)) (funext fun tt => ?_)
  refine congrArg (m (xLoc d)) (congrArg (fun r => ix2 r x) (congrArg rowF ?_))
  rw [idxPay_apply]
  refine congrArg (m (iLoc d)) ?_
  have h1 : (L 1).val < 16 := (L 1).isLt
  have h0 : (L 0).val < 2 := (L 0).isLt
  funext a
  refine Fin.ext ?_
  show (((iRowK L).view.emb (ix2 j tt)) a).val = _
  rw [iRowK_emb]
  match a with
  | ⟨0, _⟩ => show (L 1).val = (512 * (L 1).val + 256 * (L 0).val + j.val) / 512; omega
  | ⟨1, _⟩ => show 256 * (L 0).val + j.val = (512 * (L 1).val + 256 * (L 0).val + j.val) % 512; omega
  | ⟨2, _⟩ => rfl

end Cert.KernelIdeal.Tile

end
-- ==== Proof.PreOK.lean ====
/-
  What the launch memory must satisfy for the kernel's indexed copies: every index word names a row of the table.
-/
import proofs.«208374_g60447369724146_cont_9to1c4b_798_24_alg».proof.Proof.Pieces

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Every word of the index array is below the table's 100000 rows. -/
def PreOK (m : (ℓ : Loc nD τ sig) → Buf (Elt F) ℓ) : Prop :=
  ∀ (d : Dev nD) (j : S16x512x20.Idx), (m (iLoc d) j).toNat < 100000

end Cert.KernelIdeal.Tile

end
-- ==== Proof.TileInv.lean ====
/-
  The loop's invariant. Before trip k (residue rows 4k … 4k+3 of the tile's 256):
  * the gathers for rows 4k, 4k+1, 4k+2 are in flight into slots 0, 1, 2, each holding its slot, a window of the
    index scratch and the table's elements at its semaphore's read share; slot 3 and its shares are free;
  * block k/16 of the output scratch is held by itself, its rows below 4k at the result function; the later blocks
    and the later result windows are untouched; the earlier ones are inside the write-back batch, k/16 of whose four
    copies have been issued;
  after the last trip (k = 64) every slot and share is free and all four copies are issued.
-/
import proofs.«208374_g60447369724146_cont_9to1c4b_798_24_alg».proof.Proof.TileOut
import proofs.«208374_g60447369724146_cont_9to1c4b_798_24_alg».proof.Proof.TileVal
import proofs.«208374_g60447369724146_cont_9to1c4b_798_24_alg».proof.Proof.PreOK

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)
  (fs : Buf (Elt F) ((thr d L).loc cc0_scratch0))

/-- The first of the tile's 256 rows of the result. -/
def tileBase : ℕ := 512 * (L 1).val + 256 * (L 0).val

theorem tileBase_le : tileBase L + 256 ≤ 8192 := by
  unfold tileBase; have h0 : (L 0).val < 2 := (L 0).isLt; have h1 : (L 1).val < 16 := (L 1).isLt; omega

theorem aCurAt_inb (n : ℕ) (hn : n < 4) : ∀ a, (![64 * n, 0] : Fin 2 → Nat) a + S64x128.size a ≤ S256x128.size a := by
  intro a; fin_cases a
  · show 64 * n + 64 ≤ 256; omega
  · show 0 + 128 ≤ 128; omega

/-- Block n of the output scratch (rows 64 n … 64 n + 63). -/
abbrev aCurAt (n : ℕ) (hn : n < 4) : Memref sig .scVector .vmem S64x128 .f32 :=
  (aV).slice (Rect.unit (s := S256x128) ![64 * n, 0] S64x128.size (aCurAt_inb n hn)) (fun _ => rfl)

theorem oCurAt_inb (n : ℕ) (hn : n < 4) : ∀ a, (![tileBase L + 64 * n, 0] : Fin 2 → Nat) a + S64x128.size a ≤ S8192x128.size a := by
  have := tileBase_le L
  intro a; fin_cases a
  · show tileBase L + 64 * n + 64 ≤ 8192; omega
  · show 0 + 128 ≤ 128; omega

/-- Window n of the tile's rows of the result. -/
abbrev oCurAt (n : ℕ) (hn : n < 4) : Memref sig .scVector .hbm S64x128 .f32 :=
  (oV).slice (Rect.unit (s := S8192x128) ![tileBase L + 64 * n, 0] S64x128.size (oCurAt_inb L n hn)) (fun _ => rfl)

/-- The tile's rows of the result from window n on. -/
def oRest (n : ℕ) : Finset S8192x128.Idx :=
  Finset.univ.filter fun y => tileBase L + 64 * n ≤ (y 0).val ∧ (y 0).val < tileBase L + 256
/-- Window t of the tile's rows of the result, and block t of the output scratch, as sets. -/
def oWinSet (t : ℕ) : Finset S8192x128.Idx :=
  Finset.univ.filter fun y => tileBase L + 64 * t ≤ (y 0).val ∧ (y 0).val < tileBase L + 64 * t + 64
def aBlkSet (t : ℕ) : Finset S256x128.Idx :=
  Finset.univ.filter fun y => 64 * t ≤ (y 0).val ∧ (y 0).val < 64 * t + 64

/-- The rows of the current block below 4 k hold the result function. -/
def RowsDone (k : ℕ) (fa : Buf (Elt F) ((thr d L).loc cc0_scratch2)) : Prop :=
  ∀ y : S256x128.Idx, 64 * (k / 16) ≤ (y 0).val → (y 0).val < 4 * k → fa y = OutLoc d L m y

/-- What write-back t delivers: window t of the result at the result function, block t of the scratch back. -/
def wbD (t : Fin 4) : sProp 𝕄 :=
  iprop(((oV).view.loc (thr d L) ↦[oWinSet L t.val]{fullShare} Out m d) ∗ ((aV).view.loc (thr d L) ↦[aBlkSet t.val]{fullShare} OutLoc d L m))

/-- One write-back's credit: 64 × 128 words of 32 bits. -/
abbrev wbN : ℕ := 262144

set_option maxHeartbeats 1600000 in
/-- The gathers before trip k. -/
def gathersPart (k : ℕ) : sProp 𝕄 :=
  if h : k < 64 then
    iprop(∃ w0 w1 w2 : Finset S256x20.Idx,
      (Transfers.Flight countersEmb (thr d L) (.dma cc0_scratch4.sem) (default : HIx 1) 81920 iprop((((slot0K).view.loc (thr d L) ↦[(slot0K).view.set]{fullShare} GR d L (idxPay d L (m (iLoc d))) (m (xLoc d)) ⟨4 * k, by omega⟩) ∗ ((sV).view.loc (thr d L) ↦[w0]{tokS 1} idxBuf d L (m (iLoc d)) fs)) ∗ ((xV).view.loc (thr d L) ↦[(xAllK).view.set]{tokX L 1} (m (xLoc d))))
        ∗ ((xV).view.loc (thr d L) ↦[Finset.univ \ (xAllK).view.set]{tokX L 1} m (xLoc d)) ∗ ((sV).view.loc (thr d L) ↦[Finset.univ \ w0]{tokS 1} idxBuf d L (m (iLoc d)) fs))
      ∗ (Transfers.Flight countersEmb (thr d L) (.dma cc0_scratch5.sem) (default : HIx 1) 81920 iprop((((slot1K).view.loc (thr d L) ↦[(slot1K).view.set]{fullShare} GR d L (idxPay d L (m (iLoc d))) (m (xLoc d)) ⟨4 * k + 1, by omega⟩) ∗ ((sV).view.loc (thr d L) ↦[w1]{tokS 2} idxBuf d L (m (iLoc d)) fs)) ∗ ((xV).view.loc (thr d L) ↦[(xAllK).view.set]{tokX L 2} (m (xLoc d))))
        ∗ ((xV).view.loc (thr d L) ↦[Finset.univ \ (xAllK).view.set]{tokX L 2} m (xLoc d)) ∗ ((sV).view.loc (thr d L) ↦[Finset.univ \ w1]{tokS 2} idxBuf d L (m (iLoc d)) fs))
      ∗ (Transfers.Flight countersEmb (thr d L) (.dma cc0_scratch6.sem) (default : HIx 1) 81920 iprop((((slot2K).view.loc (thr d L) ↦[(slot2K).view.set]{fullShare} GR d L (idxPay d L (m (iLoc d))) (m (xLoc d)) ⟨4 * k + 2, by omega⟩) ∗ ((sV).view.loc (thr d L) ↦[w2]{tokS 3} idxBuf d L (m (iLoc d)) fs)) ∗ ((xV).view.loc (thr d L) ↦[(xAllK).view.set]{tokX L 3} (m (xLoc d))))
        ∗ ((xV).view.loc (thr d L) ↦[Finset.univ \ (xAllK).view.set]{tokX L 3} m (xLoc d)) ∗ ((sV).view.loc (thr d L) ↦[Finset.univ \ w2]{tokS 3} idxBuf d L (m (iLoc d)) fs))
      ∗ ((xV).view.loc (thr d L) ↦{tokX L 4} m (xLoc d)) ∗ ((sV).view.loc (thr d L) ↦{tokS 4} idxBuf d L (m (iLoc d)) fs)
      ∗ (∃ f3, (slot3K).view.loc (thr d L) ↦[(slot3K).view.set]{fullShare} f3)
      ∗ semVal (thr d L, .dma cc0_scratch7.sem) 0)
  else
    iprop(((xV).view.loc (thr d L) ↦{tokX L 1} m (xLoc d)) ∗ ((xV).view.loc (thr d L) ↦{tokX L 2} m (xLoc d))
      ∗ ((xV).view.loc (thr d L) ↦{tokX L 3} m (xLoc d)) ∗ ((xV).view.loc (thr d L) ↦{tokX L 4} m (xLoc d))
      ∗ ((sV).view.loc (thr d L) ↦{tokS 1} idxBuf d L (m (iLoc d)) fs) ∗ ((sV).view.loc (thr d L) ↦{tokS 2} idxBuf d L (m (iLoc d)) fs)
      ∗ ((sV).view.loc (thr d L) ↦{tokS 3} idxBuf d L (m (iLoc d)) fs) ∗ ((sV).view.loc (thr d L) ↦{tokS 4} idxBuf d L (m (iLoc d)) fs)
      ∗ (∃ f, (slot0K).view.loc (thr d L) ↦[(slot0K).view.set]{fullShare} f) ∗ (∃ f, (slot1K).view.loc (thr d L) ↦[(slot1K).view.set]{fullShare} f)
      ∗ (∃ f, (slot2K).view.loc (thr d L) ↦[(slot2K).view.set]{fullShare} f) ∗ (∃ f, (slot3K).view.loc (thr d L) ↦[(slot3K).view.set]{fullShare} f)
      ∗ semVal (thr d L, .dma cc0_scratch4.sem) 0 ∗ semVal (thr d L, .dma cc0_scratch5.sem) 0
      ∗ semVal (thr d L, .dma cc0_scratch6.sem) 0 ∗ semVal (thr d L, .dma cc0_scratch7.sem) 0)

set_option maxHeartbeats 1600000 in
/-- The output scratch and the result's rows before trip k. -/
def outPart (k : ℕ) : sProp 𝕄 :=
  if h : k < 64 then
    iprop((∃ fa : Buf (Elt F) ((thr d L).loc cc0_scratch2), ((aCurAt (k / 16) (by omega)).view.loc (thr d L) ↦[(aCurAt (k / 16) (by omega)).view.set]{fullShare} fa) ∗ ⌜RowsDone d L m k fa⌝)
      ∗ (∃ f : Buf (Elt F) ((thr d L).loc cc0_scratch2), (aV).view.loc (thr d L) ↦[aRest (k / 16 + 1)]{fullShare} f)
      ∗ ((oCurAt L (k / 16) (by omega)).view.loc (thr d L) ↦[(oCurAt L (k / 16) (by omega)).view.set]{fullShare} m (oLoc d))
      ∗ ((oV).view.loc (thr d L) ↦[oRest L (k / 16 + 1)]{fullShare} m (oLoc d)))
  else iprop(emp)

/-- The invariant before trip k; the loop's carried word is not read. -/
def inv (O : CellTallies nD τ sig (HIx 1)) (W : Waits sig (HIx 1)) (k : ℕ) (_ : BitVec 32) : sProp 𝕄 :=
  iprop(Transfers.MayWaits (thr d L) (default : HIx 1) O
    ∗ ((iRowK L).view.loc (thr d L) ↦[(iRowK L).view.set]{fullShare} m (iLoc d))
    ∗ ((xV).view.loc (thr d L) ↦{Transfers.shareDrop (xq L) 5} m (xLoc d)) ∗ ((xV).view.loc (thr d L) ↦{tokX L 0} m (xLoc d))
    ∗ ((sV).view.loc (thr d L) ↦{Transfers.shareDrop fullShare 5} idxBuf d L (m (iLoc d)) fs) ∗ ((sV).view.loc (thr d L) ↦{tokS 0} idxBuf d L (m (iLoc d)) fs)
    ∗ gathersPart d L m fs k
    ∗ outPart d L m k
    ∗ Transfers.Batch countersEmb (thr d L) (.dma cc0_scratch3.sem) (default : HIx 1) wbN (wbD d L m) (k / 16) 0
    ∗ ∃ W', ⌜∀ p ∈ W', p ∈ W ∨ p.2 = none⌝ ∗ owes (thr d L) O W')

end Cert.KernelIdeal.Tile

end
-- ==== Proof.OutAt.lean ====
/-
  The invariant's output part with the current block's number named: while block n is current the tile holds block n
  of the output scratch (rows below 4k done), the later blocks, window n of its result rows and the later windows.
-/
import proofs.«208374_g60447369724146_cont_9to1c4b_798_24_alg».proof.Proof.TileInv

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)

set_option maxHeartbeats 1600000 in
def outAt (n : ℕ) (hn : n < 4) (k : ℕ) : sProp 𝕄 :=
  iprop((∃ fa : Buf (Elt F) ((thr d L).loc cc0_scratch2), ((aCurAt n hn).view.loc (thr d L) ↦[(aCurAt n hn).view.set]{fullShare} fa) ∗ ⌜RowsDone d L m k fa⌝)
    ∗ (∃ f : Buf (Elt F) ((thr d L).loc cc0_scratch2), (aV).view.loc (thr d L) ↦[aRest (n + 1)]{fullShare} f)
    ∗ ((oCurAt L n hn).view.loc (thr d L) ↦[(oCurAt L n hn).view.set]{fullShare} m (oLoc d))
    ∗ ((oV).view.loc (thr d L) ↦[oRest L (n + 1)]{fullShare} m (oLoc d)))

set_option maxHeartbeats 1600000 in
theorem outPart_eq (k : ℕ) (h : k < 64) (n : ℕ) (hn : n < 4) (e : k / 16 = n) : outPart d L m k = outAt d L m n hn k := by
  subst e
  unfold outPart outAt
  rw [dif_pos h]

/-- A 64 × 128 window of the result credits 64 · 128 · 32 units, wherever it starts. -/
theorem wbN_lit : ((oV).slice (Rect.unit (s := S8192x128) ![0, 0] S64x128.size (by decide)) (fun _ => rfl)).view.amount
    (SemLoc.dma (sig := sig) cc0_scratch3.sem) = wbN := by decide +kernel

theorem wbN_eq (off : Fin 2 → ℕ) (hb : ∀ a, off a + S64x128.size a ≤ S8192x128.size a) :
    ((oV).slice (Rect.unit (s := S8192x128) off S64x128.size hb) (fun _ => rfl)).view.amount (SemLoc.dma (sig := sig) cc0_scratch3.sem) = wbN :=
  (show _ = ((oV).slice (Rect.unit (s := S8192x128) ![0, 0] S64x128.size (by decide)) (fun _ => rfl)).view.amount
    (SemLoc.dma (sig := sig) cc0_scratch3.sem) from rfl).trans wbN_lit

theorem outPart_last : outPart d L m 64 = (iprop(emp) : sProp 𝕄) := by
  unfold outPart; rw [dif_neg (by omega)]

end Cert.KernelIdeal.Tile

end
-- ==== Proof.Spares.lean ====
/-
  The shares of the table and of the index scratch that no gather of the loop uses, as one opaque proposition: kept
  folded while a trip runs, so that each new gather takes the read share of its own semaphore.
-/
import proofs.«208374_g60447369724146_cont_9to1c4b_798_24_alg».proof.Proof.TileInv

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)
  (fs : Buf (Elt F) ((thr d L).loc cc0_scratch0))

/-- The shares of the table and of the index scratch that no gather of the loop uses; kept folded while a trip runs. -/
def spares : sProp 𝕄 :=
  iprop(((xV).view.loc (thr d L) ↦{Transfers.shareDrop (xq L) 5} m (xLoc d)) ∗ ((xV).view.loc (thr d L) ↦{tokX L 0} m (xLoc d))
    ∗ ((sV).view.loc (thr d L) ↦{Transfers.shareDrop fullShare 5} idxBuf d L (m (iLoc d)) fs) ∗ ((sV).view.loc (thr d L) ↦{tokS 0} idxBuf d L (m (iLoc d)) fs))

theorem spares_fold : iprop(((xV).view.loc (thr d L) ↦{Transfers.shareDrop (xq L) 5} m (xLoc d)) ∗ ((xV).view.loc (thr d L) ↦{tokX L 0} m (xLoc d))
    ∗ ((sV).view.loc (thr d L) ↦{Transfers.shareDrop fullShare 5} idxBuf d L (m (iLoc d)) fs) ∗ ((sV).view.loc (thr d L) ↦{tokS 0} idxBuf d L (m (iLoc d)) fs))
      ⊢ spares d L m fs := by unfold spares; exact .rfl
theorem spares_open : spares d L m fs ⊢ iprop(((xV).view.loc (thr d L) ↦{Transfers.shareDrop (xq L) 5} m (xLoc d)) ∗ ((xV).view.loc (thr d L) ↦{tokX L 0} m (xLoc d))
    ∗ ((sV).view.loc (thr d L) ↦{Transfers.shareDrop fullShare 5} idxBuf d L (m (iLoc d)) fs) ∗ ((sV).view.loc (thr d L) ↦{tokS 0} idxBuf d L (m (iLoc d)) fs)) := by unfold spares; exact .rfl

end Cert.KernelIdeal.Tile

end
-- ==== Proof.TripFacts.lean ====
/-
  The loop's printed conditions, decided over the 64 trips: the look-ahead gathers of trip k are issued while row
  4k + b + 3 is still below 256 (the first always, the other three exactly when k < 63), and a write-back is issued
  exactly at the trips k with k % 16 = 15, of block k / 16.
-/
import proofs.«208374_g60447369724146_cont_9to1c4b_798_24_alg».proof.Proof.TileRes

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem cond1_all : ∀ k : Fin k0_t1_loop.trips, k0_cond1 k = 1#1 := by decide +kernel
theorem cond2_lo : ∀ k : Fin k0_t1_loop.trips, k.val < 63 → k0_cond2 k = 1#1 := by decide +kernel
theorem cond3_lo : ∀ k : Fin k0_t1_loop.trips, k.val < 63 → k0_cond3 k = 1#1 := by decide +kernel
theorem cond4_lo : ∀ k : Fin k0_t1_loop.trips, k.val < 63 → k0_cond4 k = 1#1 := by decide +kernel
theorem cond2_hi : ∀ k : Fin k0_t1_loop.trips, ¬ k.val < 63 → ¬ k0_cond2 k = 1#1 := by decide +kernel
theorem cond3_hi : ∀ k : Fin k0_t1_loop.trips, ¬ k.val < 63 → ¬ k0_cond3 k = 1#1 := by decide +kernel
theorem cond4_hi : ∀ k : Fin k0_t1_loop.trips, ¬ k.val < 63 → ¬ k0_cond4 k = 1#1 := by decide +kernel
theorem cond5_iff : ∀ k : Fin k0_t1_loop.trips, k0_cond5 k = 1#1 ↔ k.val % 16 = 15 := by decide +kernel
theorem off15_eq : ∀ k : Fin k0_t1_loop.trips, k0_cond5 k = 1#1 → k0_off15 k = ![64 * (k.val / 16), 0] := by decide +kernel
theorem off16_eq : ∀ (i : grid0.Coords) (k : Fin k0_t1_loop.trips), k0_cond5 k = 1#1 →
    k0_off16 i k = ![512 * (i 1).val + 256 * (i 0).val + 64 * (k.val / 16), 0] := by decide +kernel

end Cert.KernelIdeal.Tile

end
-- ==== Proof.GatherVal.lean ====
/-
  What a slot of the row scratch holds once a gather has landed. The gather's payload at position (t, x) of the slot is
  the table at the row the list's word t names and at lane x; the list is the 20-word window of the index scratch at
  residue row j, whose word t is word (j, t) of the fetched index rows; a word below 100000 names the row of its own
  unsigned value. Position (t, x) of slot b sits at (b, t, x) of the row scratch, so the slot's elements hold the
  contents `GR` states for residue row j.
-/
import proofs.«208374_g60447369724146_cont_9to1c4b_798_24_alg».proof.Proof.TileRes
import Idealize.ShloMosaic.Lib.ValueIdx
import Idealize.ShloMosaic.Lib.ValueLayout

noncomputable section

namespace Cert.KernelIdeal.Tile

open Cert.KernelIdeal Cert.KernelIdeal.Gen

open Idealize.ShloMosaic Idealize.ShloMosaic.ValueIdx
open Idealize.ShloMosaic.SparseCore (S V T)

variable {F : FTy → Type} [FloatOps F] (d : Dev nD) (L : grid0.Coords)

/-- The slot at first coordinate `b` of the row scratch. -/
abbrev slotAt (b : Nat) (hinb : ∀ a, (![b, 0, 0] : Fin 3 → Nat) a + S1x20x128.size a ≤ S4x20x128.size a) :
    Memref sig .scVector .vmem S20x128 .f32 :=
  ((rV).slice (Rect.unit (s := S4x20x128) ![b, 0, 0] S1x20x128.size hinb) (fun _ => rfl)).squeeze S20x128 squeezes_S1x20x128_S20x128

/-- The whole-table view places every index at itself. -/
theorem xAll_emb (i : S100000x128.Idx) : (xAllK).view.emb i = i := by
  funext a
  refine Fin.ext ?_
  show (![0, 0] : Fin 2 → Nat) a + 1 * (i a).val = (i a).val
  match a with
  | ⟨0, _⟩ => show 0 + 1 * _ = _; omega
  | ⟨1, _⟩ => show 0 + 1 * _ = _; omega

/-- Position (t, x) of the slot at `b` sits at (b, t, x) of the row scratch. -/
theorem slotAt_emb (b : Nat) (hinb : ∀ a, (![b, 0, 0] : Fin 3 → Nat) a + S1x20x128.size a ≤ S4x20x128.size a)
    (t : Fin 20) (x : Fin 128) (a : Fin 3) :
    (((slotAt b hinb).view.emb (ix2 t x)) a).val = (![b, t.val, x.val] : Fin 3 → Nat) a := by
  show (((Rect.unit (s := S4x20x128) ![b, 0, 0] S1x20x128.size hinb).emb
    (Shape.reshapeEquiv squeezes_S1x20x128_S20x128.numel_eq (ix2 t x))) a).val = _
  rw [reshapeEquiv_ix2_1ab]
  show (![b, 0, 0] : Fin 3 → Nat) a + 1 * ((ix3 (⟨0, Nat.one_pos⟩ : Fin 1) t x) a).val = _
  match a with
  | ⟨0, _⟩ => show b + 1 * 0 = b; omega
  | ⟨1, _⟩ => show 0 + 1 * t.val = t.val; omega
  | ⟨2, _⟩ => show 0 + 1 * x.val = x.val; omega

/-- Word `z` of the 20-word window at residue row `j` is word (j, z) of the index scratch. -/
theorem listRow_emb (j : Fin 256) (hb : ∀ a, (![j.val, 0] : Fin 2 → Nat) a + S1x20.size a ≤ S256x20.size a) (z : S20.Idx) (a : Fin 2) :
    (((listRowK ![j.val, 0] hb).view.emb z) a).val = (![j.val, (z 0).val] : Fin 2 → Nat) a := by
  show (((Rect.unit (s := S256x20) ![j.val, 0] S1x20.size hb).emb
    (Shape.reshapeEquiv squeezes_S1x20_S20.numel_eq z)) a).val = _
  rw [Shape.reshapeEquiv_cons_one]
  show (![j.val, 0] : Fin 2 → Nat) a + 1 * ((Fin.cons (⟨0, Nat.one_pos⟩ : Fin 1) z : S1x20.Idx) a).val = _
  match a with
  | ⟨0, _⟩ => show j.val + 1 * 0 = j.val; omega
  | ⟨1, _⟩ => show 0 + 1 * (z 0).val = (z 0).val; omega

/-- Entry `n` of a rank-one shape in row-major order is the index with coordinate `n`. -/
theorem rowMajor_symm_S20 (n : Fin S20.numel) : ((S20.rowMajor.symm n) 0).val = n.val := by
  have h1 := Shape.rowMajor_val_one (S20.rowMajor.symm n)
  rw [Equiv.apply_symm_apply] at h1
  exact h1.symm

/-- THE SLOT AFTER A GATHER, for the slot at any first coordinate: its elements hold what `GR` states for residue row j. -/
theorem gather_valAt [Cert.KernelIdeal.Facts] (b : Nat)
    (hinb : ∀ a, (![b, 0, 0] : Fin 3 → Nat) a + S1x20x128.size a ≤ S4x20x128.size a)
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slotAt b hinb).view.set,
      View.write (Elt F) (slotAt b hinb).view prev
        (SparseCore.gatherPayload Cert.KernelIdeal.Facts₀.gathers_S100000x128_S20x128 (View.read (Elt F) (xAllK).view fx)
          (SparseCore.rows (View.read (Elt F) (listRowK off hb).view (idxBuf d L fi fs)) hn hin)) Finset.univ y
      = GR d L (idxPay d L fi) fx j y := by
  subst hoff
  intro y hy
  obtain ⟨x, -, rfl⟩ := Finset.mem_map.mp hy
  obtain ⟨t, u, rfl⟩ : ∃ t u, x = ix2 t u := ⟨_, _, eq_ix2 x⟩
  refine (View.write_emb_of_mem _ _ (Finset.mem_univ _)).trans ((cast_eq _ _).trans ?_)
  unfold SparseCore.gatherPayload GR
  refine (View.read_apply _ _).trans ((cast_eq _ _).trans ?_)
  rw [xAll_emb]
  refine congrArg fx ?_
  have hidx : (listRowK ![j.val, 0] hb).view.emb
        (S20.rowMajor.symm (((ix2 t u : S20x128.Idx) Cert.KernelIdeal.Facts₀.gathers_S100000x128_S20x128.axis').cast hn.symm))
      = ix2 j (((slotAt b hinb).view.emb (ix2 t u)) 1) := by
    funext a'
    refine Fin.ext ?_
    rw [listRow_emb]
    match a' with
    | ⟨0, _⟩ => rfl
    | ⟨1, _⟩ =>
      show ((S20.rowMajor.symm _) 0).val = (((slotAt b hinb).view.emb (ix2 t u)) 1).val
      rw [rowMajor_symm_S20, slotAt_emb]
      rfl
  funext a
  refine Fin.ext ?_
  match a with
  | ⟨0, _⟩ =>
    show (Shape.Gathers.idx Cert.KernelIdeal.Facts₀.gathers_S100000x128_S20x128 _ (ix2 t u) Cert.KernelIdeal.Facts₀.gathers_S100000x128_S20x128.axis).val = _
    rw [Shape.Gathers.idx_axis]
    unfold SparseCore.rows rowF
    dsimp only
    rw [View.read_apply, cast_eq, idxBuf_eq, hidx]
    have hlt : (idxPay d L fi (ix2 j (((slotAt b hinb).view.emb (ix2 t u)) 1))).toNat < 100000 := by
      rw [idxPay_apply]; exact hfi _
    exact (Nat.mod_eq_of_lt hlt).symm
  | ⟨1, _⟩ =>
    refine (Shape.Gathers.idx_of_ne Cert.KernelIdeal.Facts₀.gathers_S100000x128_S20x128 _ (ix2 t u) ⟨1, by decide⟩ (by decide)).trans ?_
    show u.val = (((slotAt b hinb).view.emb (ix2 t u)) 2).val
    rw [slotAt_emb]
    rfl

/-- The slot at first coordinate 0 after a gather: its elements hold what `GR` states for residue row j. -/
theorem gather_val0 [Cert.KernelIdeal.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slot0K).view.set,
      View.write (Elt F) (slot0K).view prev
        (SparseCore.gatherPayload Cert.KernelIdeal.Facts₀.gathers_S100000x128_S20x128 (View.read (Elt F) (xAllK).view fx)
          (SparseCore.rows (View.read (Elt F) (listRowK off hb).view (idxBuf d L fi fs)) hn hin)) Finset.univ y
      = GR d L (idxPay d L fi) fx j y :=
  gather_valAt d L 0 inb_S4x20x128_S1x20x128_0_0_0 fi fx fs prev off hb hn hin hfi j hoff

/-- The slot at first coordinate 1 after a gather: its elements hold what `GR` states for residue row j. -/
theorem gather_val1 [Cert.KernelIdeal.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slot1K).view.set,
      View.write (Elt F) (slot1K).view prev
        (SparseCore.gatherPayload Cert.KernelIdeal.Facts₀.gathers_S100000x128_S20x128 (View.read (Elt F) (xAllK).view fx)
          (SparseCore.rows (View.read (Elt F) (listRowK off hb).view (idxBuf d L fi fs)) hn hin)) Finset.univ y
      = GR d L (idxPay d L fi) fx j y :=
  gather_valAt d L 1 inb_S4x20x128_S1x20x128_1_0_0 fi fx fs prev off hb hn hin hfi j hoff

/-- The slot at first coordinate 2 after a gather: its elements hold what `GR` states for residue row j. -/
theorem gather_val2 [Cert.KernelIdeal.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slot2K).view.set,
      View.write (Elt F) (slot2K).view prev
        (SparseCore.gatherPayload Cert.KernelIdeal.Facts₀.gathers_S100000x128_S20x128 (View.read (Elt F) (xAllK).view fx)
          (SparseCore.rows (View.read (Elt F) (listRowK off hb).view (idxBuf d L fi fs)) hn hin)) Finset.univ y
      = GR d L (idxPay d L fi) fx j y :=
  gather_valAt d L 2 inb_S4x20x128_S1x20x128_2_0_0 fi fx fs prev off hb hn hin hfi j hoff

/-- The slot at first coordinate 3 after a gather: its elements hold what `GR` states for residue row j. -/
theorem gather_val3 [Cert.KernelIdeal.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slot3K).view.set,
      View.write (Elt F) (slot3K).view prev
        (SparseCore.gatherPayload Cert.KernelIdeal.Facts₀.gathers_S100000x128_S20x128 (View.read (Elt F) (xAllK).view fx)
          (SparseCore.rows (View.read (Elt F) (listRowK off hb).view (idxBuf d L fi fs)) hn hin)) Finset.univ y
      = GR d L (idxPay d L fi) fx j y :=
  gather_valAt d L 3 inb_S4x20x128_S1x20x128_3_0_0 fi fx fs prev off hb hn hin hfi j hoff

end Cert.KernelIdeal.Tile

end
-- ==== Proof.FlightCanon.lean ====
/-
  A gather's delivery restated with the slot's canonical contents. The executor leaves the slot's contents as a list
  of writes — the payload written through the whole slot over what was there —; on the slot's own elements that is the
  contents `GR` states for the residue row, so the points-to of the slot, alone or inside a flight's delivery, is the
  points-to at `GR`.
-/
import proofs.«208374_g60447369724146_cont_9to1c4b_798_24_alg».proof.Proof.TileOut
import proofs.«208374_g60447369724146_cont_9to1c4b_798_24_alg».proof.Proof.GatherVal
import Idealize.ShloMosaic.Lib.Exec.Geometry

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- The slot's contents as one listed write of the gather's payload, on the slot's elements: what `GR` states. -/
theorem gather_writes_valAt [Cert.KernelIdeal.Facts] (b : Nat) (hinb : ∀ a, (![b, 0, 0] : Fin 3 → Nat) a + S1x20x128.size a ≤ S4x20x128.size a)
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slotAt b hinb).view.set,
      (slotAt b hinb).view.writes (Elt F) prev [⟨Rect.whole S20x128, (SparseCore.gatherPayload Cert.KernelIdeal.Facts₀.gathers_S100000x128_S20x128 (View.read (Elt F) (xAllK).view fx)
          (SparseCore.rows (View.read (Elt F) (listRowK off hb).view (idxBuf d L fi fs)) hn hin))⟩] y
      = GR d L (idxPay d L fi) fx j y := by
  intro y hy
  rw [← View.write_univ_eq_writes_whole, View.writes_nil]
  exact gather_valAt d L b hinb fi fx fs prev off hb hn hin hfi j hoff y hy

/-- A landed slot held at its listed contents is the slot held at `GR`. -/
theorem slot_canonAt (b : Nat) (hinb : ∀ a, (![b, 0, 0] : Fin 3 → Nat) a + S1x20x128.size a ≤ S4x20x128.size a)
    (fi : Buf (Elt F) (iLoc d)) (fx : Buf (Elt F) (xLoc d)) (base : Buf (Elt F) ((thr d L).loc cc0_scratch1)) (pay : S20x128.Idx → Elt F .f32) (j : Fin 256)
    (hval : ∀ y ∈ (slotAt b hinb).view.set, (slotAt b hinb).view.writes (Elt F) base [⟨Rect.whole S20x128, pay⟩] y = GR d L (idxPay d L fi) fx j y) :
    (((slotAt b hinb).view.loc (thr d L) ↦[(slotAt b hinb).view.set]{fullShare} (slotAt b hinb).view.writes (Elt F) base [⟨Rect.whole S20x128, pay⟩]) : sProp 𝕄) = ((slotAt b hinb).view.loc (thr d L) ↦[(slotAt b hinb).view.set]{fullShare} GR d L (idxPay d L fi) fx j) :=
  pointsTo_congr hval

/-- A flight whose delivery holds the slot at its listed contents delivers the slot at `GR`. -/
theorem flight_canonAt (b : Nat) (hinb : ∀ a, (![b, 0, 0] : Fin 3 → Nat) a + S1x20x128.size a ≤ S4x20x128.size a) (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slotAt b hinb).view.set, (slotAt b hinb).view.writes (Elt F) base [⟨Rect.whole S20x128, pay⟩] y = GR d L (idxPay d L fi) fx j y) :
    Transfers.Flight countersEmb (thr d L) sem ι N
        iprop((((slotAt b hinb).view.loc (thr d L) ↦[(slotAt b hinb).view.set]{fullShare} (slotAt b hinb).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slotAt b hinb).view.loc (thr d L) ↦[(slotAt b hinb).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) := by
  rw [slot_canonAt d L b hinb fi fx base pay j hval]

/-- Slot 0: the listed contents after its gather, on its elements. -/
theorem gather_writes_val0 [Cert.KernelIdeal.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slot0K).view.set,
      (slot0K).view.writes (Elt F) prev [⟨Rect.whole S20x128, (SparseCore.gatherPayload Cert.KernelIdeal.Facts₀.gathers_S100000x128_S20x128 (View.read (Elt F) (xAllK).view fx)
          (SparseCore.rows (View.read (Elt F) (listRowK off hb).view (idxBuf d L fi fs)) hn hin))⟩] y
      = GR d L (idxPay d L fi) fx j y :=
  gather_writes_valAt d L 0 inb_S4x20x128_S1x20x128_0_0_0 fi fx fs prev off hb hn hin hfi j hoff

/-- Slot 0, landed: held at its listed contents is held at `GR`. -/
theorem slot_canon0
    (fi : Buf (Elt F) (iLoc d)) (fx : Buf (Elt F) (xLoc d)) (base : Buf (Elt F) ((thr d L).loc cc0_scratch1)) (pay : S20x128.Idx → Elt F .f32) (j : Fin 256)
    (hval : ∀ y ∈ (slot0K).view.set, (slot0K).view.writes (Elt F) base [⟨Rect.whole S20x128, pay⟩] y = GR d L (idxPay d L fi) fx j y) :
    (((slot0K).view.loc (thr d L) ↦[(slot0K).view.set]{fullShare} (slot0K).view.writes (Elt F) base [⟨Rect.whole S20x128, pay⟩]) : sProp 𝕄) = ((slot0K).view.loc (thr d L) ↦[(slot0K).view.set]{fullShare} GR d L (idxPay d L fi) fx j) :=
  slot_canonAt d L 0 inb_S4x20x128_S1x20x128_0_0_0 fi fx base pay j hval

/-- Slot 0, in flight: the delivery restated at `GR`. -/
theorem flight_canon0 (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slot0K).view.set, (slot0K).view.writes (Elt F) base [⟨Rect.whole S20x128, pay⟩] y = GR d L (idxPay d L fi) fx j y) :
    Transfers.Flight countersEmb (thr d L) sem ι N
        iprop((((slot0K).view.loc (thr d L) ↦[(slot0K).view.set]{fullShare} (slot0K).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slot0K).view.loc (thr d L) ↦[(slot0K).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) :=
  flight_canonAt d L 0 inb_S4x20x128_S1x20x128_0_0_0 sem ι N i w fi fx fs base pay j hval

/-- Slot 1: the listed contents after its gather, on its elements. -/
theorem gather_writes_val1 [Cert.KernelIdeal.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slot1K).view.set,
      (slot1K).view.writes (Elt F) prev [⟨Rect.whole S20x128, (SparseCore.gatherPayload Cert.KernelIdeal.Facts₀.gathers_S100000x128_S20x128 (View.read (Elt F) (xAllK).view fx)
          (SparseCore.rows (View.read (Elt F) (listRowK off hb).view (idxBuf d L fi fs)) hn hin))⟩] y
      = GR d L (idxPay d L fi) fx j y :=
  gather_writes_valAt d L 1 inb_S4x20x128_S1x20x128_1_0_0 fi fx fs prev off hb hn hin hfi j hoff

/-- Slot 1, landed: held at its listed contents is held at `GR`. -/
theorem slot_canon1
    (fi : Buf (Elt F) (iLoc d)) (fx : Buf (Elt F) (xLoc d)) (base : Buf (Elt F) ((thr d L).loc cc0_scratch1)) (pay : S20x128.Idx → Elt F .f32) (j : Fin 256)
    (hval : ∀ y ∈ (slot1K).view.set, (slot1K).view.writes (Elt F) base [⟨Rect.whole S20x128, pay⟩] y = GR d L (idxPay d L fi) fx j y) :
    (((slot1K).view.loc (thr d L) ↦[(slot1K).view.set]{fullShare} (slot1K).view.writes (Elt F) base [⟨Rect.whole S20x128, pay⟩]) : sProp 𝕄) = ((slot1K).view.loc (thr d L) ↦[(slot1K).view.set]{fullShare} GR d L (idxPay d L fi) fx j) :=
  slot_canonAt d L 1 inb_S4x20x128_S1x20x128_1_0_0 fi fx base pay j hval

/-- Slot 1, in flight: the delivery restated at `GR`. -/
theorem flight_canon1 (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slot1K).view.set, (slot1K).view.writes (Elt F) base [⟨Rect.whole S20x128, pay⟩] y = GR d L (idxPay d L fi) fx j y) :
    Transfers.Flight countersEmb (thr d L) sem ι N
        iprop((((slot1K).view.loc (thr d L) ↦[(slot1K).view.set]{fullShare} (slot1K).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slot1K).view.loc (thr d L) ↦[(slot1K).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) :=
  flight_canonAt d L 1 inb_S4x20x128_S1x20x128_1_0_0 sem ι N i w fi fx fs base pay j hval

/-- Slot 2: the listed contents after its gather, on its elements. -/
theorem gather_writes_val2 [Cert.KernelIdeal.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slot2K).view.set,
      (slot2K).view.writes (Elt F) prev [⟨Rect.whole S20x128, (SparseCore.gatherPayload Cert.KernelIdeal.Facts₀.gathers_S100000x128_S20x128 (View.read (Elt F) (xAllK).view fx)
          (SparseCore.rows (View.read (Elt F) (listRowK off hb).view (idxBuf d L fi fs)) hn hin))⟩] y
      = GR d L (idxPay d L fi) fx j y :=
  gather_writes_valAt d L 2 inb_S4x20x128_S1x20x128_2_0_0 fi fx fs prev off hb hn hin hfi j hoff

/-- Slot 2, landed: held at its listed contents is held at `GR`. -/
theorem slot_canon2
    (fi : Buf (Elt F) (iLoc d)) (fx : Buf (Elt F) (xLoc d)) (base : Buf (Elt F) ((thr d L).loc cc0_scratch1)) (pay : S20x128.Idx → Elt F .f32) (j : Fin 256)
    (hval : ∀ y ∈ (slot2K).view.set, (slot2K).view.writes (Elt F) base [⟨Rect.whole S20x128, pay⟩] y = GR d L (idxPay d L fi) fx j y) :
    (((slot2K).view.loc (thr d L) ↦[(slot2K).view.set]{fullShare} (slot2K).view.writes (Elt F) base [⟨Rect.whole S20x128, pay⟩]) : sProp 𝕄) = ((slot2K).view.loc (thr d L) ↦[(slot2K).view.set]{fullShare} GR d L (idxPay d L fi) fx j) :=
  slot_canonAt d L 2 inb_S4x20x128_S1x20x128_2_0_0 fi fx base pay j hval

/-- Slot 2, in flight: the delivery restated at `GR`. -/
theorem flight_canon2 (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slot2K).view.set, (slot2K).view.writes (Elt F) base [⟨Rect.whole S20x128, pay⟩] y = GR d L (idxPay d L fi) fx j y) :
    Transfers.Flight countersEmb (thr d L) sem ι N
        iprop((((slot2K).view.loc (thr d L) ↦[(slot2K).view.set]{fullShare} (slot2K).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slot2K).view.loc (thr d L) ↦[(slot2K).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) :=
  flight_canonAt d L 2 inb_S4x20x128_S1x20x128_2_0_0 sem ι N i w fi fx fs base pay j hval

/-- Slot 3: the listed contents after its gather, on its elements. -/
theorem gather_writes_val3 [Cert.KernelIdeal.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.KernelIdeal.Facts₀.gathers_S100000x128_S20x128.axis')
    (hin : ∀ x, ((listRowK off hb).view.read (Elt F) (idxBuf d L fi fs) x).toNat < S100000x128.size Cert.KernelIdeal.Facts₀.gathers_S100000x128_S20x128.axis)
    (hfi : ∀ j, (fi j).toNat < 100000) (j : Fin 256) (hoff : off = ![j.val, 0]) :
    ∀ y ∈ (slot3K).view.set,
      (slot3K).view.writes (Elt F) prev [⟨Rect.whole S20x128, (SparseCore.gatherPayload Cert.KernelIdeal.Facts₀.gathers_S100000x128_S20x128 (View.read (Elt F) (xAllK).view fx)
          (SparseCore.rows (View.read (Elt F) (listRowK off hb).view (idxBuf d L fi fs)) hn hin))⟩] y
      = GR d L (idxPay d L fi) fx j y :=
  gather_writes_valAt d L 3 inb_S4x20x128_S1x20x128_3_0_0 fi fx fs prev off hb hn hin hfi j hoff

/-- Slot 3, landed: held at its listed contents is held at `GR`. -/
theorem slot_canon3
    (fi : Buf (Elt F) (iLoc d)) (fx : Buf (Elt F) (xLoc d)) (base : Buf (Elt F) ((thr d L).loc cc0_scratch1)) (pay : S20x128.Idx → Elt F .f32) (j : Fin 256)
    (hval : ∀ y ∈ (slot3K).view.set, (slot3K).view.writes (Elt F) base [⟨Rect.whole S20x128, pay⟩] y = GR d L (idxPay d L fi) fx j y) :
    (((slot3K).view.loc (thr d L) ↦[(slot3K).view.set]{fullShare} (slot3K).view.writes (Elt F) base [⟨Rect.whole S20x128, pay⟩]) : sProp 𝕄) = ((slot3K).view.loc (thr d L) ↦[(slot3K).view.set]{fullShare} GR d L (idxPay d L fi) fx j) :=
  slot_canonAt d L 3 inb_S4x20x128_S1x20x128_3_0_0 fi fx base pay j hval

/-- Slot 3, in flight: the delivery restated at `GR`. -/
theorem flight_canon3 (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slot3K).view.set, (slot3K).view.writes (Elt F) base [⟨Rect.whole S20x128, pay⟩] y = GR d L (idxPay d L fi) fx j y) :
    Transfers.Flight countersEmb (thr d L) sem ι N
        iprop((((slot3K).view.loc (thr d L) ↦[(slot3K).view.set]{fullShare} (slot3K).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slot3K).view.loc (thr d L) ↦[(slot3K).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) :=
  flight_canonAt d L 3 inb_S4x20x128_S1x20x128_3_0_0 sem ι N i w fi fx fs base pay j hval

end Cert.KernelIdeal.Tile

end
-- ==== Proof.TripClose.lean ====
/-
  The loop invariant's gather part, re-established. After a trip the three look-ahead gathers are in flight into
  slots 0, 1, 2, their deliveries holding the slots at listed contents; on the slots' own elements those are the
  contents the invariant states for the next trip's residue rows, so the three flights, the fourth read shares, the
  free slot and its idle semaphore are the gather part before trip k + 1. After the last trip nothing is in flight:
  the four read shares of the table and of the index scratch, the four slots and the four idle semaphores are the
  gather part at 64.
-/
import proofs.«208374_g60447369724146_cont_9to1c4b_798_24_alg».proof.Proof.TileInv
import proofs.«208374_g60447369724146_cont_9to1c4b_798_24_alg».proof.Proof.FlightCanon

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

variable (m : (ℓ : Loc nD τ sig) → Buf (Elt F) ℓ) (fs : Buf (Elt F) ((thr d L).loc cc0_scratch0))

set_option maxHeartbeats 1600000 in
/-- The gather part before trip k + 1, from the three flights at listed contents. -/
theorem gathers_close (k : ℕ) (hk : k + 1 < 64) (w0 w1 w2 : Finset S256x20.Idx)
    (base0 base1 base2 : Buf (Elt F) ((thr d L).loc cc0_scratch1)) (pay0 pay1 pay2 : S20x128.Idx → Elt F .f32)
    (f3 : Buf (Elt F) ((thr d L).loc cc0_scratch1))
    (h0 : ∀ y ∈ (slot0K).view.set, (slot0K).view.writes (Elt F) base0 [⟨Rect.whole S20x128, pay0⟩] y = GR d L (idxPay d L (m (iLoc d))) (m (xLoc d)) ⟨4 * (k + 1), by omega⟩ y)
    (h1 : ∀ y ∈ (slot1K).view.set, (slot1K).view.writes (Elt F) base1 [⟨Rect.whole S20x128, pay1⟩] y = GR d L (idxPay d L (m (iLoc d))) (m (xLoc d)) ⟨4 * (k + 1) + 1, by omega⟩ y)
    (h2 : ∀ y ∈ (slot2K).view.set, (slot2K).view.writes (Elt F) base2 [⟨Rect.whole S20x128, pay2⟩] y = GR d L (idxPay d L (m (iLoc d))) (m (xLoc d)) ⟨4 * (k + 1) + 2, by omega⟩ y) :
    iprop((Transfers.Flight countersEmb (thr d L) (.dma cc0_scratch4.sem) (default : HIx 1) 81920 iprop((((slot0K).view.loc (thr d L) ↦[(slot0K).view.set]{fullShare} (slot0K).view.writes (Elt F) base0 [⟨Rect.whole S20x128, pay0⟩]) ∗ ((sV).view.loc (thr d L) ↦[w0]{tokS 1} idxBuf d L (m (iLoc d)) fs)) ∗ ((xV).view.loc (thr d L) ↦[(xAllK).view.set]{tokX L 1} m (xLoc d)))
          ∗ ((xV).view.loc (thr d L) ↦[Finset.univ \ (xAllK).view.set]{tokX L 1} m (xLoc d)) ∗ ((sV).view.loc (thr d L) ↦[Finset.univ \ w0]{tokS 1} idxBuf d L (m (iLoc d)) fs))
        ∗ (Transfers.Flight countersEmb (thr d L) (.dma cc0_scratch5.sem) (default : HIx 1) 81920 iprop((((slot1K).view.loc (thr d L) ↦[(slot1K).view.set]{fullShare} (slot1K).view.writes (Elt F) base1 [⟨Rect.whole S20x128, pay1⟩]) ∗ ((sV).view.loc (thr d L) ↦[w1]{tokS 2} idxBuf d L (m (iLoc d)) fs)) ∗ ((xV).view.loc (thr d L) ↦[(xAllK).view.set]{tokX L 2} m (xLoc d)))
          ∗ ((xV).view.loc (thr d L) ↦[Finset.univ \ (xAllK).view.set]{tokX L 2} m (xLoc d)) ∗ ((sV).view.loc (thr d L) ↦[Finset.univ \ w1]{tokS 2} idxBuf d L (m (iLoc d)) fs))
        ∗ (Transfers.Flight countersEmb (thr d L) (.dma cc0_scratch6.sem) (default : HIx 1) 81920 iprop((((slot2K).view.loc (thr d L) ↦[(slot2K).view.set]{fullShare} (slot2K).view.writes (Elt F) base2 [⟨Rect.whole S20x128, pay2⟩]) ∗ ((sV).view.loc (thr d L) ↦[w2]{tokS 3} idxBuf d L (m (iLoc d)) fs)) ∗ ((xV).view.loc (thr d L) ↦[(xAllK).view.set]{tokX L 3} m (xLoc d)))
          ∗ ((xV).view.loc (thr d L) ↦[Finset.univ \ (xAllK).view.set]{tokX L 3} m (xLoc d)) ∗ ((sV).view.loc (thr d L) ↦[Finset.univ \ w2]{tokS 3} idxBuf d L (m (iLoc d)) fs))
        ∗ ((xV).view.loc (thr d L) ↦{tokX L 4} m (xLoc d)) ∗ ((sV).view.loc (thr d L) ↦{tokS 4} idxBuf d L (m (iLoc d)) fs)
        ∗ ((slot3K).view.loc (thr d L) ↦[(slot3K).view.set]{fullShare} f3)
        ∗ semVal (thr d L, .dma cc0_scratch7.sem) 0)
      ⊢ (gathersPart d L m fs (k + 1) : sProp 𝕄) := by
  unfold gathersPart
  rw [dif_pos hk]
  rw [slot_canon0 d L (m (iLoc d)) (m (xLoc d)) base0 pay0 _ h0, slot_canon1 d L (m (iLoc d)) (m (xLoc d)) base1 pay1 _ h1,
    slot_canon2 d L (m (iLoc d)) (m (xLoc d)) base2 pay2 _ h2]
  iintro ⟨H0, H1, H2, HT, HS, H3, Hsem⟩
  iexists w0, w1, w2
  isplitl [H0]; · iexact H0
  isplitl [H1]; · iexact H1
  isplitl [H2]; · iexact H2
  isplitl [HT]; · iexact HT
  isplitl [HS]; · iexact HS
  isplitl [H3]
  · iexists f3; iexact H3
  iexact Hsem

set_option maxHeartbeats 1600000 in
/-- The gather part after the last trip. -/
theorem gathers_last (f0 f1 f2 f3 : Buf (Elt F) ((thr d L).loc cc0_scratch1)) :
    iprop(((xV).view.loc (thr d L) ↦{tokX L 1} m (xLoc d)) ∗ ((xV).view.loc (thr d L) ↦{tokX L 2} m (xLoc d))
        ∗ ((xV).view.loc (thr d L) ↦{tokX L 3} m (xLoc d)) ∗ ((xV).view.loc (thr d L) ↦{tokX L 4} m (xLoc d))
        ∗ ((sV).view.loc (thr d L) ↦{tokS 1} idxBuf d L (m (iLoc d)) fs) ∗ ((sV).view.loc (thr d L) ↦{tokS 2} idxBuf d L (m (iLoc d)) fs)
        ∗ ((sV).view.loc (thr d L) ↦{tokS 3} idxBuf d L (m (iLoc d)) fs) ∗ ((sV).view.loc (thr d L) ↦{tokS 4} idxBuf d L (m (iLoc d)) fs)
        ∗ ((slot0K).view.loc (thr d L) ↦[(slot0K).view.set]{fullShare} f0) ∗ ((slot1K).view.loc (thr d L) ↦[(slot1K).view.set]{fullShare} f1)
        ∗ ((slot2K).view.loc (thr d L) ↦[(slot2K).view.set]{fullShare} f2) ∗ ((slot3K).view.loc (thr d L) ↦[(slot3K).view.set]{fullShare} f3)
        ∗ semVal (thr d L, .dma cc0_scratch4.sem) 0 ∗ semVal (thr d L, .dma cc0_scratch5.sem) 0
        ∗ semVal (thr d L, .dma cc0_scratch6.sem) 0 ∗ semVal (thr d L, .dma cc0_scratch7.sem) 0)
      ⊢ (gathersPart d L m fs 64 : sProp 𝕄) := by
  unfold gathersPart
  rw [dif_neg (by omega : ¬ (64 < 64))]
  iintro ⟨T1, T2, T3, T4, S1, S2, S3, S4, A0, A1, A2, A3, C4, C5, C6, C7⟩
  isplitl [T1]; · iexact T1
  isplitl [T2]; · iexact T2
  isplitl [T3]; · iexact T3
  isplitl [T4]; · iexact T4
  isplitl [S1]; · iexact S1
  isplitl [S2]; · iexact S2
  isplitl [S3]; · iexact S3
  isplitl [S4]; · iexact S4
  isplitl [A0]
  · iexists f0; iexact A0
  isplitl [A1]
  · iexists f1; iexact A1
  isplitl [A2]
  · iexists f2; iexact A2
  isplitl [A3]
  · iexists f3; iexact A3
  isplitl [C4]; · iexact C4
  isplitl [C5]; · iexact C5
  isplitl [C6]; · iexact C6
  iexact C7

end Cert.KernelIdeal.Tile

end
-- ==== Proof.TripVal.lean ====
/-
  Values along one trip of the loop and at a write-back. A trip stores 32 pieces, each a 1×16 row segment of rows
  4k … 4k+3 of the output scratch, holding the tile's local result there; after them the rows of the current block up
  to 4k+4 hold the local result. When a block of 64 rows is complete, its copy to the result array delivers window
  k/16 of the tile's rows of the result at the result function, and the block back as it was.
-/
import proofs.«208374_g60447369724146_cont_9to1c4b_798_24_alg».proof.Proof.TileInv
import proofs.«208374_g60447369724146_cont_9to1c4b_798_24_alg».proof.Proof.TripFacts
import proofs.«208374_g60447369724146_cont_9to1c4b_798_24_alg».proof.Proof.TileVal
import Idealize.ShloMosaic.Lib.Writes

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

variable (m : (ℓ : Loc nD τ sig) → Buf (Elt F) ℓ)

open Idealize.ShloMosaic.ValueIdx

/-! ## The rectangles of one trip -/

/-- A 1×16 row segment of the output scratch, as a set. -/
theorem mem_unit16 (off : Fin 2 → Nat) (hb : ∀ a, off a + S1x16.size a ≤ S256x128.size a) (y : S256x128.Idx) :
    y ∈ (Rect.unit (s := S256x128) off S1x16.size hb).set ↔ (y 0).val = off 0 ∧ off 1 ≤ (y 1).val ∧ (y 1).val < off 1 + 16 := by
  rw [Rect.mem_set_unit]
  constructor
  · intro h
    have h0 : off 0 ≤ (y 0).val ∧ (y 0).val < off 0 + 1 := h 0
    have h1 : off 1 ≤ (y 1).val ∧ (y 1).val < off 1 + 16 := h 1
    omega
  · rintro ⟨e0, lo, hi⟩ a
    match a with
    | 0 => exact (show off 0 ≤ (y 0).val ∧ (y 0).val < off 0 + 1 by omega)
    | 1 => exact (show off 1 ≤ (y 1).val ∧ (y 1).val < off 1 + 16 from ⟨lo, hi⟩)

/-- Where the segment's positions sit: the offsets added. -/
theorem unit16_emb (off : Fin 2 → Nat) (hb : ∀ a, off a + S1x16.size a ≤ S256x128.size a) (x : S1x16.Idx) (a : Fin 2) :
    (((Rect.unit (s := S256x128) off S1x16.size hb).emb x) a).val = (![off 0 + (x 0).val, off 1 + (x 1).val] : Fin 2 → Nat) a := by
  show off a + 1 * (x a).val = _
  match a with
  | ⟨0, _⟩ => show off 0 + 1 * (x 0).val = off 0 + (x 0).val; omega
  | ⟨1, _⟩ => show off 1 + 1 * (x 1).val = off 1 + (x 1).val; omega

/-- The 32 segments of trip k cover rows 4k … 4k+3: each position lies in the segment of its row and its 16-lane chunk. -/
theorem trip_cover (k : ℕ) (hk : 4 * k + 4 ≤ 256) : ∀ y : S256x128.Idx, 4 * k ≤ (y 0).val → (y 0).val < 4 * k + 4 →
    ∃ (b : Fin 4) (dc : Fin 8), (y 0).val = 4 * k + b.val ∧ 16 * dc.val ≤ (y 1).val ∧ (y 1).val < 16 * dc.val + 16 := by
  intro y hlo hhi
  have h1 : (y 1).val < 128 := (y 1).isLt
  exact ⟨⟨(y 0).val - 4 * k, by omega⟩, ⟨(y 1).val / 16, by omega⟩, by show (y 0).val = 4 * k + ((y 0).val - 4 * k); omega,
    by show 16 * ((y 1).val / 16) ≤ (y 1).val; omega, by show (y 1).val < 16 * ((y 1).val / 16) + 16; omega⟩

/-! ## The rows-done step -/

/-- After pieces that lie in rows 4k … 4k+3, cover them, and hold the local result, every row of the current block
    below 4k+4 holds the local result. -/
theorem rows_step_block (k : ℕ) (fa : Buf (Elt F) ((thr d L).loc cc0_scratch2)) (Ps : List (Σ r : Rect S256x128, (r.shape.Idx → Elt F .f32)))
    (hrows : RowsDone d L m k fa)
    (hin : ∀ p ∈ Ps, ∀ y ∈ p.1.set, 4 * k ≤ (y 0).val ∧ (y 0).val < 4 * k + 4)
    (hcov : ∀ y : S256x128.Idx, 4 * k ≤ (y 0).val → (y 0).val < 4 * k + 4 → ∃ p ∈ Ps, y ∈ p.1.set)
    (hval : ∀ p ∈ Ps, ∀ x, p.2 x = OutLoc d L m (p.1.emb x)) :
    ∀ y : S256x128.Idx, 64 * (k / 16) ≤ (y 0).val → (y 0).val < 4 * k + 4 →
      (aV).view.writes (Elt F) fa Ps y = OutLoc d L m y := by
  intro y hlo hhi
  by_cases hy : 4 * k ≤ (y 0).val
  · exact View.read_writes_apply_of_pieces (aV).view fa (OutLoc d L m) Ps hval y (hcov y hy hhi)
  · have hnot : ∀ p ∈ Ps, y ∉ p.1.set := fun p hp hmem => by
      have := hin p hp y hmem
      omega
    have h1 : (aV).view.writes (Elt F) fa Ps y = fa y := View.read_writes_apply_of_forall_not_mem (aV).view fa y Ps hnot
    exact h1.trans (hrows y hlo (by omega))

/-- THE ROWS-DONE STEP. -/
theorem rows_step (k : ℕ) (fa : Buf (Elt F) ((thr d L).loc cc0_scratch2)) (Ps : List (Σ r : Rect S256x128, (r.shape.Idx → Elt F .f32)))
    (hrows : RowsDone d L m k fa)
    (hin : ∀ p ∈ Ps, ∀ y ∈ p.1.set, 4 * k ≤ (y 0).val ∧ (y 0).val < 4 * k + 4)
    (hcov : ∀ y : S256x128.Idx, 4 * k ≤ (y 0).val → (y 0).val < 4 * k + 4 → ∃ p ∈ Ps, y ∈ p.1.set)
    (hval : ∀ p ∈ Ps, ∀ x, p.2 x = OutLoc d L m (p.1.emb x)) :
    RowsDone d L m (k + 1) ((aV).view.writes (Elt F) fa Ps) := by
  intro y hlo hhi
  refine rows_step_block d L m k fa Ps hrows hin hcov hval y ?_ (by omega)
  omega

/-! ## A finished block's write-back -/

/-- The copied block of the output scratch, as a set: block k/16. -/
theorem set_progSrc (k : Fin k0_t1_loop.trips) (hc5 : k0_cond5 k = 1#1) :
    (((aV).slice (Rect.unit (s := S256x128) (k0_off15 k) S64x128.size (k0_off15_inb k hc5)) (fun _ => rfl))).view.set = aBlkSet (k.val / 16) := by
  show ((View.whole (cc0_scratch2 : Ref sig .scVector)).slice
    (Rect.unit (s := S256x128) (k0_off15 k) S64x128.size (k0_off15_inb k hc5))).set = _
  rw [View.set_slice_whole]
  ext y
  rw [Rect.mem_set_unit, off15_eq k hc5]
  unfold aBlkSet
  rw [Finset.mem_filter]
  constructor
  · intro h
    have h0 : 64 * (k.val / 16) ≤ (y 0).val ∧ (y 0).val < 64 * (k.val / 16) + 64 := h 0
    exact ⟨Finset.mem_univ _, h0⟩
  · rintro ⟨-, lo, hi⟩ a
    have h1 : (y 1).val < 128 := (y 1).isLt
    match a with
    | 0 => exact (show 64 * (k.val / 16) ≤ (y 0).val ∧ (y 0).val < 64 * (k.val / 16) + 64 from ⟨lo, hi⟩)
    | 1 => exact (show 0 ≤ (y 1).val ∧ (y 1).val < 0 + 128 by omega)

/-- The window of the result the block is copied to, as a set: window k/16 of the tile's rows. -/
theorem set_progDst (k : Fin k0_t1_loop.trips) (hc5 : k0_cond5 k = 1#1) :
    (((oV).slice (Rect.unit (s := S8192x128) (k0_off16 L k) S64x128.size (k0_off16_inb L k hc5)) (fun _ => rfl))).view.set = oWinSet L (k.val / 16) := by
  show ((View.whole (main_v0_scv : Ref sig .scVector)).slice
    (Rect.unit (s := S8192x128) (k0_off16 L k) S64x128.size (k0_off16_inb L k hc5))).set = _
  rw [View.set_slice_whole]
  ext y
  rw [Rect.mem_set_unit, off16_eq L k hc5]
  unfold oWinSet tileBase
  rw [Finset.mem_filter]
  constructor
  · intro h
    have h0 : 512 * (L 1).val + 256 * (L 0).val + 64 * (k.val / 16) ≤ (y 0).val
        ∧ (y 0).val < 512 * (L 1).val + 256 * (L 0).val + 64 * (k.val / 16) + 64 := h 0
    exact ⟨Finset.mem_univ _, h0⟩
  · rintro ⟨-, lo, hi⟩ a
    have h1 : (y 1).val < 128 := (y 1).isLt
    match a with
    | 0 => exact (show 512 * (L 1).val + 256 * (L 0).val + 64 * (k.val / 16) ≤ (y 0).val
        ∧ (y 0).val < 512 * (L 1).val + 256 * (L 0).val + 64 * (k.val / 16) + 64 from ⟨lo, hi⟩)
    | 1 => exact (show 0 ≤ (y 1).val ∧ (y 1).val < 0 + 128 by omega)

/-- Position x of the copied block sits at row 64 (k/16) + x₀ of the output scratch. -/
theorem progSrc_emb (k : Fin k0_t1_loop.trips) (hc5 : k0_cond5 k = 1#1) (x : S64x128.Idx) (a : Fin 2) :
    (((((aV).slice (Rect.unit (s := S256x128) (k0_off15 k) S64x128.size (k0_off15_inb k hc5)) (fun _ => rfl))).view.emb x) a).val = (![64 * (k.val / 16) + (x 0).val, (x 1).val] : Fin 2 → Nat) a := by
  show (k0_off15 k) a + 1 * (x a).val = _
  rw [off15_eq k hc5]
  match a with
  | ⟨0, _⟩ => show 64 * (k.val / 16) + 1 * (x 0).val = 64 * (k.val / 16) + (x 0).val; omega
  | ⟨1, _⟩ => show 0 + 1 * (x 1).val = (x 1).val; omega

/-- Position x of the window sits at row (tile's first row) + 64 (k/16) + x₀ of the result. -/
theorem progDst_emb (k : Fin k0_t1_loop.trips) (hc5 : k0_cond5 k = 1#1) (x : S64x128.Idx) (a : Fin 2) :
    (((((oV).slice (Rect.unit (s := S8192x128) (k0_off16 L k) S64x128.size (k0_off16_inb L k hc5)) (fun _ => rfl))).view.emb x) a).val
      = (![512 * (L 1).val + 256 * (L 0).val + 64 * (k.val / 16) + (x 0).val, (x 1).val] : Fin 2 → Nat) a := by
  show (k0_off16 L k) a + 1 * (x a).val = _
  rw [off16_eq L k hc5]
  match a with
  | ⟨0, _⟩ =>
    show 512 * (L 1).val + 256 * (L 0).val + 64 * (k.val / 16) + 1 * (x 0).val
      = 512 * (L 1).val + 256 * (L 0).val + 64 * (k.val / 16) + (x 0).val
    omega
  | ⟨1, _⟩ => show 0 + 1 * (x 1).val = (x 1).val; omega

/-- WHAT THE WRITE-BACK OF A FINISHED BLOCK DELIVERS: window k/16 of the tile's rows of the result at the result
    function, and block k/16 of the output scratch, which holds the local result. -/
theorem wb_hD (k : Fin k0_t1_loop.trips) (hc5 : k0_cond5 k = 1#1) (fa : Buf (Elt F) ((thr d L).loc cc0_scratch2))
    (hrows : ∀ y : S256x128.Idx, 64 * (k.val / 16) ≤ (y 0).val → (y 0).val < 64 * (k.val / 16) + 64 → fa y = OutLoc d L m y)
    (hn : k.val / 16 < 4) :
    iprop(((((oV).slice (Rect.unit (s := S8192x128) (k0_off16 L k) S64x128.size (k0_off16_inb L k hc5)) (fun _ => rfl))).view.loc (thr d L) ↦[(((oV).slice (Rect.unit (s := S8192x128) (k0_off16 L k) S64x128.size (k0_off16_inb L k hc5)) (fun _ => rfl))).view.set]{fullShare}
            (((oV).slice (Rect.unit (s := S8192x128) (k0_off16 L k) S64x128.size (k0_off16_inb L k hc5)) (fun _ => rfl))).view.write (Elt F) (m (oLoc d)) (ReadAs.same.apply ((((aV).slice (Rect.unit (s := S256x128) (k0_off15 k) S64x128.size (k0_off15_inb k hc5)) (fun _ => rfl))).view.read (Elt F) fa)) Finset.univ)
        ∗ ((((aV).slice (Rect.unit (s := S256x128) (k0_off15 k) S64x128.size (k0_off15_inb k hc5)) (fun _ => rfl))).view.loc (thr d L) ↦[(((aV).slice (Rect.unit (s := S256x128) (k0_off15 k) S64x128.size (k0_off15_inb k hc5)) (fun _ => rfl))).view.set]{fullShare} fa))
      ⊢ (wbD d L m ⟨k.val / 16, hn⟩ : sProp 𝕄) := by
  have hD : ∀ y ∈ (((oV).slice (Rect.unit (s := S8192x128) (k0_off16 L k) S64x128.size (k0_off16_inb L k hc5)) (fun _ => rfl))).view.set,
      (((oV).slice (Rect.unit (s := S8192x128) (k0_off16 L k) S64x128.size (k0_off16_inb L k hc5)) (fun _ => rfl))).view.write (Elt F) (m (oLoc d)) (ReadAs.same.apply ((((aV).slice (Rect.unit (s := S256x128) (k0_off15 k) S64x128.size (k0_off15_inb k hc5)) (fun _ => rfl))).view.read (Elt F) fa)) Finset.univ y = Out m d y := by
    intro y hy
    obtain ⟨x, -, rfl⟩ := Finset.mem_map.mp hy
    have hx0 : (x 0).val < 64 := (x 0).isLt
    refine (View.write_emb_of_mem _ _ (Finset.mem_univ _)).trans ((cast_eq _ _).trans ?_)
    show (((aV).slice (Rect.unit (s := S256x128) (k0_off15 k) S64x128.size (k0_off15_inb k hc5)) (fun _ => rfl))).view.read (Elt F) fa x = _
    refine (View.read_apply _ _).trans ((cast_eq _ _).trans ?_)
    rw [hrows _ (by rw [progSrc_emb k hc5]; show 64 * (k.val / 16) ≤ 64 * (k.val / 16) + (x 0).val; omega)
      (by rw [progSrc_emb k hc5]; show 64 * (k.val / 16) + (x 0).val < 64 * (k.val / 16) + 64; omega)]
    unfold OutLoc Out
    refine congrArg (OutF (F := F) (m (iLoc d)) (m (xLoc d))) ?_
    funext a
    refine Fin.ext ?_
    rw [progDst_emb L k hc5]
    match a with
    | ⟨0, _⟩ =>
      show 512 * (L 1).val + 256 * (L 0).val + (((((aV).slice (Rect.unit (s := S256x128) (k0_off15 k) S64x128.size (k0_off15_inb k hc5)) (fun _ => rfl))).view.emb x) 0).val
        = 512 * (L 1).val + 256 * (L 0).val + 64 * (k.val / 16) + (x 0).val
      rw [progSrc_emb k hc5]
      show 512 * (L 1).val + 256 * (L 0).val + (64 * (k.val / 16) + (x 0).val)
        = 512 * (L 1).val + 256 * (L 0).val + 64 * (k.val / 16) + (x 0).val
      omega
    | ⟨1, _⟩ =>
      show (((((aV).slice (Rect.unit (s := S256x128) (k0_off15 k) S64x128.size (k0_off15_inb k hc5)) (fun _ => rfl))).view.emb x) 1).val = (x 1).val
      rw [progSrc_emb k hc5]
      rfl
  have hS : ∀ y ∈ (((aV).slice (Rect.unit (s := S256x128) (k0_off15 k) S64x128.size (k0_off15_inb k hc5)) (fun _ => rfl))).view.set, fa y = OutLoc d L m y := by
    intro y hy
    rw [set_progSrc k hc5] at hy
    unfold aBlkSet at hy
    rw [Finset.mem_filter] at hy
    exact hrows y hy.2.1 hy.2.2
  refine Entails.of_eq ?_
  unfold wbD
  rw [pointsTo_congr (ℓ := (((oV).slice (Rect.unit (s := S8192x128) (k0_off16 L k) S64x128.size (k0_off16_inb L k hc5)) (fun _ => rfl))).view.loc (thr d L)) hD,
    pointsTo_congr (ℓ := (((aV).slice (Rect.unit (s := S256x128) (k0_off15 k) S64x128.size (k0_off15_inb k hc5)) (fun _ => rfl))).view.loc (thr d L)) hS, set_progDst L k hc5, set_progSrc k hc5]

end Cert.KernelIdeal.Tile

end
-- ==== Proof.TripVal2.lean ====
/-
  One trip's 32 stores, piece by piece. A stored piece is good for trip k at (b, dc) when its rectangle is the 1×16
  segment of row 4k + b at lanes 16 dc … 16 dc + 15 and its payload is the tile's local result there. The payload the
  kernel stores is the chunk computation of twenty loads of the slot holding residue row 4k + b; a load through the row
  scratch at a unit rectangle reads the contents at offset plus coordinate, so lane by lane the payload is the tree sum
  of the landed rows, which is the local result. Thirty-two good pieces, one per (b, dc), written over contents whose
  rows of the current block below 4k hold the local result, leave the rows below 4k + 4 holding it.
-/
import proofs.«208374_g60447369724146_cont_9to1c4b_798_24_alg».proof.Proof.TripVal
import proofs.«208374_g60447369724146_cont_9to1c4b_798_24_alg».proof.Proof.FlightCanon

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

variable (m : (ℓ : Loc nD τ sig) → Buf (Elt F) ℓ)

open Idealize.ShloMosaic.ValueIdx

/-- A piece good for trip k at (b, dc). -/
def PieceOK (k : ℕ) (p : (Σ r : Rect S256x128, (r.shape.Idx → Elt F .f32))) (b : Fin 4) (dc : Fin 8) : Prop :=
  (∀ y : S256x128.Idx, y ∈ p.1.set ↔ (y 0).val = 4 * k + b.val ∧ 16 * dc.val ≤ (y 1).val ∧ (y 1).val < 16 * dc.val + 16)
    ∧ ∀ x, p.2 x = OutLoc d L m (p.1.emb x)

/-- A load through the row scratch at a unit rectangle reads the contents at offset plus coordinate. -/
theorem readAt_rV_apply (b : Fin 4) (tt : Fin 20) (c0 : ℕ) (hc0 : c0 + 16 ≤ 128)
    (hb : ∀ a, (![b.val, tt.val, c0] : Fin 3 → Nat) a + S1x1x16.size a ≤ S4x20x128.size a)
    (C : Buf (Elt F) ((thr d L).loc cc0_scratch1)) (lane : Fin 16) :
    View.readAt (Elt F) (rV).view (Rect.unit (s := S4x20x128) ![b.val, tt.val, c0] S1x1x16.size hb).toLoadRect C
        (ix3 (0 : Fin 1) (0 : Fin 1) lane)
      = C (ix3 b tt (⟨c0 + lane.val, by omega⟩ : Fin 128)) := by
  refine (View.readAt_apply _ _ _).trans ((View.read_apply _ _).trans ((cast_eq _ _).trans (congrArg C ?_)))
  funext a
  refine Fin.ext ?_
  show (![b.val, tt.val, c0] : Fin 3 → Nat) a + 1 * ((ix3 (0 : Fin 1) (0 : Fin 1) lane) a).val = _
  match a with
  | ⟨0, _⟩ => show b.val + 1 * 0 = b.val; omega
  | ⟨1, _⟩ => show tt.val + 1 * 0 = tt.val; omega
  | ⟨2, _⟩ => show c0 + 1 * lane.val = c0 + lane.val; omega

/-- A 1×1×16 load rectangle of the row scratch at (b, tt, c₀) is in bounds when c₀ + 16 ≤ 128. -/
theorem inb_rV (b : Fin 4) (tt : Fin 20) (c0 : ℕ) (hc0 : c0 + 16 ≤ 128) :
    ∀ a, (![b.val, tt.val, c0] : Fin 3 → Nat) a + S1x1x16.size a ≤ S4x20x128.size a := by
  have hb := b.isLt
  have ht := tt.isLt
  intro a
  match a with
  | ⟨0, _⟩ => show b.val + 1 ≤ 4; omega
  | ⟨1, _⟩ => show tt.val + 1 ≤ 20; omega
  | ⟨2, _⟩ => show c0 + 16 ≤ 128; omega

/-- The 1×16 segment at the closed-form offsets (4k + b, 16 dc) is in bounds. -/
theorem inb16_of (k : ℕ) (b : Fin 4) (dc : Fin 8) (off : Fin 2 → Nat) (hoff : off = ![4 * k + b.val, 16 * dc.val])
    (hk : 4 * k + 4 ≤ 256) : ∀ a, off a + S1x16.size a ≤ S256x128.size a := by
  subst hoff
  have hb := b.isLt
  have hdc := dc.isLt
  intro a
  match a with
  | ⟨0, _⟩ => show 4 * k + b.val + 1 ≤ 256; omega
  | ⟨1, _⟩ => show 16 * dc.val + 16 ≤ 128; omega

/-- THE STORED PIECE IS GOOD: the segment at the closed-form offsets, holding the chunk computation of the twenty
    loads of a slot whose contents at (b, ·, ·) are the landed rows of residue row j = 4k + b. -/
theorem pieceOK_mk (k : ℕ) (hk : 4 * k + 4 ≤ 256) (b : Fin 4) (dc : Fin 8) (j : Fin 256) (hj : j.val = 4 * k + b.val)
    (off : Fin 2 → Nat) (hoff : off = ![4 * k + b.val, 16 * dc.val])
    (C : Buf (Elt F) ((thr d L).loc cc0_scratch1))
    (hC : ∀ (tt : Fin 20) (x : Fin 128), C (ix3 b tt x) = GR d L (idxPay d L (m (iLoc d))) (m (xLoc d)) j (ix3 b tt x))
    (inb : ∀ tt : Fin 20, ∀ a, (![b.val, tt.val, 16 * dc.val] : Fin 3 → Nat) a + S1x1x16.size a ≤ S4x20x128.size a) :
    PieceOK d L m k ⟨Rect.unit (s := S256x128) off S1x16.size (inb16_of k b dc off hoff hk),
      chunkTree fun tt => View.readAt (Elt F) (rV).view
        (Rect.unit (s := S4x20x128) ![b.val, tt.val, 16 * dc.val] S1x1x16.size (inb tt)).toLoadRect C⟩ b dc := by
  have hdc : dc.val < 8 := dc.isLt
  refine ⟨fun y => ?_, fun x => ?_⟩
  · show y ∈ (Rect.unit (s := S256x128) off S1x16.size (inb16_of k b dc off hoff hk)).set ↔ _
    rw [mem_unit16]
    subst hoff
    exact Iff.rfl
  · obtain ⟨u, lane, rfl⟩ : ∃ (u : Fin 1) (lane : Fin 16), x = ix2 u lane := ⟨_, _, eq_ix2 x⟩
    obtain rfl : u = 0 := Subsingleton.elim _ _
    show chunkTree (fun tt => View.readAt (Elt F) (rV).view
        (Rect.unit (s := S4x20x128) ![b.val, tt.val, 16 * dc.val] S1x1x16.size (inb tt)).toLoadRect C) (ix2 (0 : Fin 1) lane)
      = OutLoc d L m ((Rect.unit (s := S256x128) off S1x16.size (inb16_of k b dc off hoff hk)).emb (ix2 (0 : Fin 1) lane))
    rw [chunkTree_apply]
    have hl : lane.val < 16 := lane.isLt
    have e : (Rect.unit (s := S256x128) off S1x16.size (inb16_of k b dc off hoff hk)).emb (ix2 (0 : Fin 1) lane)
        = ix2 j (⟨16 * dc.val + lane.val, by omega⟩ : Fin 128) := by
      funext a
      refine Fin.ext ?_
      rw [unit16_emb, hoff]
      match a with
      | ⟨0, _⟩ => show 4 * k + b.val + 0 = j.val; omega
      | ⟨1, _⟩ => rfl
    rw [e, ← outLoc_of_rows d L m b j]
    refine congrArg (treeSum20 (F := F)) (funext fun tt => ?_)
    rw [readAt_rV_apply d L b tt (16 * dc.val) (by omega) (inb tt) C lane]
    exact hC tt _

/-- Position (tt, x) of slot 3 is an element of slot 3. -/
theorem slot3_mem (tt : Fin 20) (x : Fin 128) : (ix3 (3 : Fin 4) tt x : S4x20x128.Idx) ∈ (slot3K).view.set := by
  have e : (slot3K).view.emb (ix2 tt x) = ix3 (3 : Fin 4) tt x := by
    funext a
    refine Fin.ext ?_
    refine (slotAt_emb 3 inb_S4x20x128_S1x20x128_3_0_0 tt x a).trans ?_
    match a with
    | ⟨0, _⟩ => rfl
    | ⟨1, _⟩ => rfl
    | ⟨2, _⟩ => rfl
  rw [← e]
  exact View.emb_mem_set _ _

/-- Good pieces, at least one per (b, dc), written over contents whose rows of the current block below 4k hold the
    local result: the rows below 4k + 4 hold it. -/
theorem rows_of_okList (k : ℕ) (hk : 4 * k + 4 ≤ 256) (fa : Buf (Elt F) ((thr d L).loc cc0_scratch2)) (Ps : List (Σ r : Rect S256x128, (r.shape.Idx → Elt F .f32)))
    (hrows : RowsDone d L m k fa)
    (hall : ∀ p ∈ Ps, ∃ b dc, PieceOK d L m k p b dc)
    (hcovI : ∀ (b : Fin 4) (dc : Fin 8), ∃ p ∈ Ps, PieceOK d L m k p b dc) :
    ∀ y : S256x128.Idx, 64 * (k / 16) ≤ (y 0).val → (y 0).val < 4 * k + 4 →
      (aV).view.writes (Elt F) fa Ps y = OutLoc d L m y := by
  refine rows_step_block d L m k fa Ps hrows ?_ ?_ ?_
  · intro p hp y hy
    obtain ⟨b, dc, hok⟩ := hall p hp
    have := (hok.1 y).1 hy
    have hb := b.isLt
    omega
  · intro y hlo hhi
    obtain ⟨b, dc, h0, h1, h2⟩ := trip_cover k hk y hlo hhi
    obtain ⟨p, hp, hok⟩ := hcovI b dc
    exact ⟨p, hp, (hok.1 y).2 ⟨h0, h1, h2⟩⟩
  · intro p hp x
    obtain ⟨b, dc, hok⟩ := hall p hp
    exact hok.2 x

/-- THE TRIP'S 32 STORES: the pieces in store order (row 4k first, lanes 0 … 127 in chunks of 16, then rows 4k + 1,
    4k + 2, 4k + 3), each good at its (b, dc); the last write is first in the list. -/
theorem rows_of_32 (k : ℕ) (hk : 4 * k + 4 ≤ 256) (fa : Buf (Elt F) ((thr d L).loc cc0_scratch2))
    (hrows : RowsDone d L m k fa)
    (R1 : Rect S256x128) (P1 : R1.shape.Idx → Elt F .f32)
    (R2 : Rect S256x128) (P2 : R2.shape.Idx → Elt F .f32)
    (R3 : Rect S256x128) (P3 : R3.shape.Idx → Elt F .f32)
    (R4 : Rect S256x128) (P4 : R4.shape.Idx → Elt F .f32)
    (R5 : Rect S256x128) (P5 : R5.shape.Idx → Elt F .f32)
    (R6 : Rect S256x128) (P6 : R6.shape.Idx → Elt F .f32)
    (R7 : Rect S256x128) (P7 : R7.shape.Idx → Elt F .f32)
    (R8 : Rect S256x128) (P8 : R8.shape.Idx → Elt F .f32)
    (R9 : Rect S256x128) (P9 : R9.shape.Idx → Elt F .f32)
    (R10 : Rect S256x128) (P10 : R10.shape.Idx → Elt F .f32)
    (R11 : Rect S256x128) (P11 : R11.shape.Idx → Elt F .f32)
    (R12 : Rect S256x128) (P12 : R12.shape.Idx → Elt F .f32)
    (R13 : Rect S256x128) (P13 : R13.shape.Idx → Elt F .f32)
    (R14 : Rect S256x128) (P14 : R14.shape.Idx → Elt F .f32)
    (R15 : Rect S256x128) (P15 : R15.shape.Idx → Elt F .f32)
    (R16 : Rect S256x128) (P16 : R16.shape.Idx → Elt F .f32)
    (R17 : Rect S256x128) (P17 : R17.shape.Idx → Elt F .f32)
    (R18 : Rect S256x128) (P18 : R18.shape.Idx → Elt F .f32)
    (R19 : Rect S256x128) (P19 : R19.shape.Idx → Elt F .f32)
    (R20 : Rect S256x128) (P20 : R20.shape.Idx → Elt F .f32)
    (R21 : Rect S256x128) (P21 : R21.shape.Idx → Elt F .f32)
    (R22 : Rect S256x128) (P22 : R22.shape.Idx → Elt F .f32)
    (R23 : Rect S256x128) (P23 : R23.shape.Idx → Elt F .f32)
    (R24 : Rect S256x128) (P24 : R24.shape.Idx → Elt F .f32)
    (R25 : Rect S256x128) (P25 : R25.shape.Idx → Elt F .f32)
    (R26 : Rect S256x128) (P26 : R26.shape.Idx → Elt F .f32)
    (R27 : Rect S256x128) (P27 : R27.shape.Idx → Elt F .f32)
    (R28 : Rect S256x128) (P28 : R28.shape.Idx → Elt F .f32)
    (R29 : Rect S256x128) (P29 : R29.shape.Idx → Elt F .f32)
    (R30 : Rect S256x128) (P30 : R30.shape.Idx → Elt F .f32)
    (R31 : Rect S256x128) (P31 : R31.shape.Idx → Elt F .f32)
    (R32 : Rect S256x128) (P32 : R32.shape.Idx → Elt F .f32)
    (ok1 : PieceOK d L m k ⟨R1, P1⟩ 0 0)
    (ok2 : PieceOK d L m k ⟨R2, P2⟩ 0 1)
    (ok3 : PieceOK d L m k ⟨R3, P3⟩ 0 2)
    (ok4 : PieceOK d L m k ⟨R4, P4⟩ 0 3)
    (ok5 : PieceOK d L m k ⟨R5, P5⟩ 0 4)
    (ok6 : PieceOK d L m k ⟨R6, P6⟩ 0 5)
    (ok7 : PieceOK d L m k ⟨R7, P7⟩ 0 6)
    (ok8 : PieceOK d L m k ⟨R8, P8⟩ 0 7)
    (ok9 : PieceOK d L m k ⟨R9, P9⟩ 1 0)
    (ok10 : PieceOK d L m k ⟨R10, P10⟩ 1 1)
    (ok11 : PieceOK d L m k ⟨R11, P11⟩ 1 2)
    (ok12 : PieceOK d L m k ⟨R12, P12⟩ 1 3)
    (ok13 : PieceOK d L m k ⟨R13, P13⟩ 1 4)
    (ok14 : PieceOK d L m k ⟨R14, P14⟩ 1 5)
    (ok15 : PieceOK d L m k ⟨R15, P15⟩ 1 6)
    (ok16 : PieceOK d L m k ⟨R16, P16⟩ 1 7)
    (ok17 : PieceOK d L m k ⟨R17, P17⟩ 2 0)
    (ok18 : PieceOK d L m k ⟨R18, P18⟩ 2 1)
    (ok19 : PieceOK d L m k ⟨R19, P19⟩ 2 2)
    (ok20 : PieceOK d L m k ⟨R20, P20⟩ 2 3)
    (ok21 : PieceOK d L m k ⟨R21, P21⟩ 2 4)
    (ok22 : PieceOK d L m k ⟨R22, P22⟩ 2 5)
    (ok23 : PieceOK d L m k ⟨R23, P23⟩ 2 6)
    (ok24 : PieceOK d L m k ⟨R24, P24⟩ 2 7)
    (ok25 : PieceOK d L m k ⟨R25, P25⟩ 3 0)
    (ok26 : PieceOK d L m k ⟨R26, P26⟩ 3 1)
    (ok27 : PieceOK d L m k ⟨R27, P27⟩ 3 2)
    (ok28 : PieceOK d L m k ⟨R28, P28⟩ 3 3)
    (ok29 : PieceOK d L m k ⟨R29, P29⟩ 3 4)
    (ok30 : PieceOK d L m k ⟨R30, P30⟩ 3 5)
    (ok31 : PieceOK d L m k ⟨R31, P31⟩ 3 6)
    (ok32 : PieceOK d L m k ⟨R32, P32⟩ 3 7) :
    ∀ y : S256x128.Idx, 64 * (k / 16) ≤ (y 0).val → (y 0).val < 4 * k + 4 →
      (aV).view.writes (Elt F) fa [⟨R32, P32⟩, ⟨R31, P31⟩, ⟨R30, P30⟩, ⟨R29, P29⟩, ⟨R28, P28⟩, ⟨R27, P27⟩, ⟨R26, P26⟩, ⟨R25, P25⟩, ⟨R24, P24⟩, ⟨R23, P23⟩, ⟨R22, P22⟩, ⟨R21, P21⟩, ⟨R20, P20⟩, ⟨R19, P19⟩, ⟨R18, P18⟩, ⟨R17, P17⟩, ⟨R16, P16⟩, ⟨R15, P15⟩, ⟨R14, P14⟩, ⟨R13, P13⟩, ⟨R12, P12⟩, ⟨R11, P11⟩, ⟨R10, P10⟩, ⟨R9, P9⟩, ⟨R8, P8⟩, ⟨R7, P7⟩, ⟨R6, P6⟩, ⟨R5, P5⟩, ⟨R4, P4⟩, ⟨R3, P3⟩, ⟨R2, P2⟩, ⟨R1, P1⟩] y = OutLoc d L m y := by
  refine rows_of_okList d L m k hk fa _ hrows ?_ ?_
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact ⟨_, _, ok32⟩
    · exact ⟨_, _, ok31⟩
    · exact ⟨_, _, ok30⟩
    · exact ⟨_, _, ok29⟩
    · exact ⟨_, _, ok28⟩
    · exact ⟨_, _, ok27⟩
    · exact ⟨_, _, ok26⟩
    · exact ⟨_, _, ok25⟩
    · exact ⟨_, _, ok24⟩
    · exact ⟨_, _, ok23⟩
    · exact ⟨_, _, ok22⟩
    · exact ⟨_, _, ok21⟩
    · exact ⟨_, _, ok20⟩
    · exact ⟨_, _, ok19⟩
    · exact ⟨_, _, ok18⟩
    · exact ⟨_, _, ok17⟩
    · exact ⟨_, _, ok16⟩
    · exact ⟨_, _, ok15⟩
    · exact ⟨_, _, ok14⟩
    · exact ⟨_, _, ok13⟩
    · exact ⟨_, _, ok12⟩
    · exact ⟨_, _, ok11⟩
    · exact ⟨_, _, ok10⟩
    · exact ⟨_, _, ok9⟩
    · exact ⟨_, _, ok8⟩
    · exact ⟨_, _, ok7⟩
    · exact ⟨_, _, ok6⟩
    · exact ⟨_, _, ok5⟩
    · exact ⟨_, _, ok4⟩
    · exact ⟨_, _, ok3⟩
    · exact ⟨_, _, ok2⟩
    · exact ⟨_, _, ok1⟩
  · intro b dc
    fin_cases b <;> fin_cases dc
    · exact ⟨⟨R1, P1⟩, by simp only [List.mem_cons, true_or, or_true], ok1⟩
    · exact ⟨⟨R2, P2⟩, by simp only [List.mem_cons, true_or, or_true], ok2⟩
    · exact ⟨⟨R3, P3⟩, by simp only [List.mem_cons, true_or, or_true], ok3⟩
    · exact ⟨⟨R4, P4⟩, by simp only [List.mem_cons, true_or, or_true], ok4⟩
    · exact ⟨⟨R5, P5⟩, by simp only [List.mem_cons, true_or, or_true], ok5⟩
    · exact ⟨⟨R6, P6⟩, by simp only [List.mem_cons, true_or, or_true], ok6⟩
    · exact ⟨⟨R7, P7⟩, by simp only [List.mem_cons, true_or, or_true], ok7⟩
    · exact ⟨⟨R8, P8⟩, by simp only [List.mem_cons, true_or, or_true], ok8⟩
    · exact ⟨⟨R9, P9⟩, by simp only [List.mem_cons, true_or, or_true], ok9⟩
    · exact ⟨⟨R10, P10⟩, by simp only [List.mem_cons, true_or, or_true], ok10⟩
    · exact ⟨⟨R11, P11⟩, by simp only [List.mem_cons, true_or, or_true], ok11⟩
    · exact ⟨⟨R12, P12⟩, by simp only [List.mem_cons, true_or, or_true], ok12⟩
    · exact ⟨⟨R13, P13⟩, by simp only [List.mem_cons, true_or, or_true], ok13⟩
    · exact ⟨⟨R14, P14⟩, by simp only [List.mem_cons, true_or, or_true], ok14⟩
    · exact ⟨⟨R15, P15⟩, by simp only [List.mem_cons, true_or, or_true], ok15⟩
    · exact ⟨⟨R16, P16⟩, by simp only [List.mem_cons, true_or, or_true], ok16⟩
    · exact ⟨⟨R17, P17⟩, by simp only [List.mem_cons, true_or, or_true], ok17⟩
    · exact ⟨⟨R18, P18⟩, by simp only [List.mem_cons, true_or, or_true], ok18⟩
    · exact ⟨⟨R19, P19⟩, by simp only [List.mem_cons, true_or, or_true], ok19⟩
    · exact ⟨⟨R20, P20⟩, by simp only [List.mem_cons, true_or, or_true], ok20⟩
    · exact ⟨⟨R21, P21⟩, by simp only [List.mem_cons, true_or, or_true], ok21⟩
    · exact ⟨⟨R22, P22⟩, by simp only [List.mem_cons, true_or, or_true], ok22⟩
    · exact ⟨⟨R23, P23⟩, by simp only [List.mem_cons, true_or, or_true], ok23⟩
    · exact ⟨⟨R24, P24⟩, by simp only [List.mem_cons, true_or, or_true], ok24⟩
    · exact ⟨⟨R25, P25⟩, by simp only [List.mem_cons, true_or, or_true], ok25⟩
    · exact ⟨⟨R26, P26⟩, by simp only [List.mem_cons, true_or, or_true], ok26⟩
    · exact ⟨⟨R27, P27⟩, by simp only [List.mem_cons, true_or, or_true], ok27⟩
    · exact ⟨⟨R28, P28⟩, by simp only [List.mem_cons, true_or, or_true], ok28⟩
    · exact ⟨⟨R29, P29⟩, by simp only [List.mem_cons, true_or, or_true], ok29⟩
    · exact ⟨⟨R30, P30⟩, by simp only [List.mem_cons, true_or, or_true], ok30⟩
    · exact ⟨⟨R31, P31⟩, by simp only [List.mem_cons, true_or, or_true], ok31⟩
    · exact ⟨⟨R32, P32⟩, by simp only [List.mem_cons, true_or, or_true], ok32⟩

end Cert.KernelIdeal.Tile

end
-- ==== Proof.TileSplit.lean ====
/-
  Splits and joins of the tile's resources around its loop. A points-to at a share is its remainder after five read
  tokens and the five tokens. The row scratch is its four slots (first coordinate 0 to 3) and the output scratch its
  four blocks of 64 rows, as equations at one contents and as joins from four. An empty set of elements is nothing,
  and a subset with its complement is the set.
-/
import proofs.«208374_g60447369724146_cont_9to1c4b_798_24_alg».proof.Proof.TileOut

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## Five read tokens -/

omit [FloatOps F] in
/-- A points-to at `q` is what remains after five tokens, and the five tokens. -/
theorem toks5 {ℓ : Loc nD τ sig} (S : Finset (Idx ℓ)) (q : PosShare TreeShare) (f : Buf (Elt F) ℓ) :
    (ℓ ↦[S]{q} f : sProp 𝕄) ⊣⊢ iprop((ℓ ↦[S]{Transfers.shareDrop q 5} f) ∗ (ℓ ↦[S]{Transfers.shareTokN q 0} f)
      ∗ (ℓ ↦[S]{Transfers.shareTokN q 1} f) ∗ (ℓ ↦[S]{Transfers.shareTokN q 2} f) ∗ (ℓ ↦[S]{Transfers.shareTokN q 3} f)
      ∗ (ℓ ↦[S]{Transfers.shareTokN q 4} f)) := by
  have h0 : (ℓ ↦[S]{q} f : sProp 𝕄) ⊣⊢ iprop((ℓ ↦[S]{Transfers.shareDrop q 1} f) ∗ ℓ ↦[S]{Transfers.shareTokN q 0} f) :=
    pointsTo_share (PosShare.mem_left_op_right _)
  have h1 : (ℓ ↦[S]{Transfers.shareDrop q 1} f : sProp 𝕄) ⊣⊢ iprop((ℓ ↦[S]{Transfers.shareDrop q 2} f) ∗ ℓ ↦[S]{Transfers.shareTokN q 1} f) :=
    pointsTo_share (PosShare.mem_left_op_right _)
  have h2 : (ℓ ↦[S]{Transfers.shareDrop q 2} f : sProp 𝕄) ⊣⊢ iprop((ℓ ↦[S]{Transfers.shareDrop q 3} f) ∗ ℓ ↦[S]{Transfers.shareTokN q 2} f) :=
    pointsTo_share (PosShare.mem_left_op_right _)
  have h3 : (ℓ ↦[S]{Transfers.shareDrop q 3} f : sProp 𝕄) ⊣⊢ iprop((ℓ ↦[S]{Transfers.shareDrop q 4} f) ∗ ℓ ↦[S]{Transfers.shareTokN q 3} f) :=
    pointsTo_share (PosShare.mem_left_op_right _)
  have h4 : (ℓ ↦[S]{Transfers.shareDrop q 4} f : sProp 𝕄) ⊣⊢ iprop((ℓ ↦[S]{Transfers.shareDrop q 5} f) ∗ ℓ ↦[S]{Transfers.shareTokN q 4} f) :=
    pointsTo_share (PosShare.mem_left_op_right _)
  constructor
  · iintro H
    ihave H := h0.1 $$ H
    icases H with ⟨H, T0⟩
    ihave H := h1.1 $$ H
    icases H with ⟨H, T1⟩
    ihave H := h2.1 $$ H
    icases H with ⟨H, T2⟩
    ihave H := h3.1 $$ H
    icases H with ⟨H, T3⟩
    ihave H := h4.1 $$ H
    icases H with ⟨H, T4⟩
    isplitl [H]; · iexact H
    isplitl [T0]; · iexact T0
    isplitl [T1]; · iexact T1
    isplitl [T2]; · iexact T2
    isplitl [T3]; · iexact T3
    iexact T4
  · iintro ⟨H, T0, T1, T2, T3, T4⟩
    ihave H := h4.2 $$ [H T4]
    · isplitl [H]; · iexact H
      iexact T4
    ihave H := h3.2 $$ [H T3]
    · isplitl [H]; · iexact H
      iexact T3
    ihave H := h2.2 $$ [H T2]
    · isplitl [H]; · iexact H
      iexact T2
    ihave H := h1.2 $$ [H T1]
    · isplitl [H]; · iexact H
      iexact T1
    ihave H := h0.2 $$ [H T0]
    · isplitl [H]; · iexact H
      iexact T0
    iexact H

omit [FloatOps F] in
theorem toks5_eq {ℓ : Loc nD τ sig} (S : Finset (Idx ℓ)) (q : PosShare TreeShare) (f : Buf (Elt F) ℓ) :
    (ℓ ↦[S]{q} f : sProp 𝕄) = iprop((ℓ ↦[S]{Transfers.shareDrop q 5} f) ∗ (ℓ ↦[S]{Transfers.shareTokN q 0} f)
      ∗ (ℓ ↦[S]{Transfers.shareTokN q 1} f) ∗ (ℓ ↦[S]{Transfers.shareTokN q 2} f) ∗ (ℓ ↦[S]{Transfers.shareTokN q 3} f)
      ∗ (ℓ ↦[S]{Transfers.shareTokN q 4} f)) :=
  BI.equiv_iff.mp ⟨(toks5 S q f).1, (toks5 S q f).2⟩

/-! ## A set cut in four -/

omit [FloatOps F] in
theorem pts_union_eq {ℓ : Loc nD τ sig} {I J : Finset (Idx ℓ)} (hd : Disjoint I J) (q : PosShare TreeShare) (f : Buf (Elt F) ℓ) :
    (ℓ ↦[I ∪ J]{q} f : sProp 𝕄) = iprop((ℓ ↦[I]{q} f) ∗ ℓ ↦[J]{q} f) :=
  BI.equiv_iff.mp ⟨(pointsTo_union hd).1, (pointsTo_union hd).2⟩

omit [FloatOps F] in
/-- Four pairwise disjoint sets that cover a location's elements: the whole is the four parts, at one contents. -/
theorem pts_four {ℓ : Loc nD τ sig} (A B C D : Finset (Idx ℓ)) (q : PosShare TreeShare) (f : Buf (Elt F) ℓ)
    (hAB : Disjoint A B) (hAC : Disjoint A C) (hAD : Disjoint A D) (hBC : Disjoint B C) (hBD : Disjoint B D) (hCD : Disjoint C D)
    (hcov : A ∪ (B ∪ (C ∪ D)) = Finset.univ) :
    (ℓ ↦{q} f : sProp 𝕄) = iprop((ℓ ↦[A]{q} f) ∗ (ℓ ↦[B]{q} f) ∗ (ℓ ↦[C]{q} f) ∗ (ℓ ↦[D]{q} f)) := by
  show (ℓ ↦[Finset.univ]{q} f : sProp 𝕄) = _
  rw [← hcov, pts_union_eq (Finset.disjoint_union_right.mpr ⟨hAB, Finset.disjoint_union_right.mpr ⟨hAC, hAD⟩⟩),
    pts_union_eq (Finset.disjoint_union_right.mpr ⟨hBC, hBD⟩), pts_union_eq hCD]

omit [FloatOps F] in
/-- The same from four contents: some contents of the whole agrees with each on its part. -/
theorem join_four {ℓ : Loc nD τ sig} (A B C D : Finset (Idx ℓ)) (q : PosShare TreeShare) (f0 f1 f2 f3 : Buf (Elt F) ℓ)
    (hAB : Disjoint A B) (hAC : Disjoint A C) (hAD : Disjoint A D) (hBC : Disjoint B C) (hBD : Disjoint B D) (hCD : Disjoint C D)
    (hcov : A ∪ (B ∪ (C ∪ D)) = Finset.univ) :
    iprop((ℓ ↦[A]{q} f0) ∗ (ℓ ↦[B]{q} f1) ∗ (ℓ ↦[C]{q} f2) ∗ (ℓ ↦[D]{q} f3)) ⊢ (iprop(∃ f, ℓ ↦{q} f) : sProp 𝕄) := by
  classical
  let g : Buf (Elt F) ℓ := fun y => if y ∈ A then f0 y else if y ∈ B then f1 y else if y ∈ C then f2 y else f3 y
  have hA : ∀ y ∈ A, f0 y = g y := fun y hy => by simp only [g, if_pos hy]
  have hB : ∀ y ∈ B, f1 y = g y := fun y hy => by
    have h1 : y ∉ A := fun h => Finset.disjoint_left.mp hAB h hy
    simp only [g, if_neg h1, if_pos hy]
  have hC : ∀ y ∈ C, f2 y = g y := fun y hy => by
    have h1 : y ∉ A := fun h => Finset.disjoint_left.mp hAC h hy
    have h2 : y ∉ B := fun h => Finset.disjoint_left.mp hBC h hy
    simp only [g, if_neg h1, if_neg h2, if_pos hy]
  have hD : ∀ y ∈ D, f3 y = g y := fun y hy => by
    have h1 : y ∉ A := fun h => Finset.disjoint_left.mp hAD h hy
    have h2 : y ∉ B := fun h => Finset.disjoint_left.mp hBD h hy
    have h3 : y ∉ C := fun h => Finset.disjoint_left.mp hCD h hy
    simp only [g, if_neg h1, if_neg h2, if_neg h3]
  rw [pointsTo_congr hA, pointsTo_congr hB, pointsTo_congr hC, pointsTo_congr hD,
    ← pts_four A B C D q g hAB hAC hAD hBC hBD hCD hcov]
  iintro H; iexists g; iexact H

/-! ## The row scratch in four slots -/

/-- The slot of the row scratch at first coordinate `b`. -/
abbrev rSlot (b : Nat) (hinb : ∀ a, (![b, 0, 0] : Fin 3 → Nat) a + S1x20x128.size a ≤ S4x20x128.size a) :
    Memref sig .scVector .vmem S20x128 .f32 :=
  ((rV).slice (Rect.unit (s := S4x20x128) ![b, 0, 0] S1x20x128.size hinb) (fun _ => rfl)).squeeze S20x128 squeezes_S1x20x128_S20x128

omit [FloatOps F] in
theorem mem_rSlot (b : Nat) (hinb : ∀ a, (![b, 0, 0] : Fin 3 → Nat) a + S1x20x128.size a ≤ S4x20x128.size a) (y : S4x20x128.Idx) :
    y ∈ (rSlot b hinb).view.set ↔ (y 0).val = b := by
  have e : (rSlot b hinb).view.set = (Rect.unit (s := S4x20x128) ![b, 0, 0] S1x20x128.size hinb).set := by
    show (((rV).view.slice (Rect.unit (s := S4x20x128) ![b, 0, 0] S1x20x128.size hinb)).reshape S20x128 squeezes_S1x20x128_S20x128.numel_eq).set = _
    rw [View.set_reshape]
    show ((View.whole (cc0_scratch1 : Ref sig .scVector)).slice (Rect.unit (s := S4x20x128) ![b, 0, 0] S1x20x128.size hinb)).set = _
    rw [View.set_slice]; exact Finset.map_refl
  rw [e, Rect.mem_set_unit]
  constructor
  · intro h
    have h0 : b ≤ (y 0).val ∧ (y 0).val < b + 1 := h 0
    omega
  · intro e0 a
    have h1 : (y 1).val < 20 := (y 1).isLt
    have h2 : (y 2).val < 128 := (y 2).isLt
    match a with
    | 0 => exact (show b ≤ (y 0).val ∧ (y 0).val < b + 1 by omega)
    | 1 => exact (show 0 ≤ (y 1).val ∧ (y 1).val < 0 + 20 by omega)
    | 2 => exact (show 0 ≤ (y 2).val ∧ (y 2).val < 0 + 128 by omega)

omit [FloatOps F] in
theorem mem_slot0 (y : S4x20x128.Idx) : y ∈ (slot0K).view.set ↔ (y 0).val = 0 := mem_rSlot 0 _ y
omit [FloatOps F] in
theorem mem_slot1 (y : S4x20x128.Idx) : y ∈ (slot1K).view.set ↔ (y 0).val = 1 := mem_rSlot 1 _ y
omit [FloatOps F] in
theorem mem_slot2 (y : S4x20x128.Idx) : y ∈ (slot2K).view.set ↔ (y 0).val = 2 := mem_rSlot 2 _ y
omit [FloatOps F] in
theorem mem_slot3 (y : S4x20x128.Idx) : y ∈ (slot3K).view.set ↔ (y 0).val = 3 := mem_rSlot 3 _ y

omit [FloatOps F] in
theorem slots_disjoint {b b' : Nat} {hinb hinb'} (h : b ≠ b') : Disjoint (rSlot b hinb).view.set (rSlot b' hinb').view.set :=
  Finset.disjoint_left.mpr fun y hy hy' => h (((mem_rSlot b hinb y).mp hy).symm.trans ((mem_rSlot b' hinb' y).mp hy'))

omit [FloatOps F] in
theorem slots_cover : (slot0K).view.set ∪ ((slot1K).view.set ∪ ((slot2K).view.set ∪ (slot3K).view.set)) = (Finset.univ : Finset S4x20x128.Idx) := by
  refine Finset.eq_univ_of_forall fun (y : S4x20x128.Idx) => ?_
  have h0 : (y 0).val < 4 := (y 0).isLt
  rw [Finset.mem_union, Finset.mem_union, Finset.mem_union, mem_slot0, mem_slot1, mem_slot2, mem_slot3]
  omega

/-- The row scratch is its four slots, at one contents. -/
theorem rV_slots (f : Buf (Elt F) ((thr d L).loc cc0_scratch1)) :
    ((rV).view.loc (thr d L) ↦{fullShare} f : sProp 𝕄)
      = iprop(((slot0K).view.loc (thr d L) ↦[(slot0K).view.set]{fullShare} f) ∗ ((slot1K).view.loc (thr d L) ↦[(slot1K).view.set]{fullShare} f)
          ∗ ((slot2K).view.loc (thr d L) ↦[(slot2K).view.set]{fullShare} f) ∗ ((slot3K).view.loc (thr d L) ↦[(slot3K).view.set]{fullShare} f)) :=
  pts_four (ℓ := (thr d L).loc cc0_scratch1) (slot0K).view.set (slot1K).view.set (slot2K).view.set (slot3K).view.set fullShare f
    (slots_disjoint (by decide)) (slots_disjoint (by decide)) (slots_disjoint (by decide)) (slots_disjoint (by decide))
    (slots_disjoint (by decide)) (slots_disjoint (by decide)) slots_cover

/-- The four slots at four contents are the row scratch at some contents. -/
theorem rV_join (f0 f1 f2 f3 : Buf (Elt F) ((thr d L).loc cc0_scratch1)) :
    iprop(((slot0K).view.loc (thr d L) ↦[(slot0K).view.set]{fullShare} f0) ∗ ((slot1K).view.loc (thr d L) ↦[(slot1K).view.set]{fullShare} f1)
        ∗ ((slot2K).view.loc (thr d L) ↦[(slot2K).view.set]{fullShare} f2) ∗ ((slot3K).view.loc (thr d L) ↦[(slot3K).view.set]{fullShare} f3))
      ⊢ (iprop(∃ f, (rV).view.loc (thr d L) ↦{fullShare} f) : sProp 𝕄) :=
  join_four (ℓ := (thr d L).loc cc0_scratch1) (slot0K).view.set (slot1K).view.set (slot2K).view.set (slot3K).view.set fullShare f0 f1 f2 f3
    (slots_disjoint (by decide)) (slots_disjoint (by decide)) (slots_disjoint (by decide)) (slots_disjoint (by decide))
    (slots_disjoint (by decide)) (slots_disjoint (by decide)) slots_cover

/-! ## The output scratch in four blocks of 64 rows -/

/-- The block of 64 rows of the output scratch from row `o`. -/
abbrev aBlk (o : Nat) (hinb : ∀ a, (![o, 0] : Fin 2 → Nat) a + S64x128.size a ≤ S256x128.size a) : Memref sig .scVector .vmem S64x128 .f32 :=
  (aV).slice (Rect.unit (s := S256x128) ![o, 0] S64x128.size hinb) (fun _ => rfl)

abbrev aBlk0K : Memref sig .scVector .vmem S64x128 .f32 :=
  (aV).slice (Rect.unit (s := S256x128) ![0, 0] S64x128.size inb_S256x128_S64x128_0_0) (fun _ => rfl)
abbrev aBlk1K : Memref sig .scVector .vmem S64x128 .f32 :=
  (aV).slice (Rect.unit (s := S256x128) ![64, 0] S64x128.size inb_S256x128_S64x128_64_0) (fun _ => rfl)
abbrev aBlk2K : Memref sig .scVector .vmem S64x128 .f32 :=
  (aV).slice (Rect.unit (s := S256x128) ![128, 0] S64x128.size inb_S256x128_S64x128_128_0) (fun _ => rfl)
abbrev aBlk3K : Memref sig .scVector .vmem S64x128 .f32 :=
  (aV).slice (Rect.unit (s := S256x128) ![192, 0] S64x128.size inb_S256x128_S64x128_192_0) (fun _ => rfl)

omit [FloatOps F] in
theorem mem_aBlk (o : Nat) (hinb : ∀ a, (![o, 0] : Fin 2 → Nat) a + S64x128.size a ≤ S256x128.size a) (y : S256x128.Idx) :
    y ∈ (aBlk o hinb).view.set ↔ o ≤ (y 0).val ∧ (y 0).val < o + 64 := by
  have e : (aBlk o hinb).view.set = (Rect.unit (s := S256x128) ![o, 0] S64x128.size hinb).set := by
    show ((View.whole (cc0_scratch2 : Ref sig .scVector)).slice (Rect.unit (s := S256x128) ![o, 0] S64x128.size hinb)).set = _
    rw [View.set_slice]; exact Finset.map_refl
  rw [e, Rect.mem_set_unit]
  constructor
  · intro h
    exact (show o ≤ (y 0).val ∧ (y 0).val < o + 64 from h 0)
  · intro h a
    have h1 : (y 1).val < 128 := (y 1).isLt
    match a with
    | 0 => exact (show o ≤ (y 0).val ∧ (y 0).val < o + 64 from h)
    | 1 => exact (show 0 ≤ (y 1).val ∧ (y 1).val < 0 + 128 by omega)

omit [FloatOps F] in
theorem mem_aBlk0 (y : S256x128.Idx) : y ∈ (aBlk0K).view.set ↔ 64 * 0 ≤ (y 0).val ∧ (y 0).val < 64 * 0 + 64 := mem_aBlk 0 _ y
omit [FloatOps F] in
theorem mem_aBlk1 (y : S256x128.Idx) : y ∈ (aBlk1K).view.set ↔ 64 * 1 ≤ (y 0).val ∧ (y 0).val < 64 * 1 + 64 := mem_aBlk 64 _ y
omit [FloatOps F] in
theorem mem_aBlk2 (y : S256x128.Idx) : y ∈ (aBlk2K).view.set ↔ 64 * 2 ≤ (y 0).val ∧ (y 0).val < 64 * 2 + 64 := mem_aBlk 128 _ y
omit [FloatOps F] in
theorem mem_aBlk3 (y : S256x128.Idx) : y ∈ (aBlk3K).view.set ↔ 64 * 3 ≤ (y 0).val ∧ (y 0).val < 64 * 3 + 64 := mem_aBlk 192 _ y

omit [FloatOps F] in
theorem aBlks_disjoint {o o' : Nat} {hinb hinb'} (h : o + 64 ≤ o' ∨ o' + 64 ≤ o) : Disjoint (aBlk o hinb).view.set (aBlk o' hinb').view.set :=
  Finset.disjoint_left.mpr fun y hy hy' => by
    have h1 := (mem_aBlk o hinb y).mp hy
    have h2 := (mem_aBlk o' hinb' y).mp hy'
    omega

omit [FloatOps F] in
theorem aBlks_cover : (aBlk0K).view.set ∪ ((aBlk1K).view.set ∪ ((aBlk2K).view.set ∪ (aBlk3K).view.set)) = (Finset.univ : Finset S256x128.Idx) := by
  refine Finset.eq_univ_of_forall fun (y : S256x128.Idx) => ?_
  have h0 : (y 0).val < 256 := (y 0).isLt
  rw [Finset.mem_union, Finset.mem_union, Finset.mem_union, mem_aBlk0, mem_aBlk1, mem_aBlk2, mem_aBlk3]
  omega

/-- The output scratch is its four blocks, at one contents. -/
theorem aV_blocks (f : Buf (Elt F) ((thr d L).loc cc0_scratch2)) :
    ((aV).view.loc (thr d L) ↦{fullShare} f : sProp 𝕄)
      = iprop(((aBlk0K).view.loc (thr d L) ↦[(aBlk0K).view.set]{fullShare} f) ∗ ((aBlk1K).view.loc (thr d L) ↦[(aBlk1K).view.set]{fullShare} f)
          ∗ ((aBlk2K).view.loc (thr d L) ↦[(aBlk2K).view.set]{fullShare} f) ∗ ((aBlk3K).view.loc (thr d L) ↦[(aBlk3K).view.set]{fullShare} f)) :=
  pts_four (ℓ := (thr d L).loc cc0_scratch2) (aBlk0K).view.set (aBlk1K).view.set (aBlk2K).view.set (aBlk3K).view.set fullShare f
    (aBlks_disjoint (by omega)) (aBlks_disjoint (by omega)) (aBlks_disjoint (by omega)) (aBlks_disjoint (by omega))
    (aBlks_disjoint (by omega)) (aBlks_disjoint (by omega)) aBlks_cover

/-- The four blocks at four contents are the output scratch at some contents. -/
theorem aV_join (f0 f1 f2 f3 : Buf (Elt F) ((thr d L).loc cc0_scratch2)) :
    iprop(((aBlk0K).view.loc (thr d L) ↦[(aBlk0K).view.set]{fullShare} f0) ∗ ((aBlk1K).view.loc (thr d L) ↦[(aBlk1K).view.set]{fullShare} f1)
        ∗ ((aBlk2K).view.loc (thr d L) ↦[(aBlk2K).view.set]{fullShare} f2) ∗ ((aBlk3K).view.loc (thr d L) ↦[(aBlk3K).view.set]{fullShare} f3))
      ⊢ (iprop(∃ f, (aV).view.loc (thr d L) ↦{fullShare} f) : sProp 𝕄) :=
  join_four (ℓ := (thr d L).loc cc0_scratch2) (aBlk0K).view.set (aBlk1K).view.set (aBlk2K).view.set (aBlk3K).view.set fullShare f0 f1 f2 f3
    (aBlks_disjoint (by omega)) (aBlks_disjoint (by omega)) (aBlks_disjoint (by omega)) (aBlks_disjoint (by omega))
    (aBlks_disjoint (by omega)) (aBlks_disjoint (by omega)) aBlks_cover

/-! ## Nothing, and a subset with its complement -/

omit [FloatOps F] in
theorem pointsTo_sdiff_self {ℓ : Loc nD τ sig} (S : Finset (Idx ℓ)) (q : PosShare TreeShare) (f : Buf (Elt F) ℓ) :
    (ℓ ↦[S \ S]{q} f : sProp 𝕄) ⊣⊢ iprop(emp) := by
  rw [Finset.sdiff_self, pointsTo_empty]

omit [FloatOps F] in
theorem pointsTo_rejoin {ℓ : Loc nD τ sig} (S w : Finset (Idx ℓ)) (hw : w ⊆ S) (q : PosShare TreeShare) (f : Buf (Elt F) ℓ) :
    iprop((ℓ ↦[w]{q} f) ∗ (ℓ ↦[S \ w]{q} f)) ⊣⊢ (ℓ ↦[S]{q} f : sProp 𝕄) :=
  ⟨(pointsTo_split_subset hw).2, (pointsTo_split_subset hw).1⟩

end Cert.KernelIdeal.Tile

end
-- ==== Proof.OutGeom.lean ====
/-
  The output scratch and the tile's result rows, block by block. Block n of the scratch is rows [64 n, 64 n + 64);
  window n of the tile's result rows is rows [base + 64 n, base + 64 n + 64), base = 512 s + 256 c. The write-back
  at a trip k with k % 16 = 15 names block and window k / 16. What is left from block n on is block n and what is
  left from block n + 1 on; after the fourth nothing is left.
-/
import proofs.«208374_g60447369724146_cont_9to1c4b_798_24_alg».proof.Proof.TileInv
import proofs.«208374_g60447369724146_cont_9to1c4b_798_24_alg».proof.Proof.TripFacts
import proofs.«208374_g60447369724146_cont_9to1c4b_798_24_alg».proof.Proof.TileSplit
import proofs.«208374_g60447369724146_cont_9to1c4b_798_24_alg».proof.Proof.LaunchGeom

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## Membership -/

omit [FloatOps F] in
theorem mem_aBlkSet (t : ℕ) (y : S256x128.Idx) : y ∈ aBlkSet t ↔ 64 * t ≤ (y 0).val ∧ (y 0).val < 64 * t + 64 := by
  unfold aBlkSet; rw [Finset.mem_filter]; exact ⟨fun h => h.2, fun h => ⟨Finset.mem_univ _, h⟩⟩
omit [FloatOps F] in
theorem mem_oWinSet (t : ℕ) (y : S8192x128.Idx) :
    y ∈ oWinSet L t ↔ tileBase L + 64 * t ≤ (y 0).val ∧ (y 0).val < tileBase L + 64 * t + 64 := by
  unfold oWinSet; rw [Finset.mem_filter]; exact ⟨fun h => h.2, fun h => ⟨Finset.mem_univ _, h⟩⟩
omit [FloatOps F] in
theorem mem_oRest (n : ℕ) (y : S8192x128.Idx) :
    y ∈ oRest L n ↔ tileBase L + 64 * n ≤ (y 0).val ∧ (y 0).val < tileBase L + 256 := by
  unfold oRest; rw [Finset.mem_filter]; exact ⟨fun h => h.2, fun h => ⟨Finset.mem_univ _, h⟩⟩

/-- The block of 64 rows of the result array from row `o`. -/
abbrev oBlk (o : Nat) (hinb : ∀ a, (![o, 0] : Fin 2 → Nat) a + S64x128.size a ≤ S8192x128.size a) : Memref sig .scVector .hbm S64x128 .f32 :=
  (oV).slice (Rect.unit (s := S8192x128) ![o, 0] S64x128.size hinb) (fun _ => rfl)

omit [FloatOps F] in
theorem aSlice_set (off : Fin 2 → Nat) (hinb : ∀ a, off a + S64x128.size a ≤ S256x128.size a) :
    ((aV).slice (Rect.unit (s := S256x128) off S64x128.size hinb) (fun _ => rfl)).view.set = (Rect.unit (s := S256x128) off S64x128.size hinb).set := by
  show ((View.whole (cc0_scratch2 : Ref sig .scVector)).slice (Rect.unit (s := S256x128) off S64x128.size hinb)).set = _
  rw [View.set_slice]; exact Finset.map_refl
omit [FloatOps F] in
theorem oSlice_set (off : Fin 2 → Nat) (hinb : ∀ a, off a + S64x128.size a ≤ S8192x128.size a) :
    ((oV).slice (Rect.unit (s := S8192x128) off S64x128.size hinb) (fun _ => rfl)).view.set = (Rect.unit (s := S8192x128) off S64x128.size hinb).set := by
  show ((View.whole (main_v0_scv : Ref sig .scVector)).slice (Rect.unit (s := S8192x128) off S64x128.size hinb)).set = _
  rw [View.set_slice]; exact Finset.map_refl

omit [FloatOps F] in
theorem unit_set_congr {s : Shape} {off off' size : Fin s.rank → Nat} {h : ∀ a, off a + size a ≤ s.size a} {h' : ∀ a, off' a + size a ≤ s.size a}
    (e : off = off') : (Rect.unit (s := s) off size h).set = (Rect.unit (s := s) off' size h').set := by
  subst e; rfl

omit [FloatOps F] in
theorem mem_oBlk (o : Nat) (hinb : ∀ a, (![o, 0] : Fin 2 → Nat) a + S64x128.size a ≤ S8192x128.size a) (y : S8192x128.Idx) :
    y ∈ (oBlk o hinb).view.set ↔ o ≤ (y 0).val ∧ (y 0).val < o + 64 := by
  rw [oSlice_set, Rect.mem_set_unit]
  constructor
  · intro h
    exact (show o ≤ (y 0).val ∧ (y 0).val < o + 64 from h 0)
  · intro h a
    have h1 : (y 1).val < 128 := (y 1).isLt
    match a with
    | 0 => exact (show o ≤ (y 0).val ∧ (y 0).val < o + 64 from h)
    | 1 => exact (show 0 ≤ (y 1).val ∧ (y 1).val < 0 + 128 by omega)

/-! ## The current block and window as sets -/

omit [FloatOps F] in
theorem set_aCurAt (n : ℕ) (hn : n < 4) : (aCurAt n hn).view.set = aBlkSet n :=
  Finset.ext fun (y : S256x128.Idx) => (mem_aBlk (64 * n) (aCurAt_inb n hn) y).trans (mem_aBlkSet n y).symm

omit [FloatOps F] in
theorem set_oCurAt (n : ℕ) (hn : n < 4) : (oCurAt L n hn).view.set = oWinSet L n :=
  Finset.ext fun (y : S8192x128.Idx) => (mem_oBlk (tileBase L + 64 * n) (oCurAt_inb L n hn) y).trans (mem_oWinSet L n y).symm

omit [FloatOps F] in
/-- The task's r-th result window, in the launch's spelling, is window r. -/
theorem set_oWinK' (r : Fin 4) : (oWinK L r).view.set = oWinSet L r.val := by
  refine Finset.ext fun (y : S8192x128.Idx) => ?_
  rw [set_oWinK, mem_oRect, mem_oWinSet]; unfold tileBase; exact Iff.rfl

/-! ## The write-back's two ends as the program spells them -/

omit [FloatOps F] in
theorem trip_blk_lt (k : Fin k0_t1_loop.trips) : k.val / 16 < 4 := by
  have hk : k.val < 64 := k.isLt
  omega

omit [FloatOps F] in
theorem set_prog_src (k : Fin k0_t1_loop.trips) (hc5 : k0_cond5 k = 1#1) :
    (((aV).slice (Rect.unit (s := S256x128) (k0_off15 k) S64x128.size (k0_off15_inb k hc5)) (fun _ => rfl)).view.set : Finset S256x128.Idx)
      = ((aCurAt (k.val / 16) (trip_blk_lt k)).view.set : Finset S256x128.Idx) := by
  rw [aSlice_set, aSlice_set]
  exact unit_set_congr (off15_eq k hc5)

omit [FloatOps F] in
theorem set_prog_dst (k : Fin k0_t1_loop.trips) (hc5 : k0_cond5 k = 1#1) :
    (((oV).slice (Rect.unit (s := S8192x128) (k0_off16 L k) S64x128.size (k0_off16_inb L k hc5)) (fun _ => rfl)).view.set : Finset S8192x128.Idx)
      = ((oCurAt L (k.val / 16) (trip_blk_lt k)).view.set : Finset S8192x128.Idx) := by
  rw [oSlice_set, oSlice_set]
  exact unit_set_congr ((off16_eq L k hc5).trans (by unfold tileBase; rfl))

omit [FloatOps F] in
theorem prog_src_emb (k : Fin k0_t1_loop.trips) (hc5 : k0_cond5 k = 1#1) (x : S64x128.Idx) (a : Fin 2) :
    ((((aV).slice (Rect.unit (s := S256x128) (k0_off15 k) S64x128.size (k0_off15_inb k hc5)) (fun _ => rfl)).view.emb x) a).val
      = (![64 * (k.val / 16) + (x 0).val, (x 1).val] : Fin 2 → Nat) a := by
  show (k0_off15 k) a + 1 * (x a).val = _
  rw [off15_eq k hc5]
  match a with
  | ⟨0, _⟩ => show 64 * (k.val / 16) + 1 * (x 0).val = 64 * (k.val / 16) + (x 0).val; omega
  | ⟨1, _⟩ => show 0 + 1 * (x 1).val = (x 1).val; omega

omit [FloatOps F] in
theorem prog_dst_emb (k : Fin k0_t1_loop.trips) (hc5 : k0_cond5 k = 1#1) (x : S64x128.Idx) (a : Fin 2) :
    ((((oV).slice (Rect.unit (s := S8192x128) (k0_off16 L k) S64x128.size (k0_off16_inb L k hc5)) (fun _ => rfl)).view.emb x) a).val
      = (![tileBase L + 64 * (k.val / 16) + (x 0).val, (x 1).val] : Fin 2 → Nat) a := by
  show (k0_off16 L k) a + 1 * (x a).val = _
  rw [off16_eq L k hc5]
  match a with
  | ⟨0, _⟩ =>
    show 512 * (L 1).val + 256 * (L 0).val + 64 * (k.val / 16) + 1 * (x 0).val = tileBase L + 64 * (k.val / 16) + (x 0).val
    unfold tileBase; omega
  | ⟨1, _⟩ => show 0 + 1 * (x 1).val = (x 1).val; omega

/-! ## Advancing by one block -/

omit [FloatOps F] in
theorem biOf {P Q : sProp 𝕄} (e : P = Q) : P ⊣⊢ Q := ⟨Entails.of_eq e, Entails.of_eq e.symm⟩

omit [FloatOps F] in
theorem aRest_split (n : ℕ) : aRest n = aBlkSet n ∪ aRest (n + 1) := by
  refine Finset.ext fun (y : S256x128.Idx) => ?_
  have h0 : (y 0).val < 256 := (y 0).isLt
  rw [Finset.mem_union, mem_aRest, mem_aRest, mem_aBlkSet]; omega
omit [FloatOps F] in
theorem aRest_disjoint (n : ℕ) : Disjoint (aBlkSet n) (aRest (n + 1)) :=
  Finset.disjoint_left.mpr fun y h h' => by rw [mem_aBlkSet] at h; rw [mem_aRest] at h'; omega
omit [FloatOps F] in
theorem aRest_four : aRest 4 = ∅ := by
  refine Finset.eq_empty_of_forall_notMem fun (y : S256x128.Idx) h => ?_
  have h0 : (y 0).val < 256 := (y 0).isLt
  rw [mem_aRest] at h; omega

omit [FloatOps F] in
theorem oRest_split (n : ℕ) (hn : n < 4) : oRest L n = oWinSet L n ∪ oRest L (n + 1) := by
  refine Finset.ext fun (y : S8192x128.Idx) => ?_
  rw [Finset.mem_union, mem_oRest, mem_oRest, mem_oWinSet]; omega
omit [FloatOps F] in
theorem oRest_disjoint (n : ℕ) : Disjoint (oWinSet L n) (oRest L (n + 1)) :=
  Finset.disjoint_left.mpr fun y h h' => by rw [mem_oWinSet] at h; rw [mem_oRest] at h'; omega
omit [FloatOps F] in
theorem oRest_four : oRest L 4 = ∅ := by
  refine Finset.eq_empty_of_forall_notMem fun (y : S8192x128.Idx) h => ?_
  rw [mem_oRest] at h; omega

/-- What is left of the output scratch from block n + 1 on is block n + 1 and what is left from block n + 2 on. -/
theorem aRest_step (n : ℕ) (h : n + 1 < 4) (f : Buf (Elt F) ((thr d L).loc cc0_scratch2)) :
    ((aV).view.loc (thr d L) ↦[aRest (n + 1)]{fullShare} f : sProp 𝕄)
      ⊣⊢ iprop(((aCurAt (n + 1) h).view.loc (thr d L) ↦[(aCurAt (n + 1) h).view.set]{fullShare} f)
          ∗ ((aV).view.loc (thr d L) ↦[aRest (n + 2)]{fullShare} f)) := by
  rw [set_aCurAt, aRest_split (n + 1)]
  exact pointsTo_union (aRest_disjoint (n + 1))

/-- The same for the tile's result rows. -/
theorem oRest_step (n : ℕ) (h : n + 1 < 4) (f : Buf (Elt F) (oLoc d)) :
    ((oV).view.loc (thr d L) ↦[oRest L (n + 1)]{fullShare} f : sProp 𝕄)
      ⊣⊢ iprop(((oCurAt L (n + 1) h).view.loc (thr d L) ↦[(oCurAt L (n + 1) h).view.set]{fullShare} f)
          ∗ ((oV).view.loc (thr d L) ↦[oRest L (n + 2)]{fullShare} f)) := by
  rw [set_oCurAt, oRest_split L (n + 1) h]
  exact pointsTo_union (oRest_disjoint L (n + 1))

/-! ## The start -/

omit [FloatOps F] in
theorem aRest_zero_split : (Finset.univ : Finset S256x128.Idx) = aBlkSet 0 ∪ aRest 1 := by
  rw [← aRest_zero]; exact aRest_split 0

theorem aV_start (f : Buf (Elt F) ((thr d L).loc cc0_scratch2)) :
    ((aV).view.loc (thr d L) ↦{fullShare} f : sProp 𝕄)
      ⊣⊢ iprop(((aCurAt 0 (by decide)).view.loc (thr d L) ↦[(aCurAt 0 (by decide)).view.set]{fullShare} f)
          ∗ ((aV).view.loc (thr d L) ↦[aRest 1]{fullShare} f)) := by
  rw [set_aCurAt]
  show ((aV).view.loc (thr d L) ↦[Finset.univ]{fullShare} f : sProp 𝕄) ⊣⊢ _
  rw [aRest_zero_split]
  exact pointsTo_union (aRest_disjoint 0)

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

/-- The task's four result windows, at one contents, are the four window sets. -/
theorem oWins_eq (f : Buf (Elt F) (oLoc d)) :
    (bigSep Finset.univ fun r : Fin 4 => (oWinK L r).view.loc (thr d L) ↦[(oWinK L r).view.set]{fullShare} f : sProp 𝕄)
      = iprop(((oV).view.loc (thr d L) ↦[oWinSet L 0]{fullShare} f) ∗ ((oV).view.loc (thr d L) ↦[oWinSet L 1]{fullShare} f)
          ∗ ((oV).view.loc (thr d L) ↦[oWinSet L 2]{fullShare} f) ∗ ((oV).view.loc (thr d L) ↦[oWinSet L 3]{fullShare} f)) := by
  rw [bigSep_fin4, set_oWinK', set_oWinK', set_oWinK', set_oWinK']
  rfl

omit [FloatOps F] in
theorem pts_union_eq' {ℓ : Loc nD τ sig} {I J : Finset (Idx ℓ)} (hd : Disjoint I J) (q : PosShare TreeShare) (f : Buf (Elt F) ℓ) :
    (ℓ ↦[I ∪ J]{q} f : sProp 𝕄) = iprop((ℓ ↦[I]{q} f) ∗ ℓ ↦[J]{q} f) :=
  BI.equiv_iff.mp ⟨(pointsTo_union hd).1, (pointsTo_union hd).2⟩

/-- What is left of the tile's result rows from window 1 on is windows 1, 2 and 3. -/
theorem oRest_one (f : Buf (Elt F) (oLoc d)) :
    ((oV).view.loc (thr d L) ↦[oRest L 1]{fullShare} f : sProp 𝕄)
      = iprop(((oV).view.loc (thr d L) ↦[oWinSet L 1]{fullShare} f) ∗ ((oV).view.loc (thr d L) ↦[oWinSet L 2]{fullShare} f)
          ∗ ((oV).view.loc (thr d L) ↦[oWinSet L 3]{fullShare} f)) := by
  rw [oRest_split L 1 (by decide), pts_union_eq' (oRest_disjoint L 1), oRest_split L 2 (by decide), pts_union_eq' (oRest_disjoint L 2),
    oRest_split L 3 (by decide), pts_union_eq' (oRest_disjoint L 3), oRest_four, pointsTo_empty]
  exact congrArg (fun X : sProp 𝕄 => iprop(((oV).view.loc (thr d L) ↦[oWinSet L 1]{fullShare} f) ∗ ((oV).view.loc (thr d L) ↦[oWinSet L 2]{fullShare} f) ∗ X))
    (BI.equiv_iff.mp ⟨sep_emp.1, sep_emp.2⟩)

theorem oWins_start (f : Buf (Elt F) (oLoc d)) :
    (bigSep Finset.univ fun r : Fin 4 => (oWinK L r).view.loc (thr d L) ↦[(oWinK L r).view.set]{fullShare} f : sProp 𝕄)
      ⊣⊢ iprop(((oCurAt L 0 (by decide)).view.loc (thr d L) ↦[(oCurAt L 0 (by decide)).view.set]{fullShare} f)
          ∗ ((oV).view.loc (thr d L) ↦[oRest L 1]{fullShare} f)) := by
  rw [oWins_eq, set_oCurAt, oRest_one]

/-! ## The end -/

theorem oWins_end (f : Buf (Elt F) (oLoc d)) :
    iprop(((oV).view.loc (thr d L) ↦[oWinSet L 0]{fullShare} f) ∗ ((oV).view.loc (thr d L) ↦[oWinSet L 1]{fullShare} f)
        ∗ ((oV).view.loc (thr d L) ↦[oWinSet L 2]{fullShare} f) ∗ ((oV).view.loc (thr d L) ↦[oWinSet L 3]{fullShare} f))
      ⊢ (bigSep Finset.univ fun r : Fin 4 => (oWinK L r).view.loc (thr d L) ↦[(oWinK L r).view.set]{fullShare} f : sProp 𝕄) :=
  Entails.of_eq (oWins_eq d L f).symm

omit [FloatOps F] in
theorem aBlkSets_disjoint {t t' : ℕ} (h : t ≠ t') : Disjoint (aBlkSet t) (aBlkSet t') :=
  Finset.disjoint_left.mpr fun y hy hy' => by rw [mem_aBlkSet] at hy hy'; omega

omit [FloatOps F] in
theorem aBlkSets_cover : aBlkSet 0 ∪ (aBlkSet 1 ∪ (aBlkSet 2 ∪ aBlkSet 3)) = (Finset.univ : Finset S256x128.Idx) := by
  refine Finset.eq_univ_of_forall fun (y : S256x128.Idx) => ?_
  have h0 : (y 0).val < 256 := (y 0).isLt
  rw [Finset.mem_union, Finset.mem_union, Finset.mem_union, mem_aBlkSet, mem_aBlkSet, mem_aBlkSet, mem_aBlkSet]
  omega

theorem aBlks_end (f0 f1 f2 f3 : Buf (Elt F) ((thr d L).loc cc0_scratch2)) :
    iprop(((aV).view.loc (thr d L) ↦[aBlkSet 0]{fullShare} f0) ∗ ((aV).view.loc (thr d L) ↦[aBlkSet 1]{fullShare} f1)
        ∗ ((aV).view.loc (thr d L) ↦[aBlkSet 2]{fullShare} f2) ∗ ((aV).view.loc (thr d L) ↦[aBlkSet 3]{fullShare} f3))
      ⊢ (iprop(∃ f, (aV).view.loc (thr d L) ↦{fullShare} f) : sProp 𝕄) :=
  join_four (ℓ := (thr d L).loc cc0_scratch2) (aBlkSet 0) (aBlkSet 1) (aBlkSet 2) (aBlkSet 3) fullShare f0 f1 f2 f3
    (aBlkSets_disjoint (by decide)) (aBlkSets_disjoint (by decide)) (aBlkSets_disjoint (by decide)) (aBlkSets_disjoint (by decide))
    (aBlkSets_disjoint (by decide)) (aBlkSets_disjoint (by decide)) aBlkSets_cover

end Cert.KernelIdeal.Tile

end
-- ==== Proof.TripLo.lean ====
/-
  One trip of the loop before the last: rows 4k … 4k+3 of the tile. The look-ahead gathers for rows 4k+3 … 4k+6 are
  issued, each landed slot is summed lane chunk by lane chunk into the current block of the output scratch, and when
  the block is complete (k % 16 = 15) it is sent out as the next copy of the write-back batch.
-/
import proofs.«208374_g60447369724146_cont_9to1c4b_798_24_alg».proof.Proof.OutAt
import proofs.«208374_g60447369724146_cont_9to1c4b_798_24_alg».proof.Proof.Spares
import proofs.«208374_g60447369724146_cont_9to1c4b_798_24_alg».proof.Proof.TripFacts
import proofs.«208374_g60447369724146_cont_9to1c4b_798_24_alg».proof.Proof.TripClose
import proofs.«208374_g60447369724146_cont_9to1c4b_798_24_alg».proof.Proof.TripVal
import proofs.«208374_g60447369724146_cont_9to1c4b_798_24_alg».proof.Proof.TripVal2
import proofs.«208374_g60447369724146_cont_9to1c4b_798_24_alg».proof.Proof.OutGeom

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)
  (fs : Buf (Elt F) ((thr d L).loc cc0_scratch0))

set_option maxRecDepth 65536 in
set_option maxHeartbeats 32000000 in
theorem trip_lo (hpre : PreOK m) (O : CellTallies nD τ sig (HIx 1)) (W : Waits sig (HIx 1)) (v1 : BitVec 32)
    (k : Fin k0_t1_loop.trips) (hk : k.val < 63) (acc : BitVec 32)
    (Q : BitVec 32 → sProp 𝕄) (hQ : ∀ a, inv d L m fs O W (k.val + 1) a ⊢ Q a) :
    inv d L m fs O W k.val acc
      ⊢ wp frame (wpE (defs₀ (F := F)) 𝒱₀ (thr d L) none) Set.univ
          (k0_t1_body L iV (Memref.isWhole_whole _) xV (Memref.isWhole_whole _) oV (Memref.isWhole_whole _)
            sV (Memref.isWhole_whole _) rV (Memref.isWhole_whole _) aV (Memref.isWhole_whole _)
            cc0_scratch3 cc0_scratch4 cc0_scratch5 cc0_scratch6 cc0_scratch7 cc0_scoped0 v1 k acc)
          Q := by
  have hk64 : k.val < 64 := k.isLt
  unfold inv gathersPart outPart
  rw [dif_pos hk64, dif_pos hk64]
  iintro ⟨Hmw, Hi, Hxd, Hx0, Hsd, Hs0, ⟨%w0, %w1, %w2, ⟨Hg0, HxR1, HsR1⟩, ⟨Hg1, HxR2, HsR2⟩, ⟨Hg2, HxR3, HsR3⟩, Hx4, Hs4, ⟨%f3, Hr3⟩, Hg3⟩, ⟨⟨%fa, Ha, %hrows⟩, ⟨%faf, Haf⟩, Hoc, Hof⟩, HB, %W', %hW', HO⟩
  have hin : ∀ (off : Fin 2 → Nat) (hb : ∀ a, off a + S1x20.size a ≤ S256x20.size a) (hs : ∀ a, (Rect.unit (s := S256x20) off S1x20.size hb).stride a = 1) (x : S20.Idx),
      (((sV.slice (Rect.unit (s := S256x20) off S1x20.size hb) hs).squeeze S20 squeezes_S1x20_S20).view.read (Elt F)
        (idxBuf d L (m (iLoc d)) fs) x).toNat < 100000 := hin_all d L (m (iLoc d)) fs (hpre d)
  have hc1 := cond1_all k
  ihave Hsp := (spares_fold d L m fs) $$ [Hxd Hx0 Hsd Hs0]
  · isplitl [Hxd]; · iexact Hxd
    isplitl [Hx0]; · iexact Hx0
    isplitl [Hsd]; · iexact Hsd
    iexact Hs0
  have hc2 := cond2_lo k hk
  have hc3 := cond3_lo k hk
  have hc4 := cond4_lo k hk
  unfold k0_t1_body
  set_option sl_exec.stopBefore "k0_cond5" in sl_exec_parts
  have hn : k.val / 16 < 4 := by omega
  have hk1 : k.val + 1 < 64 := by omega
  -- THE VALUE STEP: the 32 stores leave the rows of the current block below 4k + 4 at the local result
  have hk4 : 4 * k.val + 4 ≤ 256 := by omega
  have hC3 : ∀ (tt : Fin 20) (x : Fin 128),
      ((slot3K).view.writes (Elt F) (slot3K).view.junk [⟨Rect.whole S20x128, trip_lo.sl.gather0 d L m fs k hin hc1⟩])
          (ValueIdx.ix3 (3 : Fin 4) tt x)
        = GR d L (idxPay d L (m (iLoc d))) (m (xLoc d)) ⟨4 * k.val + 3, by omega⟩ (ValueIdx.ix3 (3 : Fin 4) tt x) :=
    fun tt x => gather_writes_val3 d L (m (iLoc d)) (m (xLoc d)) fs _ (k0_off2 k) _ _ _ (hpre d) ⟨4 * k.val + 3, by omega⟩
      (k0_off2_eq k) _ (slot3_mem tt x)
  have hrowsB : ∀ y : S256x128.Idx, 64 * (k.val / 16) ≤ (y 0).val → (y 0).val < 4 * k.val + 4 →
      trip_lo.sl.Ha_w32 d L m fs k hk64 fa hin hc1 y = OutLoc d L m y := by
    refine rows_of_32 d L m k.val hk4 fa hrows _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      ?ok1 ?ok2 ?ok3 ?ok4 ?ok5 ?ok6 ?ok7 ?ok8 ?ok9 ?ok10 ?ok11 ?ok12 ?ok13 ?ok14 ?ok15 ?ok16 ?ok17 ?ok18 ?ok19 ?ok20 ?ok21 ?ok22 ?ok23 ?ok24 ?ok25 ?ok26 ?ok27 ?ok28 ?ok29 ?ok30 ?ok31 ?ok32
    · exact pieceOK_mk d L m k.val hk4 0 0 ⟨4 * k.val, by omega⟩ rfl (k0_off4 k 0#32) (k0_off4_eq k ⟨0, by decide⟩) (GR d L (idxPay d L (m (iLoc d))) (m (xLoc d)) ⟨4 * k.val, by omega⟩) (fun _ _ => rfl) (fun tt => inb_rV 0 tt (16 * 0) (by omega))
    · exact pieceOK_mk d L m k.val hk4 0 1 ⟨4 * k.val, by omega⟩ rfl (k0_off5 k 0#32) (k0_off5_eq k ⟨0, by decide⟩) (GR d L (idxPay d L (m (iLoc d))) (m (xLoc d)) ⟨4 * k.val, by omega⟩) (fun _ _ => rfl) (fun tt => inb_rV 0 tt (16 * 1) (by omega))
    · exact pieceOK_mk d L m k.val hk4 0 2 ⟨4 * k.val, by omega⟩ rfl (k0_off6 k 0#32) (k0_off6_eq k ⟨0, by decide⟩) (GR d L (idxPay d L (m (iLoc d))) (m (xLoc d)) ⟨4 * k.val, by omega⟩) (fun _ _ => rfl) (fun tt => inb_rV 0 tt (16 * 2) (by omega))
    · exact pieceOK_mk d L m k.val hk4 0 3 ⟨4 * k.val, by omega⟩ rfl (k0_off7 k 0#32) (k0_off7_eq k ⟨0, by decide⟩) (GR d L (idxPay d L (m (iLoc d))) (m (xLoc d)) ⟨4 * k.val, by omega⟩) (fun _ _ => rfl) (fun tt => inb_rV 0 tt (16 * 3) (by omega))
    · exact pieceOK_mk d L m k.val hk4 0 4 ⟨4 * k.val, by omega⟩ rfl (k0_off8 k 0#32) (k0_off8_eq k ⟨0, by decide⟩) (GR d L (idxPay d L (m (iLoc d))) (m (xLoc d)) ⟨4 * k.val, by omega⟩) (fun _ _ => rfl) (fun tt => inb_rV 0 tt (16 * 4) (by omega))
    · exact pieceOK_mk d L m k.val hk4 0 5 ⟨4 * k.val, by omega⟩ rfl (k0_off9 k 0#32) (k0_off9_eq k ⟨0, by decide⟩) (GR d L (idxPay d L (m (iLoc d))) (m (xLoc d)) ⟨4 * k.val, by omega⟩) (fun _ _ => rfl) (fun tt => inb_rV 0 tt (16 * 5) (by omega))
    · exact pieceOK_mk d L m k.val hk4 0 6 ⟨4 * k.val, by omega⟩ rfl (k0_off10 k 0#32) (k0_off10_eq k ⟨0, by decide⟩) (GR d L (idxPay d L (m (iLoc d))) (m (xLoc d)) ⟨4 * k.val, by omega⟩) (fun _ _ => rfl) (fun tt => inb_rV 0 tt (16 * 6) (by omega))
    · exact pieceOK_mk d L m k.val hk4 0 7 ⟨4 * k.val, by omega⟩ rfl (k0_off11 k 0#32) (k0_off11_eq k ⟨0, by decide⟩) (GR d L (idxPay d L (m (iLoc d))) (m (xLoc d)) ⟨4 * k.val, by omega⟩) (fun _ _ => rfl) (fun tt => inb_rV 0 tt (16 * 7) (by omega))
    · exact pieceOK_mk d L m k.val hk4 1 0 ⟨4 * k.val + 1, by omega⟩ rfl (k0_off4 k 1#32) (k0_off4_eq k ⟨1, by decide⟩) (GR d L (idxPay d L (m (iLoc d))) (m (xLoc d)) ⟨4 * k.val + 1, by omega⟩) (fun _ _ => rfl) (fun tt => inb_rV 1 tt (16 * 0) (by omega))
    · exact pieceOK_mk d L m k.val hk4 1 1 ⟨4 * k.val + 1, by omega⟩ rfl (k0_off5 k 1#32) (k0_off5_eq k ⟨1, by decide⟩) (GR d L (idxPay d L (m (iLoc d))) (m (xLoc d)) ⟨4 * k.val + 1, by omega⟩) (fun _ _ => rfl) (fun tt => inb_rV 1 tt (16 * 1) (by omega))
    · exact pieceOK_mk d L m k.val hk4 1 2 ⟨4 * k.val + 1, by omega⟩ rfl (k0_off6 k 1#32) (k0_off6_eq k ⟨1, by decide⟩) (GR d L (idxPay d L (m (iLoc d))) (m (xLoc d)) ⟨4 * k.val + 1, by omega⟩) (fun _ _ => rfl) (fun tt => inb_rV 1 tt (16 * 2) (by omega))
    · exact pieceOK_mk d L m k.val hk4 1 3 ⟨4 * k.val + 1, by omega⟩ rfl (k0_off7 k 1#32) (k0_off7_eq k ⟨1, by decide⟩) (GR d L (idxPay d L (m (iLoc d))) (m (xLoc d)) ⟨4 * k.val + 1, by omega⟩) (fun _ _ => rfl) (fun tt => inb_rV 1 tt (16 * 3) (by omega))
    · exact pieceOK_mk d L m k.val hk4 1 4 ⟨4 * k.val + 1, by omega⟩ rfl (k0_off8 k 1#32) (k0_off8_eq k ⟨1, by decide⟩) (GR d L (idxPay d L (m (iLoc d))) (m (xLoc d)) ⟨4 * k.val + 1, by omega⟩) (fun _ _ => rfl) (fun tt => inb_rV 1 tt (16 * 4) (by omega))
    · exact pieceOK_mk d L m k.val hk4 1 5 ⟨4 * k.val + 1, by omega⟩ rfl (k0_off9 k 1#32) (k0_off9_eq k ⟨1, by decide⟩) (GR d L (idxPay d L (m (iLoc d))) (m (xLoc d)) ⟨4 * k.val + 1, by omega⟩) (fun _ _ => rfl) (fun tt => inb_rV 1 tt (16 * 5) (by omega))
    · exact pieceOK_mk d L m k.val hk4 1 6 ⟨4 * k.val + 1, by omega⟩ rfl (k0_off10 k 1#32) (k0_off10_eq k ⟨1, by decide⟩) (GR d L (idxPay d L (m (iLoc d))) (m (xLoc d)) ⟨4 * k.val + 1, by omega⟩) (fun _ _ => rfl) (fun tt => inb_rV 1 tt (16 * 6) (by omega))
    · exact pieceOK_mk d L m k.val hk4 1 7 ⟨4 * k.val + 1, by omega⟩ rfl (k0_off11 k 1#32) (k0_off11_eq k ⟨1, by decide⟩) (GR d L (idxPay d L (m (iLoc d))) (m (xLoc d)) ⟨4 * k.val + 1, by omega⟩) (fun _ _ => rfl) (fun tt => inb_rV 1 tt (16 * 7) (by omega))
    · exact pieceOK_mk d L m k.val hk4 2 0 ⟨4 * k.val + 2, by omega⟩ rfl (k0_off4 k 2#32) (k0_off4_eq k ⟨2, by decide⟩) (GR d L (idxPay d L (m (iLoc d))) (m (xLoc d)) ⟨4 * k.val + 2, by omega⟩) (fun _ _ => rfl) (fun tt => inb_rV 2 tt (16 * 0) (by omega))
    · exact pieceOK_mk d L m k.val hk4 2 1 ⟨4 * k.val + 2, by omega⟩ rfl (k0_off5 k 2#32) (k0_off5_eq k ⟨2, by decide⟩) (GR d L (idxPay d L (m (iLoc d))) (m (xLoc d)) ⟨4 * k.val + 2, by omega⟩) (fun _ _ => rfl) (fun tt => inb_rV 2 tt (16 * 1) (by omega))
    · exact pieceOK_mk d L m k.val hk4 2 2 ⟨4 * k.val + 2, by omega⟩ rfl (k0_off6 k 2#32) (k0_off6_eq k ⟨2, by decide⟩) (GR d L (idxPay d L (m (iLoc d))) (m (xLoc d)) ⟨4 * k.val + 2, by omega⟩) (fun _ _ => rfl) (fun tt => inb_rV 2 tt (16 * 2) (by omega))
    · exact pieceOK_mk d L m k.val hk4 2 3 ⟨4 * k.val + 2, by omega⟩ rfl (k0_off7 k 2#32) (k0_off7_eq k ⟨2, by decide⟩) (GR d L (idxPay d L (m (iLoc d))) (m (xLoc d)) ⟨4 * k.val + 2, by omega⟩) (fun _ _ => rfl) (fun tt => inb_rV 2 tt (16 * 3) (by omega))
    · exact pieceOK_mk d L m k.val hk4 2 4 ⟨4 * k.val + 2, by omega⟩ rfl (k0_off8 k 2#32) (k0_off8_eq k ⟨2, by decide⟩) (GR d L (idxPay d L (m (iLoc d))) (m (xLoc d)) ⟨4 * k.val + 2, by omega⟩) (fun _ _ => rfl) (fun tt => inb_rV 2 tt (16 * 4) (by omega))
    · exact pieceOK_mk d L m k.val hk4 2 5 ⟨4 * k.val + 2, by omega⟩ rfl (k0_off9 k 2#32) (k0_off9_eq k ⟨2, by decide⟩) (GR d L (idxPay d L (m (iLoc d))) (m (xLoc d)) ⟨4 * k.val + 2, by omega⟩) (fun _ _ => rfl) (fun tt => inb_rV 2 tt (16 * 5) (by omega))
    · exact pieceOK_mk d L m k.val hk4 2 6 ⟨4 * k.val + 2, by omega⟩ rfl (k0_off10 k 2#32) (k0_off10_eq k ⟨2, by decide⟩) (GR d L (idxPay d L (m (iLoc d))) (m (xLoc d)) ⟨4 * k.val + 2, by omega⟩) (fun _ _ => rfl) (fun tt => inb_rV 2 tt (16 * 6) (by omega))
    · exact pieceOK_mk d L m k.val hk4 2 7 ⟨4 * k.val + 2, by omega⟩ rfl (k0_off11 k 2#32) (k0_off11_eq k ⟨2, by decide⟩) (GR d L (idxPay d L (m (iLoc d))) (m (xLoc d)) ⟨4 * k.val + 2, by omega⟩) (fun _ _ => rfl) (fun tt => inb_rV 2 tt (16 * 7) (by omega))
    · exact pieceOK_mk d L m k.val hk4 3 0 ⟨4 * k.val + 3, by omega⟩ rfl (k0_off4 k 3#32) (k0_off4_eq k ⟨3, by decide⟩) ((slot3K).view.writes (Elt F) (slot3K).view.junk [⟨Rect.whole S20x128, trip_lo.sl.gather0 d L m fs k hin hc1⟩]) hC3 (fun tt => inb_rV 3 tt (16 * 0) (by omega))
    · exact pieceOK_mk d L m k.val hk4 3 1 ⟨4 * k.val + 3, by omega⟩ rfl (k0_off5 k 3#32) (k0_off5_eq k ⟨3, by decide⟩) ((slot3K).view.writes (Elt F) (slot3K).view.junk [⟨Rect.whole S20x128, trip_lo.sl.gather0 d L m fs k hin hc1⟩]) hC3 (fun tt => inb_rV 3 tt (16 * 1) (by omega))
    · exact pieceOK_mk d L m k.val hk4 3 2 ⟨4 * k.val + 3, by omega⟩ rfl (k0_off6 k 3#32) (k0_off6_eq k ⟨3, by decide⟩) ((slot3K).view.writes (Elt F) (slot3K).view.junk [⟨Rect.whole S20x128, trip_lo.sl.gather0 d L m fs k hin hc1⟩]) hC3 (fun tt => inb_rV 3 tt (16 * 2) (by omega))
    · exact pieceOK_mk d L m k.val hk4 3 3 ⟨4 * k.val + 3, by omega⟩ rfl (k0_off7 k 3#32) (k0_off7_eq k ⟨3, by decide⟩) ((slot3K).view.writes (Elt F) (slot3K).view.junk [⟨Rect.whole S20x128, trip_lo.sl.gather0 d L m fs k hin hc1⟩]) hC3 (fun tt => inb_rV 3 tt (16 * 3) (by omega))
    · exact pieceOK_mk d L m k.val hk4 3 4 ⟨4 * k.val + 3, by omega⟩ rfl (k0_off8 k 3#32) (k0_off8_eq k ⟨3, by decide⟩) ((slot3K).view.writes (Elt F) (slot3K).view.junk [⟨Rect.whole S20x128, trip_lo.sl.gather0 d L m fs k hin hc1⟩]) hC3 (fun tt => inb_rV 3 tt (16 * 4) (by omega))
    · exact pieceOK_mk d L m k.val hk4 3 5 ⟨4 * k.val + 3, by omega⟩ rfl (k0_off9 k 3#32) (k0_off9_eq k ⟨3, by decide⟩) ((slot3K).view.writes (Elt F) (slot3K).view.junk [⟨Rect.whole S20x128, trip_lo.sl.gather0 d L m fs k hin hc1⟩]) hC3 (fun tt => inb_rV 3 tt (16 * 5) (by omega))
    · exact pieceOK_mk d L m k.val hk4 3 6 ⟨4 * k.val + 3, by omega⟩ rfl (k0_off10 k 3#32) (k0_off10_eq k ⟨3, by decide⟩) ((slot3K).view.writes (Elt F) (slot3K).view.junk [⟨Rect.whole S20x128, trip_lo.sl.gather0 d L m fs k hin hc1⟩]) hC3 (fun tt => inb_rV 3 tt (16 * 6) (by omega))
    · exact pieceOK_mk d L m k.val hk4 3 7 ⟨4 * k.val + 3, by omega⟩ rfl (k0_off11 k 3#32) (k0_off11_eq k ⟨3, by decide⟩) ((slot3K).view.writes (Elt F) (slot3K).view.junk [⟨Rect.whole S20x128, trip_lo.sl.gather0 d L m fs k hin hc1⟩]) hC3 (fun tt => inb_rV 3 tt (16 * 7) (by omega))
  have hrowsN : RowsDone d L m (k.val + 1) (trip_lo.sl.Ha_w32 d L m fs k hk64 fa hin hc1) :=
    fun y hlo hhi => hrowsB y (by omega) (by omega)
  have hv0 := gather_writes_val0 d L (m (iLoc d)) (m (xLoc d)) fs (GR d L (idxPay d L (m (iLoc d))) (m (xLoc d)) ⟨4 * k.val, by omega⟩)
    (k0_off12 k) (k0_off12_inb k hc2) rfl (fun x => hin _ _ _ x) (hpre d) ⟨4 * (k.val + 1), by omega⟩
    ((k0_off12_eq k).trans (by rw [show 4 * k.val + 4 = 4 * (k.val + 1) by omega]))
  have hv1 := gather_writes_val1 d L (m (iLoc d)) (m (xLoc d)) fs (GR d L (idxPay d L (m (iLoc d))) (m (xLoc d)) ⟨4 * k.val + 1, by omega⟩)
    (k0_off13 k) (k0_off13_inb k hc3) rfl (fun x => hin _ _ _ x) (hpre d) ⟨4 * (k.val + 1) + 1, by omega⟩
    ((k0_off13_eq k).trans (by rw [show 4 * k.val + 5 = 4 * (k.val + 1) + 1 by omega]))
  have hv2 := gather_writes_val2 d L (m (iLoc d)) (m (xLoc d)) fs (GR d L (idxPay d L (m (iLoc d))) (m (xLoc d)) ⟨4 * k.val + 2, by omega⟩)
    (k0_off14 k) (k0_off14_inb k hc4) rfl (fun x => hin _ _ _ x) (hpre d) ⟨4 * (k.val + 1) + 2, by omega⟩
    ((k0_off14_eq k).trans (by rw [show 4 * k.val + 6 = 4 * (k.val + 1) + 2 by omega]))
  by_cases hc5 : k0_cond5 k = 1#1
  · -- the block is complete: it is sent out, and the next block becomes the current one
    have h15 : k.val % 16 = 15 := (cond5_iff k).mp hc5
    have hn1 : k.val / 16 + 1 < 4 := by omega
    have hdiv : (k.val + 1) / 16 = k.val / 16 + 1 := by omega
    have hrowsBlk : ∀ y : S256x128.Idx, 64 * (k.val / 16) ≤ (y 0).val → (y 0).val < 64 * (k.val / 16) + 64 →
        trip_lo.sl.Ha_w32 d L m fs k hk64 fa hin hc1 y = OutLoc d L m y := fun y h1 h2 => hrowsB y h1 (by omega)
    rw [dif_pos hc5]
    ihave Hsrc := (Entails.of_eq (congrArg (fun S => ((aV).view.loc (thr d L) ↦[S]{fullShare} (trip_lo.sl.Ha_w32 d L m fs k hk64 fa hin hc1) : sProp 𝕄)) (set_prog_src k hc5).symm)) $$ Ha
    ihave Hdst := (Entails.of_eq (congrArg (fun S => ((oV).view.loc (thr d L) ↦[S]{fullShare} m (oLoc d) : sProp 𝕄)) (set_prog_dst L k hc5).symm)) $$ Hoc
    iapply (Transfers.wp_dmaBatch countersEmb 𝒱₀ (thr d L) none (src := ((aV).slice (Rect.unit (s := S256x128) (k0_off15 k) S64x128.size (k0_off15_inb k hc5)) (fun _ => rfl))) (dst := ((oV).slice (Rect.unit (s := S8192x128) (k0_off16 L k) S64x128.size (k0_off16_inb L k hc5)) (fun _ => rfl))) (default : HIx 1) wbN (wbN_eq _ _) (Finset.Subset.refl _) hn (Nat.zero_le _)
        (wb_hD d L m k hc5 (trip_lo.sl.Ha_w32 d L m fs k hk64 fa hin hc1) hrowsBlk hn)) $$ [Hsrc Hdst HB]
    · isplitl [Hsrc]; · iexact Hsrc
      isplitl [Hdst]; · iexact Hdst
      iexact HB
    iintro HB
    rw [Prog.bind]
    first
      | sl_step
      | (sl_exec; sl_step)
      | (beta_reduce; sl_step)
    ihave Hsp' := (spares_open d L m fs) $$ Hsp
    icases Hsp' with ⟨Hxd, Hx0, Hsd, Hs0⟩
    iapply (hQ 0#32)
    unfold inv
    isplitl [Hmw]; · iexact Hmw
    isplitl [Hi]; · iexact Hi
    isplitl [Hxd]; · iexact Hxd
    isplitl [Hx0]; · iexact Hx0
    isplitl [Hsd]; · iexact Hsd
    isplitl [Hs0]; · iexact Hs0
    isplitl [Hg0 HxR1 HsR1 Hg1 HxR2 HsR2 Hg2 HxR3 HsR3 Hx4 Hs4 Hr3 Hg3]
    · iapply (gathers_close d L m fs k.val hk1 _ _ _ _ _ _ _ _ _ _ hv0 hv1 hv2)
      isplitl [Hg0 HxR1 HsR1]
      · isplitl [Hg0]; · iexact Hg0
        isplitl [HxR1]; · iexact HxR1
        iexact HsR1
      isplitl [Hg1 HxR2 HsR2]
      · isplitl [Hg1]; · iexact Hg1
        isplitl [HxR2]; · iexact HxR2
        iexact HsR2
      isplitl [Hg2 HxR3 HsR3]
      · isplitl [Hg2]; · iexact Hg2
        isplitl [HxR3]; · iexact HxR3
        iexact HsR3
      isplitl [Hx4]; · iexact Hx4
      isplitl [Hs4]; · iexact Hs4
      isplitl [Hr3]; · iexact Hr3
      iexact Hg3
    isplitl [Haf Hof]
    · rw [outPart_eq d L m (k.val + 1) hk1 (k.val / 16 + 1) hn1 hdiv]
      unfold outAt
      ihave Ha2 := (aRest_step d L (k.val / 16) hn1 faf).1 $$ Haf
      icases Ha2 with ⟨Hac', Haf'⟩
      ihave Ho2 := (oRest_step d L (k.val / 16) hn1 (m (oLoc d))).1 $$ Hof
      icases Ho2 with ⟨Hoc', Hof'⟩
      isplitl [Hac']
      · iexists faf; isplitl [Hac']; · iexact Hac'
        ipureintro; intro y h1 h2; exfalso; omega
      isplitl [Haf']; · iexists faf; iexact Haf'
      isplitl [Hoc']; · iexact Hoc'
      iexact Hof'
    isplitl [HB]; · rw [hdiv]; iexact HB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · -- the block is not complete
    have h15 : ¬ k.val % 16 = 15 := (cond5_iff k).not.mp hc5
    have hdiv : (k.val + 1) / 16 = k.val / 16 := by omega
    sl_exec
    sl_step
    ihave Hsp' := (spares_open d L m fs) $$ Hsp
    icases Hsp' with ⟨Hxd, Hx0, Hsd, Hs0⟩
    iapply (hQ 0#32)
    unfold inv
    isplitl [Hmw]; · iexact Hmw
    isplitl [Hi]; · iexact Hi
    isplitl [Hxd]; · iexact Hxd
    isplitl [Hx0]; · iexact Hx0
    isplitl [Hsd]; · iexact Hsd
    isplitl [Hs0]; · iexact Hs0
    isplitl [Hg0 HxR1 HsR1 Hg1 HxR2 HsR2 Hg2 HxR3 HsR3 Hx4 Hs4 Hr3 Hg3]
    · iapply (gathers_close d L m fs k.val hk1 _ _ _ _ _ _ _ _ _ _ hv0 hv1 hv2)
      isplitl [Hg0 HxR1 HsR1]
      · isplitl [Hg0]; · iexact Hg0
        isplitl [HxR1]; · iexact HxR1
        iexact HsR1
      isplitl [Hg1 HxR2 HsR2]
      · isplitl [Hg1]; · iexact Hg1
        isplitl [HxR2]; · iexact HxR2
        iexact HsR2
      isplitl [Hg2 HxR3 HsR3]
      · isplitl [Hg2]; · iexact Hg2
        isplitl [HxR3]; · iexact HxR3
        iexact HsR3
      isplitl [Hx4]; · iexact Hx4
      isplitl [Hs4]; · iexact Hs4
      isplitl [Hr3]; · iexact Hr3
      iexact Hg3
    isplitl [Ha Haf Hoc Hof]
    · rw [outPart_eq d L m (k.val + 1) hk1 (k.val / 16) hn hdiv]
      unfold outAt
      isplitl [Ha]
      · iexists _; isplitl [Ha]; · iexact Ha
        ipureintro; intro y h1 h2; exact hrowsB y (by rw [hdiv] at h1; exact h1) (by omega)
      isplitl [Haf]; · iexists faf; iexact Haf
      isplitl [Hoc]; · iexact Hoc
      iexact Hof
    isplitl [HB]; · rw [hdiv]; iexact HB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Cert.KernelIdeal.Tile

end
-- ==== Proof.TripHi.lean ====
/-
  The last trip of the loop (rows 252 … 255 of the tile): only the gather for row 255 is still to be issued, every slot
  comes back free, and the fourth block of the output scratch is sent out as the last copy of the write-back batch.
-/
import proofs.«208374_g60447369724146_cont_9to1c4b_798_24_alg».proof.Proof.OutAt
import proofs.«208374_g60447369724146_cont_9to1c4b_798_24_alg».proof.Proof.Spares
import proofs.«208374_g60447369724146_cont_9to1c4b_798_24_alg».proof.Proof.TripFacts
import proofs.«208374_g60447369724146_cont_9to1c4b_798_24_alg».proof.Proof.TripClose
import proofs.«208374_g60447369724146_cont_9to1c4b_798_24_alg».proof.Proof.TripVal
import proofs.«208374_g60447369724146_cont_9to1c4b_798_24_alg».proof.Proof.TripVal2
import proofs.«208374_g60447369724146_cont_9to1c4b_798_24_alg».proof.Proof.OutGeom

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)
  (fs : Buf (Elt F) ((thr d L).loc cc0_scratch0))

set_option maxRecDepth 65536 in
set_option maxHeartbeats 32000000 in
theorem trip_hi (hpre : PreOK m) (O : CellTallies nD τ sig (HIx 1)) (W : Waits sig (HIx 1)) (v1 : BitVec 32)
    (k : Fin k0_t1_loop.trips) (hk : ¬ k.val < 63) (acc : BitVec 32)
    (Q : BitVec 32 → sProp 𝕄) (hQ : ∀ a, inv d L m fs O W (k.val + 1) a ⊢ Q a) :
    inv d L m fs O W k.val acc
      ⊢ wp frame (wpE (defs₀ (F := F)) 𝒱₀ (thr d L) none) Set.univ
          (k0_t1_body L iV (Memref.isWhole_whole _) xV (Memref.isWhole_whole _) oV (Memref.isWhole_whole _)
            sV (Memref.isWhole_whole _) rV (Memref.isWhole_whole _) aV (Memref.isWhole_whole _)
            cc0_scratch3 cc0_scratch4 cc0_scratch5 cc0_scratch6 cc0_scratch7 cc0_scoped0 v1 k acc)
          Q := by
  have hk64 : k.val < 64 := k.isLt
  unfold inv gathersPart outPart
  rw [dif_pos hk64, dif_pos hk64]
  iintro ⟨Hmw, Hi, Hxd, Hx0, Hsd, Hs0, ⟨%w0, %w1, %w2, ⟨Hg0, HxR1, HsR1⟩, ⟨Hg1, HxR2, HsR2⟩, ⟨Hg2, HxR3, HsR3⟩, Hx4, Hs4, ⟨%f3, Hr3⟩, Hg3⟩, ⟨⟨%fa, Ha, %hrows⟩, ⟨%faf, Haf⟩, Hoc, Hof⟩, HB, %W', %hW', HO⟩
  have hin : ∀ (off : Fin 2 → Nat) (hb : ∀ a, off a + S1x20.size a ≤ S256x20.size a) (hs : ∀ a, (Rect.unit (s := S256x20) off S1x20.size hb).stride a = 1) (x : S20.Idx),
      (((sV.slice (Rect.unit (s := S256x20) off S1x20.size hb) hs).squeeze S20 squeezes_S1x20_S20).view.read (Elt F)
        (idxBuf d L (m (iLoc d)) fs) x).toNat < 100000 := hin_all d L (m (iLoc d)) fs (hpre d)
  have hc1 := cond1_all k
  ihave Hsp := (spares_fold d L m fs) $$ [Hxd Hx0 Hsd Hs0]
  · isplitl [Hxd]; · iexact Hxd
    isplitl [Hx0]; · iexact Hx0
    isplitl [Hsd]; · iexact Hsd
    iexact Hs0
  have hc2 := cond2_hi k hk
  have hc3 := cond3_hi k hk
  have hc4 := cond4_hi k hk
  have hk63 : k.val = 63 := by omega
  have hc5 : k0_cond5 k = 1#1 := (cond5_iff k).mpr (by omega)
  unfold k0_t1_body
  set_option sl_exec.stopBefore "k0_cond5" in sl_exec_parts
  have hn : k.val / 16 < 4 := by omega
  -- THE VALUE STEP: the 32 stores leave the rows of the current block below 4k + 4 at the local result
  have hk4 : 4 * k.val + 4 ≤ 256 := by omega
  have hC3 : ∀ (tt : Fin 20) (x : Fin 128),
      ((slot3K).view.writes (Elt F) (slot3K).view.junk [⟨Rect.whole S20x128, trip_hi.sl.gather0 d L m fs k hin hc1⟩])
          (ValueIdx.ix3 (3 : Fin 4) tt x)
        = GR d L (idxPay d L (m (iLoc d))) (m (xLoc d)) ⟨4 * k.val + 3, by omega⟩ (ValueIdx.ix3 (3 : Fin 4) tt x) :=
    fun tt x => gather_writes_val3 d L (m (iLoc d)) (m (xLoc d)) fs _ (k0_off2 k) _ _ _ (hpre d) ⟨4 * k.val + 3, by omega⟩
      (k0_off2_eq k) _ (slot3_mem tt x)
  have hrowsB : ∀ y : S256x128.Idx, 64 * (k.val / 16) ≤ (y 0).val → (y 0).val < 4 * k.val + 4 →
      trip_hi.sl.Ha_w32 d L m fs k hk64 fa hin hc1 y = OutLoc d L m y := by
    refine rows_of_32 d L m k.val hk4 fa hrows _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      ?ok1 ?ok2 ?ok3 ?ok4 ?ok5 ?ok6 ?ok7 ?ok8 ?ok9 ?ok10 ?ok11 ?ok12 ?ok13 ?ok14 ?ok15 ?ok16 ?ok17 ?ok18 ?ok19 ?ok20 ?ok21 ?ok22 ?ok23 ?ok24 ?ok25 ?ok26 ?ok27 ?ok28 ?ok29 ?ok30 ?ok31 ?ok32
    · exact pieceOK_mk d L m k.val hk4 0 0 ⟨4 * k.val, by omega⟩ rfl (k0_off4 k 0#32) (k0_off4_eq k ⟨0, by decide⟩) (GR d L (idxPay d L (m (iLoc d))) (m (xLoc d)) ⟨4 * k.val, by omega⟩) (fun _ _ => rfl) (fun tt => inb_rV 0 tt (16 * 0) (by omega))
    · exact pieceOK_mk d L m k.val hk4 0 1 ⟨4 * k.val, by omega⟩ rfl (k0_off5 k 0#32) (k0_off5_eq k ⟨0, by decide⟩) (GR d L (idxPay d L (m (iLoc d))) (m (xLoc d)) ⟨4 * k.val, by omega⟩) (fun _ _ => rfl) (fun tt => inb_rV 0 tt (16 * 1) (by omega))
    · exact pieceOK_mk d L m k.val hk4 0 2 ⟨4 * k.val, by omega⟩ rfl (k0_off6 k 0#32) (k0_off6_eq k ⟨0, by decide⟩) (GR d L (idxPay d L (m (iLoc d))) (m (xLoc d)) ⟨4 * k.val, by omega⟩) (fun _ _ => rfl) (fun tt => inb_rV 0 tt (16 * 2) (by omega))
    · exact pieceOK_mk d L m k.val hk4 0 3 ⟨4 * k.val, by omega⟩ rfl (k0_off7 k 0#32) (k0_off7_eq k ⟨0, by decide⟩) (GR d L (idxPay d L (m (iLoc d))) (m (xLoc d)) ⟨4 * k.val, by omega⟩) (fun _ _ => rfl) (fun tt => inb_rV 0 tt (16 * 3) (by omega))
    · exact pieceOK_mk d L m k.val hk4 0 4 ⟨4 * k.val, by omega⟩ rfl (k0_off8 k 0#32) (k0_off8_eq k ⟨0, by decide⟩) (GR d L (idxPay d L (m (iLoc d))) (m (xLoc d)) ⟨4 * k.val, by omega⟩) (fun _ _ => rfl) (fun tt => inb_rV 0 tt (16 * 4) (by omega))
    · exact pieceOK_mk d L m k.val hk4 0 5 ⟨4 * k.val, by omega⟩ rfl (k0_off9 k 0#32) (k0_off9_eq k ⟨0, by decide⟩) (GR d L (idxPay d L (m (iLoc d))) (m (xLoc d)) ⟨4 * k.val, by omega⟩) (fun _ _ => rfl) (fun tt => inb_rV 0 tt (16 * 5) (by omega))
    · exact pieceOK_mk d L m k.val hk4 0 6 ⟨4 * k.val, by omega⟩ rfl (k0_off10 k 0#32) (k0_off10_eq k ⟨0, by decide⟩) (GR d L (idxPay d L (m (iLoc d))) (m (xLoc d)) ⟨4 * k.val, by omega⟩) (fun _ _ => rfl) (fun tt => inb_rV 0 tt (16 * 6) (by omega))
    · exact pieceOK_mk d L m k.val hk4 0 7 ⟨4 * k.val, by omega⟩ rfl (k0_off11 k 0#32) (k0_off11_eq k ⟨0, by decide⟩) (GR d L (idxPay d L (m (iLoc d))) (m (xLoc d)) ⟨4 * k.val, by omega⟩) (fun _ _ => rfl) (fun tt => inb_rV 0 tt (16 * 7) (by omega))
    · exact pieceOK_mk d L m k.val hk4 1 0 ⟨4 * k.val + 1, by omega⟩ rfl (k0_off4 k 1#32) (k0_off4_eq k ⟨1, by decide⟩) (GR d L (idxPay d L (m (iLoc d))) (m (xLoc d)) ⟨4 * k.val + 1, by omega⟩) (fun _ _ => rfl) (fun tt => inb_rV 1 tt (16 * 0) (by omega))
    · exact pieceOK_mk d L m k.val hk4 1 1 ⟨4 * k.val + 1, by omega⟩ rfl (k0_off5 k 1#32) (k0_off5_eq k ⟨1, by decide⟩) (GR d L (idxPay d L (m (iLoc d))) (m (xLoc d)) ⟨4 * k.val + 1, by omega⟩) (fun _ _ => rfl) (fun tt => inb_rV 1 tt (16 * 1) (by omega))
    · exact pieceOK_mk d L m k.val hk4 1 2 ⟨4 * k.val + 1, by omega⟩ rfl (k0_off6 k 1#32) (k0_off6_eq k ⟨1, by decide⟩) (GR d L (idxPay d L (m (iLoc d))) (m (xLoc d)) ⟨4 * k.val + 1, by omega⟩) (fun _ _ => rfl) (fun tt => inb_rV 1 tt (16 * 2) (by omega))
    · exact pieceOK_mk d L m k.val hk4 1 3 ⟨4 * k.val + 1, by omega⟩ rfl (k0_off7 k 1#32) (k0_off7_eq k ⟨1, by decide⟩) (GR d L (idxPay d L (m (iLoc d))) (m (xLoc d)) ⟨4 * k.val + 1, by omega⟩) (fun _ _ => rfl) (fun tt => inb_rV 1 tt (16 * 3) (by omega))
    · exact pieceOK_mk d L m k.val hk4 1 4 ⟨4 * k.val + 1, by omega⟩ rfl (k0_off8 k 1#32) (k0_off8_eq k ⟨1, by decide⟩) (GR d L (idxPay d L (m (iLoc d))) (m (xLoc d)) ⟨4 * k.val + 1, by omega⟩) (fun _ _ => rfl) (fun tt => inb_rV 1 tt (16 * 4) (by omega))
    · exact pieceOK_mk d L m k.val hk4 1 5 ⟨4 * k.val + 1, by omega⟩ rfl (k0_off9 k 1#32) (k0_off9_eq k ⟨1, by decide⟩) (GR d L (idxPay d L (m (iLoc d))) (m (xLoc d)) ⟨4 * k.val + 1, by omega⟩) (fun _ _ => rfl) (fun tt => inb_rV 1 tt (16 * 5) (by omega))
    · exact pieceOK_mk d L m k.val hk4 1 6 ⟨4 * k.val + 1, by omega⟩ rfl (k0_off10 k 1#32) (k0_off10_eq k ⟨1, by decide⟩) (GR d L (idxPay d L (m (iLoc d))) (m (xLoc d)) ⟨4 * k.val + 1, by omega⟩) (fun _ _ => rfl) (fun tt => inb_rV 1 tt (16 * 6) (by omega))
    · exact pieceOK_mk d L m k.val hk4 1 7 ⟨4 * k.val + 1, by omega⟩ rfl (k0_off11 k 1#32) (k0_off11_eq k ⟨1, by decide⟩) (GR d L (idxPay d L (m (iLoc d))) (m (xLoc d)) ⟨4 * k.val + 1, by omega⟩) (fun _ _ => rfl) (fun tt => inb_rV 1 tt (16 * 7) (by omega))
    · exact pieceOK_mk d L m k.val hk4 2 0 ⟨4 * k.val + 2, by omega⟩ rfl (k0_off4 k 2#32) (k0_off4_eq k ⟨2, by decide⟩) (GR d L (idxPay d L (m (iLoc d))) (m (xLoc d)) ⟨4 * k.val + 2, by omega⟩) (fun _ _ => rfl) (fun tt => inb_rV 2 tt (16 * 0) (by omega))
    · exact pieceOK_mk d L m k.val hk4 2 1 ⟨4 * k.val + 2, by omega⟩ rfl (k0_off5 k 2#32) (k0_off5_eq k ⟨2, by decide⟩) (GR d L (idxPay d L (m (iLoc d))) (m (xLoc d)) ⟨4 * k.val + 2, by omega⟩) (fun _ _ => rfl) (fun tt => inb_rV 2 tt (16 * 1) (by omega))
    · exact pieceOK_mk d L m k.val hk4 2 2 ⟨4 * k.val + 2, by omega⟩ rfl (k0_off6 k 2#32) (k0_off6_eq k ⟨2, by decide⟩) (GR d L (idxPay d L (m (iLoc d))) (m (xLoc d)) ⟨4 * k.val + 2, by omega⟩) (fun _ _ => rfl) (fun tt => inb_rV 2 tt (16 * 2) (by omega))
    · exact pieceOK_mk d L m k.val hk4 2 3 ⟨4 * k.val + 2, by omega⟩ rfl (k0_off7 k 2#32) (k0_off7_eq k ⟨2, by decide⟩) (GR d L (idxPay d L (m (iLoc d))) (m (xLoc d)) ⟨4 * k.val + 2, by omega⟩) (fun _ _ => rfl) (fun tt => inb_rV 2 tt (16 * 3) (by omega))
    · exact pieceOK_mk d L m k.val hk4 2 4 ⟨4 * k.val + 2, by omega⟩ rfl (k0_off8 k 2#32) (k0_off8_eq k ⟨2, by decide⟩) (GR d L (idxPay d L (m (iLoc d))) (m (xLoc d)) ⟨4 * k.val + 2, by omega⟩) (fun _ _ => rfl) (fun tt => inb_rV 2 tt (16 * 4) (by omega))
    · exact pieceOK_mk d L m k.val hk4 2 5 ⟨4 * k.val + 2, by omega⟩ rfl (k0_off9 k 2#32) (k0_off9_eq k ⟨2, by decide⟩) (GR d L (idxPay d L (m (iLoc d))) (m (xLoc d)) ⟨4 * k.val + 2, by omega⟩) (fun _ _ => rfl) (fun tt => inb_rV 2 tt (16 * 5) (by omega))
    · exact pieceOK_mk d L m k.val hk4 2 6 ⟨4 * k.val + 2, by omega⟩ rfl (k0_off10 k 2#32) (k0_off10_eq k ⟨2, by decide⟩) (GR d L (idxPay d L (m (iLoc d))) (m (xLoc d)) ⟨4 * k.val + 2, by omega⟩) (fun _ _ => rfl) (fun tt => inb_rV 2 tt (16 * 6) (by omega))
    · exact pieceOK_mk d L m k.val hk4 2 7 ⟨4 * k.val + 2, by omega⟩ rfl (k0_off11 k 2#32) (k0_off11_eq k ⟨2, by decide⟩) (GR d L (idxPay d L (m (iLoc d))) (m (xLoc d)) ⟨4 * k.val + 2, by omega⟩) (fun _ _ => rfl) (fun tt => inb_rV 2 tt (16 * 7) (by omega))
    · exact pieceOK_mk d L m k.val hk4 3 0 ⟨4 * k.val + 3, by omega⟩ rfl (k0_off4 k 3#32) (k0_off4_eq k ⟨3, by decide⟩) ((slot3K).view.writes (Elt F) (slot3K).view.junk [⟨Rect.whole S20x128, trip_hi.sl.gather0 d L m fs k hin hc1⟩]) hC3 (fun tt => inb_rV 3 tt (16 * 0) (by omega))
    · exact pieceOK_mk d L m k.val hk4 3 1 ⟨4 * k.val + 3, by omega⟩ rfl (k0_off5 k 3#32) (k0_off5_eq k ⟨3, by decide⟩) ((slot3K).view.writes (Elt F) (slot3K).view.junk [⟨Rect.whole S20x128, trip_hi.sl.gather0 d L m fs k hin hc1⟩]) hC3 (fun tt => inb_rV 3 tt (16 * 1) (by omega))
    · exact pieceOK_mk d L m k.val hk4 3 2 ⟨4 * k.val + 3, by omega⟩ rfl (k0_off6 k 3#32) (k0_off6_eq k ⟨3, by decide⟩) ((slot3K).view.writes (Elt F) (slot3K).view.junk [⟨Rect.whole S20x128, trip_hi.sl.gather0 d L m fs k hin hc1⟩]) hC3 (fun tt => inb_rV 3 tt (16 * 2) (by omega))
    · exact pieceOK_mk d L m k.val hk4 3 3 ⟨4 * k.val + 3, by omega⟩ rfl (k0_off7 k 3#32) (k0_off7_eq k ⟨3, by decide⟩) ((slot3K).view.writes (Elt F) (slot3K).view.junk [⟨Rect.whole S20x128, trip_hi.sl.gather0 d L m fs k hin hc1⟩]) hC3 (fun tt => inb_rV 3 tt (16 * 3) (by omega))
    · exact pieceOK_mk d L m k.val hk4 3 4 ⟨4 * k.val + 3, by omega⟩ rfl (k0_off8 k 3#32) (k0_off8_eq k ⟨3, by decide⟩) ((slot3K).view.writes (Elt F) (slot3K).view.junk [⟨Rect.whole S20x128, trip_hi.sl.gather0 d L m fs k hin hc1⟩]) hC3 (fun tt => inb_rV 3 tt (16 * 4) (by omega))
    · exact pieceOK_mk d L m k.val hk4 3 5 ⟨4 * k.val + 3, by omega⟩ rfl (k0_off9 k 3#32) (k0_off9_eq k ⟨3, by decide⟩) ((slot3K).view.writes (Elt F) (slot3K).view.junk [⟨Rect.whole S20x128, trip_hi.sl.gather0 d L m fs k hin hc1⟩]) hC3 (fun tt => inb_rV 3 tt (16 * 5) (by omega))
    · exact pieceOK_mk d L m k.val hk4 3 6 ⟨4 * k.val + 3, by omega⟩ rfl (k0_off10 k 3#32) (k0_off10_eq k ⟨3, by decide⟩) ((slot3K).view.writes (Elt F) (slot3K).view.junk [⟨Rect.whole S20x128, trip_hi.sl.gather0 d L m fs k hin hc1⟩]) hC3 (fun tt => inb_rV 3 tt (16 * 6) (by omega))
    · exact pieceOK_mk d L m k.val hk4 3 7 ⟨4 * k.val + 3, by omega⟩ rfl (k0_off11 k 3#32) (k0_off11_eq k ⟨3, by decide⟩) ((slot3K).view.writes (Elt F) (slot3K).view.junk [⟨Rect.whole S20x128, trip_hi.sl.gather0 d L m fs k hin hc1⟩]) hC3 (fun tt => inb_rV 3 tt (16 * 7) (by omega))
  have hrowsN : RowsDone d L m (k.val + 1) (trip_hi.sl.Ha_w32 d L m fs k hk64 fa hin hc1) :=
    fun y hlo hhi => hrowsB y (by omega) (by omega)
  have hrowsBlk : ∀ y : S256x128.Idx, 64 * (k.val / 16) ≤ (y 0).val → (y 0).val < 64 * (k.val / 16) + 64 →
      trip_hi.sl.Ha_w32 d L m fs k hk64 fa hin hc1 y = OutLoc d L m y := fun y h1 h2 => hrowsB y h1 (by omega)
  have e64 : k.val + 1 = 64 := by omega
  have e4 : k.val / 16 + 1 = 64 / 16 := by omega
  rw [dif_pos hc5]
  ihave Hsrc := (Entails.of_eq (congrArg (fun S => ((aV).view.loc (thr d L) ↦[S]{fullShare} (trip_hi.sl.Ha_w32 d L m fs k hk64 fa hin hc1) : sProp 𝕄)) (set_prog_src k hc5).symm)) $$ Ha
  ihave Hdst := (Entails.of_eq (congrArg (fun S => ((oV).view.loc (thr d L) ↦[S]{fullShare} m (oLoc d) : sProp 𝕄)) (set_prog_dst L k hc5).symm)) $$ Hoc
  iapply (Transfers.wp_dmaBatch countersEmb 𝒱₀ (thr d L) none (src := ((aV).slice (Rect.unit (s := S256x128) (k0_off15 k) S64x128.size (k0_off15_inb k hc5)) (fun _ => rfl))) (dst := ((oV).slice (Rect.unit (s := S8192x128) (k0_off16 L k) S64x128.size (k0_off16_inb L k hc5)) (fun _ => rfl))) (default : HIx 1) wbN (wbN_eq _ _) (Finset.Subset.refl _) hn (Nat.zero_le _)
      (wb_hD d L m k hc5 (trip_hi.sl.Ha_w32 d L m fs k hk64 fa hin hc1) hrowsBlk hn)) $$ [Hsrc Hdst HB]
  · isplitl [Hsrc]; · iexact Hsrc
    isplitl [Hdst]; · iexact Hdst
    iexact HB
  iintro HB
  rw [Prog.bind]
  first
    | sl_step
    | (sl_exec; sl_step)
    | (beta_reduce; sl_step)
  ihave Hsp' := (spares_open d L m fs) $$ Hsp
  icases Hsp' with ⟨Hxd, Hx0, Hsd, Hs0⟩
  rw [e64] at hQ
  iapply (hQ 0#32)
  unfold inv
  isplitl [Hmw]; · iexact Hmw
  isplitl [Hi]; · iexact Hi
  isplitl [Hxd]; · iexact Hxd
  isplitl [Hx0]; · iexact Hx0
  isplitl [Hsd]; · iexact Hsd
  isplitl [Hs0]; · iexact Hs0
  isplitl [HxR1 HxR2 HxR3 Hx4 HsR1 HsR2 HsR3 Hs4 Hg0_dst Hg1_dst Hg2_dst Hr3 Hg0 Hg1 Hg2 Hg3]
  · iapply (gathers_last d L m fs _ _ _ _)
    isplitl [HxR1]; · iexact HxR1
    isplitl [HxR2]; · iexact HxR2
    isplitl [HxR3]; · iexact HxR3
    isplitl [Hx4]; · iexact Hx4
    isplitl [HsR1]; · iexact HsR1
    isplitl [HsR2]; · iexact HsR2
    isplitl [HsR3]; · iexact HsR3
    isplitl [Hs4]; · iexact Hs4
    isplitl [Hg0_dst]; · iexact Hg0_dst
    isplitl [Hg1_dst]; · iexact Hg1_dst
    isplitl [Hg2_dst]; · iexact Hg2_dst
    isplitl [Hr3]; · iexact Hr3
    isplitl [Hg0]; · iexact Hg0
    isplitl [Hg1]; · iexact Hg1
    isplitl [Hg2]; · iexact Hg2
    iexact Hg3
  isplitr
  · rw [outPart_last]; iempintro
  isplitl [HB]; · rw [← e4]; iexact HB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.KernelIdeal.Tile

end
-- ==== Proof.Launch.lean ====
/-
  The launch of the kernel program: from the proof of one task's body to the run of all 35 threads. The call hands
  each SparseCore its sixteen tasks' pieces of the three arrays and takes them back, the result's at the one
  whole-array function; the host then reshapes the 8192 result rows to 16 batches of 512. At the end the two
  arguments are as launched and the program's result is the reshaped array.
-/
import proofs.«208374_g60447369724146_cont_9to1c4b_798_24_alg».proof.Proof.LaunchGeom

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)

variable [FloatOps F] (m : (ℓ : Loc nD τ sig) → Buf (Elt F) ℓ) (ρ : Dev nD → PrngReg)

/-! ## What the handshakes carry can be stored -/

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance

theorem P_st (d : Dev nD) (c : Fin ((K (F := F)).nCore 0)) :
    (P m).st 0 d c = bigSep Finset.univ fun i : Fin ((K (F := F)).nSub 0) => tileGo m d (coordsK c i) := rfl
theorem P_dn (d : Dev nD) (c : Fin ((K (F := F)).nCore 0)) :
    (P m).dn 0 d c = bigSep Finset.univ fun i : Fin ((K (F := F)).nSub 0) => tileTd m d (coordsK c i) := rfl
theorem P_go (d : Dev nD) (c : Fin ((K (F := F)).nCore 0)) (i : Fin ((K (F := F)).nSub 0)) :
    (P m).go 0 d c i = tileGo m d (coordsK c i) := rfl
theorem P_td (d : Dev nD) (c : Fin ((K (F := F)).nCore 0)) (i : Fin ((K (F := F)).nSub 0)) :
    (P m).td 0 d c i = tileTd m d (coordsK c i) := rfl

instance P_storable : (P (F := F) m).IsStorable where
  st q d c := match q with
    | 0 => (inferInstance : BI.Storable (upEmb : UEmb _ 𝕄) (bigSep Finset.univ fun i : Fin ((K (F := F)).nSub 0) => tileGo m d (coordsK c i)))
  dn q d c := match q with
    | 0 => (inferInstance : BI.Storable (upEmb : UEmb _ 𝕄) (bigSep Finset.univ fun i : Fin ((K (F := F)).nSub 0) => tileTd m d (coordsK c i)))
  go q d c i := match q with
    | 0 => (inferInstance : BI.Storable (upEmb : UEmb _ 𝕄) (tileGo m d (coordsK c i)))
  td q d c i := match q with
    | 0 => (inferInstance : BI.Storable (upEmb : UEmb _ 𝕄) (tileTd m d (coordsK c i)))

/-! ## A SparseCore's operands are its sixteen tasks' -/

theorem vecSplit : (K (F := F)).VecSplit' (P m) 0 := by
  intro d c
  rw [P_st, P_dn]
  simp only [P_go, P_td]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The call's operands for both SparseCores are the three arrays whole -/

theorem tiles_eq (d : Dev nD) (fo : Buf (Elt F) (oLoc d)) :
    (bigSep Finset.univ fun c : Fin 2 => bigSep Finset.univ fun s : Fin 16 =>
      iprop(((iRowK (coordsV c s)).view.loc (thr d (coordsV c s)) ↦[(iRowK (coordsV c s)).view.set]{fullShare} m (iLoc d))
        ∗ ((xV).view.loc (thr d (coordsV c s)) ↦{xq (coordsV c s)} m (xLoc d))
        ∗ bigSep Finset.univ fun r : Fin 4 =>
            (oWinK (coordsV c s) r).view.loc (thr d (coordsV c s)) ↦[(oWinK (coordsV c s) r).view.set]{fullShare} fo) : sProp 𝕄)
      = iprop((iLoc d ↦{fullShare} m (iLoc d)) ∗ (xLoc d ↦{fullShare} m (xLoc d)) ∗ oLoc d ↦{fullShare} fo) := by
  simp only [bigSep_sep']
  rw [← iPts_tiles d (m (iLoc d)), ← xPts_tiles d (m (xLoc d)), ← oPts_tiles d fo]

theorem st0_eq (d : Dev nD) :
    (bigSep Finset.univ fun c : Fin ((K (F := F)).nCore 0) => (P m).st 0 d c)
      = iprop((iLoc d ↦{fullShare} m (iLoc d)) ∗ (xLoc d ↦{fullShare} m (xLoc d)) ∗ oLoc d ↦{fullShare} m (oLoc d)) := by
  simp only [P_st]
  unfold tileGo
  exact tiles_eq m d (m (oLoc d))

theorem dn0_eq (d : Dev nD) :
    (bigSep Finset.univ fun c : Fin ((K (F := F)).nCore 0) => (P m).dn 0 d c)
      = iprop((iLoc d ↦{fullShare} m (iLoc d)) ∗ (xLoc d ↦{fullShare} m (xLoc d)) ∗ oLoc d ↦{fullShare} Out m d) := by
  simp only [P_dn]
  unfold tileTd
  exact tiles_eq m d (Out m d)

/-! ## @main on the TensorCore -/

abbrev rLoc (d : Dev nD) : Loc nD τ sig := (SparseCore.T d).loc main_v1
abbrev v0' : DevRef τ sig := Proc.devRef .tc (main_v0 : Ref sig .tc)
abbrev v1' : DevRef τ sig := Proc.devRef .tc (main_v1 : Ref sig .tc)
/-- The host operation after the call: the 8192 result rows read as 16 batches of 512. -/
abbrev opR : HloOp τ sig (Elt F) := StableHlo.reshape main_v0 main_v1 rfl shapeCasts_S8192x128_S16x512x128
/-- Its two arrays. -/
abbrev S2 : Finset (DevRef τ sig) := {v0', v1'}

omit [FloatOps F] in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (oLoc d ↦{fullShare} W main_v0)
          ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W v0') ∗ rLoc d ↦{fullShare} W v1') := by
  unfold held S2
  rw [SparseCore.bigSep_insert' (by decide), bigSep_singleton]

/-- The program's result on device `d`: the call's result array read in row-major order at the shape [16, 512, 128]. -/
def OutR (d : Dev nD) : Buf (Elt F) (rLoc d) :=
  shapeCast (s := S8192x128) S16x512x128 (Out m d) shapeCasts_S8192x128_S16x512x128

/-- The two arrays' contents after the call: the result array at `Out`, the other as launched. -/
def V1 (d : Dev nD) : Valuation τ sig (Elt F) := Function.update (fun b => m (d, b)) v0' (Out m d)
theorem V1_v0 (d : Dev nD) : V1 m d v0' = Out m d := Function.update_self _ _ _
theorem V1_v1 (d : Dev nD) : V1 m d v1' = m (rLoc d) := Function.update_of_ne (show v1' ≠ v0' by decide) _ _

theorem hR : (opR (F := F)).bufs ⊆ S2 := show ({v0', v1'} : Finset (DevRef τ sig)) ⊆ S2 by decide

theorem result_v1 (d : Dev nD) : (opR (F := F)).result (V1 m d) v1' = OutR m d := by
  rw [show (opR (F := F)).result (V1 m d) v1' = _ from StableHlo.reshape_result main_v0 main_v1 rfl shapeCasts_S8192x128_S16x512x128 _ _ (V1 m d)]
  rw [V1_v0]; rfl

theorem held_R (d : Dev nD) :
    (held (T d) S2 ((opR (F := F)).result (V1 m d)) : sProp 𝕄)
      = iprop((oLoc d ↦{fullShare} (opR (F := F)).result (V1 m d) v0') ∗ rLoc d ↦{fullShare} OutR m d) := by
  rw [held_S2, result_v1]

/-- What @main leaves the claim: the arguments as launched, the result at `OutR`. -/
abbrev FIN (d : Dev nD) : sProp 𝕄 :=
  iprop((iLoc d ↦{fullShare} m (iLoc d)) ∗ (xLoc d ↦{fullShare} m (xLoc d)) ∗ rLoc d ↦{fullShare} OutR m d)

/-- @main on device `d`'s TensorCore: the call, from the three arrays cut into the tasks' pieces and joined again
    with the result at `Out`; then the reshape over the result array and the program's. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho, Hr⟩, -, -⟩, -⟩
  iapply ((K (F := F)).wp_run (D (F := F)) 𝒱 (EH := EH) (P := P m) κ d 0) $$ [Hst Hi Hx Ho Hb Hr]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  iapply (wp_hlo_within 𝒱 (SparseCore.T d) none Set.univ (op := opR) (S := S2) hR (V := V1 m d)) $$ [Hb Ho Hr]
  · isplitl [Hb]; · iexact Hb
    rw [held_S2, V1_v0, V1_v1]
    isplitl [Ho]; · iexact Ho
    iexact Hr
  iintro ⟨Hb, Hheld⟩
  ihave Hh := (Entails.of_eq (held_R (F := F) m d)) $$ Hheld
  icases Hh with ⟨-, Hr⟩
  rw [wp_ret]; imodintro; imodintro
  isplitl [Hst]; · iexact Hst
  isplitl [Hi]; · iexact Hi
  isplitl [Hx]; · iexact Hx
  iexact Hr

def fq (d : Dev nD) (s' : Phys nD τ sig (Elt F)) : Prop :=
  s'.mem.mem (rLoc d) = OutR m d ∧ s'.mem.mem (iLoc d) = m (iLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := OutR m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- At the end, on every device: the program's result is `OutR`, the two arguments are as launched. -/
def QC : PUnit × MemSt nD τ sig (Elt F) → Prop := fun r =>
  ∀ c : Dev nD, r.2.mem (rLoc c) = OutR m c ∧ r.2.mem (iLoc c) = m (iLoc c) ∧ r.2.mem (xLoc c) = m (xLoc c)

/-- The run of the whole program from the proof of one task's body. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Tile

end
-- ==== Proof.TileWrap.lean ====
/-
  The task's obligation from the proof of its body. A vector subcore's scoped storage is its three scratch buffers
  and its six transfer semaphores, each at zero, beside a rest the body never touches; the body's proof, stated over
  the kernel function at symbolic grid coordinates, becomes the launch theorem's obligation for task i of SparseCore c.
-/
import proofs.«208374_g60447369724146_cont_9to1c4b_798_24_alg».proof.Proof.Launch

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

section Wrap

variable (d : Dev nD) (L : grid0.Coords)

omit [FloatOps F] in
theorem cell_ne {a b : SemLoc sig} (h : a ≠ b) : ((thr d L, a) : GSem nD τ sig) ≠ (thr d L, b) := fun e => h (Prod.mk.inj e).2

/-! ## The subcore's own semaphores and buffers, the kernel's named -/

omit [FloatOps F] in
theorem ownSems0_V :
    (ownSems0 (thr d L) : sProp 𝕄)
      = iprop(semVal ((thr d L, SemLoc.dma cc0_scratch3.sem) : GSem nD τ sig) 0
          ∗ semVal ((thr d L, SemLoc.dma cc0_scratch4.sem) : GSem nD τ sig) 0
          ∗ semVal ((thr d L, SemLoc.dma cc0_scratch5.sem) : GSem nD τ sig) 0
          ∗ semVal ((thr d L, SemLoc.dma cc0_scratch6.sem) : GSem nD τ sig) 0
          ∗ semVal ((thr d L, SemLoc.dma cc0_scratch7.sem) : GSem nD τ sig) 0
          ∗ semVal ((thr d L, SemLoc.dma cc0_scoped0.sem) : GSem nD τ sig) 0
          ∗ bigSep (((((((ownCells (thr d L)).erase ((thr d L, SemLoc.dma cc0_scratch3.sem) : GSem nD τ sig)).erase ((thr d L, SemLoc.dma cc0_scratch4.sem) : GSem nD τ sig)).erase ((thr d L, SemLoc.dma cc0_scratch5.sem) : GSem nD τ sig)).erase ((thr d L, SemLoc.dma cc0_scratch6.sem) : GSem nD τ sig)).erase ((thr d L, SemLoc.dma cc0_scratch7.sem) : GSem nD τ sig)).erase ((thr d L, SemLoc.dma cc0_scoped0.sem) : GSem nD τ sig)) fun g => semVal g 0) := by
  unfold SparseCore.Cfg.ownSems0
  rw [SparseCore.bigSep_erase' ((mem_ownCells (g := ((thr d L, SemLoc.dma cc0_scratch3.sem) : GSem nD τ sig))).mpr ⟨rfl, show (SemLoc.dma cc0_scratch3.sem : SemLoc sig).isScoped .scVector = true by decide⟩),
    SparseCore.bigSep_erase' (Finset.mem_erase.mpr ⟨(cell_ne d L (show (SemLoc.dma cc0_scratch4.sem : SemLoc sig) ≠ SemLoc.dma cc0_scratch3.sem by decide)), ((mem_ownCells (g := ((thr d L, SemLoc.dma cc0_scratch4.sem) : GSem nD τ sig))).mpr ⟨rfl, show (SemLoc.dma cc0_scratch4.sem : SemLoc sig).isScoped .scVector = true by decide⟩)⟩),
    SparseCore.bigSep_erase' (Finset.mem_erase.mpr ⟨(cell_ne d L (show (SemLoc.dma cc0_scratch5.sem : SemLoc sig) ≠ SemLoc.dma cc0_scratch4.sem by decide)), (Finset.mem_erase.mpr ⟨(cell_ne d L (show (SemLoc.dma cc0_scratch5.sem : SemLoc sig) ≠ SemLoc.dma cc0_scratch3.sem by decide)), ((mem_ownCells (g := ((thr d L, SemLoc.dma cc0_scratch5.sem) : GSem nD τ sig))).mpr ⟨rfl, show (SemLoc.dma cc0_scratch5.sem : SemLoc sig).isScoped .scVector = true by decide⟩)⟩)⟩),
    SparseCore.bigSep_erase' (Finset.mem_erase.mpr ⟨(cell_ne d L (show (SemLoc.dma cc0_scratch6.sem : SemLoc sig) ≠ SemLoc.dma cc0_scratch5.sem by decide)), (Finset.mem_erase.mpr ⟨(cell_ne d L (show (SemLoc.dma cc0_scratch6.sem : SemLoc sig) ≠ SemLoc.dma cc0_scratch4.sem by decide)), (Finset.mem_erase.mpr ⟨(cell_ne d L (show (SemLoc.dma cc0_scratch6.sem : SemLoc sig) ≠ SemLoc.dma cc0_scratch3.sem by decide)), ((mem_ownCells (g := ((thr d L, SemLoc.dma cc0_scratch6.sem) : GSem nD τ sig))).mpr ⟨rfl, show (SemLoc.dma cc0_scratch6.sem : SemLoc sig).isScoped .scVector = true by decide⟩)⟩)⟩)⟩),
    SparseCore.bigSep_erase' (Finset.mem_erase.mpr ⟨(cell_ne d L (show (SemLoc.dma cc0_scratch7.sem : SemLoc sig) ≠ SemLoc.dma cc0_scratch6.sem by decide)), (Finset.mem_erase.mpr ⟨(cell_ne d L (show (SemLoc.dma cc0_scratch7.sem : SemLoc sig) ≠ SemLoc.dma cc0_scratch5.sem by decide)), (Finset.mem_erase.mpr ⟨(cell_ne d L (show (SemLoc.dma cc0_scratch7.sem : SemLoc sig) ≠ SemLoc.dma cc0_scratch4.sem by decide)), (Finset.mem_erase.mpr ⟨(cell_ne d L (show (SemLoc.dma cc0_scratch7.sem : SemLoc sig) ≠ SemLoc.dma cc0_scratch3.sem by decide)), ((mem_ownCells (g := ((thr d L, SemLoc.dma cc0_scratch7.sem) : GSem nD τ sig))).mpr ⟨rfl, show (SemLoc.dma cc0_scratch7.sem : SemLoc sig).isScoped .scVector = true by decide⟩)⟩)⟩)⟩)⟩),
    SparseCore.bigSep_erase' (Finset.mem_erase.mpr ⟨(cell_ne d L (show (SemLoc.dma cc0_scoped0.sem : SemLoc sig) ≠ SemLoc.dma cc0_scratch7.sem by decide)), (Finset.mem_erase.mpr ⟨(cell_ne d L (show (SemLoc.dma cc0_scoped0.sem : SemLoc sig) ≠ SemLoc.dma cc0_scratch6.sem by decide)), (Finset.mem_erase.mpr ⟨(cell_ne d L (show (SemLoc.dma cc0_scoped0.sem : SemLoc sig) ≠ SemLoc.dma cc0_scratch5.sem by decide)), (Finset.mem_erase.mpr ⟨(cell_ne d L (show (SemLoc.dma cc0_scoped0.sem : SemLoc sig) ≠ SemLoc.dma cc0_scratch4.sem by decide)), (Finset.mem_erase.mpr ⟨(cell_ne d L (show (SemLoc.dma cc0_scoped0.sem : SemLoc sig) ≠ SemLoc.dma cc0_scratch3.sem by decide)), ((mem_ownCells (g := ((thr d L, SemLoc.dma cc0_scoped0.sem) : GSem nD τ sig))).mpr ⟨rfl, show (SemLoc.dma cc0_scoped0.sem : SemLoc sig).isScoped .scVector = true by decide⟩)⟩)⟩)⟩)⟩)⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cV L) (jV L)) (b := ((Proc.scVector (cV L) (jV L)).devRef cc0_scratch2)) rfl)⟩)⟩)]

/-! ## The scoped storage opened and closed in one step -/

/-- The six transfer semaphores at zero. -/
abbrev semsAt : sProp 𝕄 :=
  iprop(semVal ((thr d L, SemLoc.dma cc0_scratch3.sem) : GSem nD τ sig) 0
    ∗ semVal ((thr d L, SemLoc.dma cc0_scratch4.sem) : GSem nD τ sig) 0
    ∗ semVal ((thr d L, SemLoc.dma cc0_scratch5.sem) : GSem nD τ sig) 0
    ∗ semVal ((thr d L, SemLoc.dma cc0_scratch6.sem) : GSem nD τ sig) 0
    ∗ semVal ((thr d L, SemLoc.dma cc0_scratch7.sem) : GSem nD τ sig) 0
    ∗ semVal ((thr d L, SemLoc.dma cc0_scoped0.sem) : GSem nD τ sig) 0)
/-- The three scratch buffers, each whole at some contents. -/
abbrev bufsAt : sProp 𝕄 :=
  iprop((∃ f, (sV).view.loc (thr d L) ↦{fullShare} f) ∗ (∃ f, (rV).view.loc (thr d L) ↦{fullShare} f) ∗ (∃ f, (aV).view.loc (thr d L) ↦{fullShare} f))

omit [FloatOps F] in
theorem scoped_open (hF : (K (F := F)).Facts) :
    iprop(scopedBufs (thr d L) ∗ scopedSems0 (thr d L))
      ⊢ (iprop(bufsAt d L ∗ semsAt d L ∗ (iprop(bufsAt d L ∗ semsAt d L) -∗ iprop(scopedBufs (thr d L) ∗ scopedSems0 (thr d L)))) : sProp 𝕄) := by
  rw [(K (F := F)).scopedBufs_V hF d (cV L) (jV L), SparseCore.Cfg.scopedSems0_V (Val := Elt F) d (cV L) (jV L), ownSems0_V, ownBufs_V]
  iintro ⟨⟨Hs, Hr, Ha, Hbufs⟩, ⟨H3, H4, H5, H6, H7, H8, Hsems⟩⟩
  isplitl [Hs Hr Ha]
  · isplitl [Hs]; · iexact Hs
    isplitl [Hr]; · iexact Hr
    iexact Ha
  isplitl [H3 H4 H5 H6 H7 H8]
  · isplitl [H3]; · iexact H3
    isplitl [H4]; · iexact H4
    isplitl [H5]; · iexact H5
    isplitl [H6]; · iexact H6
    isplitl [H7]; · iexact H7
    iexact H8
  iintro ⟨⟨Hs, Hr, Ha⟩, ⟨H3, H4, H5, H6, H7, H8⟩⟩
  isplitl [Hs Hr Ha Hbufs]
  · isplitl [Hs]; · iexact Hs
    isplitl [Hr]; · iexact Hr
    isplitl [Ha]; · iexact Ha
    iexact Hbufs
  isplitl [H3]; · iexact H3
  isplitl [H4]; · iexact H4
  isplitl [H5]; · iexact H5
  isplitl [H6]; · iexact H6
  isplitl [H7]; · iexact H7
  isplitl [H8]; · iexact H8
  iexact Hsems

end Wrap

/-! ## The obligation -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for the one vector-subcore call, from the body proved at symbolic coordinates. -/
theorem tileObl_of_body (hF : (K (F := F)).Facts)
    (hbody : ∀ (d : Dev nD) (L : grid0.Coords) (O : CellTallies nD τ sig (HIx 1)) (W : Waits sig (HIx 1)), (∀ g, O g none = 0) →
      iprop(levAts (K (F := F)).L (K (F := F)).lev ∗ emp ∗ tileGo m d L ∗ scopedBufs (thr d L) ∗ scopedSems0 (thr d L) ∗ owes (thr d L) O W)
        ⊢ wp frame (wpE (defs₀ (F := F)) 𝒱₀ (thr d L) none) Set.univ
            (cc0_k L iV (Memref.isWhole_whole _) xV (Memref.isWhole_whole _) oV (Memref.isWhole_whole _)
              sV (Memref.isWhole_whole _) rV (Memref.isWhole_whole _) aV (Memref.isWhole_whole _)
              cc0_scratch3 cc0_scratch4 cc0_scratch5 cc0_scratch6 cc0_scratch7 cc0_scoped0)
            fun _ => iprop(tileTd m d L ∗ scopedBufs (thr d L) ∗ scopedSems0 (thr d L)
              ∗ ∃ W', ⌜∀ p ∈ W', p ∈ W ∨ p.2 = none⌝ ∗ owes (thr d L) O W')) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) O W hO).trans (wp_mono frame _ _ fun _ => obl_post)

end Cert.KernelIdeal.Tile

end
-- ==== Proof.TileBody.lean ====
/-
  The tile's task around its loop: the fetch of its index rows, the three opening gathers, the loop by its invariant
  (one trip is the hypothesis `htrip`), the four waits that drain the write-back batch, and the resources put back.
-/
import proofs.«208374_g60447369724146_cont_9to1c4b_798_24_alg».proof.Proof.TileInv
import proofs.«208374_g60447369724146_cont_9to1c4b_798_24_alg».proof.Proof.TripFacts
import proofs.«208374_g60447369724146_cont_9to1c4b_798_24_alg».proof.Proof.TileSplit
import proofs.«208374_g60447369724146_cont_9to1c4b_798_24_alg».proof.Proof.OutGeom
import proofs.«208374_g60447369724146_cont_9to1c4b_798_24_alg».proof.Proof.FlightCanon
import proofs.«208374_g60447369724146_cont_9to1c4b_798_24_alg».proof.Proof.TileWrap
import proofs.«208374_g60447369724146_cont_9to1c4b_798_24_alg».proof.Proof.OutAt
import proofs.«208374_g60447369724146_cont_9to1c4b_798_24_alg».proof.Proof.TripClose

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

instance wbD_storable (d : Dev nD) (L : grid0.Coords) (t : Fin 4) : BI.Storable (upEmb : UEmb _ 𝕄) (wbD d L m t) := by
  unfold wbD; infer_instance

set_option maxHeartbeats 1600000 in
/-- The gather part before the first trip, from the three flights at listed contents. -/
theorem gathers_open (d : Dev nD) (L : grid0.Coords) (fs : Buf (Elt F) ((thr d L).loc cc0_scratch0)) (w0 w1 w2 : Finset S256x20.Idx)
    (base0 base1 base2 : Buf (Elt F) ((thr d L).loc cc0_scratch1)) (pay0 pay1 pay2 : S20x128.Idx → Elt F .f32)
    (f3 : Buf (Elt F) ((thr d L).loc cc0_scratch1))
    (h0 : ∀ y ∈ (slot0K).view.set, (slot0K).view.writes (Elt F) base0 [⟨Rect.whole S20x128, pay0⟩] y = GR d L (idxPay d L (m (iLoc d))) (m (xLoc d)) ⟨4 * 0, by omega⟩ y)
    (h1 : ∀ y ∈ (slot1K).view.set, (slot1K).view.writes (Elt F) base1 [⟨Rect.whole S20x128, pay1⟩] y = GR d L (idxPay d L (m (iLoc d))) (m (xLoc d)) ⟨4 * 0 + 1, by omega⟩ y)
    (h2 : ∀ y ∈ (slot2K).view.set, (slot2K).view.writes (Elt F) base2 [⟨Rect.whole S20x128, pay2⟩] y = GR d L (idxPay d L (m (iLoc d))) (m (xLoc d)) ⟨4 * 0 + 2, by omega⟩ y) :
    iprop((Transfers.Flight countersEmb (thr d L) (.dma cc0_scratch4.sem) (default : HIx 1) 81920 iprop((((slot0K).view.loc (thr d L) ↦[(slot0K).view.set]{fullShare} (slot0K).view.writes (Elt F) base0 [⟨Rect.whole S20x128, pay0⟩]) ∗ ((sV).view.loc (thr d L) ↦[w0]{tokS 1} idxBuf d L (m (iLoc d)) fs)) ∗ ((xV).view.loc (thr d L) ↦[(xAllK).view.set]{tokX L 1} m (xLoc d)))
          ∗ ((xV).view.loc (thr d L) ↦[Finset.univ \ (xAllK).view.set]{tokX L 1} m (xLoc d)) ∗ ((sV).view.loc (thr d L) ↦[Finset.univ \ w0]{tokS 1} idxBuf d L (m (iLoc d)) fs))
        ∗ (Transfers.Flight countersEmb (thr d L) (.dma cc0_scratch5.sem) (default : HIx 1) 81920 iprop((((slot1K).view.loc (thr d L) ↦[(slot1K).view.set]{fullShare} (slot1K).view.writes (Elt F) base1 [⟨Rect.whole S20x128, pay1⟩]) ∗ ((sV).view.loc (thr d L) ↦[w1]{tokS 2} idxBuf d L (m (iLoc d)) fs)) ∗ ((xV).view.loc (thr d L) ↦[(xAllK).view.set]{tokX L 2} m (xLoc d)))
          ∗ ((xV).view.loc (thr d L) ↦[Finset.univ \ (xAllK).view.set]{tokX L 2} m (xLoc d)) ∗ ((sV).view.loc (thr d L) ↦[Finset.univ \ w1]{tokS 2} idxBuf d L (m (iLoc d)) fs))
        ∗ (Transfers.Flight countersEmb (thr d L) (.dma cc0_scratch6.sem) (default : HIx 1) 81920 iprop((((slot2K).view.loc (thr d L) ↦[(slot2K).view.set]{fullShare} (slot2K).view.writes (Elt F) base2 [⟨Rect.whole S20x128, pay2⟩]) ∗ ((sV).view.loc (thr d L) ↦[w2]{tokS 3} idxBuf d L (m (iLoc d)) fs)) ∗ ((xV).view.loc (thr d L) ↦[(xAllK).view.set]{tokX L 3} m (xLoc d)))
          ∗ ((xV).view.loc (thr d L) ↦[Finset.univ \ (xAllK).view.set]{tokX L 3} m (xLoc d)) ∗ ((sV).view.loc (thr d L) ↦[Finset.univ \ w2]{tokS 3} idxBuf d L (m (iLoc d)) fs))
        ∗ ((xV).view.loc (thr d L) ↦{tokX L 4} m (xLoc d)) ∗ ((sV).view.loc (thr d L) ↦{tokS 4} idxBuf d L (m (iLoc d)) fs)
        ∗ ((slot3K).view.loc (thr d L) ↦[(slot3K).view.set]{fullShare} f3)
        ∗ semVal (thr d L, .dma cc0_scratch7.sem) 0)
      ⊢ (gathersPart d L m fs 0 : sProp 𝕄) := by
  unfold gathersPart
  rw [dif_pos (by omega : (0 : ℕ) < 64)]
  rw [slot_canon0 d L (m (iLoc d)) (m (xLoc d)) base0 pay0 _ h0, slot_canon1 d L (m (iLoc d)) (m (xLoc d)) base1 pay1 _ h1,
    slot_canon2 d L (m (iLoc d)) (m (xLoc d)) base2 pay2 _ h2]
  iintro ⟨H0, H1, H2, HT, HS, H3, Hsem⟩
  iexists w0, w1, w2
  isplitl [H0]; · iexact H0
  isplitl [H1]; · iexact H1
  isplitl [H2]; · iexact H2
  isplitl [HT]; · iexact HT
  isplitl [HS]; · iexact HS
  isplitl [H3]
  · iexists f3; iexact H3
  iexact Hsem

set_option maxHeartbeats 1600000 in
/-- After the last trip the gather part is the four read shares of the table and of the index scratch, the four slots
    and the four idle semaphores. -/
theorem gathersPart_last (d : Dev nD) (L : grid0.Coords) (fs : Buf (Elt F) ((thr d L).loc cc0_scratch0)) :
    (gathersPart d L m fs 64 : sProp 𝕄)
      = iprop(((xV).view.loc (thr d L) ↦{tokX L 1} m (xLoc d)) ∗ ((xV).view.loc (thr d L) ↦{tokX L 2} m (xLoc d))
      ∗ ((xV).view.loc (thr d L) ↦{tokX L 3} m (xLoc d)) ∗ ((xV).view.loc (thr d L) ↦{tokX L 4} m (xLoc d))
      ∗ ((sV).view.loc (thr d L) ↦{tokS 1} idxBuf d L (m (iLoc d)) fs) ∗ ((sV).view.loc (thr d L) ↦{tokS 2} idxBuf d L (m (iLoc d)) fs)
      ∗ ((sV).view.loc (thr d L) ↦{tokS 3} idxBuf d L (m (iLoc d)) fs) ∗ ((sV).view.loc (thr d L) ↦{tokS 4} idxBuf d L (m (iLoc d)) fs)
      ∗ (∃ f, (slot0K).view.loc (thr d L) ↦[(slot0K).view.set]{fullShare} f) ∗ (∃ f, (slot1K).view.loc (thr d L) ↦[(slot1K).view.set]{fullShare} f)
      ∗ (∃ f, (slot2K).view.loc (thr d L) ↦[(slot2K).view.set]{fullShare} f) ∗ (∃ f, (slot3K).view.loc (thr d L) ↦[(slot3K).view.set]{fullShare} f)
      ∗ semVal (thr d L, .dma cc0_scratch4.sem) 0 ∗ semVal (thr d L, .dma cc0_scratch5.sem) 0
      ∗ semVal (thr d L, .dma cc0_scratch6.sem) 0 ∗ semVal (thr d L, .dma cc0_scratch7.sem) 0) := by
  unfold gathersPart
  rw [dif_neg (by omega : ¬ (64 < 64))]

omit [FloatOps F] in
theorem wand_use {P Q : sProp 𝕄} : iprop(P ∗ (P -∗ Q)) ⊢ Q := by
  iintro ⟨HP, HW⟩
  iapply HW; iexact HP

set_option maxRecDepth 100000 in
set_option maxHeartbeats 16000000 in
theorem tile_body_of_trips (hF : (K (F := F)).Facts) (hpre : PreOK m)
    (htrip : ∀ (d : Dev nD) (L : grid0.Coords) (fs : Buf (Elt F) ((thr d L).loc cc0_scratch0)) (O : CellTallies nD τ sig (HIx 1)) (W : Waits sig (HIx 1)) (v1 : BitVec 32)
        (k : Fin k0_t1_loop.trips) (acc : BitVec 32),
        inv d L m fs O W k.val acc
          ⊢ wp frame (wpE (defs₀ (F := F)) 𝒱₀ (thr d L) none) Set.univ
              (k0_t1_body L iV (Memref.isWhole_whole _) xV (Memref.isWhole_whole _) oV (Memref.isWhole_whole _)
                sV (Memref.isWhole_whole _) rV (Memref.isWhole_whole _) aV (Memref.isWhole_whole _)
                cc0_scratch3 cc0_scratch4 cc0_scratch5 cc0_scratch6 cc0_scratch7 cc0_scoped0 v1 k acc)
              (inv d L m fs O W (k.val + 1)))
    (d : Dev nD) (L : grid0.Coords) (O : CellTallies nD τ sig (HIx 1)) (W : Waits sig (HIx 1)) (hO : ∀ g, O g none = 0) :
    iprop(levAts (K (F := F)).L (K (F := F)).lev ∗ emp ∗ tileGo m d L ∗ scopedBufs (thr d L) ∗ scopedSems0 (thr d L) ∗ owes (thr d L) O W)
      ⊢ wp frame (wpE (defs₀ (F := F)) 𝒱₀ (thr d L) none) Set.univ
          (cc0_k L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0)
          fun _ => iprop(tileTd m d L ∗ scopedBufs (thr d L) ∗ scopedSems0 (thr d L) ∗ ∃ W', ⌜∀ p ∈ W', p ∈ W ∨ p.2 = none⌝ ∗ owes (thr d L) O W') := by
  simp only [cc0_k_eq_skeleton]; unfold cc0_k_skel
  iintro ⟨#Hlv, -, Hgo, Hsb, Hss, HO⟩
  ihave Hmw := (show levAts (K (F := F)).L (K (F := F)).lev ⊢ Transfers.MayWaits (thr d L) (default : HIx 1) O from
    (K (F := F)).mayWaits_none (thr := thr d L) hO) $$ Hlv
  ihave Hsc := (scoped_open d L hF) $$ [Hsb Hss]
  · isplitl [Hsb] <;> iassumption
  icases Hsc with ⟨⟨⟨%fs, Hs⟩, ⟨%fr, Hr⟩, ⟨%fa, Ha⟩⟩, ⟨Hw, Hg0, Hg1, Hg2, Hg3, Hc⟩, Hclose⟩
  unfold tileGo
  icases Hgo with ⟨Hi, Hx, Hows⟩
  -- the table's share in read tokens, the row scratch in slots, the output scratch and the result rows by block
  ihave Hx' := (toks5 (ℓ := (xV).view.loc (thr d L)) Finset.univ (xq L) (m (xLoc d))).1 $$ Hx
  icases Hx' with ⟨Hxd, Hx0, Hx1, Hx2, Hx3, Hx4⟩
  ihave Hr' := (Entails.of_eq (rV_slots d L fr)) $$ Hr
  icases Hr' with ⟨Hr0, Hr1, Hr2, Hr3⟩
  ihave Ha' := (aV_start d L fa).1 $$ Ha
  icases Ha' with ⟨Hac, Haf⟩
  ihave Ho' := (oWins_start d L (m (oLoc d))).1 $$ Hows
  icases Ho' with ⟨Hoc, Hof⟩
  imod (Transfers.batch_alloc' (Lvl := ℕ) countersEmb (thr d L) (default : HIx 1) wbN (wbD d L m) (sm := .dma cc0_scratch3.sem) (E := Set.univ)) $$ Hw with HB
  -- the fetch of the index rows and its wait
  sl_exec
  ihave Hs := (Entails.of_eq (show ((sV).view.loc (thr d L) ↦{fullShare} View.write (Elt F) (sV).view fs (tile_body_of_trips.sl.dma0 m d L) Finset.univ : sProp 𝕄)
      = ((sV).view.loc (thr d L) ↦[Finset.univ]{fullShare} idxBuf d L (m (iLoc d)) fs) from rfl)) $$ Hs
  ihave Hs' := (toks5 (ℓ := (sV).view.loc (thr d L)) Finset.univ fullShare (idxBuf d L (m (iLoc d)) fs)).1 $$ Hs
  icases Hs' with ⟨Hsd, Hs0, Hs1, Hs2, Hs3, Hs4⟩
  -- the remainder and token 0 of the index scratch are set aside: the three gathers read tokens 1, 2, 3
  ihave Hkeep := (Entails.of_eq (rfl : (iprop(((sV).view.loc (thr d L) ↦{Transfers.shareDrop fullShare 5} idxBuf d L (m (iLoc d)) fs)
      ∗ ((sV).view.loc (thr d L) ↦{tokS 0} idxBuf d L (m (iLoc d)) fs)) : sProp 𝕄) = _)) $$ [Hsd Hs0]
  · isplitl [Hsd]; · iexact Hsd
    iexact Hs0
  have hin : ∀ (off : Fin 2 → Nat) (hb : ∀ a, off a + S1x20.size a ≤ S256x20.size a) (hs : ∀ a, (Rect.unit (s := S256x20) off S1x20.size hb).stride a = 1) (x : S20.Idx),
      (((sV.slice (Rect.unit (s := S256x20) off S1x20.size hb) hs).squeeze S20 squeezes_S1x20_S20).view.read (Elt F)
        (idxBuf d L (m (iLoc d)) fs) x).toNat < 100000 := hin_all d L (m (iLoc d)) fs (hpre d)
  -- the three opening gathers, each reading its own token of the index scratch and of the table
  sl_exec
  icases Hkeep with ⟨Hsd, Hs0⟩
  iclear Hr0 Hr1 Hr2
  sl_for (inv d L m fs O W) $$ [Hmw Hi Hxd Hx0 Hx1 Hx2 Hx3 Hx4 Hsd Hs0 Hs1 Hs2 Hs3 Hs4 Hg0 Hg1 Hg2 Hg3 Hr3 Hac Haf Hoc Hof HB HO]
  case region =>
    intro k acc
    exact htrip d L fs O W _ k acc
  · -- the invariant before the first trip
    have hn : S20.numel = S20x128.size Cert.KernelIdeal.Facts₀.gathers_S100000x128_S20x128.axis' := rfl
    have h0 := gather_writes_val0 d L (m (iLoc d)) (m (xLoc d)) fs fr ![0, 0] inb_S256x20_S1x20_0_0 hn (fun x => hin _ _ _ x) (hpre d) ⟨4 * 0, by omega⟩ rfl
    have h1 := gather_writes_val1 d L (m (iLoc d)) (m (xLoc d)) fs fr ![1, 0] inb_S256x20_S1x20_1_0 hn (fun x => hin _ _ _ x) (hpre d) ⟨4 * 0 + 1, by omega⟩ rfl
    have h2 := gather_writes_val2 d L (m (iLoc d)) (m (xLoc d)) fs fr ![2, 0] inb_S256x20_S1x20_2_0 hn (fun x => hin _ _ _ x) (hpre d) ⟨4 * 0 + 2, by omega⟩ rfl
    unfold inv
    isplitr; · iexact Hmw
    isplitl [Hi]; · iexact Hi
    isplitl [Hxd]; · iexact Hxd
    isplitl [Hx0]; · iexact Hx0
    isplitl [Hsd]; · iexact Hsd
    isplitl [Hs0]; · iexact Hs0
    isplitl [Hg0 Hx1 Hs1 Hg1 Hx2 Hs2 Hg2 Hx3 Hs3 Hx4 Hs4 Hr3 Hg3]
    · iapply (gathers_open m d L fs _ _ _ fr fr fr _ _ _ fr h0 h1 h2)
      isplitl [Hg0 Hx1 Hs1]
      · isplitl [Hg0]; · iexact Hg0
        isplitl [Hx1]; · iexact Hx1
        iexact Hs1
      isplitl [Hg1 Hx2 Hs2]
      · isplitl [Hg1]; · iexact Hg1
        isplitl [Hx2]; · iexact Hx2
        iexact Hs2
      isplitl [Hg2 Hx3 Hs3]
      · isplitl [Hg2]; · iexact Hg2
        isplitl [Hx3]; · iexact Hx3
        iexact Hs3
      isplitl [Hx4]; · iexact Hx4
      isplitl [Hs4]; · iexact Hs4
      isplitl [Hr3]; · iexact Hr3
      iexact Hg3
    isplitl [Hac Haf Hoc Hof]
    · rw [outPart_eq d L m 0 (by omega) 0 (by decide) rfl]; unfold outAt
      isplitl [Hac]
      · iexists fa
        isplitl [Hac]; · iexact Hac
        ipureintro; intro y _ h; exact absurd h (by omega)
      isplitl [Haf]; · iexists fa; iexact Haf
      isplitl [Hoc]; · iexact Hoc
      iexact Hof
    isplitl [HB]; · iexact HB
    iexists (insert (SemLoc.dma ⟨5, by decide⟩, (default : HIx 1)) W); isplitr
    · ipureintro; intro p hp
      rcases Finset.mem_insert.mp hp with hp | hp
      · exact .inr (hp ▸ rfl)
      · exact .inl hp
    · iexact HO
  -- after the loop
  rw [show Scf.trips k0_t1_loop.lb k0_t1_loop.ub k0_t1_loop.st = 64 from rfl]
  iintro %acc HI
  unfold inv
  rw [gathersPart_last, outPart_last, show (64 / 16 : ℕ) = 4 from rfl]
  icases HI with ⟨-, Hi, Hxd, Hx0, Hsd, Hs0, ⟨Hx1, Hx2, Hx3, Hx4, Hs1, Hs2, Hs3, Hs4, ⟨%f0, Hr0⟩, ⟨%f1, Hr1⟩, ⟨%f2, Hr2⟩, ⟨%f3, Hr3⟩, Hg0, Hg1, Hg2, Hg3⟩, -, HB, %W', %hW', HO⟩
  -- the four waits that drain the write-back batch
  sl_exec
  sl_step
  -- the task's operands back, the result windows at the result function
  unfold tileTd
  isplitl [Hi Hxd Hx0 Hx1 Hx2 Hx3 Hx4 HB_dst0 HB_dst1 HB_dst2 HB_dst3]
  · isplitl [Hi]; · iexact Hi
    isplitl [Hxd Hx0 Hx1 Hx2 Hx3 Hx4]
    · iapply (toks5 (ℓ := (xV).view.loc (thr d L)) Finset.univ (xq L) (m (xLoc d))).2
      isplitl [Hxd]; · iexact Hxd
      isplitl [Hx0]; · iexact Hx0
      isplitl [Hx1]; · iexact Hx1
      isplitl [Hx2]; · iexact Hx2
      isplitl [Hx3]; · iexact Hx3
      iexact Hx4
    iapply (oWins_end d L (Out m d))
    isplitl [HB_dst0]; · iexact HB_dst0
    isplitl [HB_dst1]; · iexact HB_dst1
    isplitl [HB_dst2]; · iexact HB_dst2
    iexact HB_dst3
  -- the scoped storage closed again
  ihave Hsc := (wand_use (P := iprop(bufsAt d L ∗ semsAt d L)) (Q := iprop(scopedBufs (thr d L) ∗ scopedSems0 (thr d L)))) $$ [Hclose Hsd Hs0 Hs1 Hs2 Hs3 Hs4 Hr0 Hr1 Hr2 Hr3 HB_src0 HB_src1 HB_src2 HB_src3 HB Hg0 Hg1 Hg2 Hg3 Hc]
  · isplitr [Hclose]
    swap; · iexact Hclose
    unfold bufsAt semsAt
    isplitl [Hsd Hs0 Hs1 Hs2 Hs3 Hs4 Hr0 Hr1 Hr2 Hr3 HB_src0 HB_src1 HB_src2 HB_src3]
    · isplitl [Hsd Hs0 Hs1 Hs2 Hs3 Hs4]
      · iexists (idxBuf d L (m (iLoc d)) fs)
        iapply (toks5 (ℓ := (sV).view.loc (thr d L)) Finset.univ fullShare (idxBuf d L (m (iLoc d)) fs)).2
        isplitl [Hsd]; · iexact Hsd
        isplitl [Hs0]; · iexact Hs0
        isplitl [Hs1]; · iexact Hs1
        isplitl [Hs2]; · iexact Hs2
        isplitl [Hs3]; · iexact Hs3
        iexact Hs4
      isplitl [Hr0 Hr1 Hr2 Hr3]
      · iapply (rV_join d L f0 f1 f2 f3)
        isplitl [Hr0]; · iexact Hr0
        isplitl [Hr1]; · iexact Hr1
        isplitl [Hr2]; · iexact Hr2
        iexact Hr3
      iapply (aBlks_end d L (OutLoc d L m) (OutLoc d L m) (OutLoc d L m) (OutLoc d L m))
      isplitl [HB_src0]; · iexact HB_src0
      isplitl [HB_src1]; · iexact HB_src1
      isplitl [HB_src2]; · iexact HB_src2
      iexact HB_src3
    isplitl [HB]; · iexact HB
    isplitl [Hg0]; · iexact Hg0
    isplitl [Hg1]; · iexact Hg1
    isplitl [Hg2]; · iexact Hg2
    isplitl [Hg3]; · iexact Hg3
    iexact Hc
  icases Hsc with ⟨Hsb, Hss⟩
  isplitl [Hsb]; · iexact Hsb
  isplitl [Hss]; · iexact Hss
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.KernelIdeal.Tile

end
-- ==== Proof.Assemble.lean ====
/-
  The kernel program's run, assembled: a trip of the loop is the trip before the last or the last one; the tile's task
  follows; the launch turns the tasks into the run of the whole program, whose result is the reshaped result function
  and whose arguments are unchanged.
-/
import proofs.«208374_g60447369724146_cont_9to1c4b_798_24_alg».proof.Proof.TripLo
import proofs.«208374_g60447369724146_cont_9to1c4b_798_24_alg».proof.Proof.TripHi
import proofs.«208374_g60447369724146_cont_9to1c4b_798_24_alg».proof.Proof.TileBody

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

set_option maxHeartbeats 8000000 in
theorem trip (hpre : PreOK m) (d : Dev nD) (L : grid0.Coords) (fs : Buf (Elt F) ((thr d L).loc cc0_scratch0))
    (O : CellTallies nD τ sig (HIx 1)) (W : Waits sig (HIx 1)) (v1 : BitVec 32) (k : Fin k0_t1_loop.trips) (acc : BitVec 32) :
    inv d L m fs O W k.val acc
      ⊢ wp frame (wpE (defs₀ (F := F)) 𝒱₀ (thr d L) none) Set.univ
          (k0_t1_body L iV (Memref.isWhole_whole _) xV (Memref.isWhole_whole _) oV (Memref.isWhole_whole _)
            sV (Memref.isWhole_whole _) rV (Memref.isWhole_whole _) aV (Memref.isWhole_whole _)
            cc0_scratch3 cc0_scratch4 cc0_scratch5 cc0_scratch6 cc0_scratch7 cc0_scoped0 v1 k acc)
          (inv d L m fs O W (k.val + 1)) :=
  if h : k.val < 63 then trip_lo d L m fs hpre O W v1 k h acc _ (fun _ => .rfl)
  else trip_hi d L m fs hpre O W v1 k h acc _ (fun _ => .rfl)

set_option maxHeartbeats 8000000 in
/-- The program's run from a memory whose index words all name table rows. -/
theorem run [∀ e, Nonempty (Elt F e)] (ρ : Dev nD → PrngReg) (hpre : PreOK m) :
    θ_run (Cert.KernelIdeal.defs (F := F)) (Cert.KernelIdeal.threads (F := F)) ⟨m, fun _ => 0, ρ⟩ (QC m) :=
  run_main m ρ (tileObl_of_body m facts (tile_body_of_trips m facts hpre (trip m hpre)))

end Cert.KernelIdeal.Tile

end
-- ==== Proof.K_Setup.lean ====
/-
  The kernel as the launch theorem sees it: the SparseCore configuration, the body table, the ghost state
  (the launch handshakes' rounds beside the transfers' counters), and the tile's buffers under the names the
  program gives them. Generic in the float instance.
-/
import proofs.«208374_g60447369724146_cont_9to1c4b_798_24_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«208374_g60447369724146_cont_9to1c4b_798_24_alg».proof.Proof.Gen.Kernel
import proofs.«208374_g60447369724146_cont_9to1c4b_798_24_alg».proof.Proof.Gen.Kernel.Skeleton

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
abbrev MM (F : FTy → Type) : Type := MT nD τ sig (HIx 1) (Elt F) ℕ UU ℕ
abbrev EH : Emb UH (MM F) := embL

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S16x512x20 .i32 := Memref.whole main_arg0_scv
abbrev xV : Memref sig .scVector .hbm S100000x128 .f32 := Memref.whole main_arg1_scv
abbrev oV : Memref sig .scVector .hbm S8192x128 .f32 := Memref.whole main_v0_scv
abbrev sV : Memref sig .scVector .vmem S256x20 .i32 := Memref.whole cc0_scratch0
abbrev rV : Memref sig .scVector .vmem S4x20x128 .f32 := Memref.whole cc0_scratch1
abbrev aV : Memref sig .scVector .vmem S256x128 .f32 := Memref.whole cc0_scratch2

abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_k (coordsV c s)
          iV (Memref.isWhole_whole _) xV (Memref.isWhole_whole _) oV (Memref.isWhole_whole _)
          sV (Memref.isWhole_whole _) rV (Memref.isWhole_whole _) aV (Memref.isWhole_whole _)
          cc0_scratch3 cc0_scratch4 cc0_scratch5 cc0_scratch6 cc0_scratch7 cc0_scoped0) ⟨⟩ c s := rfl

end Cert.Kernel.Tile

end
-- ==== Proof.K_Pieces.lean ====
/-
  What each of the 32 tiles is handed and hands back. Tile (c, s) — worker 2 s + c — takes rows
  [256 c, 256 c + 256) of batch s of the index array, a read share of the whole table, and rows
  [512 s + 256 c, 512 s + 256 c + 256) of the result in four windows of 64 rows; it leaves the index rows and the
  share as they were and the result rows at the ONE whole-array function `OutF` of the two arguments: row R of the
  result is the pairwise-tree sum over the twenty terms of residue R's table rows.
-/
import proofs.«208374_g60447369724146_cont_9to1c4b_798_24_alg».proof.Proof.K_Setup
import Idealize.ShloMosaic.Lib.ValueIdx

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The vector subcore that runs the task at grid coordinates `L`. -/
abbrev thr (d : Dev nD) (L : grid0.Coords) : Thread nD τ := V d (cV L) (jV L)

/-- The task's rows of the index array and its four windows of the result, as the program slices them. -/
abbrev iRowK (L : grid0.Coords) : Memref sig .scVector .hbm S256x20 .i32 :=
  ((iV).slice (Rect.unit (s := S16x512x20) (k0_off1 L) S1x256x20.size (k0_off1_inb L)) (fun _ => rfl)).squeeze S256x20 squeezes_S1x256x20_S256x20
abbrev oWinK (L : grid0.Coords) (r : Fin 4) : Memref sig .scVector .hbm S64x128 .f32 :=
  (oV).slice (Rect.unit (s := S8192x128) (k0_off17 L (BitVec.ofNat 32 (64 * r.val))) S64x128.size (k0_off17_inb L r)) (fun _ => rfl)

theorem bound_zero : grid0.bound 0 = 2 := rfl
theorem bound_one : grid0.bound 1 = 16 := rfl

/-- The task's number among the 32: 16 c + s. -/
def tileIx (L : grid0.Coords) : Fin 32 :=
  ⟨16 * (L 0).val + (L 1).val, by have h0 : (L 0).val < 2 := (L 0).isLt; have h1 : (L 1).val < 16 := (L 1).isLt; omega⟩

/-- The task's read share of the table: one of 32 pieces of the full share. -/
def xq (L : grid0.Coords) : PosShare TreeShare := pieceOf fullShare 32 (by decide) (tileIx L)

/-! ## The result as one function of the arguments -/

/-- The sum of twenty terms in the order the kernel adds them: neighbours paired, the pairs paired, and so on, the
    last group of four joined at the end. -/
def treeSum20 [FloatOps F] (f : Fin 20 → F .f32) : F .f32 :=
  let a (i j : Fin 20) : F .f32 := FloatOps.addf (f i) (f j)
  let p0 := a 0 1; let p1 := a 2 3; let p2 := a 4 5; let p3 := a 6 7; let p4 := a 8 9
  let p5 := a 10 11; let p6 := a 12 13; let p7 := a 14 15; let p8 := a 16 17; let p9 := a 18 19
  let q0 := FloatOps.addf p0 p1; let q1 := FloatOps.addf p2 p3; let q2 := FloatOps.addf p4 p5
  let q3 := FloatOps.addf p6 p7; let q4 := FloatOps.addf p8 p9
  let r0 := FloatOps.addf q0 q1; let r1 := FloatOps.addf q2 q3
  FloatOps.addf (FloatOps.addf r0 r1) q4

/-- The table row an index word names (its unsigned value, reduced so that the definition is total). -/
def rowF (v : BitVec 32) : Fin 100000 := ⟨v.toNat % 100000, Nat.mod_lt _ (by decide)⟩

/-- Row R = 512 b + l of the result, lane x: the tree sum over tt of table[idx[b, l, tt], x]. -/
def OutF [FloatOps F] (idx : IVec S16x512x20 32) (tbl : FVec F S100000x128 .f32) : FVec F S8192x128 .f32 :=
  fun y =>
    let R : Fin 8192 := y 0
    let x : Fin 128 := y 1
    treeSum20 fun tt => tbl (ValueIdx.ix2 (rowF (idx (ValueIdx.ix3 (⟨R.val / 512, by omega⟩ : Fin 16) (⟨R.val % 512, by omega⟩ : Fin 512) tt))) x)

variable [FloatOps F] (m : (ℓ : Loc nD τ sig) → Buf (Elt F) ℓ)

/-- The result array's contents after the call, on device `d`. -/
def Out (d : Dev nD) : Buf (Elt F) (oLoc d) := OutF (F := F) (m (iLoc d)) (m (xLoc d))

/-- What the task at `L` is handed: its index rows, its share of the table, its four result windows as launched. -/
def tileGo (d : Dev nD) (L : grid0.Coords) : sProp 𝕄 :=
  iprop(((iRowK L).view.loc (thr d L) ↦[(iRowK L).view.set]{fullShare} m (iLoc d))
    ∗ ((xV).view.loc (thr d L) ↦{xq L} m (xLoc d))
    ∗ bigSep Finset.univ fun r : Fin 4 => (oWinK L r).view.loc (thr d L) ↦[(oWinK L r).view.set]{fullShare} m (oLoc d))

/-- What it hands back: the same, the result windows at `Out`. -/
def tileTd (d : Dev nD) (L : grid0.Coords) : sProp 𝕄 :=
  iprop(((iRowK L).view.loc (thr d L) ↦[(iRowK L).view.set]{fullShare} m (iLoc d))
    ∗ ((xV).view.loc (thr d L) ↦{xq L} m (xLoc d))
    ∗ bigSep Finset.univ fun r : Fin 4 => (oWinK L r).view.loc (thr d L) ↦[(oWinK L r).view.set]{fullShare} Out m d)

/-- The grid coordinates of task `i` of SparseCore `c` of the one call. -/
abbrev coordsK (c : Fin ((K (F := F)).nCore 0)) (i : Fin ((K (F := F)).nSub 0)) : grid0.Coords :=
  coordsV ⟨c.val, c.isLt⟩ ⟨i.val, i.isLt⟩

/-- The call hands each SparseCore its sixteen tasks' operands and takes their results back. -/
def P : (K (F := F)).Pay (nD := nD) (Val := Elt F) (Name := ℕ) (U := UU) where
  st := fun q d c => match q with | 0 => bigSep Finset.univ fun i : Fin ((K (F := F)).nSub 0) => tileGo m d (coordsK c i)
  dn := fun q d c => match q with | 0 => bigSep Finset.univ fun i : Fin ((K (F := F)).nSub 0) => tileTd m d (coordsK c i)
  go := fun q d c i => match q with | 0 => tileGo m d (coordsK c i)
  td := fun q d c i => match q with | 0 => tileTd m d (coordsK c i)
  x := fun _ _ => iprop(emp)

end Cert.Kernel.Tile

end
-- ==== Proof.K_TileFacts.lean ====
/-
  Facts about what the tile's index scratch holds after the fetch of its rows: the fetched words are the task's rows
  of the index array, so each names a table row whenever every word of the index array does.
-/
import proofs.«208374_g60447369724146_cont_9to1c4b_798_24_alg».proof.Proof.K_Pieces

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- What the fetch lands in the index scratch: the task's rows of the index array, read through the task's view. -/
def idxPay (fi : Buf (Elt F) (iLoc d)) : S256x20.Idx → Elt F .i32 :=
  ReadAs.same.apply (View.read (Elt F) (iRowK L).view fi)

theorem idxPay_apply (fi : Buf (Elt F) (iLoc d)) (y : S256x20.Idx) : idxPay d L fi y = fi ((iRowK L).view.emb y) :=
  (View.read_apply _ _).trans (cast_eq _ _)

/-- The scratch after the fetch, whatever it held before. -/
def idxBuf (fi : Buf (Elt F) (iLoc d)) (fs : Buf (Elt F) ((thr d L).loc cc0_scratch0)) : Buf (Elt F) ((thr d L).loc cc0_scratch0) :=
  View.write (Elt F) (sV).view fs (idxPay d L fi) Finset.univ

theorem idxBuf_eq (fi : Buf (Elt F) (iLoc d)) (fs : Buf (Elt F) ((thr d L).loc cc0_scratch0)) : idxBuf d L fi fs = idxPay d L fi := by
  exact View.write_whole_univ (Val := Elt F) cc0_scratch0 fs (idxPay d L fi)

/-- Every word of every 20-word row window of the scratch names a table row. -/
theorem hin_all (fi : Buf (Elt F) (iLoc d)) (fs : Buf (Elt F) ((thr d L).loc cc0_scratch0)) (hfi : ∀ j, (fi j).toNat < 100000) :
    ∀ (off : Fin 2 → Nat) (hb : ∀ a, off a + S1x20.size a ≤ S256x20.size a) (hs : ∀ a, (Rect.unit (s := S256x20) off S1x20.size hb).stride a = 1) (x : S20.Idx),
      (((sV.slice (Rect.unit (s := S256x20) off S1x20.size hb) hs).squeeze S20 squeezes_S1x20_S20).view.read (Elt F)
        (View.write (Elt F) (sV).view fs (idxPay d L fi) Finset.univ) x).toNat < 100000 := by
  intro off hb hs x
  have e : View.write (Elt F) (sV).view fs (idxPay d L fi) Finset.univ = idxPay d L fi := idxBuf_eq d L fi fs
  rw [e, View.read_apply, cast_eq, idxPay_apply]
  exact hfi _

end Cert.Kernel.Tile

end
-- ==== Proof.K_TileRes.lean ====
/-
  The tile's working resources inside the loop: the four slots of the row scratch, the index scratch's 20-word row
  windows, the read shares (one per gather semaphore) of the table and of the index scratch, and what a slot holds
  once the gather for residue row j has landed: entry (tt, x) is the table's entry (row named by word tt of row j, x).
-/
import proofs.«208374_g60447369724146_cont_9to1c4b_798_24_alg».proof.Proof.K_TileFacts

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

abbrev slot0K : Memref sig .scVector .vmem S20x128 .f32 :=
  ((rV).slice (Rect.unit (s := S4x20x128) ![0, 0, 0] S1x20x128.size inb_S4x20x128_S1x20x128_0_0_0) (fun _ => rfl)).squeeze S20x128 squeezes_S1x20x128_S20x128
abbrev slot1K : Memref sig .scVector .vmem S20x128 .f32 :=
  ((rV).slice (Rect.unit (s := S4x20x128) ![1, 0, 0] S1x20x128.size inb_S4x20x128_S1x20x128_1_0_0) (fun _ => rfl)).squeeze S20x128 squeezes_S1x20x128_S20x128
abbrev slot2K : Memref sig .scVector .vmem S20x128 .f32 :=
  ((rV).slice (Rect.unit (s := S4x20x128) ![2, 0, 0] S1x20x128.size inb_S4x20x128_S1x20x128_2_0_0) (fun _ => rfl)).squeeze S20x128 squeezes_S1x20x128_S20x128
abbrev slot3K : Memref sig .scVector .vmem S20x128 .f32 :=
  ((rV).slice (Rect.unit (s := S4x20x128) ![3, 0, 0] S1x20x128.size inb_S4x20x128_S1x20x128_3_0_0) (fun _ => rfl)).squeeze S20x128 squeezes_S1x20x128_S20x128

/-- The whole table as the gathers name it. -/
abbrev xAllK : Memref sig .scVector .hbm S100000x128 .f32 :=
  (xV).slice (Rect.unit (s := S100000x128) ![0, 0] S100000x128.size inb_S100000x128_S100000x128_0_0) (fun _ => rfl)

/-- The 20-word window of the index scratch at offsets `off`. -/
abbrev listRowK (off : Fin 2 → Nat) (hb : ∀ a, off a + S1x20.size a ≤ S256x20.size a) : Memref sig .scVector .vmem S20 .i32 :=
  ((sV).slice (Rect.unit (s := S256x20) off S1x20.size hb) (fun _ => rfl)).squeeze S20 squeezes_S1x20_S20

/-- The read shares, numbered by gather semaphore (1 to 4). -/
abbrev tokX (i : ℕ) : PosShare TreeShare := Transfers.shareTokN (xq L) i
abbrev tokS (i : ℕ) : PosShare TreeShare := Transfers.shareTokN fullShare i

/-- The row scratch's contents on a slot where residue row `j`'s gather has landed (the slot coordinate is not read). -/
def GR (idxv : S256x20.Idx → Elt F .i32) (fx : Buf (Elt F) (xLoc d)) (j : Fin 256) : Buf (Elt F) ((thr d L).loc cc0_scratch1) :=
  fun y => fx (ValueIdx.ix2 (rowF (idxv (ValueIdx.ix2 j (y 1)))) (y 2))

/-- What a gather in flight on slot memref `sl` delivers: the slot at residue row `j`'s rows, the lent window `w`
    of the index scratch, the lent elements of the table. -/
abbrev gDeliv0 (i : ℕ) (w : Finset S256x20.Idx)
    (fi : Buf (Elt F) (iLoc d)) (fx : Buf (Elt F) (xLoc d)) (fs : Buf (Elt F) ((thr d L).loc cc0_scratch0)) (j : Fin 256) : sProp 𝕄 :=
  iprop((((slot0K).view.loc (thr d L) ↦[(slot0K).view.set]{fullShare} GR d L (idxPay d L fi) fx j)
      ∗ ((sV).view.loc (thr d L) ↦[w]{tokS i} idxBuf d L fi fs))
    ∗ ((xV).view.loc (thr d L) ↦[(xAllK).view.set]{tokX L i} fx))
abbrev gDeliv1 (i : ℕ) (w : Finset S256x20.Idx)
    (fi : Buf (Elt F) (iLoc d)) (fx : Buf (Elt F) (xLoc d)) (fs : Buf (Elt F) ((thr d L).loc cc0_scratch0)) (j : Fin 256) : sProp 𝕄 :=
  iprop((((slot1K).view.loc (thr d L) ↦[(slot1K).view.set]{fullShare} GR d L (idxPay d L fi) fx j)
      ∗ ((sV).view.loc (thr d L) ↦[w]{tokS i} idxBuf d L fi fs))
    ∗ ((xV).view.loc (thr d L) ↦[(xAllK).view.set]{tokX L i} fx))
abbrev gDeliv2 (i : ℕ) (w : Finset S256x20.Idx)
    (fi : Buf (Elt F) (iLoc d)) (fx : Buf (Elt F) (xLoc d)) (fs : Buf (Elt F) ((thr d L).loc cc0_scratch0)) (j : Fin 256) : sProp 𝕄 :=
  iprop((((slot2K).view.loc (thr d L) ↦[(slot2K).view.set]{fullShare} GR d L (idxPay d L fi) fx j)
      ∗ ((sV).view.loc (thr d L) ↦[w]{tokS i} idxBuf d L fi fs))
    ∗ ((xV).view.loc (thr d L) ↦[(xAllK).view.set]{tokX L i} fx))
abbrev gDeliv3 (i : ℕ) (w : Finset S256x20.Idx)
    (fi : Buf (Elt F) (iLoc d)) (fx : Buf (Elt F) (xLoc d)) (fs : Buf (Elt F) ((thr d L).loc cc0_scratch0)) (j : Fin 256) : sProp 𝕄 :=
  iprop((((slot3K).view.loc (thr d L) ↦[(slot3K).view.set]{fullShare} GR d L (idxPay d L fi) fx j)
      ∗ ((sV).view.loc (thr d L) ↦[w]{tokS i} idxBuf d L fi fs))
    ∗ ((xV).view.loc (thr d L) ↦[(xAllK).view.set]{tokX L i} fx))

end Cert.Kernel.Tile

end
-- ==== Proof.K_TileOut.lean ====
/-
  The output scratch during the loop. Its 64-row blocks are sent out one by one; what the tile still holds of it
  after n blocks have gone is the rows from 64 n on. A 1×16 store at a row not below 64 n stays inside that part.
-/
import proofs.«208374_g60447369724146_cont_9to1c4b_798_24_alg».proof.Proof.K_TileRes

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- The rows of the output scratch from 64 n on. -/
def aRest (n : ℕ) : Finset S256x128.Idx := Finset.univ.filter fun y => 64 * n ≤ (y 0).val

theorem mem_aRest (n : ℕ) (y : S256x128.Idx) : y ∈ aRest n ↔ 64 * n ≤ (y 0).val := by
  unfold aRest; rw [Finset.mem_filter]; exact ⟨fun h => h.2, fun h => ⟨Finset.mem_univ _, h⟩⟩

theorem aRest_zero : aRest 0 = Finset.univ := by
  ext y; rw [mem_aRest]; exact ⟨fun _ => Finset.mem_univ _, fun _ => Nat.zero_le _⟩

/-- A 1×16 store whose row is not below 64 n writes only rows from 64 n on. -/
theorem store_sub (off : Fin 2 → Nat) (hb : ∀ a, off a + S1x16.size a ≤ S256x128.size a) (n : ℕ) (h : 64 * n ≤ off 0) :
    ((aV).access (Rect.unit (s := S256x128) off S1x16.size hb)).setOn Finset.univ ⊆ aRest n := by
  intro y hy
  rw [View.setOn_univ] at hy
  obtain ⟨x, -, rfl⟩ := Finset.mem_map.mp hy
  rw [mem_aRest]
  show 64 * n ≤ off 0 + 1 * (x 0).val
  omega

end Cert.Kernel.Tile

end
-- ==== Proof.K_LaunchGeom.lean ====
/-
  The three arrays cut among the 32 tasks. The index array's 32 rectangles [s, 256 c .. 256 c + 256, all] tile it;
  the result's 128 windows of 64 rows from row 512 s + 256 c + 64 r tile its 8192 rows; the table's full share is
  its 32 pieces, task (c, s) holding piece 16 c + s. Each is an equation between the whole array's points-to and the
  iterated separating conjunction of the pieces', at any contents.
-/
import proofs.«208374_g60447369724146_cont_9to1c4b_798_24_alg».proof.Proof.K_Pieces

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The task's offsets into the index array in closed form: batch row s, rows from 256 c. -/
theorem k0_off1_eq : ∀ i : grid0.Coords, k0_off1 i = ![(i 1).val, 256 * (i 0).val, 0] := by decide +kernel

/-- The task's rectangle of the index array and its r-th rectangle of the result. -/
abbrev iRect (L : grid0.Coords) : Rect S16x512x20 := Rect.unit (s := S16x512x20) (k0_off1 L) S1x256x20.size (k0_off1_inb L)
abbrev oRect (L : grid0.Coords) (r : Fin 4) : Rect S8192x128 :=
  Rect.unit (s := S8192x128) (k0_off17 L (BitVec.ofNat 32 (64 * r.val))) S64x128.size (k0_off17_inb L r)

theorem set_iRowK (L : grid0.Coords) : (iRowK L).view.set = (iRect L).set := by
  show (((iV).view.slice (iRect L)).reshape S256x20 squeezes_S1x256x20_S256x20.numel_eq).set = _
  rw [View.set_reshape]
  show ((View.whole (main_arg0_scv : Ref sig .scVector)).slice (iRect L)).set = _
  rw [View.set_slice]; exact Finset.map_refl

theorem set_oWinK (L : grid0.Coords) (r : Fin 4) : (oWinK L r).view.set = (oRect L r).set := by
  show ((View.whole (main_v0_scv : Ref sig .scVector)).slice (oRect L r)).set = _
  rw [View.set_slice]; exact Finset.map_refl

theorem mem_iRect (L : grid0.Coords) (j : S16x512x20.Idx) :
    j ∈ (iRect L).set ↔ (j 0).val = (L 1).val ∧ 256 * (L 0).val ≤ (j 1).val ∧ (j 1).val < 256 * (L 0).val + 256 := by
  rw [Rect.mem_set_unit, k0_off1_eq]
  constructor
  · intro h
    have h0 : (L 1).val ≤ (j 0).val ∧ (j 0).val < (L 1).val + 1 := h 0
    have h1 : 256 * (L 0).val ≤ (j 1).val ∧ (j 1).val < 256 * (L 0).val + 256 := h 1
    omega
  · rintro ⟨e0, lo, hi⟩ a
    have h2 : (j 2).val < 20 := (j 2).isLt
    match a with
    | 0 => exact (show (L 1).val ≤ (j 0).val ∧ (j 0).val < (L 1).val + 1 by omega)
    | 1 => exact (show 256 * (L 0).val ≤ (j 1).val ∧ (j 1).val < 256 * (L 0).val + 256 from ⟨lo, hi⟩)
    | 2 => exact (show 0 ≤ (j 2).val ∧ (j 2).val < 0 + 20 by omega)

theorem mem_oRect (L : grid0.Coords) (r : Fin 4) (j : S8192x128.Idx) :
    j ∈ (oRect L r).set ↔ 512 * (L 1).val + 256 * (L 0).val + 64 * r.val ≤ (j 0).val
      ∧ (j 0).val < 512 * (L 1).val + 256 * (L 0).val + 64 * r.val + 64 := by
  rw [Rect.mem_set_unit, k0_off17_eq]
  constructor
  · intro h
    exact (show 512 * (L 1).val + 256 * (L 0).val + 64 * r.val ≤ (j 0).val
      ∧ (j 0).val < 512 * (L 1).val + 256 * (L 0).val + 64 * r.val + 64 from h 0)
  · rintro ⟨lo, hi⟩ a
    have h1 : (j 1).val < 128 := (j 1).isLt
    match a with
    | 0 => exact (show 512 * (L 1).val + 256 * (L 0).val + 64 * r.val ≤ (j 0).val
        ∧ (j 0).val < 512 * (L 1).val + 256 * (L 0).val + 64 * r.val + 64 from ⟨lo, hi⟩)
    | 1 => exact (show 0 ≤ (j 1).val ∧ (j 1).val < 0 + 128 by omega)

/-! ## The pieces, indexed by (c, s) and by ((c, s), r) -/

abbrev LL (p : Fin 2 × Fin 16) : grid0.Coords := coordsV p.1 p.2

abbrev iSet (p : Fin 2 × Fin 16) : Finset S16x512x20.Idx := (iRowK (LL p)).view.set
abbrev oSet (p : (Fin 2 × Fin 16) × Fin 4) : Finset S8192x128.Idx := (oWinK (LL p.1) p.2).view.set

theorem mem_iSet (p : Fin 2 × Fin 16) (j : S16x512x20.Idx) :
    j ∈ iSet p ↔ (j 0).val = p.2.val ∧ 256 * p.1.val ≤ (j 1).val ∧ (j 1).val < 256 * p.1.val + 256 := by
  unfold iSet; rw [set_iRowK, mem_iRect]; exact Iff.rfl

theorem mem_oSet (p : (Fin 2 × Fin 16) × Fin 4) (j : S8192x128.Idx) :
    j ∈ oSet p ↔ 512 * p.1.2.val + 256 * p.1.1.val + 64 * p.2.val ≤ (j 0).val
      ∧ (j 0).val < 512 * p.1.2.val + 256 * p.1.1.val + 64 * p.2.val + 64 := by
  unfold oSet; rw [set_oWinK, mem_oRect]; exact Iff.rfl

theorem iSet_disjoint : ∀ p ∈ (Finset.univ : Finset (Fin 2 × Fin 16)), ∀ p' ∈ (Finset.univ : Finset (Fin 2 × Fin 16)),
    p ≠ p' → Disjoint (iSet p) (iSet p') := by
  intro p _ p' _ hne
  rw [Finset.disjoint_left]
  intro j h h'
  rw [mem_iSet] at h h'
  have h1 := p.1.isLt; have h1' := p'.1.isLt
  exact hne (Prod.ext (Fin.ext (by omega)) (Fin.ext (by omega)))

theorem iSet_cover : (Finset.univ : Finset (Fin 2 × Fin 16)).biUnion iSet = Finset.univ := by
  ext j
  simp only [Finset.mem_biUnion, Finset.mem_univ, true_and, iff_true]
  have h0 : (j 0).val < 16 := (j 0).isLt
  have h1 : (j 1).val < 512 := (j 1).isLt
  refine ⟨(⟨(j 1).val / 256, by omega⟩, ⟨(j 0).val, h0⟩), ?_⟩
  rw [mem_iSet]
  show (j 0).val = (j 0).val ∧ 256 * ((j 1).val / 256) ≤ (j 1).val ∧ (j 1).val < 256 * ((j 1).val / 256) + 256
  omega

theorem oSet_disjoint : ∀ p ∈ (Finset.univ : Finset ((Fin 2 × Fin 16) × Fin 4)), ∀ p' ∈ (Finset.univ : Finset ((Fin 2 × Fin 16) × Fin 4)),
    p ≠ p' → Disjoint (oSet p) (oSet p') := by
  intro p _ p' _ hne
  rw [Finset.disjoint_left]
  intro j h h'
  rw [mem_oSet] at h h'
  have h1 := p.1.1.isLt; have h1' := p'.1.1.isLt
  have h2 := p.2.isLt; have h2' := p'.2.isLt
  exact hne (Prod.ext (Prod.ext (Fin.ext (by omega)) (Fin.ext (by omega))) (Fin.ext (by omega)))

theorem oSet_cover : (Finset.univ : Finset ((Fin 2 × Fin 16) × Fin 4)).biUnion oSet = Finset.univ := by
  ext j
  simp only [Finset.mem_biUnion, Finset.mem_univ, true_and, iff_true]
  have h0 : (j 0).val < 8192 := (j 0).isLt
  refine ⟨((⟨(j 0).val % 512 / 256, by omega⟩, ⟨(j 0).val / 512, by omega⟩), ⟨(j 0).val % 256 / 64, by omega⟩), ?_⟩
  rw [mem_oSet]
  show 512 * ((j 0).val / 512) + 256 * ((j 0).val % 512 / 256) + 64 * ((j 0).val % 256 / 64) ≤ (j 0).val
    ∧ (j 0).val < 512 * ((j 0).val / 512) + 256 * ((j 0).val % 512 / 256) + 64 * ((j 0).val % 256 / 64) + 64
  omega

/-- The task's number among the 32 as an equivalence: (c, s) ↦ 16 c + s. -/
def tileEquiv : Fin 2 × Fin 16 ≃ Fin 32 := finProdFinEquiv.trans (finCongr (by norm_num))

theorem tileIx_LL (p : Fin 2 × Fin 16) : tileIx (LL p) = tileEquiv p := by
  apply Fin.ext
  show 16 * p.1.val + p.2.val = p.2.val + 16 * p.1.val
  omega

/-! ## The three arrays as their pieces -/

variable (d : Dev nD)

/-- The index array is the 32 tasks' rectangles of it. -/
theorem iPts_tiles (f : Buf (Elt F) (iLoc d)) :
    (iLoc d ↦{fullShare} f : sProp 𝕄)
      = bigSep Finset.univ fun c : Fin 2 => bigSep Finset.univ fun s : Fin 16 =>
          (iRowK (coordsV c s)).view.loc (thr d (coordsV c s)) ↦[(iRowK (coordsV c s)).view.set]{fullShare} f := by
  refine Eq.trans ?_ (bigSep_univ_prod (fun p : Fin 2 × Fin 16 => (iLoc d ↦[iSet p]{fullShare} f : sProp 𝕄)))
  rw [← pointsTo_biUnion Finset.univ (ℓ := iLoc d) iSet iSet_disjoint, iSet_cover]

/-- The result array is the 128 windows of it. -/
theorem oPts_tiles (f : Buf (Elt F) (oLoc d)) :
    (oLoc d ↦{fullShare} f : sProp 𝕄)
      = bigSep Finset.univ fun c : Fin 2 => bigSep Finset.univ fun s : Fin 16 => bigSep Finset.univ fun r : Fin 4 =>
          (oWinK (coordsV c s) r).view.loc (thr d (coordsV c s)) ↦[(oWinK (coordsV c s) r).view.set]{fullShare} f := by
  refine Eq.trans ?_ ((bigSep_univ_prod (fun p : (Fin 2 × Fin 16) × Fin 4 => (oLoc d ↦[oSet p]{fullShare} f : sProp 𝕄))).trans
    (bigSep_univ_prod (fun p : Fin 2 × Fin 16 => bigSep Finset.univ fun r : Fin 4 => (oLoc d ↦[oSet (p, r)]{fullShare} f : sProp 𝕄))))
  rw [← pointsTo_biUnion Finset.univ (ℓ := oLoc d) oSet oSet_disjoint, oSet_cover]

/-- The table at the full share is the 32 tasks' pieces of the share. -/
theorem xPts_tiles (f : Buf (Elt F) (xLoc d)) :
    (xLoc d ↦{fullShare} f : sProp 𝕄)
      = bigSep Finset.univ fun c : Fin 2 => bigSep Finset.univ fun s : Fin 16 =>
          (xV).view.loc (thr d (coordsV c s)) ↦{xq (coordsV c s)} f := by
  rw [pointsTo_piecesOf Finset.univ f (o := 32) (by decide) fullShare, bigSep_univ_equiv tileEquiv, bigSep_univ_prod]
  refine bigSep_congr fun c _ => bigSep_congr fun s _ => ?_
  show (xLoc d ↦{pieceOf fullShare 32 (by decide) (tileEquiv (c, s))} f : sProp 𝕄) = xLoc d ↦{pieceOf fullShare 32 (by decide) (tileIx (LL (c, s)))} f
  rw [tileIx_LL]

end Cert.Kernel.Tile

end
-- ==== Proof.K_TileVal.lean ====
/-
  The arithmetic of one 16-lane chunk, and the tile's local result. The chunk computation adds the twenty loaded
  16-lane rows in the kernel's fixed association — neighbours paired, the pairs paired, the last group of four joined
  at the end —; lane by lane that is the tree sum of the twenty loaded values. The tile's output scratch is to hold, at
  row y₀, row 512 s + 256 c + y₀ of the result; summed in the tree order over the twenty terms, the landed rows of
  residue row j are that row of the result.
-/
import proofs.«208374_g60447369724146_cont_9to1c4b_798_24_alg».proof.Proof.K_TileRes
import proofs.«208374_g60447369724146_cont_9to1c4b_798_24_alg».proof.Proof.K_LaunchGeom
import Idealize.ShloMosaic.Lib.ValueIdx
import Idealize.ShloMosaic.Lib.ValueLayout

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

open Idealize.ShloMosaic.ValueIdx

/-- What the tile's output scratch must hold: row y₀ of it is row 512 s + 256 c + y₀ of the result. -/
def OutLoc (m : (ℓ : Loc nD τ sig) → Buf (Elt F) ℓ) : Buf (Elt F) ((thr d L).loc cc0_scratch2) :=
  fun y => OutF (F := F) (m (iLoc d)) (m (xLoc d))
    (ix2 (⟨512 * (L 1).val + 256 * (L 0).val + (y 0).val, by
        have h1 : (L 1).val < 16 := (L 1).isLt
        have h0 : (L 0).val < 2 := (L 0).isLt
        have hy : (y 0).val < 256 := (y 0).isLt
        omega⟩ : Fin 8192) (y 1))

/-- The chunk computation: the twenty loaded rows, each read as 16 lanes, added in the kernel's association, the sum
    read as a 1×16 row. -/
def chunkTree (v : Fin 20 → Vec F S1x1x16 .f32) : FVec F S1x16 .f32 :=
  let c (tt : Fin 20) : FVec F S16 .f32 := shapeCast S16 (v tt) shapeCasts_S1x1x16_S16
  let p0 := addf (c 0) (c 1); let p1 := addf (c 2) (c 3); let p2 := addf (c 4) (c 5); let p3 := addf (c 6) (c 7); let p4 := addf (c 8) (c 9); let p5 := addf (c 10) (c 11); let p6 := addf (c 12) (c 13); let p7 := addf (c 14) (c 15); let p8 := addf (c 16) (c 17); let p9 := addf (c 18) (c 19)
  let q0 := addf p0 p1; let q1 := addf p2 p3; let q2 := addf p4 p5; let q3 := addf p6 p7; let q4 := addf p8 p9
  let r0 := addf q0 q1; let r1 := addf q2 q3
  shapeCast S1x16 (addf (addf r0 r1) q4) shapeCasts_S16_S1x16

/-- Lane by lane the chunk computation is the tree sum of the twenty loaded values. -/
theorem chunkTree_apply (v : Fin 20 → Vec F S1x1x16 .f32) (lane : Fin 16) :
    chunkTree v (ix2 (0 : Fin 1) lane) = treeSum20 (F := F) fun tt => v tt (ix3 (0 : Fin 1) (0 : Fin 1) lane) := by
  have leaf : ∀ tt, shapeCast S16 (v tt) shapeCasts_S1x1x16_S16 (ix1 lane) = v tt (ix3 (0 : Fin 1) (0 : Fin 1) lane) :=
    fun tt => shapeCast_apply (v tt) shapeCasts_S1x1x16_S16 (ix1 lane) (ix3 (0 : Fin 1) (0 : Fin 1) lane) (by
      rw [Shape.rowMajor_val_three, Shape.rowMajor_val_one]
      show (0 * 1 + 0) * 16 + lane.val = lane.val
      omega)
  unfold chunkTree treeSum20
  rw [shapeCast_a_1a_apply]
  simp only [addf, leaf]

/-- Word (j, tt) of the task's index rows is word (s, 256 c + j, tt) of the index array. -/
theorem iRowK_emb (j : Fin 256) (tt : Fin 20) (a : Fin 3) :
    (((iRowK L).view.emb (ix2 j tt)) a).val = (![(L 1).val, 256 * (L 0).val + j.val, tt.val] : Fin 3 → Nat) a := by
  show (((Rect.unit (s := S16x512x20) (k0_off1 L) S1x256x20.size (k0_off1_inb L)).emb
    (Shape.reshapeEquiv squeezes_S1x256x20_S256x20.numel_eq (ix2 j tt))) a).val = _
  rw [reshapeEquiv_ix2_1ab]
  show (k0_off1 L) a + 1 * ((ix3 (⟨0, Nat.one_pos⟩ : Fin 1) j tt) a).val = _
  rw [k0_off1_eq]
  match a with
  | ⟨0, _⟩ => show (L 1).val + 1 * 0 = (L 1).val; omega
  | ⟨1, _⟩ => show 256 * (L 0).val + 1 * j.val = 256 * (L 0).val + j.val; omega
  | ⟨2, _⟩ => show 0 + 1 * tt.val = tt.val; omega

/-- The landed rows of residue row j, summed in the tree order, are row j of the tile's local result — whichever slot
    they landed in. -/
theorem outLoc_of_rows (m : (ℓ : Loc nD τ sig) → Buf (Elt F) ℓ) (b : Fin 4) (j : Fin 256) (x : Fin 128) :
    treeSum20 (F := F) (fun tt => GR d L (idxPay d L (m (iLoc d))) (m (xLoc d)) j (ix3 b tt x))
      = OutLoc d L m (ix2 j x) := by
  unfold OutLoc OutF GR
  dsimp only
  refine congrArg (treeSum20 (F := F)) (funext fun tt => ?_)
  refine congrArg (m (xLoc d)) (congrArg (fun r => ix2 r x) (congrArg rowF ?_))
  rw [idxPay_apply]
  refine congrArg (m (iLoc d)) ?_
  have h1 : (L 1).val < 16 := (L 1).isLt
  have h0 : (L 0).val < 2 := (L 0).isLt
  funext a
  refine Fin.ext ?_
  show (((iRowK L).view.emb (ix2 j tt)) a).val = _
  rw [iRowK_emb]
  match a with
  | ⟨0, _⟩ => show (L 1).val = (512 * (L 1).val + 256 * (L 0).val + j.val) / 512; omega
  | ⟨1, _⟩ => show 256 * (L 0).val + j.val = (512 * (L 1).val + 256 * (L 0).val + j.val) % 512; omega
  | ⟨2, _⟩ => rfl

end Cert.Kernel.Tile

end
-- ==== Proof.K_PreOK.lean ====
/-
  What the launch memory must satisfy for the kernel's indexed copies: every index word names a row of the table.
-/
import proofs.«208374_g60447369724146_cont_9to1c4b_798_24_alg».proof.Proof.K_Pieces

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Every word of the index array is below the table's 100000 rows. -/
def PreOK (m : (ℓ : Loc nD τ sig) → Buf (Elt F) ℓ) : Prop :=
  ∀ (d : Dev nD) (j : S16x512x20.Idx), (m (iLoc d) j).toNat < 100000

end Cert.Kernel.Tile

end
-- ==== Proof.K_TileInv.lean ====
/-
  The loop's invariant. Before trip k (residue rows 4k … 4k+3 of the tile's 256):
  * the gathers for rows 4k, 4k+1, 4k+2 are in flight into slots 0, 1, 2, each holding its slot, a window of the
    index scratch and the table's elements at its semaphore's read share; slot 3 and its shares are free;
  * block k/16 of the output scratch is held by itself, its rows below 4k at the result function; the later blocks
    and the later result windows are untouched; the earlier ones are inside the write-back batch, k/16 of whose four
    copies have been issued;
  after the last trip (k = 64) every slot and share is free and all four copies are issued.
-/
import proofs.«208374_g60447369724146_cont_9to1c4b_798_24_alg».proof.Proof.K_TileOut
import proofs.«208374_g60447369724146_cont_9to1c4b_798_24_alg».proof.Proof.K_TileVal
import proofs.«208374_g60447369724146_cont_9to1c4b_798_24_alg».proof.Proof.K_PreOK

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)
  (fs : Buf (Elt F) ((thr d L).loc cc0_scratch0))

/-- The first of the tile's 256 rows of the result. -/
def tileBase : ℕ := 512 * (L 1).val + 256 * (L 0).val

theorem tileBase_le : tileBase L + 256 ≤ 8192 := by
  unfold tileBase; have h0 : (L 0).val < 2 := (L 0).isLt; have h1 : (L 1).val < 16 := (L 1).isLt; omega

theorem aCurAt_inb (n : ℕ) (hn : n < 4) : ∀ a, (![64 * n, 0] : Fin 2 → Nat) a + S64x128.size a ≤ S256x128.size a := by
  intro a; fin_cases a
  · show 64 * n + 64 ≤ 256; omega
  · show 0 + 128 ≤ 128; omega

/-- Block n of the output scratch (rows 64 n … 64 n + 63). -/
abbrev aCurAt (n : ℕ) (hn : n < 4) : Memref sig .scVector .vmem S64x128 .f32 :=
  (aV).slice (Rect.unit (s := S256x128) ![64 * n, 0] S64x128.size (aCurAt_inb n hn)) (fun _ => rfl)

theorem oCurAt_inb (n : ℕ) (hn : n < 4) : ∀ a, (![tileBase L + 64 * n, 0] : Fin 2 → Nat) a + S64x128.size a ≤ S8192x128.size a := by
  have := tileBase_le L
  intro a; fin_cases a
  · show tileBase L + 64 * n + 64 ≤ 8192; omega
  · show 0 + 128 ≤ 128; omega

/-- Window n of the tile's rows of the result. -/
abbrev oCurAt (n : ℕ) (hn : n < 4) : Memref sig .scVector .hbm S64x128 .f32 :=
  (oV).slice (Rect.unit (s := S8192x128) ![tileBase L + 64 * n, 0] S64x128.size (oCurAt_inb L n hn)) (fun _ => rfl)

/-- The tile's rows of the result from window n on. -/
def oRest (n : ℕ) : Finset S8192x128.Idx :=
  Finset.univ.filter fun y => tileBase L + 64 * n ≤ (y 0).val ∧ (y 0).val < tileBase L + 256
/-- Window t of the tile's rows of the result, and block t of the output scratch, as sets. -/
def oWinSet (t : ℕ) : Finset S8192x128.Idx :=
  Finset.univ.filter fun y => tileBase L + 64 * t ≤ (y 0).val ∧ (y 0).val < tileBase L + 64 * t + 64
def aBlkSet (t : ℕ) : Finset S256x128.Idx :=
  Finset.univ.filter fun y => 64 * t ≤ (y 0).val ∧ (y 0).val < 64 * t + 64

/-- The rows of the current block below 4 k hold the result function. -/
def RowsDone (k : ℕ) (fa : Buf (Elt F) ((thr d L).loc cc0_scratch2)) : Prop :=
  ∀ y : S256x128.Idx, 64 * (k / 16) ≤ (y 0).val → (y 0).val < 4 * k → fa y = OutLoc d L m y

/-- What write-back t delivers: window t of the result at the result function, block t of the scratch back. -/
def wbD (t : Fin 4) : sProp 𝕄 :=
  iprop(((oV).view.loc (thr d L) ↦[oWinSet L t.val]{fullShare} Out m d) ∗ ((aV).view.loc (thr d L) ↦[aBlkSet t.val]{fullShare} OutLoc d L m))

/-- One write-back's credit: 64 × 128 words of 32 bits. -/
abbrev wbN : ℕ := 262144

set_option maxHeartbeats 1600000 in
/-- The gathers before trip k. -/
def gathersPart (k : ℕ) : sProp 𝕄 :=
  if h : k < 64 then
    iprop(∃ w0 w1 w2 : Finset S256x20.Idx,
      (Transfers.Flight countersEmb (thr d L) (.dma cc0_scratch4.sem) (default : HIx 1) 81920 iprop((((slot0K).view.loc (thr d L) ↦[(slot0K).view.set]{fullShare} GR d L (idxPay d L (m (iLoc d))) (m (xLoc d)) ⟨4 * k, by omega⟩) ∗ ((sV).view.loc (thr d L) ↦[w0]{tokS 1} idxBuf d L (m (iLoc d)) fs)) ∗ ((xV).view.loc (thr d L) ↦[(xAllK).view.set]{tokX L 1} (m (xLoc d))))
        ∗ ((xV).view.loc (thr d L) ↦[Finset.univ \ (xAllK).view.set]{tokX L 1} m (xLoc d)) ∗ ((sV).view.loc (thr d L) ↦[Finset.univ \ w0]{tokS 1} idxBuf d L (m (iLoc d)) fs))
      ∗ (Transfers.Flight countersEmb (thr d L) (.dma cc0_scratch5.sem) (default : HIx 1) 81920 iprop((((slot1K).view.loc (thr d L) ↦[(slot1K).view.set]{fullShare} GR d L (idxPay d L (m (iLoc d))) (m (xLoc d)) ⟨4 * k + 1, by omega⟩) ∗ ((sV).view.loc (thr d L) ↦[w1]{tokS 2} idxBuf d L (m (iLoc d)) fs)) ∗ ((xV).view.loc (thr d L) ↦[(xAllK).view.set]{tokX L 2} (m (xLoc d))))
        ∗ ((xV).view.loc (thr d L) ↦[Finset.univ \ (xAllK).view.set]{tokX L 2} m (xLoc d)) ∗ ((sV).view.loc (thr d L) ↦[Finset.univ \ w1]{tokS 2} idxBuf d L (m (iLoc d)) fs))
      ∗ (Transfers.Flight countersEmb (thr d L) (.dma cc0_scratch6.sem) (default : HIx 1) 81920 iprop((((slot2K).view.loc (thr d L) ↦[(slot2K).view.set]{fullShare} GR d L (idxPay d L (m (iLoc d))) (m (xLoc d)) ⟨4 * k + 2, by omega⟩) ∗ ((sV).view.loc (thr d L) ↦[w2]{tokS 3} idxBuf d L (m (iLoc d)) fs)) ∗ ((xV).view.loc (thr d L) ↦[(xAllK).view.set]{tokX L 3} (m (xLoc d))))
        ∗ ((xV).view.loc (thr d L) ↦[Finset.univ \ (xAllK).view.set]{tokX L 3} m (xLoc d)) ∗ ((sV).view.loc (thr d L) ↦[Finset.univ \ w2]{tokS 3} idxBuf d L (m (iLoc d)) fs))
      ∗ ((xV).view.loc (thr d L) ↦{tokX L 4} m (xLoc d)) ∗ ((sV).view.loc (thr d L) ↦{tokS 4} idxBuf d L (m (iLoc d)) fs)
      ∗ (∃ f3, (slot3K).view.loc (thr d L) ↦[(slot3K).view.set]{fullShare} f3)
      ∗ semVal (thr d L, .dma cc0_scratch7.sem) 0)
  else
    iprop(((xV).view.loc (thr d L) ↦{tokX L 1} m (xLoc d)) ∗ ((xV).view.loc (thr d L) ↦{tokX L 2} m (xLoc d))
      ∗ ((xV).view.loc (thr d L) ↦{tokX L 3} m (xLoc d)) ∗ ((xV).view.loc (thr d L) ↦{tokX L 4} m (xLoc d))
      ∗ ((sV).view.loc (thr d L) ↦{tokS 1} idxBuf d L (m (iLoc d)) fs) ∗ ((sV).view.loc (thr d L) ↦{tokS 2} idxBuf d L (m (iLoc d)) fs)
      ∗ ((sV).view.loc (thr d L) ↦{tokS 3} idxBuf d L (m (iLoc d)) fs) ∗ ((sV).view.loc (thr d L) ↦{tokS 4} idxBuf d L (m (iLoc d)) fs)
      ∗ (∃ f, (slot0K).view.loc (thr d L) ↦[(slot0K).view.set]{fullShare} f) ∗ (∃ f, (slot1K).view.loc (thr d L) ↦[(slot1K).view.set]{fullShare} f)
      ∗ (∃ f, (slot2K).view.loc (thr d L) ↦[(slot2K).view.set]{fullShare} f) ∗ (∃ f, (slot3K).view.loc (thr d L) ↦[(slot3K).view.set]{fullShare} f)
      ∗ semVal (thr d L, .dma cc0_scratch4.sem) 0 ∗ semVal (thr d L, .dma cc0_scratch5.sem) 0
      ∗ semVal (thr d L, .dma cc0_scratch6.sem) 0 ∗ semVal (thr d L, .dma cc0_scratch7.sem) 0)

set_option maxHeartbeats 1600000 in
/-- The output scratch and the result's rows before trip k. -/
def outPart (k : ℕ) : sProp 𝕄 :=
  if h : k < 64 then
    iprop((∃ fa : Buf (Elt F) ((thr d L).loc cc0_scratch2), ((aCurAt (k / 16) (by omega)).view.loc (thr d L) ↦[(aCurAt (k / 16) (by omega)).view.set]{fullShare} fa) ∗ ⌜RowsDone d L m k fa⌝)
      ∗ (∃ f : Buf (Elt F) ((thr d L).loc cc0_scratch2), (aV).view.loc (thr d L) ↦[aRest (k / 16 + 1)]{fullShare} f)
      ∗ ((oCurAt L (k / 16) (by omega)).view.loc (thr d L) ↦[(oCurAt L (k / 16) (by omega)).view.set]{fullShare} m (oLoc d))
      ∗ ((oV).view.loc (thr d L) ↦[oRest L (k / 16 + 1)]{fullShare} m (oLoc d)))
  else iprop(emp)

/-- The invariant before trip k; the loop's carried word is not read. -/
def inv (O : CellTallies nD τ sig (HIx 1)) (W : Waits sig (HIx 1)) (k : ℕ) (_ : BitVec 32) : sProp 𝕄 :=
  iprop(Transfers.MayWaits (thr d L) (default : HIx 1) O
    ∗ ((iRowK L).view.loc (thr d L) ↦[(iRowK L).view.set]{fullShare} m (iLoc d))
    ∗ ((xV).view.loc (thr d L) ↦{Transfers.shareDrop (xq L) 5} m (xLoc d)) ∗ ((xV).view.loc (thr d L) ↦{tokX L 0} m (xLoc d))
    ∗ ((sV).view.loc (thr d L) ↦{Transfers.shareDrop fullShare 5} idxBuf d L (m (iLoc d)) fs) ∗ ((sV).view.loc (thr d L) ↦{tokS 0} idxBuf d L (m (iLoc d)) fs)
    ∗ gathersPart d L m fs k
    ∗ outPart d L m k
    ∗ Transfers.Batch countersEmb (thr d L) (.dma cc0_scratch3.sem) (default : HIx 1) wbN (wbD d L m) (k / 16) 0
    ∗ ∃ W', ⌜∀ p ∈ W', p ∈ W ∨ p.2 = none⌝ ∗ owes (thr d L) O W')

end Cert.Kernel.Tile

end
-- ==== Proof.K_OutAt.lean ====
/-
  The invariant's output part with the current block's number named: while block n is current the tile holds block n
  of the output scratch (rows below 4k done), the later blocks, window n of its result rows and the later windows.
-/
import proofs.«208374_g60447369724146_cont_9to1c4b_798_24_alg».proof.Proof.K_TileInv

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)

set_option maxHeartbeats 1600000 in
def outAt (n : ℕ) (hn : n < 4) (k : ℕ) : sProp 𝕄 :=
  iprop((∃ fa : Buf (Elt F) ((thr d L).loc cc0_scratch2), ((aCurAt n hn).view.loc (thr d L) ↦[(aCurAt n hn).view.set]{fullShare} fa) ∗ ⌜RowsDone d L m k fa⌝)
    ∗ (∃ f : Buf (Elt F) ((thr d L).loc cc0_scratch2), (aV).view.loc (thr d L) ↦[aRest (n + 1)]{fullShare} f)
    ∗ ((oCurAt L n hn).view.loc (thr d L) ↦[(oCurAt L n hn).view.set]{fullShare} m (oLoc d))
    ∗ ((oV).view.loc (thr d L) ↦[oRest L (n + 1)]{fullShare} m (oLoc d)))

set_option maxHeartbeats 1600000 in
theorem outPart_eq (k : ℕ) (h : k < 64) (n : ℕ) (hn : n < 4) (e : k / 16 = n) : outPart d L m k = outAt d L m n hn k := by
  subst e
  unfold outPart outAt
  rw [dif_pos h]

/-- A 64 × 128 window of the result credits 64 · 128 · 32 units, wherever it starts. -/
theorem wbN_lit : ((oV).slice (Rect.unit (s := S8192x128) ![0, 0] S64x128.size (by decide)) (fun _ => rfl)).view.amount
    (SemLoc.dma (sig := sig) cc0_scratch3.sem) = wbN := by decide +kernel

theorem wbN_eq (off : Fin 2 → ℕ) (hb : ∀ a, off a + S64x128.size a ≤ S8192x128.size a) :
    ((oV).slice (Rect.unit (s := S8192x128) off S64x128.size hb) (fun _ => rfl)).view.amount (SemLoc.dma (sig := sig) cc0_scratch3.sem) = wbN :=
  (show _ = ((oV).slice (Rect.unit (s := S8192x128) ![0, 0] S64x128.size (by decide)) (fun _ => rfl)).view.amount
    (SemLoc.dma (sig := sig) cc0_scratch3.sem) from rfl).trans wbN_lit

theorem outPart_last : outPart d L m 64 = (iprop(emp) : sProp 𝕄) := by
  unfold outPart; rw [dif_neg (by omega)]

end Cert.Kernel.Tile

end
-- ==== Proof.K_Spares.lean ====
/-
  The shares of the table and of the index scratch that no gather of the loop uses, as one opaque proposition: kept
  folded while a trip runs, so that each new gather takes the read share of its own semaphore.
-/
import proofs.«208374_g60447369724146_cont_9to1c4b_798_24_alg».proof.Proof.K_TileInv

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)
  (fs : Buf (Elt F) ((thr d L).loc cc0_scratch0))

/-- The shares of the table and of the index scratch that no gather of the loop uses; kept folded while a trip runs. -/
def spares : sProp 𝕄 :=
  iprop(((xV).view.loc (thr d L) ↦{Transfers.shareDrop (xq L) 5} m (xLoc d)) ∗ ((xV).view.loc (thr d L) ↦{tokX L 0} m (xLoc d))
    ∗ ((sV).view.loc (thr d L) ↦{Transfers.shareDrop fullShare 5} idxBuf d L (m (iLoc d)) fs) ∗ ((sV).view.loc (thr d L) ↦{tokS 0} idxBuf d L (m (iLoc d)) fs))

theorem spares_fold : iprop(((xV).view.loc (thr d L) ↦{Transfers.shareDrop (xq L) 5} m (xLoc d)) ∗ ((xV).view.loc (thr d L) ↦{tokX L 0} m (xLoc d))
    ∗ ((sV).view.loc (thr d L) ↦{Transfers.shareDrop fullShare 5} idxBuf d L (m (iLoc d)) fs) ∗ ((sV).view.loc (thr d L) ↦{tokS 0} idxBuf d L (m (iLoc d)) fs))
      ⊢ spares d L m fs := by unfold spares; exact .rfl
theorem spares_open : spares d L m fs ⊢ iprop(((xV).view.loc (thr d L) ↦{Transfers.shareDrop (xq L) 5} m (xLoc d)) ∗ ((xV).view.loc (thr d L) ↦{tokX L 0} m (xLoc d))
    ∗ ((sV).view.loc (thr d L) ↦{Transfers.shareDrop fullShare 5} idxBuf d L (m (iLoc d)) fs) ∗ ((sV).view.loc (thr d L) ↦{tokS 0} idxBuf d L (m (iLoc d)) fs)) := by unfold spares; exact .rfl

end Cert.Kernel.Tile

end
-- ==== Proof.K_TripFacts.lean ====
/-
  The loop's printed conditions, decided over the 64 trips: the look-ahead gathers of trip k are issued while row
  4k + b + 3 is still below 256 (the first always, the other three exactly when k < 63), and a write-back is issued
  exactly at the trips k with k % 16 = 15, of block k / 16.
-/
import proofs.«208374_g60447369724146_cont_9to1c4b_798_24_alg».proof.Proof.K_TileRes

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem cond1_all : ∀ k : Fin k0_t1_loop.trips, k0_cond1 k = 1#1 := by decide +kernel
theorem cond2_lo : ∀ k : Fin k0_t1_loop.trips, k.val < 63 → k0_cond2 k = 1#1 := by decide +kernel
theorem cond3_lo : ∀ k : Fin k0_t1_loop.trips, k.val < 63 → k0_cond3 k = 1#1 := by decide +kernel
theorem cond4_lo : ∀ k : Fin k0_t1_loop.trips, k.val < 63 → k0_cond4 k = 1#1 := by decide +kernel
theorem cond2_hi : ∀ k : Fin k0_t1_loop.trips, ¬ k.val < 63 → ¬ k0_cond2 k = 1#1 := by decide +kernel
theorem cond3_hi : ∀ k : Fin k0_t1_loop.trips, ¬ k.val < 63 → ¬ k0_cond3 k = 1#1 := by decide +kernel
theorem cond4_hi : ∀ k : Fin k0_t1_loop.trips, ¬ k.val < 63 → ¬ k0_cond4 k = 1#1 := by decide +kernel
theorem cond5_iff : ∀ k : Fin k0_t1_loop.trips, k0_cond5 k = 1#1 ↔ k.val % 16 = 15 := by decide +kernel
theorem off15_eq : ∀ k : Fin k0_t1_loop.trips, k0_cond5 k = 1#1 → k0_off15 k = ![64 * (k.val / 16), 0] := by decide +kernel
theorem off16_eq : ∀ (i : grid0.Coords) (k : Fin k0_t1_loop.trips), k0_cond5 k = 1#1 →
    k0_off16 i k = ![512 * (i 1).val + 256 * (i 0).val + 64 * (k.val / 16), 0] := by decide +kernel

end Cert.Kernel.Tile

end
-- ==== Proof.K_GatherVal.lean ====
/-
  What a slot of the row scratch holds once a gather has landed. The gather's payload at position (t, x) of the slot is
  the table at the row the list's word t names and at lane x; the list is the 20-word window of the index scratch at
  residue row j, whose word t is word (j, t) of the fetched index rows; a word below 100000 names the row of its own
  unsigned value. Position (t, x) of slot b sits at (b, t, x) of the row scratch, so the slot's elements hold the
  contents `GR` states for residue row j.
-/
import proofs.«208374_g60447369724146_cont_9to1c4b_798_24_alg».proof.Proof.K_TileRes
import Idealize.ShloMosaic.Lib.ValueIdx
import Idealize.ShloMosaic.Lib.ValueLayout

noncomputable section

namespace Cert.Kernel.Tile

open Cert.Kernel Cert.Kernel.Gen

open Idealize.ShloMosaic Idealize.ShloMosaic.ValueIdx
open Idealize.ShloMosaic.SparseCore (S V T)

variable {F : FTy → Type} [FloatOps F] (d : Dev nD) (L : grid0.Coords)

/-- The slot at first coordinate `b` of the row scratch. -/
abbrev slotAt (b : Nat) (hinb : ∀ a, (![b, 0, 0] : Fin 3 → Nat) a + S1x20x128.size a ≤ S4x20x128.size a) :
    Memref sig .scVector .vmem S20x128 .f32 :=
  ((rV).slice (Rect.unit (s := S4x20x128) ![b, 0, 0] S1x20x128.size hinb) (fun _ => rfl)).squeeze S20x128 squeezes_S1x20x128_S20x128

/-- The whole-table view places every index at itself. -/
theorem xAll_emb (i : S100000x128.Idx) : (xAllK).view.emb i = i := by
  funext a
  refine Fin.ext ?_
  show (![0, 0] : Fin 2 → Nat) a + 1 * (i a).val = (i a).val
  match a with
  | ⟨0, _⟩ => show 0 + 1 * _ = _; omega
  | ⟨1, _⟩ => show 0 + 1 * _ = _; omega

/-- Position (t, x) of the slot at `b` sits at (b, t, x) of the row scratch. -/
theorem slotAt_emb (b : Nat) (hinb : ∀ a, (![b, 0, 0] : Fin 3 → Nat) a + S1x20x128.size a ≤ S4x20x128.size a)
    (t : Fin 20) (x : Fin 128) (a : Fin 3) :
    (((slotAt b hinb).view.emb (ix2 t x)) a).val = (![b, t.val, x.val] : Fin 3 → Nat) a := by
  show (((Rect.unit (s := S4x20x128) ![b, 0, 0] S1x20x128.size hinb).emb
    (Shape.reshapeEquiv squeezes_S1x20x128_S20x128.numel_eq (ix2 t x))) a).val = _
  rw [reshapeEquiv_ix2_1ab]
  show (![b, 0, 0] : Fin 3 → Nat) a + 1 * ((ix3 (⟨0, Nat.one_pos⟩ : Fin 1) t x) a).val = _
  match a with
  | ⟨0, _⟩ => show b + 1 * 0 = b; omega
  | ⟨1, _⟩ => show 0 + 1 * t.val = t.val; omega
  | ⟨2, _⟩ => show 0 + 1 * x.val = x.val; omega

/-- Word `z` of the 20-word window at residue row `j` is word (j, z) of the index scratch. -/
theorem listRow_emb (j : Fin 256) (hb : ∀ a, (![j.val, 0] : Fin 2 → Nat) a + S1x20.size a ≤ S256x20.size a) (z : S20.Idx) (a : Fin 2) :
    (((listRowK ![j.val, 0] hb).view.emb z) a).val = (![j.val, (z 0).val] : Fin 2 → Nat) a := by
  show (((Rect.unit (s := S256x20) ![j.val, 0] S1x20.size hb).emb
    (Shape.reshapeEquiv squeezes_S1x20_S20.numel_eq z)) a).val = _
  rw [Shape.reshapeEquiv_cons_one]
  show (![j.val, 0] : Fin 2 → Nat) a + 1 * ((Fin.cons (⟨0, Nat.one_pos⟩ : Fin 1) z : S1x20.Idx) a).val = _
  match a with
  | ⟨0, _⟩ => show j.val + 1 * 0 = j.val; omega
  | ⟨1, _⟩ => show 0 + 1 * (z 0).val = (z 0).val; omega

/-- Entry `n` of a rank-one shape in row-major order is the index with coordinate `n`. -/
theorem rowMajor_symm_S20 (n : Fin S20.numel) : ((S20.rowMajor.symm n) 0).val = n.val := by
  have h1 := Shape.rowMajor_val_one (S20.rowMajor.symm n)
  rw [Equiv.apply_symm_apply] at h1
  exact h1.symm

/-- THE SLOT AFTER A GATHER, for the slot at any first coordinate: its elements hold what `GR` states for residue row j. -/
theorem gather_valAt [Cert.Kernel.Facts] (b : Nat)
    (hinb : ∀ a, (![b, 0, 0] : Fin 3 → Nat) a + S1x20x128.size a ≤ S4x20x128.size a)
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slotAt b hinb).view.set,
      View.write (Elt F) (slotAt b hinb).view prev
        (SparseCore.gatherPayload Cert.Kernel.Facts₀.gathers_S100000x128_S20x128 (View.read (Elt F) (xAllK).view fx)
          (SparseCore.rows (View.read (Elt F) (listRowK off hb).view (idxBuf d L fi fs)) hn hin)) Finset.univ y
      = GR d L (idxPay d L fi) fx j y := by
  subst hoff
  intro y hy
  obtain ⟨x, -, rfl⟩ := Finset.mem_map.mp hy
  obtain ⟨t, u, rfl⟩ : ∃ t u, x = ix2 t u := ⟨_, _, eq_ix2 x⟩
  refine (View.write_emb_of_mem _ _ (Finset.mem_univ _)).trans ((cast_eq _ _).trans ?_)
  unfold SparseCore.gatherPayload GR
  refine (View.read_apply _ _).trans ((cast_eq _ _).trans ?_)
  rw [xAll_emb]
  refine congrArg fx ?_
  have hidx : (listRowK ![j.val, 0] hb).view.emb
        (S20.rowMajor.symm (((ix2 t u : S20x128.Idx) Cert.Kernel.Facts₀.gathers_S100000x128_S20x128.axis').cast hn.symm))
      = ix2 j (((slotAt b hinb).view.emb (ix2 t u)) 1) := by
    funext a'
    refine Fin.ext ?_
    rw [listRow_emb]
    match a' with
    | ⟨0, _⟩ => rfl
    | ⟨1, _⟩ =>
      show ((S20.rowMajor.symm _) 0).val = (((slotAt b hinb).view.emb (ix2 t u)) 1).val
      rw [rowMajor_symm_S20, slotAt_emb]
      rfl
  funext a
  refine Fin.ext ?_
  match a with
  | ⟨0, _⟩ =>
    show (Shape.Gathers.idx Cert.Kernel.Facts₀.gathers_S100000x128_S20x128 _ (ix2 t u) Cert.Kernel.Facts₀.gathers_S100000x128_S20x128.axis).val = _
    rw [Shape.Gathers.idx_axis]
    unfold SparseCore.rows rowF
    dsimp only
    rw [View.read_apply, cast_eq, idxBuf_eq, hidx]
    have hlt : (idxPay d L fi (ix2 j (((slotAt b hinb).view.emb (ix2 t u)) 1))).toNat < 100000 := by
      rw [idxPay_apply]; exact hfi _
    exact (Nat.mod_eq_of_lt hlt).symm
  | ⟨1, _⟩ =>
    refine (Shape.Gathers.idx_of_ne Cert.Kernel.Facts₀.gathers_S100000x128_S20x128 _ (ix2 t u) ⟨1, by decide⟩ (by decide)).trans ?_
    show u.val = (((slotAt b hinb).view.emb (ix2 t u)) 2).val
    rw [slotAt_emb]
    rfl

/-- The slot at first coordinate 0 after a gather: its elements hold what `GR` states for residue row j. -/
theorem gather_val0 [Cert.Kernel.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slot0K).view.set,
      View.write (Elt F) (slot0K).view prev
        (SparseCore.gatherPayload Cert.Kernel.Facts₀.gathers_S100000x128_S20x128 (View.read (Elt F) (xAllK).view fx)
          (SparseCore.rows (View.read (Elt F) (listRowK off hb).view (idxBuf d L fi fs)) hn hin)) Finset.univ y
      = GR d L (idxPay d L fi) fx j y :=
  gather_valAt d L 0 inb_S4x20x128_S1x20x128_0_0_0 fi fx fs prev off hb hn hin hfi j hoff

/-- The slot at first coordinate 1 after a gather: its elements hold what `GR` states for residue row j. -/
theorem gather_val1 [Cert.Kernel.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slot1K).view.set,
      View.write (Elt F) (slot1K).view prev
        (SparseCore.gatherPayload Cert.Kernel.Facts₀.gathers_S100000x128_S20x128 (View.read (Elt F) (xAllK).view fx)
          (SparseCore.rows (View.read (Elt F) (listRowK off hb).view (idxBuf d L fi fs)) hn hin)) Finset.univ y
      = GR d L (idxPay d L fi) fx j y :=
  gather_valAt d L 1 inb_S4x20x128_S1x20x128_1_0_0 fi fx fs prev off hb hn hin hfi j hoff

/-- The slot at first coordinate 2 after a gather: its elements hold what `GR` states for residue row j. -/
theorem gather_val2 [Cert.Kernel.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slot2K).view.set,
      View.write (Elt F) (slot2K).view prev
        (SparseCore.gatherPayload Cert.Kernel.Facts₀.gathers_S100000x128_S20x128 (View.read (Elt F) (xAllK).view fx)
          (SparseCore.rows (View.read (Elt F) (listRowK off hb).view (idxBuf d L fi fs)) hn hin)) Finset.univ y
      = GR d L (idxPay d L fi) fx j y :=
  gather_valAt d L 2 inb_S4x20x128_S1x20x128_2_0_0 fi fx fs prev off hb hn hin hfi j hoff

/-- The slot at first coordinate 3 after a gather: its elements hold what `GR` states for residue row j. -/
theorem gather_val3 [Cert.Kernel.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slot3K).view.set,
      View.write (Elt F) (slot3K).view prev
        (SparseCore.gatherPayload Cert.Kernel.Facts₀.gathers_S100000x128_S20x128 (View.read (Elt F) (xAllK).view fx)
          (SparseCore.rows (View.read (Elt F) (listRowK off hb).view (idxBuf d L fi fs)) hn hin)) Finset.univ y
      = GR d L (idxPay d L fi) fx j y :=
  gather_valAt d L 3 inb_S4x20x128_S1x20x128_3_0_0 fi fx fs prev off hb hn hin hfi j hoff

end Cert.Kernel.Tile

end
-- ==== Proof.K_FlightCanon.lean ====
/-
  A gather's delivery restated with the slot's canonical contents. The executor leaves the slot's contents as a list
  of writes — the payload written through the whole slot over what was there —; on the slot's own elements that is the
  contents `GR` states for the residue row, so the points-to of the slot, alone or inside a flight's delivery, is the
  points-to at `GR`.
-/
import proofs.«208374_g60447369724146_cont_9to1c4b_798_24_alg».proof.Proof.K_TileOut
import proofs.«208374_g60447369724146_cont_9to1c4b_798_24_alg».proof.Proof.K_GatherVal
import Idealize.ShloMosaic.Lib.Exec.Geometry

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- The slot's contents as one listed write of the gather's payload, on the slot's elements: what `GR` states. -/
theorem gather_writes_valAt [Cert.Kernel.Facts] (b : Nat) (hinb : ∀ a, (![b, 0, 0] : Fin 3 → Nat) a + S1x20x128.size a ≤ S4x20x128.size a)
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slotAt b hinb).view.set,
      (slotAt b hinb).view.writes (Elt F) prev [⟨Rect.whole S20x128, (SparseCore.gatherPayload Cert.Kernel.Facts₀.gathers_S100000x128_S20x128 (View.read (Elt F) (xAllK).view fx)
          (SparseCore.rows (View.read (Elt F) (listRowK off hb).view (idxBuf d L fi fs)) hn hin))⟩] y
      = GR d L (idxPay d L fi) fx j y := by
  intro y hy
  rw [← View.write_univ_eq_writes_whole, View.writes_nil]
  exact gather_valAt d L b hinb fi fx fs prev off hb hn hin hfi j hoff y hy

/-- A landed slot held at its listed contents is the slot held at `GR`. -/
theorem slot_canonAt (b : Nat) (hinb : ∀ a, (![b, 0, 0] : Fin 3 → Nat) a + S1x20x128.size a ≤ S4x20x128.size a)
    (fi : Buf (Elt F) (iLoc d)) (fx : Buf (Elt F) (xLoc d)) (base : Buf (Elt F) ((thr d L).loc cc0_scratch1)) (pay : S20x128.Idx → Elt F .f32) (j : Fin 256)
    (hval : ∀ y ∈ (slotAt b hinb).view.set, (slotAt b hinb).view.writes (Elt F) base [⟨Rect.whole S20x128, pay⟩] y = GR d L (idxPay d L fi) fx j y) :
    (((slotAt b hinb).view.loc (thr d L) ↦[(slotAt b hinb).view.set]{fullShare} (slotAt b hinb).view.writes (Elt F) base [⟨Rect.whole S20x128, pay⟩]) : sProp 𝕄) = ((slotAt b hinb).view.loc (thr d L) ↦[(slotAt b hinb).view.set]{fullShare} GR d L (idxPay d L fi) fx j) :=
  pointsTo_congr hval

/-- A flight whose delivery holds the slot at its listed contents delivers the slot at `GR`. -/
theorem flight_canonAt (b : Nat) (hinb : ∀ a, (![b, 0, 0] : Fin 3 → Nat) a + S1x20x128.size a ≤ S4x20x128.size a) (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slotAt b hinb).view.set, (slotAt b hinb).view.writes (Elt F) base [⟨Rect.whole S20x128, pay⟩] y = GR d L (idxPay d L fi) fx j y) :
    Transfers.Flight countersEmb (thr d L) sem ι N
        iprop((((slotAt b hinb).view.loc (thr d L) ↦[(slotAt b hinb).view.set]{fullShare} (slotAt b hinb).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slotAt b hinb).view.loc (thr d L) ↦[(slotAt b hinb).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) := by
  rw [slot_canonAt d L b hinb fi fx base pay j hval]

/-- Slot 0: the listed contents after its gather, on its elements. -/
theorem gather_writes_val0 [Cert.Kernel.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slot0K).view.set,
      (slot0K).view.writes (Elt F) prev [⟨Rect.whole S20x128, (SparseCore.gatherPayload Cert.Kernel.Facts₀.gathers_S100000x128_S20x128 (View.read (Elt F) (xAllK).view fx)
          (SparseCore.rows (View.read (Elt F) (listRowK off hb).view (idxBuf d L fi fs)) hn hin))⟩] y
      = GR d L (idxPay d L fi) fx j y :=
  gather_writes_valAt d L 0 inb_S4x20x128_S1x20x128_0_0_0 fi fx fs prev off hb hn hin hfi j hoff

/-- Slot 0, landed: held at its listed contents is held at `GR`. -/
theorem slot_canon0
    (fi : Buf (Elt F) (iLoc d)) (fx : Buf (Elt F) (xLoc d)) (base : Buf (Elt F) ((thr d L).loc cc0_scratch1)) (pay : S20x128.Idx → Elt F .f32) (j : Fin 256)
    (hval : ∀ y ∈ (slot0K).view.set, (slot0K).view.writes (Elt F) base [⟨Rect.whole S20x128, pay⟩] y = GR d L (idxPay d L fi) fx j y) :
    (((slot0K).view.loc (thr d L) ↦[(slot0K).view.set]{fullShare} (slot0K).view.writes (Elt F) base [⟨Rect.whole S20x128, pay⟩]) : sProp 𝕄) = ((slot0K).view.loc (thr d L) ↦[(slot0K).view.set]{fullShare} GR d L (idxPay d L fi) fx j) :=
  slot_canonAt d L 0 inb_S4x20x128_S1x20x128_0_0_0 fi fx base pay j hval

/-- Slot 0, in flight: the delivery restated at `GR`. -/
theorem flight_canon0 (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slot0K).view.set, (slot0K).view.writes (Elt F) base [⟨Rect.whole S20x128, pay⟩] y = GR d L (idxPay d L fi) fx j y) :
    Transfers.Flight countersEmb (thr d L) sem ι N
        iprop((((slot0K).view.loc (thr d L) ↦[(slot0K).view.set]{fullShare} (slot0K).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slot0K).view.loc (thr d L) ↦[(slot0K).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) :=
  flight_canonAt d L 0 inb_S4x20x128_S1x20x128_0_0_0 sem ι N i w fi fx fs base pay j hval

/-- Slot 1: the listed contents after its gather, on its elements. -/
theorem gather_writes_val1 [Cert.Kernel.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slot1K).view.set,
      (slot1K).view.writes (Elt F) prev [⟨Rect.whole S20x128, (SparseCore.gatherPayload Cert.Kernel.Facts₀.gathers_S100000x128_S20x128 (View.read (Elt F) (xAllK).view fx)
          (SparseCore.rows (View.read (Elt F) (listRowK off hb).view (idxBuf d L fi fs)) hn hin))⟩] y
      = GR d L (idxPay d L fi) fx j y :=
  gather_writes_valAt d L 1 inb_S4x20x128_S1x20x128_1_0_0 fi fx fs prev off hb hn hin hfi j hoff

/-- Slot 1, landed: held at its listed contents is held at `GR`. -/
theorem slot_canon1
    (fi : Buf (Elt F) (iLoc d)) (fx : Buf (Elt F) (xLoc d)) (base : Buf (Elt F) ((thr d L).loc cc0_scratch1)) (pay : S20x128.Idx → Elt F .f32) (j : Fin 256)
    (hval : ∀ y ∈ (slot1K).view.set, (slot1K).view.writes (Elt F) base [⟨Rect.whole S20x128, pay⟩] y = GR d L (idxPay d L fi) fx j y) :
    (((slot1K).view.loc (thr d L) ↦[(slot1K).view.set]{fullShare} (slot1K).view.writes (Elt F) base [⟨Rect.whole S20x128, pay⟩]) : sProp 𝕄) = ((slot1K).view.loc (thr d L) ↦[(slot1K).view.set]{fullShare} GR d L (idxPay d L fi) fx j) :=
  slot_canonAt d L 1 inb_S4x20x128_S1x20x128_1_0_0 fi fx base pay j hval

/-- Slot 1, in flight: the delivery restated at `GR`. -/
theorem flight_canon1 (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slot1K).view.set, (slot1K).view.writes (Elt F) base [⟨Rect.whole S20x128, pay⟩] y = GR d L (idxPay d L fi) fx j y) :
    Transfers.Flight countersEmb (thr d L) sem ι N
        iprop((((slot1K).view.loc (thr d L) ↦[(slot1K).view.set]{fullShare} (slot1K).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slot1K).view.loc (thr d L) ↦[(slot1K).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) :=
  flight_canonAt d L 1 inb_S4x20x128_S1x20x128_1_0_0 sem ι N i w fi fx fs base pay j hval

/-- Slot 2: the listed contents after its gather, on its elements. -/
theorem gather_writes_val2 [Cert.Kernel.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slot2K).view.set,
      (slot2K).view.writes (Elt F) prev [⟨Rect.whole S20x128, (SparseCore.gatherPayload Cert.Kernel.Facts₀.gathers_S100000x128_S20x128 (View.read (Elt F) (xAllK).view fx)
          (SparseCore.rows (View.read (Elt F) (listRowK off hb).view (idxBuf d L fi fs)) hn hin))⟩] y
      = GR d L (idxPay d L fi) fx j y :=
  gather_writes_valAt d L 2 inb_S4x20x128_S1x20x128_2_0_0 fi fx fs prev off hb hn hin hfi j hoff

/-- Slot 2, landed: held at its listed contents is held at `GR`. -/
theorem slot_canon2
    (fi : Buf (Elt F) (iLoc d)) (fx : Buf (Elt F) (xLoc d)) (base : Buf (Elt F) ((thr d L).loc cc0_scratch1)) (pay : S20x128.Idx → Elt F .f32) (j : Fin 256)
    (hval : ∀ y ∈ (slot2K).view.set, (slot2K).view.writes (Elt F) base [⟨Rect.whole S20x128, pay⟩] y = GR d L (idxPay d L fi) fx j y) :
    (((slot2K).view.loc (thr d L) ↦[(slot2K).view.set]{fullShare} (slot2K).view.writes (Elt F) base [⟨Rect.whole S20x128, pay⟩]) : sProp 𝕄) = ((slot2K).view.loc (thr d L) ↦[(slot2K).view.set]{fullShare} GR d L (idxPay d L fi) fx j) :=
  slot_canonAt d L 2 inb_S4x20x128_S1x20x128_2_0_0 fi fx base pay j hval

/-- Slot 2, in flight: the delivery restated at `GR`. -/
theorem flight_canon2 (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slot2K).view.set, (slot2K).view.writes (Elt F) base [⟨Rect.whole S20x128, pay⟩] y = GR d L (idxPay d L fi) fx j y) :
    Transfers.Flight countersEmb (thr d L) sem ι N
        iprop((((slot2K).view.loc (thr d L) ↦[(slot2K).view.set]{fullShare} (slot2K).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slot2K).view.loc (thr d L) ↦[(slot2K).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) :=
  flight_canonAt d L 2 inb_S4x20x128_S1x20x128_2_0_0 sem ι N i w fi fx fs base pay j hval

/-- Slot 3: the listed contents after its gather, on its elements. -/
theorem gather_writes_val3 [Cert.Kernel.Facts]
    (fi : Buf (Elt F) (iLoc d)) (fx : Buf (Elt F) (xLoc d)) (fs : Buf (Elt F) ((thr d L).loc cc0_scratch0))
    (prev : Buf (Elt F) ((thr d L).loc cc0_scratch1)) (off : Fin 2 → Nat) (hb : ∀ a, off a + S1x20.size a ≤ S256x20.size a)
    (hn : S20.numel = S20x128.size Cert.Kernel.Facts₀.gathers_S100000x128_S20x128.axis')
    (hin : ∀ x, ((listRowK off hb).view.read (Elt F) (idxBuf d L fi fs) x).toNat < S100000x128.size Cert.Kernel.Facts₀.gathers_S100000x128_S20x128.axis)
    (hfi : ∀ j, (fi j).toNat < 100000) (j : Fin 256) (hoff : off = ![j.val, 0]) :
    ∀ y ∈ (slot3K).view.set,
      (slot3K).view.writes (Elt F) prev [⟨Rect.whole S20x128, (SparseCore.gatherPayload Cert.Kernel.Facts₀.gathers_S100000x128_S20x128 (View.read (Elt F) (xAllK).view fx)
          (SparseCore.rows (View.read (Elt F) (listRowK off hb).view (idxBuf d L fi fs)) hn hin))⟩] y
      = GR d L (idxPay d L fi) fx j y :=
  gather_writes_valAt d L 3 inb_S4x20x128_S1x20x128_3_0_0 fi fx fs prev off hb hn hin hfi j hoff

/-- Slot 3, landed: held at its listed contents is held at `GR`. -/
theorem slot_canon3
    (fi : Buf (Elt F) (iLoc d)) (fx : Buf (Elt F) (xLoc d)) (base : Buf (Elt F) ((thr d L).loc cc0_scratch1)) (pay : S20x128.Idx → Elt F .f32) (j : Fin 256)
    (hval : ∀ y ∈ (slot3K).view.set, (slot3K).view.writes (Elt F) base [⟨Rect.whole S20x128, pay⟩] y = GR d L (idxPay d L fi) fx j y) :
    (((slot3K).view.loc (thr d L) ↦[(slot3K).view.set]{fullShare} (slot3K).view.writes (Elt F) base [⟨Rect.whole S20x128, pay⟩]) : sProp 𝕄) = ((slot3K).view.loc (thr d L) ↦[(slot3K).view.set]{fullShare} GR d L (idxPay d L fi) fx j) :=
  slot_canonAt d L 3 inb_S4x20x128_S1x20x128_3_0_0 fi fx base pay j hval

/-- Slot 3, in flight: the delivery restated at `GR`. -/
theorem flight_canon3 (sem : SemLoc sig) (ι : HIx 1) (N : ℕ) (i : ℕ) (w : Finset S256x20.Idx)
    (fi : Buf (Elt F) (iLoc d)) (fx : Buf (Elt F) (xLoc d)) (fs : Buf (Elt F) ((thr d L).loc cc0_scratch0))
    (base : Buf (Elt F) ((thr d L).loc cc0_scratch1)) (pay : S20x128.Idx → Elt F .f32) (j : Fin 256)
    (hval : ∀ y ∈ (slot3K).view.set, (slot3K).view.writes (Elt F) base [⟨Rect.whole S20x128, pay⟩] y = GR d L (idxPay d L fi) fx j y) :
    Transfers.Flight countersEmb (thr d L) sem ι N
        iprop((((slot3K).view.loc (thr d L) ↦[(slot3K).view.set]{fullShare} (slot3K).view.writes (Elt F) base [⟨Rect.whole S20x128, pay⟩]) ∗ ((sV).view.loc (thr d L) ↦[w]{tokS i} idxBuf d L fi fs)) ∗ ((xV).view.loc (thr d L) ↦[(xAllK).view.set]{tokX L i} fx))
      ⊢ (Transfers.Flight countersEmb (thr d L) sem ι N
        iprop((((slot3K).view.loc (thr d L) ↦[(slot3K).view.set]{fullShare} GR d L (idxPay d L fi) fx j) ∗ ((sV).view.loc (thr d L) ↦[w]{tokS i} idxBuf d L fi fs)) ∗ ((xV).view.loc (thr d L) ↦[(xAllK).view.set]{tokX L i} fx)) : sProp 𝕄) :=
  flight_canonAt d L 3 inb_S4x20x128_S1x20x128_3_0_0 sem ι N i w fi fx fs base pay j hval

end Cert.Kernel.Tile

end
-- ==== Proof.K_TripClose.lean ====
/-
  The loop invariant's gather part, re-established. After a trip the three look-ahead gathers are in flight into
  slots 0, 1, 2, their deliveries holding the slots at listed contents; on the slots' own elements those are the
  contents the invariant states for the next trip's residue rows, so the three flights, the fourth read shares, the
  free slot and its idle semaphore are the gather part before trip k + 1. After the last trip nothing is in flight:
  the four read shares of the table and of the index scratch, the four slots and the four idle semaphores are the
  gather part at 64.
-/
import proofs.«208374_g60447369724146_cont_9to1c4b_798_24_alg».proof.Proof.K_TileInv
import proofs.«208374_g60447369724146_cont_9to1c4b_798_24_alg».proof.Proof.K_FlightCanon

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

variable (m : (ℓ : Loc nD τ sig) → Buf (Elt F) ℓ) (fs : Buf (Elt F) ((thr d L).loc cc0_scratch0))

set_option maxHeartbeats 1600000 in
/-- The gather part before trip k + 1, from the three flights at listed contents. -/
theorem gathers_close (k : ℕ) (hk : k + 1 < 64) (w0 w1 w2 : Finset S256x20.Idx)
    (base0 base1 base2 : Buf (Elt F) ((thr d L).loc cc0_scratch1)) (pay0 pay1 pay2 : S20x128.Idx → Elt F .f32)
    (f3 : Buf (Elt F) ((thr d L).loc cc0_scratch1))
    (h0 : ∀ y ∈ (slot0K).view.set, (slot0K).view.writes (Elt F) base0 [⟨Rect.whole S20x128, pay0⟩] y = GR d L (idxPay d L (m (iLoc d))) (m (xLoc d)) ⟨4 * (k + 1), by omega⟩ y)
    (h1 : ∀ y ∈ (slot1K).view.set, (slot1K).view.writes (Elt F) base1 [⟨Rect.whole S20x128, pay1⟩] y = GR d L (idxPay d L (m (iLoc d))) (m (xLoc d)) ⟨4 * (k + 1) + 1, by omega⟩ y)
    (h2 : ∀ y ∈ (slot2K).view.set, (slot2K).view.writes (Elt F) base2 [⟨Rect.whole S20x128, pay2⟩] y = GR d L (idxPay d L (m (iLoc d))) (m (xLoc d)) ⟨4 * (k + 1) + 2, by omega⟩ y) :
    iprop((Transfers.Flight countersEmb (thr d L) (.dma cc0_scratch4.sem) (default : HIx 1) 81920 iprop((((slot0K).view.loc (thr d L) ↦[(slot0K).view.set]{fullShare} (slot0K).view.writes (Elt F) base0 [⟨Rect.whole S20x128, pay0⟩]) ∗ ((sV).view.loc (thr d L) ↦[w0]{tokS 1} idxBuf d L (m (iLoc d)) fs)) ∗ ((xV).view.loc (thr d L) ↦[(xAllK).view.set]{tokX L 1} m (xLoc d)))
          ∗ ((xV).view.loc (thr d L) ↦[Finset.univ \ (xAllK).view.set]{tokX L 1} m (xLoc d)) ∗ ((sV).view.loc (thr d L) ↦[Finset.univ \ w0]{tokS 1} idxBuf d L (m (iLoc d)) fs))
        ∗ (Transfers.Flight countersEmb (thr d L) (.dma cc0_scratch5.sem) (default : HIx 1) 81920 iprop((((slot1K).view.loc (thr d L) ↦[(slot1K).view.set]{fullShare} (slot1K).view.writes (Elt F) base1 [⟨Rect.whole S20x128, pay1⟩]) ∗ ((sV).view.loc (thr d L) ↦[w1]{tokS 2} idxBuf d L (m (iLoc d)) fs)) ∗ ((xV).view.loc (thr d L) ↦[(xAllK).view.set]{tokX L 2} m (xLoc d)))
          ∗ ((xV).view.loc (thr d L) ↦[Finset.univ \ (xAllK).view.set]{tokX L 2} m (xLoc d)) ∗ ((sV).view.loc (thr d L) ↦[Finset.univ \ w1]{tokS 2} idxBuf d L (m (iLoc d)) fs))
        ∗ (Transfers.Flight countersEmb (thr d L) (.dma cc0_scratch6.sem) (default : HIx 1) 81920 iprop((((slot2K).view.loc (thr d L) ↦[(slot2K).view.set]{fullShare} (slot2K).view.writes (Elt F) base2 [⟨Rect.whole S20x128, pay2⟩]) ∗ ((sV).view.loc (thr d L) ↦[w2]{tokS 3} idxBuf d L (m (iLoc d)) fs)) ∗ ((xV).view.loc (thr d L) ↦[(xAllK).view.set]{tokX L 3} m (xLoc d)))
          ∗ ((xV).view.loc (thr d L) ↦[Finset.univ \ (xAllK).view.set]{tokX L 3} m (xLoc d)) ∗ ((sV).view.loc (thr d L) ↦[Finset.univ \ w2]{tokS 3} idxBuf d L (m (iLoc d)) fs))
        ∗ ((xV).view.loc (thr d L) ↦{tokX L 4} m (xLoc d)) ∗ ((sV).view.loc (thr d L) ↦{tokS 4} idxBuf d L (m (iLoc d)) fs)
        ∗ ((slot3K).view.loc (thr d L) ↦[(slot3K).view.set]{fullShare} f3)
        ∗ semVal (thr d L, .dma cc0_scratch7.sem) 0)
      ⊢ (gathersPart d L m fs (k + 1) : sProp 𝕄) := by
  unfold gathersPart
  rw [dif_pos hk]
  rw [slot_canon0 d L (m (iLoc d)) (m (xLoc d)) base0 pay0 _ h0, slot_canon1 d L (m (iLoc d)) (m (xLoc d)) base1 pay1 _ h1,
    slot_canon2 d L (m (iLoc d)) (m (xLoc d)) base2 pay2 _ h2]
  iintro ⟨H0, H1, H2, HT, HS, H3, Hsem⟩
  iexists w0, w1, w2
  isplitl [H0]; · iexact H0
  isplitl [H1]; · iexact H1
  isplitl [H2]; · iexact H2
  isplitl [HT]; · iexact HT
  isplitl [HS]; · iexact HS
  isplitl [H3]
  · iexists f3; iexact H3
  iexact Hsem

set_option maxHeartbeats 1600000 in
/-- The gather part after the last trip. -/
theorem gathers_last (f0 f1 f2 f3 : Buf (Elt F) ((thr d L).loc cc0_scratch1)) :
    iprop(((xV).view.loc (thr d L) ↦{tokX L 1} m (xLoc d)) ∗ ((xV).view.loc (thr d L) ↦{tokX L 2} m (xLoc d))
        ∗ ((xV).view.loc (thr d L) ↦{tokX L 3} m (xLoc d)) ∗ ((xV).view.loc (thr d L) ↦{tokX L 4} m (xLoc d))
        ∗ ((sV).view.loc (thr d L) ↦{tokS 1} idxBuf d L (m (iLoc d)) fs) ∗ ((sV).view.loc (thr d L) ↦{tokS 2} idxBuf d L (m (iLoc d)) fs)
        ∗ ((sV).view.loc (thr d L) ↦{tokS 3} idxBuf d L (m (iLoc d)) fs) ∗ ((sV).view.loc (thr d L) ↦{tokS 4} idxBuf d L (m (iLoc d)) fs)
        ∗ ((slot0K).view.loc (thr d L) ↦[(slot0K).view.set]{fullShare} f0) ∗ ((slot1K).view.loc (thr d L) ↦[(slot1K).view.set]{fullShare} f1)
        ∗ ((slot2K).view.loc (thr d L) ↦[(slot2K).view.set]{fullShare} f2) ∗ ((slot3K).view.loc (thr d L) ↦[(slot3K).view.set]{fullShare} f3)
        ∗ semVal (thr d L, .dma cc0_scratch4.sem) 0 ∗ semVal (thr d L, .dma cc0_scratch5.sem) 0
        ∗ semVal (thr d L, .dma cc0_scratch6.sem) 0 ∗ semVal (thr d L, .dma cc0_scratch7.sem) 0)
      ⊢ (gathersPart d L m fs 64 : sProp 𝕄) := by
  unfold gathersPart
  rw [dif_neg (by omega : ¬ (64 < 64))]
  iintro ⟨T1, T2, T3, T4, S1, S2, S3, S4, A0, A1, A2, A3, C4, C5, C6, C7⟩
  isplitl [T1]; · iexact T1
  isplitl [T2]; · iexact T2
  isplitl [T3]; · iexact T3
  isplitl [T4]; · iexact T4
  isplitl [S1]; · iexact S1
  isplitl [S2]; · iexact S2
  isplitl [S3]; · iexact S3
  isplitl [S4]; · iexact S4
  isplitl [A0]
  · iexists f0; iexact A0
  isplitl [A1]
  · iexists f1; iexact A1
  isplitl [A2]
  · iexists f2; iexact A2
  isplitl [A3]
  · iexists f3; iexact A3
  isplitl [C4]; · iexact C4
  isplitl [C5]; · iexact C5
  isplitl [C6]; · iexact C6
  iexact C7

end Cert.Kernel.Tile

end
-- ==== Proof.K_TripVal.lean ====
/-
  Values along one trip of the loop and at a write-back. A trip stores 32 pieces, each a 1×16 row segment of rows
  4k … 4k+3 of the output scratch, holding the tile's local result there; after them the rows of the current block up
  to 4k+4 hold the local result. When a block of 64 rows is complete, its copy to the result array delivers window
  k/16 of the tile's rows of the result at the result function, and the block back as it was.
-/
import proofs.«208374_g60447369724146_cont_9to1c4b_798_24_alg».proof.Proof.K_TileInv
import proofs.«208374_g60447369724146_cont_9to1c4b_798_24_alg».proof.Proof.K_TripFacts
import proofs.«208374_g60447369724146_cont_9to1c4b_798_24_alg».proof.Proof.K_TileVal
import Idealize.ShloMosaic.Lib.Writes

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

variable (m : (ℓ : Loc nD τ sig) → Buf (Elt F) ℓ)

open Idealize.ShloMosaic.ValueIdx

/-! ## The rectangles of one trip -/

/-- A 1×16 row segment of the output scratch, as a set. -/
theorem mem_unit16 (off : Fin 2 → Nat) (hb : ∀ a, off a + S1x16.size a ≤ S256x128.size a) (y : S256x128.Idx) :
    y ∈ (Rect.unit (s := S256x128) off S1x16.size hb).set ↔ (y 0).val = off 0 ∧ off 1 ≤ (y 1).val ∧ (y 1).val < off 1 + 16 := by
  rw [Rect.mem_set_unit]
  constructor
  · intro h
    have h0 : off 0 ≤ (y 0).val ∧ (y 0).val < off 0 + 1 := h 0
    have h1 : off 1 ≤ (y 1).val ∧ (y 1).val < off 1 + 16 := h 1
    omega
  · rintro ⟨e0, lo, hi⟩ a
    match a with
    | 0 => exact (show off 0 ≤ (y 0).val ∧ (y 0).val < off 0 + 1 by omega)
    | 1 => exact (show off 1 ≤ (y 1).val ∧ (y 1).val < off 1 + 16 from ⟨lo, hi⟩)

/-- Where the segment's positions sit: the offsets added. -/
theorem unit16_emb (off : Fin 2 → Nat) (hb : ∀ a, off a + S1x16.size a ≤ S256x128.size a) (x : S1x16.Idx) (a : Fin 2) :
    (((Rect.unit (s := S256x128) off S1x16.size hb).emb x) a).val = (![off 0 + (x 0).val, off 1 + (x 1).val] : Fin 2 → Nat) a := by
  show off a + 1 * (x a).val = _
  match a with
  | ⟨0, _⟩ => show off 0 + 1 * (x 0).val = off 0 + (x 0).val; omega
  | ⟨1, _⟩ => show off 1 + 1 * (x 1).val = off 1 + (x 1).val; omega

/-- The 32 segments of trip k cover rows 4k … 4k+3: each position lies in the segment of its row and its 16-lane chunk. -/
theorem trip_cover (k : ℕ) (hk : 4 * k + 4 ≤ 256) : ∀ y : S256x128.Idx, 4 * k ≤ (y 0).val → (y 0).val < 4 * k + 4 →
    ∃ (b : Fin 4) (dc : Fin 8), (y 0).val = 4 * k + b.val ∧ 16 * dc.val ≤ (y 1).val ∧ (y 1).val < 16 * dc.val + 16 := by
  intro y hlo hhi
  have h1 : (y 1).val < 128 := (y 1).isLt
  exact ⟨⟨(y 0).val - 4 * k, by omega⟩, ⟨(y 1).val / 16, by omega⟩, by show (y 0).val = 4 * k + ((y 0).val - 4 * k); omega,
    by show 16 * ((y 1).val / 16) ≤ (y 1).val; omega, by show (y 1).val < 16 * ((y 1).val / 16) + 16; omega⟩

/-! ## The rows-done step -/

/-- After pieces that lie in rows 4k … 4k+3, cover them, and hold the local result, every row of the current block
    below 4k+4 holds the local result. -/
theorem rows_step_block (k : ℕ) (fa : Buf (Elt F) ((thr d L).loc cc0_scratch2)) (Ps : List (Σ r : Rect S256x128, (r.shape.Idx → Elt F .f32)))
    (hrows : RowsDone d L m k fa)
    (hin : ∀ p ∈ Ps, ∀ y ∈ p.1.set, 4 * k ≤ (y 0).val ∧ (y 0).val < 4 * k + 4)
    (hcov : ∀ y : S256x128.Idx, 4 * k ≤ (y 0).val → (y 0).val < 4 * k + 4 → ∃ p ∈ Ps, y ∈ p.1.set)
    (hval : ∀ p ∈ Ps, ∀ x, p.2 x = OutLoc d L m (p.1.emb x)) :
    ∀ y : S256x128.Idx, 64 * (k / 16) ≤ (y 0).val → (y 0).val < 4 * k + 4 →
      (aV).view.writes (Elt F) fa Ps y = OutLoc d L m y := by
  intro y hlo hhi
  by_cases hy : 4 * k ≤ (y 0).val
  · exact View.read_writes_apply_of_pieces (aV).view fa (OutLoc d L m) Ps hval y (hcov y hy hhi)
  · have hnot : ∀ p ∈ Ps, y ∉ p.1.set := fun p hp hmem => by
      have := hin p hp y hmem
      omega
    have h1 : (aV).view.writes (Elt F) fa Ps y = fa y := View.read_writes_apply_of_forall_not_mem (aV).view fa y Ps hnot
    exact h1.trans (hrows y hlo (by omega))

/-- THE ROWS-DONE STEP. -/
theorem rows_step (k : ℕ) (fa : Buf (Elt F) ((thr d L).loc cc0_scratch2)) (Ps : List (Σ r : Rect S256x128, (r.shape.Idx → Elt F .f32)))
    (hrows : RowsDone d L m k fa)
    (hin : ∀ p ∈ Ps, ∀ y ∈ p.1.set, 4 * k ≤ (y 0).val ∧ (y 0).val < 4 * k + 4)
    (hcov : ∀ y : S256x128.Idx, 4 * k ≤ (y 0).val → (y 0).val < 4 * k + 4 → ∃ p ∈ Ps, y ∈ p.1.set)
    (hval : ∀ p ∈ Ps, ∀ x, p.2 x = OutLoc d L m (p.1.emb x)) :
    RowsDone d L m (k + 1) ((aV).view.writes (Elt F) fa Ps) := by
  intro y hlo hhi
  refine rows_step_block d L m k fa Ps hrows hin hcov hval y ?_ (by omega)
  omega

/-! ## A finished block's write-back -/

/-- The copied block of the output scratch, as a set: block k/16. -/
theorem set_progSrc (k : Fin k0_t1_loop.trips) (hc5 : k0_cond5 k = 1#1) :
    (((aV).slice (Rect.unit (s := S256x128) (k0_off15 k) S64x128.size (k0_off15_inb k hc5)) (fun _ => rfl))).view.set = aBlkSet (k.val / 16) := by
  show ((View.whole (cc0_scratch2 : Ref sig .scVector)).slice
    (Rect.unit (s := S256x128) (k0_off15 k) S64x128.size (k0_off15_inb k hc5))).set = _
  rw [View.set_slice_whole]
  ext y
  rw [Rect.mem_set_unit, off15_eq k hc5]
  unfold aBlkSet
  rw [Finset.mem_filter]
  constructor
  · intro h
    have h0 : 64 * (k.val / 16) ≤ (y 0).val ∧ (y 0).val < 64 * (k.val / 16) + 64 := h 0
    exact ⟨Finset.mem_univ _, h0⟩
  · rintro ⟨-, lo, hi⟩ a
    have h1 : (y 1).val < 128 := (y 1).isLt
    match a with
    | 0 => exact (show 64 * (k.val / 16) ≤ (y 0).val ∧ (y 0).val < 64 * (k.val / 16) + 64 from ⟨lo, hi⟩)
    | 1 => exact (show 0 ≤ (y 1).val ∧ (y 1).val < 0 + 128 by omega)

/-- The window of the result the block is copied to, as a set: window k/16 of the tile's rows. -/
theorem set_progDst (k : Fin k0_t1_loop.trips) (hc5 : k0_cond5 k = 1#1) :
    (((oV).slice (Rect.unit (s := S8192x128) (k0_off16 L k) S64x128.size (k0_off16_inb L k hc5)) (fun _ => rfl))).view.set = oWinSet L (k.val / 16) := by
  show ((View.whole (main_v0_scv : Ref sig .scVector)).slice
    (Rect.unit (s := S8192x128) (k0_off16 L k) S64x128.size (k0_off16_inb L k hc5))).set = _
  rw [View.set_slice_whole]
  ext y
  rw [Rect.mem_set_unit, off16_eq L k hc5]
  unfold oWinSet tileBase
  rw [Finset.mem_filter]
  constructor
  · intro h
    have h0 : 512 * (L 1).val + 256 * (L 0).val + 64 * (k.val / 16) ≤ (y 0).val
        ∧ (y 0).val < 512 * (L 1).val + 256 * (L 0).val + 64 * (k.val / 16) + 64 := h 0
    exact ⟨Finset.mem_univ _, h0⟩
  · rintro ⟨-, lo, hi⟩ a
    have h1 : (y 1).val < 128 := (y 1).isLt
    match a with
    | 0 => exact (show 512 * (L 1).val + 256 * (L 0).val + 64 * (k.val / 16) ≤ (y 0).val
        ∧ (y 0).val < 512 * (L 1).val + 256 * (L 0).val + 64 * (k.val / 16) + 64 from ⟨lo, hi⟩)
    | 1 => exact (show 0 ≤ (y 1).val ∧ (y 1).val < 0 + 128 by omega)

/-- Position x of the copied block sits at row 64 (k/16) + x₀ of the output scratch. -/
theorem progSrc_emb (k : Fin k0_t1_loop.trips) (hc5 : k0_cond5 k = 1#1) (x : S64x128.Idx) (a : Fin 2) :
    (((((aV).slice (Rect.unit (s := S256x128) (k0_off15 k) S64x128.size (k0_off15_inb k hc5)) (fun _ => rfl))).view.emb x) a).val = (![64 * (k.val / 16) + (x 0).val, (x 1).val] : Fin 2 → Nat) a := by
  show (k0_off15 k) a + 1 * (x a).val = _
  rw [off15_eq k hc5]
  match a with
  | ⟨0, _⟩ => show 64 * (k.val / 16) + 1 * (x 0).val = 64 * (k.val / 16) + (x 0).val; omega
  | ⟨1, _⟩ => show 0 + 1 * (x 1).val = (x 1).val; omega

/-- Position x of the window sits at row (tile's first row) + 64 (k/16) + x₀ of the result. -/
theorem progDst_emb (k : Fin k0_t1_loop.trips) (hc5 : k0_cond5 k = 1#1) (x : S64x128.Idx) (a : Fin 2) :
    (((((oV).slice (Rect.unit (s := S8192x128) (k0_off16 L k) S64x128.size (k0_off16_inb L k hc5)) (fun _ => rfl))).view.emb x) a).val
      = (![512 * (L 1).val + 256 * (L 0).val + 64 * (k.val / 16) + (x 0).val, (x 1).val] : Fin 2 → Nat) a := by
  show (k0_off16 L k) a + 1 * (x a).val = _
  rw [off16_eq L k hc5]
  match a with
  | ⟨0, _⟩ =>
    show 512 * (L 1).val + 256 * (L 0).val + 64 * (k.val / 16) + 1 * (x 0).val
      = 512 * (L 1).val + 256 * (L 0).val + 64 * (k.val / 16) + (x 0).val
    omega
  | ⟨1, _⟩ => show 0 + 1 * (x 1).val = (x 1).val; omega

/-- WHAT THE WRITE-BACK OF A FINISHED BLOCK DELIVERS: window k/16 of the tile's rows of the result at the result
    function, and block k/16 of the output scratch, which holds the local result. -/
theorem wb_hD (k : Fin k0_t1_loop.trips) (hc5 : k0_cond5 k = 1#1) (fa : Buf (Elt F) ((thr d L).loc cc0_scratch2))
    (hrows : ∀ y : S256x128.Idx, 64 * (k.val / 16) ≤ (y 0).val → (y 0).val < 64 * (k.val / 16) + 64 → fa y = OutLoc d L m y)
    (hn : k.val / 16 < 4) :
    iprop(((((oV).slice (Rect.unit (s := S8192x128) (k0_off16 L k) S64x128.size (k0_off16_inb L k hc5)) (fun _ => rfl))).view.loc (thr d L) ↦[(((oV).slice (Rect.unit (s := S8192x128) (k0_off16 L k) S64x128.size (k0_off16_inb L k hc5)) (fun _ => rfl))).view.set]{fullShare}
            (((oV).slice (Rect.unit (s := S8192x128) (k0_off16 L k) S64x128.size (k0_off16_inb L k hc5)) (fun _ => rfl))).view.write (Elt F) (m (oLoc d)) (ReadAs.same.apply ((((aV).slice (Rect.unit (s := S256x128) (k0_off15 k) S64x128.size (k0_off15_inb k hc5)) (fun _ => rfl))).view.read (Elt F) fa)) Finset.univ)
        ∗ ((((aV).slice (Rect.unit (s := S256x128) (k0_off15 k) S64x128.size (k0_off15_inb k hc5)) (fun _ => rfl))).view.loc (thr d L) ↦[(((aV).slice (Rect.unit (s := S256x128) (k0_off15 k) S64x128.size (k0_off15_inb k hc5)) (fun _ => rfl))).view.set]{fullShare} fa))
      ⊢ (wbD d L m ⟨k.val / 16, hn⟩ : sProp 𝕄) := by
  have hD : ∀ y ∈ (((oV).slice (Rect.unit (s := S8192x128) (k0_off16 L k) S64x128.size (k0_off16_inb L k hc5)) (fun _ => rfl))).view.set,
      (((oV).slice (Rect.unit (s := S8192x128) (k0_off16 L k) S64x128.size (k0_off16_inb L k hc5)) (fun _ => rfl))).view.write (Elt F) (m (oLoc d)) (ReadAs.same.apply ((((aV).slice (Rect.unit (s := S256x128) (k0_off15 k) S64x128.size (k0_off15_inb k hc5)) (fun _ => rfl))).view.read (Elt F) fa)) Finset.univ y = Out m d y := by
    intro y hy
    obtain ⟨x, -, rfl⟩ := Finset.mem_map.mp hy
    have hx0 : (x 0).val < 64 := (x 0).isLt
    refine (View.write_emb_of_mem _ _ (Finset.mem_univ _)).trans ((cast_eq _ _).trans ?_)
    show (((aV).slice (Rect.unit (s := S256x128) (k0_off15 k) S64x128.size (k0_off15_inb k hc5)) (fun _ => rfl))).view.read (Elt F) fa x = _
    refine (View.read_apply _ _).trans ((cast_eq _ _).trans ?_)
    rw [hrows _ (by rw [progSrc_emb k hc5]; show 64 * (k.val / 16) ≤ 64 * (k.val / 16) + (x 0).val; omega)
      (by rw [progSrc_emb k hc5]; show 64 * (k.val / 16) + (x 0).val < 64 * (k.val / 16) + 64; omega)]
    unfold OutLoc Out
    refine congrArg (OutF (F := F) (m (iLoc d)) (m (xLoc d))) ?_
    funext a
    refine Fin.ext ?_
    rw [progDst_emb L k hc5]
    match a with
    | ⟨0, _⟩ =>
      show 512 * (L 1).val + 256 * (L 0).val + (((((aV).slice (Rect.unit (s := S256x128) (k0_off15 k) S64x128.size (k0_off15_inb k hc5)) (fun _ => rfl))).view.emb x) 0).val
        = 512 * (L 1).val + 256 * (L 0).val + 64 * (k.val / 16) + (x 0).val
      rw [progSrc_emb k hc5]
      show 512 * (L 1).val + 256 * (L 0).val + (64 * (k.val / 16) + (x 0).val)
        = 512 * (L 1).val + 256 * (L 0).val + 64 * (k.val / 16) + (x 0).val
      omega
    | ⟨1, _⟩ =>
      show (((((aV).slice (Rect.unit (s := S256x128) (k0_off15 k) S64x128.size (k0_off15_inb k hc5)) (fun _ => rfl))).view.emb x) 1).val = (x 1).val
      rw [progSrc_emb k hc5]
      rfl
  have hS : ∀ y ∈ (((aV).slice (Rect.unit (s := S256x128) (k0_off15 k) S64x128.size (k0_off15_inb k hc5)) (fun _ => rfl))).view.set, fa y = OutLoc d L m y := by
    intro y hy
    rw [set_progSrc k hc5] at hy
    unfold aBlkSet at hy
    rw [Finset.mem_filter] at hy
    exact hrows y hy.2.1 hy.2.2
  refine Entails.of_eq ?_
  unfold wbD
  rw [pointsTo_congr (ℓ := (((oV).slice (Rect.unit (s := S8192x128) (k0_off16 L k) S64x128.size (k0_off16_inb L k hc5)) (fun _ => rfl))).view.loc (thr d L)) hD,
    pointsTo_congr (ℓ := (((aV).slice (Rect.unit (s := S256x128) (k0_off15 k) S64x128.size (k0_off15_inb k hc5)) (fun _ => rfl))).view.loc (thr d L)) hS, set_progDst L k hc5, set_progSrc k hc5]

end Cert.Kernel.Tile

end
-- ==== Proof.K_TripVal2.lean ====
/-
  One trip's 32 stores, piece by piece. A stored piece is good for trip k at (b, dc) when its rectangle is the 1×16
  segment of row 4k + b at lanes 16 dc … 16 dc + 15 and its payload is the tile's local result there. The payload the
  kernel stores is the chunk computation of twenty loads of the slot holding residue row 4k + b; a load through the row
  scratch at a unit rectangle reads the contents at offset plus coordinate, so lane by lane the payload is the tree sum
  of the landed rows, which is the local result. Thirty-two good pieces, one per (b, dc), written over contents whose
  rows of the current block below 4k hold the local result, leave the rows below 4k + 4 holding it.
-/
import proofs.«208374_g60447369724146_cont_9to1c4b_798_24_alg».proof.Proof.K_TripVal
import proofs.«208374_g60447369724146_cont_9to1c4b_798_24_alg».proof.Proof.K_FlightCanon

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

variable (m : (ℓ : Loc nD τ sig) → Buf (Elt F) ℓ)

open Idealize.ShloMosaic.ValueIdx

/-- A piece good for trip k at (b, dc). -/
def PieceOK (k : ℕ) (p : (Σ r : Rect S256x128, (r.shape.Idx → Elt F .f32))) (b : Fin 4) (dc : Fin 8) : Prop :=
  (∀ y : S256x128.Idx, y ∈ p.1.set ↔ (y 0).val = 4 * k + b.val ∧ 16 * dc.val ≤ (y 1).val ∧ (y 1).val < 16 * dc.val + 16)
    ∧ ∀ x, p.2 x = OutLoc d L m (p.1.emb x)

/-- A load through the row scratch at a unit rectangle reads the contents at offset plus coordinate. -/
theorem readAt_rV_apply (b : Fin 4) (tt : Fin 20) (c0 : ℕ) (hc0 : c0 + 16 ≤ 128)
    (hb : ∀ a, (![b.val, tt.val, c0] : Fin 3 → Nat) a + S1x1x16.size a ≤ S4x20x128.size a)
    (C : Buf (Elt F) ((thr d L).loc cc0_scratch1)) (lane : Fin 16) :
    View.readAt (Elt F) (rV).view (Rect.unit (s := S4x20x128) ![b.val, tt.val, c0] S1x1x16.size hb).toLoadRect C
        (ix3 (0 : Fin 1) (0 : Fin 1) lane)
      = C (ix3 b tt (⟨c0 + lane.val, by omega⟩ : Fin 128)) := by
  refine (View.readAt_apply _ _ _).trans ((View.read_apply _ _).trans ((cast_eq _ _).trans (congrArg C ?_)))
  funext a
  refine Fin.ext ?_
  show (![b.val, tt.val, c0] : Fin 3 → Nat) a + 1 * ((ix3 (0 : Fin 1) (0 : Fin 1) lane) a).val = _
  match a with
  | ⟨0, _⟩ => show b.val + 1 * 0 = b.val; omega
  | ⟨1, _⟩ => show tt.val + 1 * 0 = tt.val; omega
  | ⟨2, _⟩ => show c0 + 1 * lane.val = c0 + lane.val; omega

/-- A 1×1×16 load rectangle of the row scratch at (b, tt, c₀) is in bounds when c₀ + 16 ≤ 128. -/
theorem inb_rV (b : Fin 4) (tt : Fin 20) (c0 : ℕ) (hc0 : c0 + 16 ≤ 128) :
    ∀ a, (![b.val, tt.val, c0] : Fin 3 → Nat) a + S1x1x16.size a ≤ S4x20x128.size a := by
  have hb := b.isLt
  have ht := tt.isLt
  intro a
  match a with
  | ⟨0, _⟩ => show b.val + 1 ≤ 4; omega
  | ⟨1, _⟩ => show tt.val + 1 ≤ 20; omega
  | ⟨2, _⟩ => show c0 + 16 ≤ 128; omega

/-- The 1×16 segment at the closed-form offsets (4k + b, 16 dc) is in bounds. -/
theorem inb16_of (k : ℕ) (b : Fin 4) (dc : Fin 8) (off : Fin 2 → Nat) (hoff : off = ![4 * k + b.val, 16 * dc.val])
    (hk : 4 * k + 4 ≤ 256) : ∀ a, off a + S1x16.size a ≤ S256x128.size a := by
  subst hoff
  have hb := b.isLt
  have hdc := dc.isLt
  intro a
  match a with
  | ⟨0, _⟩ => show 4 * k + b.val + 1 ≤ 256; omega
  | ⟨1, _⟩ => show 16 * dc.val + 16 ≤ 128; omega

/-- THE STORED PIECE IS GOOD: the segment at the closed-form offsets, holding the chunk computation of the twenty
    loads of a slot whose contents at (b, ·, ·) are the landed rows of residue row j = 4k + b. -/
theorem pieceOK_mk (k : ℕ) (hk : 4 * k + 4 ≤ 256) (b : Fin 4) (dc : Fin 8) (j : Fin 256) (hj : j.val = 4 * k + b.val)
    (off : Fin 2 → Nat) (hoff : off = ![4 * k + b.val, 16 * dc.val])
    (C : Buf (Elt F) ((thr d L).loc cc0_scratch1))
    (hC : ∀ (tt : Fin 20) (x : Fin 128), C (ix3 b tt x) = GR d L (idxPay d L (m (iLoc d))) (m (xLoc d)) j (ix3 b tt x))
    (inb : ∀ tt : Fin 20, ∀ a, (![b.val, tt.val, 16 * dc.val] : Fin 3 → Nat) a + S1x1x16.size a ≤ S4x20x128.size a) :
    PieceOK d L m k ⟨Rect.unit (s := S256x128) off S1x16.size (inb16_of k b dc off hoff hk),
      chunkTree fun tt => View.readAt (Elt F) (rV).view
        (Rect.unit (s := S4x20x128) ![b.val, tt.val, 16 * dc.val] S1x1x16.size (inb tt)).toLoadRect C⟩ b dc := by
  have hdc : dc.val < 8 := dc.isLt
  refine ⟨fun y => ?_, fun x => ?_⟩
  · show y ∈ (Rect.unit (s := S256x128) off S1x16.size (inb16_of k b dc off hoff hk)).set ↔ _
    rw [mem_unit16]
    subst hoff
    exact Iff.rfl
  · obtain ⟨u, lane, rfl⟩ : ∃ (u : Fin 1) (lane : Fin 16), x = ix2 u lane := ⟨_, _, eq_ix2 x⟩
    obtain rfl : u = 0 := Subsingleton.elim _ _
    show chunkTree (fun tt => View.readAt (Elt F) (rV).view
        (Rect.unit (s := S4x20x128) ![b.val, tt.val, 16 * dc.val] S1x1x16.size (inb tt)).toLoadRect C) (ix2 (0 : Fin 1) lane)
      = OutLoc d L m ((Rect.unit (s := S256x128) off S1x16.size (inb16_of k b dc off hoff hk)).emb (ix2 (0 : Fin 1) lane))
    rw [chunkTree_apply]
    have hl : lane.val < 16 := lane.isLt
    have e : (Rect.unit (s := S256x128) off S1x16.size (inb16_of k b dc off hoff hk)).emb (ix2 (0 : Fin 1) lane)
        = ix2 j (⟨16 * dc.val + lane.val, by omega⟩ : Fin 128) := by
      funext a
      refine Fin.ext ?_
      rw [unit16_emb, hoff]
      match a with
      | ⟨0, _⟩ => show 4 * k + b.val + 0 = j.val; omega
      | ⟨1, _⟩ => rfl
    rw [e, ← outLoc_of_rows d L m b j]
    refine congrArg (treeSum20 (F := F)) (funext fun tt => ?_)
    rw [readAt_rV_apply d L b tt (16 * dc.val) (by omega) (inb tt) C lane]
    exact hC tt _

/-- Position (tt, x) of slot 3 is an element of slot 3. -/
theorem slot3_mem (tt : Fin 20) (x : Fin 128) : (ix3 (3 : Fin 4) tt x : S4x20x128.Idx) ∈ (slot3K).view.set := by
  have e : (slot3K).view.emb (ix2 tt x) = ix3 (3 : Fin 4) tt x := by
    funext a
    refine Fin.ext ?_
    refine (slotAt_emb 3 inb_S4x20x128_S1x20x128_3_0_0 tt x a).trans ?_
    match a with
    | ⟨0, _⟩ => rfl
    | ⟨1, _⟩ => rfl
    | ⟨2, _⟩ => rfl
  rw [← e]
  exact View.emb_mem_set _ _

/-- Good pieces, at least one per (b, dc), written over contents whose rows of the current block below 4k hold the
    local result: the rows below 4k + 4 hold it. -/
theorem rows_of_okList (k : ℕ) (hk : 4 * k + 4 ≤ 256) (fa : Buf (Elt F) ((thr d L).loc cc0_scratch2)) (Ps : List (Σ r : Rect S256x128, (r.shape.Idx → Elt F .f32)))
    (hrows : RowsDone d L m k fa)
    (hall : ∀ p ∈ Ps, ∃ b dc, PieceOK d L m k p b dc)
    (hcovI : ∀ (b : Fin 4) (dc : Fin 8), ∃ p ∈ Ps, PieceOK d L m k p b dc) :
    ∀ y : S256x128.Idx, 64 * (k / 16) ≤ (y 0).val → (y 0).val < 4 * k + 4 →
      (aV).view.writes (Elt F) fa Ps y = OutLoc d L m y := by
  refine rows_step_block d L m k fa Ps hrows ?_ ?_ ?_
  · intro p hp y hy
    obtain ⟨b, dc, hok⟩ := hall p hp
    have := (hok.1 y).1 hy
    have hb := b.isLt
    omega
  · intro y hlo hhi
    obtain ⟨b, dc, h0, h1, h2⟩ := trip_cover k hk y hlo hhi
    obtain ⟨p, hp, hok⟩ := hcovI b dc
    exact ⟨p, hp, (hok.1 y).2 ⟨h0, h1, h2⟩⟩
  · intro p hp x
    obtain ⟨b, dc, hok⟩ := hall p hp
    exact hok.2 x

/-- THE TRIP'S 32 STORES: the pieces in store order (row 4k first, lanes 0 … 127 in chunks of 16, then rows 4k + 1,
    4k + 2, 4k + 3), each good at its (b, dc); the last write is first in the list. -/
theorem rows_of_32 (k : ℕ) (hk : 4 * k + 4 ≤ 256) (fa : Buf (Elt F) ((thr d L).loc cc0_scratch2))
    (hrows : RowsDone d L m k fa)
    (R1 : Rect S256x128) (P1 : R1.shape.Idx → Elt F .f32)
    (R2 : Rect S256x128) (P2 : R2.shape.Idx → Elt F .f32)
    (R3 : Rect S256x128) (P3 : R3.shape.Idx → Elt F .f32)
    (R4 : Rect S256x128) (P4 : R4.shape.Idx → Elt F .f32)
    (R5 : Rect S256x128) (P5 : R5.shape.Idx → Elt F .f32)
    (R6 : Rect S256x128) (P6 : R6.shape.Idx → Elt F .f32)
    (R7 : Rect S256x128) (P7 : R7.shape.Idx → Elt F .f32)
    (R8 : Rect S256x128) (P8 : R8.shape.Idx → Elt F .f32)
    (R9 : Rect S256x128) (P9 : R9.shape.Idx → Elt F .f32)
    (R10 : Rect S256x128) (P10 : R10.shape.Idx → Elt F .f32)
    (R11 : Rect S256x128) (P11 : R11.shape.Idx → Elt F .f32)
    (R12 : Rect S256x128) (P12 : R12.shape.Idx → Elt F .f32)
    (R13 : Rect S256x128) (P13 : R13.shape.Idx → Elt F .f32)
    (R14 : Rect S256x128) (P14 : R14.shape.Idx → Elt F .f32)
    (R15 : Rect S256x128) (P15 : R15.shape.Idx → Elt F .f32)
    (R16 : Rect S256x128) (P16 : R16.shape.Idx → Elt F .f32)
    (R17 : Rect S256x128) (P17 : R17.shape.Idx → Elt F .f32)
    (R18 : Rect S256x128) (P18 : R18.shape.Idx → Elt F .f32)
    (R19 : Rect S256x128) (P19 : R19.shape.Idx → Elt F .f32)
    (R20 : Rect S256x128) (P20 : R20.shape.Idx → Elt F .f32)
    (R21 : Rect S256x128) (P21 : R21.shape.Idx → Elt F .f32)
    (R22 : Rect S256x128) (P22 : R22.shape.Idx → Elt F .f32)
    (R23 : Rect S256x128) (P23 : R23.shape.Idx → Elt F .f32)
    (R24 : Rect S256x128) (P24 : R24.shape.Idx → Elt F .f32)
    (R25 : Rect S256x128) (P25 : R25.shape.Idx → Elt F .f32)
    (R26 : Rect S256x128) (P26 : R26.shape.Idx → Elt F .f32)
    (R27 : Rect S256x128) (P27 : R27.shape.Idx → Elt F .f32)
    (R28 : Rect S256x128) (P28 : R28.shape.Idx → Elt F .f32)
    (R29 : Rect S256x128) (P29 : R29.shape.Idx → Elt F .f32)
    (R30 : Rect S256x128) (P30 : R30.shape.Idx → Elt F .f32)
    (R31 : Rect S256x128) (P31 : R31.shape.Idx → Elt F .f32)
    (R32 : Rect S256x128) (P32 : R32.shape.Idx → Elt F .f32)
    (ok1 : PieceOK d L m k ⟨R1, P1⟩ 0 0)
    (ok2 : PieceOK d L m k ⟨R2, P2⟩ 0 1)
    (ok3 : PieceOK d L m k ⟨R3, P3⟩ 0 2)
    (ok4 : PieceOK d L m k ⟨R4, P4⟩ 0 3)
    (ok5 : PieceOK d L m k ⟨R5, P5⟩ 0 4)
    (ok6 : PieceOK d L m k ⟨R6, P6⟩ 0 5)
    (ok7 : PieceOK d L m k ⟨R7, P7⟩ 0 6)
    (ok8 : PieceOK d L m k ⟨R8, P8⟩ 0 7)
    (ok9 : PieceOK d L m k ⟨R9, P9⟩ 1 0)
    (ok10 : PieceOK d L m k ⟨R10, P10⟩ 1 1)
    (ok11 : PieceOK d L m k ⟨R11, P11⟩ 1 2)
    (ok12 : PieceOK d L m k ⟨R12, P12⟩ 1 3)
    (ok13 : PieceOK d L m k ⟨R13, P13⟩ 1 4)
    (ok14 : PieceOK d L m k ⟨R14, P14⟩ 1 5)
    (ok15 : PieceOK d L m k ⟨R15, P15⟩ 1 6)
    (ok16 : PieceOK d L m k ⟨R16, P16⟩ 1 7)
    (ok17 : PieceOK d L m k ⟨R17, P17⟩ 2 0)
    (ok18 : PieceOK d L m k ⟨R18, P18⟩ 2 1)
    (ok19 : PieceOK d L m k ⟨R19, P19⟩ 2 2)
    (ok20 : PieceOK d L m k ⟨R20, P20⟩ 2 3)
    (ok21 : PieceOK d L m k ⟨R21, P21⟩ 2 4)
    (ok22 : PieceOK d L m k ⟨R22, P22⟩ 2 5)
    (ok23 : PieceOK d L m k ⟨R23, P23⟩ 2 6)
    (ok24 : PieceOK d L m k ⟨R24, P24⟩ 2 7)
    (ok25 : PieceOK d L m k ⟨R25, P25⟩ 3 0)
    (ok26 : PieceOK d L m k ⟨R26, P26⟩ 3 1)
    (ok27 : PieceOK d L m k ⟨R27, P27⟩ 3 2)
    (ok28 : PieceOK d L m k ⟨R28, P28⟩ 3 3)
    (ok29 : PieceOK d L m k ⟨R29, P29⟩ 3 4)
    (ok30 : PieceOK d L m k ⟨R30, P30⟩ 3 5)
    (ok31 : PieceOK d L m k ⟨R31, P31⟩ 3 6)
    (ok32 : PieceOK d L m k ⟨R32, P32⟩ 3 7) :
    ∀ y : S256x128.Idx, 64 * (k / 16) ≤ (y 0).val → (y 0).val < 4 * k + 4 →
      (aV).view.writes (Elt F) fa [⟨R32, P32⟩, ⟨R31, P31⟩, ⟨R30, P30⟩, ⟨R29, P29⟩, ⟨R28, P28⟩, ⟨R27, P27⟩, ⟨R26, P26⟩, ⟨R25, P25⟩, ⟨R24, P24⟩, ⟨R23, P23⟩, ⟨R22, P22⟩, ⟨R21, P21⟩, ⟨R20, P20⟩, ⟨R19, P19⟩, ⟨R18, P18⟩, ⟨R17, P17⟩, ⟨R16, P16⟩, ⟨R15, P15⟩, ⟨R14, P14⟩, ⟨R13, P13⟩, ⟨R12, P12⟩, ⟨R11, P11⟩, ⟨R10, P10⟩, ⟨R9, P9⟩, ⟨R8, P8⟩, ⟨R7, P7⟩, ⟨R6, P6⟩, ⟨R5, P5⟩, ⟨R4, P4⟩, ⟨R3, P3⟩, ⟨R2, P2⟩, ⟨R1, P1⟩] y = OutLoc d L m y := by
  refine rows_of_okList d L m k hk fa _ hrows ?_ ?_
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact ⟨_, _, ok32⟩
    · exact ⟨_, _, ok31⟩
    · exact ⟨_, _, ok30⟩
    · exact ⟨_, _, ok29⟩
    · exact ⟨_, _, ok28⟩
    · exact ⟨_, _, ok27⟩
    · exact ⟨_, _, ok26⟩
    · exact ⟨_, _, ok25⟩
    · exact ⟨_, _, ok24⟩
    · exact ⟨_, _, ok23⟩
    · exact ⟨_, _, ok22⟩
    · exact ⟨_, _, ok21⟩
    · exact ⟨_, _, ok20⟩
    · exact ⟨_, _, ok19⟩
    · exact ⟨_, _, ok18⟩
    · exact ⟨_, _, ok17⟩
    · exact ⟨_, _, ok16⟩
    · exact ⟨_, _, ok15⟩
    · exact ⟨_, _, ok14⟩
    · exact ⟨_, _, ok13⟩
    · exact ⟨_, _, ok12⟩
    · exact ⟨_, _, ok11⟩
    · exact ⟨_, _, ok10⟩
    · exact ⟨_, _, ok9⟩
    · exact ⟨_, _, ok8⟩
    · exact ⟨_, _, ok7⟩
    · exact ⟨_, _, ok6⟩
    · exact ⟨_, _, ok5⟩
    · exact ⟨_, _, ok4⟩
    · exact ⟨_, _, ok3⟩
    · exact ⟨_, _, ok2⟩
    · exact ⟨_, _, ok1⟩
  · intro b dc
    fin_cases b <;> fin_cases dc
    · exact ⟨⟨R1, P1⟩, by simp only [List.mem_cons, true_or, or_true], ok1⟩
    · exact ⟨⟨R2, P2⟩, by simp only [List.mem_cons, true_or, or_true], ok2⟩
    · exact ⟨⟨R3, P3⟩, by simp only [List.mem_cons, true_or, or_true], ok3⟩
    · exact ⟨⟨R4, P4⟩, by simp only [List.mem_cons, true_or, or_true], ok4⟩
    · exact ⟨⟨R5, P5⟩, by simp only [List.mem_cons, true_or, or_true], ok5⟩
    · exact ⟨⟨R6, P6⟩, by simp only [List.mem_cons, true_or, or_true], ok6⟩
    · exact ⟨⟨R7, P7⟩, by simp only [List.mem_cons, true_or, or_true], ok7⟩
    · exact ⟨⟨R8, P8⟩, by simp only [List.mem_cons, true_or, or_true], ok8⟩
    · exact ⟨⟨R9, P9⟩, by simp only [List.mem_cons, true_or, or_true], ok9⟩
    · exact ⟨⟨R10, P10⟩, by simp only [List.mem_cons, true_or, or_true], ok10⟩
    · exact ⟨⟨R11, P11⟩, by simp only [List.mem_cons, true_or, or_true], ok11⟩
    · exact ⟨⟨R12, P12⟩, by simp only [List.mem_cons, true_or, or_true], ok12⟩
    · exact ⟨⟨R13, P13⟩, by simp only [List.mem_cons, true_or, or_true], ok13⟩
    · exact ⟨⟨R14, P14⟩, by simp only [List.mem_cons, true_or, or_true], ok14⟩
    · exact ⟨⟨R15, P15⟩, by simp only [List.mem_cons, true_or, or_true], ok15⟩
    · exact ⟨⟨R16, P16⟩, by simp only [List.mem_cons, true_or, or_true], ok16⟩
    · exact ⟨⟨R17, P17⟩, by simp only [List.mem_cons, true_or, or_true], ok17⟩
    · exact ⟨⟨R18, P18⟩, by simp only [List.mem_cons, true_or, or_true], ok18⟩
    · exact ⟨⟨R19, P19⟩, by simp only [List.mem_cons, true_or, or_true], ok19⟩
    · exact ⟨⟨R20, P20⟩, by simp only [List.mem_cons, true_or, or_true], ok20⟩
    · exact ⟨⟨R21, P21⟩, by simp only [List.mem_cons, true_or, or_true], ok21⟩
    · exact ⟨⟨R22, P22⟩, by simp only [List.mem_cons, true_or, or_true], ok22⟩
    · exact ⟨⟨R23, P23⟩, by simp only [List.mem_cons, true_or, or_true], ok23⟩
    · exact ⟨⟨R24, P24⟩, by simp only [List.mem_cons, true_or, or_true], ok24⟩
    · exact ⟨⟨R25, P25⟩, by simp only [List.mem_cons, true_or, or_true], ok25⟩
    · exact ⟨⟨R26, P26⟩, by simp only [List.mem_cons, true_or, or_true], ok26⟩
    · exact ⟨⟨R27, P27⟩, by simp only [List.mem_cons, true_or, or_true], ok27⟩
    · exact ⟨⟨R28, P28⟩, by simp only [List.mem_cons, true_or, or_true], ok28⟩
    · exact ⟨⟨R29, P29⟩, by simp only [List.mem_cons, true_or, or_true], ok29⟩
    · exact ⟨⟨R30, P30⟩, by simp only [List.mem_cons, true_or, or_true], ok30⟩
    · exact ⟨⟨R31, P31⟩, by simp only [List.mem_cons, true_or, or_true], ok31⟩
    · exact ⟨⟨R32, P32⟩, by simp only [List.mem_cons, true_or, or_true], ok32⟩

end Cert.Kernel.Tile

end
-- ==== Proof.K_TileSplit.lean ====
/-
  Splits and joins of the tile's resources around its loop. A points-to at a share is its remainder after five read
  tokens and the five tokens. The row scratch is its four slots (first coordinate 0 to 3) and the output scratch its
  four blocks of 64 rows, as equations at one contents and as joins from four. An empty set of elements is nothing,
  and a subset with its complement is the set.
-/
import proofs.«208374_g60447369724146_cont_9to1c4b_798_24_alg».proof.Proof.K_TileOut

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## Five read tokens -/

omit [FloatOps F] in
/-- A points-to at `q` is what remains after five tokens, and the five tokens. -/
theorem toks5 {ℓ : Loc nD τ sig} (S : Finset (Idx ℓ)) (q : PosShare TreeShare) (f : Buf (Elt F) ℓ) :
    (ℓ ↦[S]{q} f : sProp 𝕄) ⊣⊢ iprop((ℓ ↦[S]{Transfers.shareDrop q 5} f) ∗ (ℓ ↦[S]{Transfers.shareTokN q 0} f)
      ∗ (ℓ ↦[S]{Transfers.shareTokN q 1} f) ∗ (ℓ ↦[S]{Transfers.shareTokN q 2} f) ∗ (ℓ ↦[S]{Transfers.shareTokN q 3} f)
      ∗ (ℓ ↦[S]{Transfers.shareTokN q 4} f)) := by
  have h0 : (ℓ ↦[S]{q} f : sProp 𝕄) ⊣⊢ iprop((ℓ ↦[S]{Transfers.shareDrop q 1} f) ∗ ℓ ↦[S]{Transfers.shareTokN q 0} f) :=
    pointsTo_share (PosShare.mem_left_op_right _)
  have h1 : (ℓ ↦[S]{Transfers.shareDrop q 1} f : sProp 𝕄) ⊣⊢ iprop((ℓ ↦[S]{Transfers.shareDrop q 2} f) ∗ ℓ ↦[S]{Transfers.shareTokN q 1} f) :=
    pointsTo_share (PosShare.mem_left_op_right _)
  have h2 : (ℓ ↦[S]{Transfers.shareDrop q 2} f : sProp 𝕄) ⊣⊢ iprop((ℓ ↦[S]{Transfers.shareDrop q 3} f) ∗ ℓ ↦[S]{Transfers.shareTokN q 2} f) :=
    pointsTo_share (PosShare.mem_left_op_right _)
  have h3 : (ℓ ↦[S]{Transfers.shareDrop q 3} f : sProp 𝕄) ⊣⊢ iprop((ℓ ↦[S]{Transfers.shareDrop q 4} f) ∗ ℓ ↦[S]{Transfers.shareTokN q 3} f) :=
    pointsTo_share (PosShare.mem_left_op_right _)
  have h4 : (ℓ ↦[S]{Transfers.shareDrop q 4} f : sProp 𝕄) ⊣⊢ iprop((ℓ ↦[S]{Transfers.shareDrop q 5} f) ∗ ℓ ↦[S]{Transfers.shareTokN q 4} f) :=
    pointsTo_share (PosShare.mem_left_op_right _)
  constructor
  · iintro H
    ihave H := h0.1 $$ H
    icases H with ⟨H, T0⟩
    ihave H := h1.1 $$ H
    icases H with ⟨H, T1⟩
    ihave H := h2.1 $$ H
    icases H with ⟨H, T2⟩
    ihave H := h3.1 $$ H
    icases H with ⟨H, T3⟩
    ihave H := h4.1 $$ H
    icases H with ⟨H, T4⟩
    isplitl [H]; · iexact H
    isplitl [T0]; · iexact T0
    isplitl [T1]; · iexact T1
    isplitl [T2]; · iexact T2
    isplitl [T3]; · iexact T3
    iexact T4
  · iintro ⟨H, T0, T1, T2, T3, T4⟩
    ihave H := h4.2 $$ [H T4]
    · isplitl [H]; · iexact H
      iexact T4
    ihave H := h3.2 $$ [H T3]
    · isplitl [H]; · iexact H
      iexact T3
    ihave H := h2.2 $$ [H T2]
    · isplitl [H]; · iexact H
      iexact T2
    ihave H := h1.2 $$ [H T1]
    · isplitl [H]; · iexact H
      iexact T1
    ihave H := h0.2 $$ [H T0]
    · isplitl [H]; · iexact H
      iexact T0
    iexact H

omit [FloatOps F] in
theorem toks5_eq {ℓ : Loc nD τ sig} (S : Finset (Idx ℓ)) (q : PosShare TreeShare) (f : Buf (Elt F) ℓ) :
    (ℓ ↦[S]{q} f : sProp 𝕄) = iprop((ℓ ↦[S]{Transfers.shareDrop q 5} f) ∗ (ℓ ↦[S]{Transfers.shareTokN q 0} f)
      ∗ (ℓ ↦[S]{Transfers.shareTokN q 1} f) ∗ (ℓ ↦[S]{Transfers.shareTokN q 2} f) ∗ (ℓ ↦[S]{Transfers.shareTokN q 3} f)
      ∗ (ℓ ↦[S]{Transfers.shareTokN q 4} f)) :=
  BI.equiv_iff.mp ⟨(toks5 S q f).1, (toks5 S q f).2⟩

/-! ## A set cut in four -/

omit [FloatOps F] in
theorem pts_union_eq {ℓ : Loc nD τ sig} {I J : Finset (Idx ℓ)} (hd : Disjoint I J) (q : PosShare TreeShare) (f : Buf (Elt F) ℓ) :
    (ℓ ↦[I ∪ J]{q} f : sProp 𝕄) = iprop((ℓ ↦[I]{q} f) ∗ ℓ ↦[J]{q} f) :=
  BI.equiv_iff.mp ⟨(pointsTo_union hd).1, (pointsTo_union hd).2⟩

omit [FloatOps F] in
/-- Four pairwise disjoint sets that cover a location's elements: the whole is the four parts, at one contents. -/
theorem pts_four {ℓ : Loc nD τ sig} (A B C D : Finset (Idx ℓ)) (q : PosShare TreeShare) (f : Buf (Elt F) ℓ)
    (hAB : Disjoint A B) (hAC : Disjoint A C) (hAD : Disjoint A D) (hBC : Disjoint B C) (hBD : Disjoint B D) (hCD : Disjoint C D)
    (hcov : A ∪ (B ∪ (C ∪ D)) = Finset.univ) :
    (ℓ ↦{q} f : sProp 𝕄) = iprop((ℓ ↦[A]{q} f) ∗ (ℓ ↦[B]{q} f) ∗ (ℓ ↦[C]{q} f) ∗ (ℓ ↦[D]{q} f)) := by
  show (ℓ ↦[Finset.univ]{q} f : sProp 𝕄) = _
  rw [← hcov, pts_union_eq (Finset.disjoint_union_right.mpr ⟨hAB, Finset.disjoint_union_right.mpr ⟨hAC, hAD⟩⟩),
    pts_union_eq (Finset.disjoint_union_right.mpr ⟨hBC, hBD⟩), pts_union_eq hCD]

omit [FloatOps F] in
/-- The same from four contents: some contents of the whole agrees with each on its part. -/
theorem join_four {ℓ : Loc nD τ sig} (A B C D : Finset (Idx ℓ)) (q : PosShare TreeShare) (f0 f1 f2 f3 : Buf (Elt F) ℓ)
    (hAB : Disjoint A B) (hAC : Disjoint A C) (hAD : Disjoint A D) (hBC : Disjoint B C) (hBD : Disjoint B D) (hCD : Disjoint C D)
    (hcov : A ∪ (B ∪ (C ∪ D)) = Finset.univ) :
    iprop((ℓ ↦[A]{q} f0) ∗ (ℓ ↦[B]{q} f1) ∗ (ℓ ↦[C]{q} f2) ∗ (ℓ ↦[D]{q} f3)) ⊢ (iprop(∃ f, ℓ ↦{q} f) : sProp 𝕄) := by
  classical
  let g : Buf (Elt F) ℓ := fun y => if y ∈ A then f0 y else if y ∈ B then f1 y else if y ∈ C then f2 y else f3 y
  have hA : ∀ y ∈ A, f0 y = g y := fun y hy => by simp only [g, if_pos hy]
  have hB : ∀ y ∈ B, f1 y = g y := fun y hy => by
    have h1 : y ∉ A := fun h => Finset.disjoint_left.mp hAB h hy
    simp only [g, if_neg h1, if_pos hy]
  have hC : ∀ y ∈ C, f2 y = g y := fun y hy => by
    have h1 : y ∉ A := fun h => Finset.disjoint_left.mp hAC h hy
    have h2 : y ∉ B := fun h => Finset.disjoint_left.mp hBC h hy
    simp only [g, if_neg h1, if_neg h2, if_pos hy]
  have hD : ∀ y ∈ D, f3 y = g y := fun y hy => by
    have h1 : y ∉ A := fun h => Finset.disjoint_left.mp hAD h hy
    have h2 : y ∉ B := fun h => Finset.disjoint_left.mp hBD h hy
    have h3 : y ∉ C := fun h => Finset.disjoint_left.mp hCD h hy
    simp only [g, if_neg h1, if_neg h2, if_neg h3]
  rw [pointsTo_congr hA, pointsTo_congr hB, pointsTo_congr hC, pointsTo_congr hD,
    ← pts_four A B C D q g hAB hAC hAD hBC hBD hCD hcov]
  iintro H; iexists g; iexact H

/-! ## The row scratch in four slots -/

/-- The slot of the row scratch at first coordinate `b`. -/
abbrev rSlot (b : Nat) (hinb : ∀ a, (![b, 0, 0] : Fin 3 → Nat) a + S1x20x128.size a ≤ S4x20x128.size a) :
    Memref sig .scVector .vmem S20x128 .f32 :=
  ((rV).slice (Rect.unit (s := S4x20x128) ![b, 0, 0] S1x20x128.size hinb) (fun _ => rfl)).squeeze S20x128 squeezes_S1x20x128_S20x128

omit [FloatOps F] in
theorem mem_rSlot (b : Nat) (hinb : ∀ a, (![b, 0, 0] : Fin 3 → Nat) a + S1x20x128.size a ≤ S4x20x128.size a) (y : S4x20x128.Idx) :
    y ∈ (rSlot b hinb).view.set ↔ (y 0).val = b := by
  have e : (rSlot b hinb).view.set = (Rect.unit (s := S4x20x128) ![b, 0, 0] S1x20x128.size hinb).set := by
    show (((rV).view.slice (Rect.unit (s := S4x20x128) ![b, 0, 0] S1x20x128.size hinb)).reshape S20x128 squeezes_S1x20x128_S20x128.numel_eq).set = _
    rw [View.set_reshape]
    show ((View.whole (cc0_scratch1 : Ref sig .scVector)).slice (Rect.unit (s := S4x20x128) ![b, 0, 0] S1x20x128.size hinb)).set = _
    rw [View.set_slice]; exact Finset.map_refl
  rw [e, Rect.mem_set_unit]
  constructor
  · intro h
    have h0 : b ≤ (y 0).val ∧ (y 0).val < b + 1 := h 0
    omega
  · intro e0 a
    have h1 : (y 1).val < 20 := (y 1).isLt
    have h2 : (y 2).val < 128 := (y 2).isLt
    match a with
    | 0 => exact (show b ≤ (y 0).val ∧ (y 0).val < b + 1 by omega)
    | 1 => exact (show 0 ≤ (y 1).val ∧ (y 1).val < 0 + 20 by omega)
    | 2 => exact (show 0 ≤ (y 2).val ∧ (y 2).val < 0 + 128 by omega)

omit [FloatOps F] in
theorem mem_slot0 (y : S4x20x128.Idx) : y ∈ (slot0K).view.set ↔ (y 0).val = 0 := mem_rSlot 0 _ y
omit [FloatOps F] in
theorem mem_slot1 (y : S4x20x128.Idx) : y ∈ (slot1K).view.set ↔ (y 0).val = 1 := mem_rSlot 1 _ y
omit [FloatOps F] in
theorem mem_slot2 (y : S4x20x128.Idx) : y ∈ (slot2K).view.set ↔ (y 0).val = 2 := mem_rSlot 2 _ y
omit [FloatOps F] in
theorem mem_slot3 (y : S4x20x128.Idx) : y ∈ (slot3K).view.set ↔ (y 0).val = 3 := mem_rSlot 3 _ y

omit [FloatOps F] in
theorem slots_disjoint {b b' : Nat} {hinb hinb'} (h : b ≠ b') : Disjoint (rSlot b hinb).view.set (rSlot b' hinb').view.set :=
  Finset.disjoint_left.mpr fun y hy hy' => h (((mem_rSlot b hinb y).mp hy).symm.trans ((mem_rSlot b' hinb' y).mp hy'))

omit [FloatOps F] in
theorem slots_cover : (slot0K).view.set ∪ ((slot1K).view.set ∪ ((slot2K).view.set ∪ (slot3K).view.set)) = (Finset.univ : Finset S4x20x128.Idx) := by
  refine Finset.eq_univ_of_forall fun (y : S4x20x128.Idx) => ?_
  have h0 : (y 0).val < 4 := (y 0).isLt
  rw [Finset.mem_union, Finset.mem_union, Finset.mem_union, mem_slot0, mem_slot1, mem_slot2, mem_slot3]
  omega

/-- The row scratch is its four slots, at one contents. -/
theorem rV_slots (f : Buf (Elt F) ((thr d L).loc cc0_scratch1)) :
    ((rV).view.loc (thr d L) ↦{fullShare} f : sProp 𝕄)
      = iprop(((slot0K).view.loc (thr d L) ↦[(slot0K).view.set]{fullShare} f) ∗ ((slot1K).view.loc (thr d L) ↦[(slot1K).view.set]{fullShare} f)
          ∗ ((slot2K).view.loc (thr d L) ↦[(slot2K).view.set]{fullShare} f) ∗ ((slot3K).view.loc (thr d L) ↦[(slot3K).view.set]{fullShare} f)) :=
  pts_four (ℓ := (thr d L).loc cc0_scratch1) (slot0K).view.set (slot1K).view.set (slot2K).view.set (slot3K).view.set fullShare f
    (slots_disjoint (by decide)) (slots_disjoint (by decide)) (slots_disjoint (by decide)) (slots_disjoint (by decide))
    (slots_disjoint (by decide)) (slots_disjoint (by decide)) slots_cover

/-- The four slots at four contents are the row scratch at some contents. -/
theorem rV_join (f0 f1 f2 f3 : Buf (Elt F) ((thr d L).loc cc0_scratch1)) :
    iprop(((slot0K).view.loc (thr d L) ↦[(slot0K).view.set]{fullShare} f0) ∗ ((slot1K).view.loc (thr d L) ↦[(slot1K).view.set]{fullShare} f1)
        ∗ ((slot2K).view.loc (thr d L) ↦[(slot2K).view.set]{fullShare} f2) ∗ ((slot3K).view.loc (thr d L) ↦[(slot3K).view.set]{fullShare} f3))
      ⊢ (iprop(∃ f, (rV).view.loc (thr d L) ↦{fullShare} f) : sProp 𝕄) :=
  join_four (ℓ := (thr d L).loc cc0_scratch1) (slot0K).view.set (slot1K).view.set (slot2K).view.set (slot3K).view.set fullShare f0 f1 f2 f3
    (slots_disjoint (by decide)) (slots_disjoint (by decide)) (slots_disjoint (by decide)) (slots_disjoint (by decide))
    (slots_disjoint (by decide)) (slots_disjoint (by decide)) slots_cover

/-! ## The output scratch in four blocks of 64 rows -/

/-- The block of 64 rows of the output scratch from row `o`. -/
abbrev aBlk (o : Nat) (hinb : ∀ a, (![o, 0] : Fin 2 → Nat) a + S64x128.size a ≤ S256x128.size a) : Memref sig .scVector .vmem S64x128 .f32 :=
  (aV).slice (Rect.unit (s := S256x128) ![o, 0] S64x128.size hinb) (fun _ => rfl)

abbrev aBlk0K : Memref sig .scVector .vmem S64x128 .f32 :=
  (aV).slice (Rect.unit (s := S256x128) ![0, 0] S64x128.size inb_S256x128_S64x128_0_0) (fun _ => rfl)
abbrev aBlk1K : Memref sig .scVector .vmem S64x128 .f32 :=
  (aV).slice (Rect.unit (s := S256x128) ![64, 0] S64x128.size inb_S256x128_S64x128_64_0) (fun _ => rfl)
abbrev aBlk2K : Memref sig .scVector .vmem S64x128 .f32 :=
  (aV).slice (Rect.unit (s := S256x128) ![128, 0] S64x128.size inb_S256x128_S64x128_128_0) (fun _ => rfl)
abbrev aBlk3K : Memref sig .scVector .vmem S64x128 .f32 :=
  (aV).slice (Rect.unit (s := S256x128) ![192, 0] S64x128.size inb_S256x128_S64x128_192_0) (fun _ => rfl)

omit [FloatOps F] in
theorem mem_aBlk (o : Nat) (hinb : ∀ a, (![o, 0] : Fin 2 → Nat) a + S64x128.size a ≤ S256x128.size a) (y : S256x128.Idx) :
    y ∈ (aBlk o hinb).view.set ↔ o ≤ (y 0).val ∧ (y 0).val < o + 64 := by
  have e : (aBlk o hinb).view.set = (Rect.unit (s := S256x128) ![o, 0] S64x128.size hinb).set := by
    show ((View.whole (cc0_scratch2 : Ref sig .scVector)).slice (Rect.unit (s := S256x128) ![o, 0] S64x128.size hinb)).set = _
    rw [View.set_slice]; exact Finset.map_refl
  rw [e, Rect.mem_set_unit]
  constructor
  · intro h
    exact (show o ≤ (y 0).val ∧ (y 0).val < o + 64 from h 0)
  · intro h a
    have h1 : (y 1).val < 128 := (y 1).isLt
    match a with
    | 0 => exact (show o ≤ (y 0).val ∧ (y 0).val < o + 64 from h)
    | 1 => exact (show 0 ≤ (y 1).val ∧ (y 1).val < 0 + 128 by omega)

omit [FloatOps F] in
theorem mem_aBlk0 (y : S256x128.Idx) : y ∈ (aBlk0K).view.set ↔ 64 * 0 ≤ (y 0).val ∧ (y 0).val < 64 * 0 + 64 := mem_aBlk 0 _ y
omit [FloatOps F] in
theorem mem_aBlk1 (y : S256x128.Idx) : y ∈ (aBlk1K).view.set ↔ 64 * 1 ≤ (y 0).val ∧ (y 0).val < 64 * 1 + 64 := mem_aBlk 64 _ y
omit [FloatOps F] in
theorem mem_aBlk2 (y : S256x128.Idx) : y ∈ (aBlk2K).view.set ↔ 64 * 2 ≤ (y 0).val ∧ (y 0).val < 64 * 2 + 64 := mem_aBlk 128 _ y
omit [FloatOps F] in
theorem mem_aBlk3 (y : S256x128.Idx) : y ∈ (aBlk3K).view.set ↔ 64 * 3 ≤ (y 0).val ∧ (y 0).val < 64 * 3 + 64 := mem_aBlk 192 _ y

omit [FloatOps F] in
theorem aBlks_disjoint {o o' : Nat} {hinb hinb'} (h : o + 64 ≤ o' ∨ o' + 64 ≤ o) : Disjoint (aBlk o hinb).view.set (aBlk o' hinb').view.set :=
  Finset.disjoint_left.mpr fun y hy hy' => by
    have h1 := (mem_aBlk o hinb y).mp hy
    have h2 := (mem_aBlk o' hinb' y).mp hy'
    omega

omit [FloatOps F] in
theorem aBlks_cover : (aBlk0K).view.set ∪ ((aBlk1K).view.set ∪ ((aBlk2K).view.set ∪ (aBlk3K).view.set)) = (Finset.univ : Finset S256x128.Idx) := by
  refine Finset.eq_univ_of_forall fun (y : S256x128.Idx) => ?_
  have h0 : (y 0).val < 256 := (y 0).isLt
  rw [Finset.mem_union, Finset.mem_union, Finset.mem_union, mem_aBlk0, mem_aBlk1, mem_aBlk2, mem_aBlk3]
  omega

/-- The output scratch is its four blocks, at one contents. -/
theorem aV_blocks (f : Buf (Elt F) ((thr d L).loc cc0_scratch2)) :
    ((aV).view.loc (thr d L) ↦{fullShare} f : sProp 𝕄)
      = iprop(((aBlk0K).view.loc (thr d L) ↦[(aBlk0K).view.set]{fullShare} f) ∗ ((aBlk1K).view.loc (thr d L) ↦[(aBlk1K).view.set]{fullShare} f)
          ∗ ((aBlk2K).view.loc (thr d L) ↦[(aBlk2K).view.set]{fullShare} f) ∗ ((aBlk3K).view.loc (thr d L) ↦[(aBlk3K).view.set]{fullShare} f)) :=
  pts_four (ℓ := (thr d L).loc cc0_scratch2) (aBlk0K).view.set (aBlk1K).view.set (aBlk2K).view.set (aBlk3K).view.set fullShare f
    (aBlks_disjoint (by omega)) (aBlks_disjoint (by omega)) (aBlks_disjoint (by omega)) (aBlks_disjoint (by omega))
    (aBlks_disjoint (by omega)) (aBlks_disjoint (by omega)) aBlks_cover

/-- The four blocks at four contents are the output scratch at some contents. -/
theorem aV_join (f0 f1 f2 f3 : Buf (Elt F) ((thr d L).loc cc0_scratch2)) :
    iprop(((aBlk0K).view.loc (thr d L) ↦[(aBlk0K).view.set]{fullShare} f0) ∗ ((aBlk1K).view.loc (thr d L) ↦[(aBlk1K).view.set]{fullShare} f1)
        ∗ ((aBlk2K).view.loc (thr d L) ↦[(aBlk2K).view.set]{fullShare} f2) ∗ ((aBlk3K).view.loc (thr d L) ↦[(aBlk3K).view.set]{fullShare} f3))
      ⊢ (iprop(∃ f, (aV).view.loc (thr d L) ↦{fullShare} f) : sProp 𝕄) :=
  join_four (ℓ := (thr d L).loc cc0_scratch2) (aBlk0K).view.set (aBlk1K).view.set (aBlk2K).view.set (aBlk3K).view.set fullShare f0 f1 f2 f3
    (aBlks_disjoint (by omega)) (aBlks_disjoint (by omega)) (aBlks_disjoint (by omega)) (aBlks_disjoint (by omega))
    (aBlks_disjoint (by omega)) (aBlks_disjoint (by omega)) aBlks_cover

/-! ## Nothing, and a subset with its complement -/

omit [FloatOps F] in
theorem pointsTo_sdiff_self {ℓ : Loc nD τ sig} (S : Finset (Idx ℓ)) (q : PosShare TreeShare) (f : Buf (Elt F) ℓ) :
    (ℓ ↦[S \ S]{q} f : sProp 𝕄) ⊣⊢ iprop(emp) := by
  rw [Finset.sdiff_self, pointsTo_empty]

omit [FloatOps F] in
theorem pointsTo_rejoin {ℓ : Loc nD τ sig} (S w : Finset (Idx ℓ)) (hw : w ⊆ S) (q : PosShare TreeShare) (f : Buf (Elt F) ℓ) :
    iprop((ℓ ↦[w]{q} f) ∗ (ℓ ↦[S \ w]{q} f)) ⊣⊢ (ℓ ↦[S]{q} f : sProp 𝕄) :=
  ⟨(pointsTo_split_subset hw).2, (pointsTo_split_subset hw).1⟩

end Cert.Kernel.Tile

end
-- ==== Proof.K_OutGeom.lean ====
/-
  The output scratch and the tile's result rows, block by block. Block n of the scratch is rows [64 n, 64 n + 64);
  window n of the tile's result rows is rows [base + 64 n, base + 64 n + 64), base = 512 s + 256 c. The write-back
  at a trip k with k % 16 = 15 names block and window k / 16. What is left from block n on is block n and what is
  left from block n + 1 on; after the fourth nothing is left.
-/
import proofs.«208374_g60447369724146_cont_9to1c4b_798_24_alg».proof.Proof.K_TileInv
import proofs.«208374_g60447369724146_cont_9to1c4b_798_24_alg».proof.Proof.K_TripFacts
import proofs.«208374_g60447369724146_cont_9to1c4b_798_24_alg».proof.Proof.K_TileSplit
import proofs.«208374_g60447369724146_cont_9to1c4b_798_24_alg».proof.Proof.K_LaunchGeom

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## Membership -/

omit [FloatOps F] in
theorem mem_aBlkSet (t : ℕ) (y : S256x128.Idx) : y ∈ aBlkSet t ↔ 64 * t ≤ (y 0).val ∧ (y 0).val < 64 * t + 64 := by
  unfold aBlkSet; rw [Finset.mem_filter]; exact ⟨fun h => h.2, fun h => ⟨Finset.mem_univ _, h⟩⟩
omit [FloatOps F] in
theorem mem_oWinSet (t : ℕ) (y : S8192x128.Idx) :
    y ∈ oWinSet L t ↔ tileBase L + 64 * t ≤ (y 0).val ∧ (y 0).val < tileBase L + 64 * t + 64 := by
  unfold oWinSet; rw [Finset.mem_filter]; exact ⟨fun h => h.2, fun h => ⟨Finset.mem_univ _, h⟩⟩
omit [FloatOps F] in
theorem mem_oRest (n : ℕ) (y : S8192x128.Idx) :
    y ∈ oRest L n ↔ tileBase L + 64 * n ≤ (y 0).val ∧ (y 0).val < tileBase L + 256 := by
  unfold oRest; rw [Finset.mem_filter]; exact ⟨fun h => h.2, fun h => ⟨Finset.mem_univ _, h⟩⟩

/-- The block of 64 rows of the result array from row `o`. -/
abbrev oBlk (o : Nat) (hinb : ∀ a, (![o, 0] : Fin 2 → Nat) a + S64x128.size a ≤ S8192x128.size a) : Memref sig .scVector .hbm S64x128 .f32 :=
  (oV).slice (Rect.unit (s := S8192x128) ![o, 0] S64x128.size hinb) (fun _ => rfl)

omit [FloatOps F] in
theorem aSlice_set (off : Fin 2 → Nat) (hinb : ∀ a, off a + S64x128.size a ≤ S256x128.size a) :
    ((aV).slice (Rect.unit (s := S256x128) off S64x128.size hinb) (fun _ => rfl)).view.set = (Rect.unit (s := S256x128) off S64x128.size hinb).set := by
  show ((View.whole (cc0_scratch2 : Ref sig .scVector)).slice (Rect.unit (s := S256x128) off S64x128.size hinb)).set = _
  rw [View.set_slice]; exact Finset.map_refl
omit [FloatOps F] in
theorem oSlice_set (off : Fin 2 → Nat) (hinb : ∀ a, off a + S64x128.size a ≤ S8192x128.size a) :
    ((oV).slice (Rect.unit (s := S8192x128) off S64x128.size hinb) (fun _ => rfl)).view.set = (Rect.unit (s := S8192x128) off S64x128.size hinb).set := by
  show ((View.whole (main_v0_scv : Ref sig .scVector)).slice (Rect.unit (s := S8192x128) off S64x128.size hinb)).set = _
  rw [View.set_slice]; exact Finset.map_refl

omit [FloatOps F] in
theorem unit_set_congr {s : Shape} {off off' size : Fin s.rank → Nat} {h : ∀ a, off a + size a ≤ s.size a} {h' : ∀ a, off' a + size a ≤ s.size a}
    (e : off = off') : (Rect.unit (s := s) off size h).set = (Rect.unit (s := s) off' size h').set := by
  subst e; rfl

omit [FloatOps F] in
theorem mem_oBlk (o : Nat) (hinb : ∀ a, (![o, 0] : Fin 2 → Nat) a + S64x128.size a ≤ S8192x128.size a) (y : S8192x128.Idx) :
    y ∈ (oBlk o hinb).view.set ↔ o ≤ (y 0).val ∧ (y 0).val < o + 64 := by
  rw [oSlice_set, Rect.mem_set_unit]
  constructor
  · intro h
    exact (show o ≤ (y 0).val ∧ (y 0).val < o + 64 from h 0)
  · intro h a
    have h1 : (y 1).val < 128 := (y 1).isLt
    match a with
    | 0 => exact (show o ≤ (y 0).val ∧ (y 0).val < o + 64 from h)
    | 1 => exact (show 0 ≤ (y 1).val ∧ (y 1).val < 0 + 128 by omega)

/-! ## The current block and window as sets -/

omit [FloatOps F] in
theorem set_aCurAt (n : ℕ) (hn : n < 4) : (aCurAt n hn).view.set = aBlkSet n :=
  Finset.ext fun (y : S256x128.Idx) => (mem_aBlk (64 * n) (aCurAt_inb n hn) y).trans (mem_aBlkSet n y).symm

omit [FloatOps F] in
theorem set_oCurAt (n : ℕ) (hn : n < 4) : (oCurAt L n hn).view.set = oWinSet L n :=
  Finset.ext fun (y : S8192x128.Idx) => (mem_oBlk (tileBase L + 64 * n) (oCurAt_inb L n hn) y).trans (mem_oWinSet L n y).symm

omit [FloatOps F] in
/-- The task's r-th result window, in the launch's spelling, is window r. -/
theorem set_oWinK' (r : Fin 4) : (oWinK L r).view.set = oWinSet L r.val := by
  refine Finset.ext fun (y : S8192x128.Idx) => ?_
  rw [set_oWinK, mem_oRect, mem_oWinSet]; unfold tileBase; exact Iff.rfl

/-! ## The write-back's two ends as the program spells them -/

omit [FloatOps F] in
theorem trip_blk_lt (k : Fin k0_t1_loop.trips) : k.val / 16 < 4 := by
  have hk : k.val < 64 := k.isLt
  omega

omit [FloatOps F] in
theorem set_prog_src (k : Fin k0_t1_loop.trips) (hc5 : k0_cond5 k = 1#1) :
    (((aV).slice (Rect.unit (s := S256x128) (k0_off15 k) S64x128.size (k0_off15_inb k hc5)) (fun _ => rfl)).view.set : Finset S256x128.Idx)
      = ((aCurAt (k.val / 16) (trip_blk_lt k)).view.set : Finset S256x128.Idx) := by
  rw [aSlice_set, aSlice_set]
  exact unit_set_congr (off15_eq k hc5)

omit [FloatOps F] in
theorem set_prog_dst (k : Fin k0_t1_loop.trips) (hc5 : k0_cond5 k = 1#1) :
    (((oV).slice (Rect.unit (s := S8192x128) (k0_off16 L k) S64x128.size (k0_off16_inb L k hc5)) (fun _ => rfl)).view.set : Finset S8192x128.Idx)
      = ((oCurAt L (k.val / 16) (trip_blk_lt k)).view.set : Finset S8192x128.Idx) := by
  rw [oSlice_set, oSlice_set]
  exact unit_set_congr ((off16_eq L k hc5).trans (by unfold tileBase; rfl))

omit [FloatOps F] in
theorem prog_src_emb (k : Fin k0_t1_loop.trips) (hc5 : k0_cond5 k = 1#1) (x : S64x128.Idx) (a : Fin 2) :
    ((((aV).slice (Rect.unit (s := S256x128) (k0_off15 k) S64x128.size (k0_off15_inb k hc5)) (fun _ => rfl)).view.emb x) a).val
      = (![64 * (k.val / 16) + (x 0).val, (x 1).val] : Fin 2 → Nat) a := by
  show (k0_off15 k) a + 1 * (x a).val = _
  rw [off15_eq k hc5]
  match a with
  | ⟨0, _⟩ => show 64 * (k.val / 16) + 1 * (x 0).val = 64 * (k.val / 16) + (x 0).val; omega
  | ⟨1, _⟩ => show 0 + 1 * (x 1).val = (x 1).val; omega

omit [FloatOps F] in
theorem prog_dst_emb (k : Fin k0_t1_loop.trips) (hc5 : k0_cond5 k = 1#1) (x : S64x128.Idx) (a : Fin 2) :
    ((((oV).slice (Rect.unit (s := S8192x128) (k0_off16 L k) S64x128.size (k0_off16_inb L k hc5)) (fun _ => rfl)).view.emb x) a).val
      = (![tileBase L + 64 * (k.val / 16) + (x 0).val, (x 1).val] : Fin 2 → Nat) a := by
  show (k0_off16 L k) a + 1 * (x a).val = _
  rw [off16_eq L k hc5]
  match a with
  | ⟨0, _⟩ =>
    show 512 * (L 1).val + 256 * (L 0).val + 64 * (k.val / 16) + 1 * (x 0).val = tileBase L + 64 * (k.val / 16) + (x 0).val
    unfold tileBase; omega
  | ⟨1, _⟩ => show 0 + 1 * (x 1).val = (x 1).val; omega

/-! ## Advancing by one block -/

omit [FloatOps F] in
theorem biOf {P Q : sProp 𝕄} (e : P = Q) : P ⊣⊢ Q := ⟨Entails.of_eq e, Entails.of_eq e.symm⟩

omit [FloatOps F] in
theorem aRest_split (n : ℕ) : aRest n = aBlkSet n ∪ aRest (n + 1) := by
  refine Finset.ext fun (y : S256x128.Idx) => ?_
  have h0 : (y 0).val < 256 := (y 0).isLt
  rw [Finset.mem_union, mem_aRest, mem_aRest, mem_aBlkSet]; omega
omit [FloatOps F] in
theorem aRest_disjoint (n : ℕ) : Disjoint (aBlkSet n) (aRest (n + 1)) :=
  Finset.disjoint_left.mpr fun y h h' => by rw [mem_aBlkSet] at h; rw [mem_aRest] at h'; omega
omit [FloatOps F] in
theorem aRest_four : aRest 4 = ∅ := by
  refine Finset.eq_empty_of_forall_notMem fun (y : S256x128.Idx) h => ?_
  have h0 : (y 0).val < 256 := (y 0).isLt
  rw [mem_aRest] at h; omega

omit [FloatOps F] in
theorem oRest_split (n : ℕ) (hn : n < 4) : oRest L n = oWinSet L n ∪ oRest L (n + 1) := by
  refine Finset.ext fun (y : S8192x128.Idx) => ?_
  rw [Finset.mem_union, mem_oRest, mem_oRest, mem_oWinSet]; omega
omit [FloatOps F] in
theorem oRest_disjoint (n : ℕ) : Disjoint (oWinSet L n) (oRest L (n + 1)) :=
  Finset.disjoint_left.mpr fun y h h' => by rw [mem_oWinSet] at h; rw [mem_oRest] at h'; omega
omit [FloatOps F] in
theorem oRest_four : oRest L 4 = ∅ := by
  refine Finset.eq_empty_of_forall_notMem fun (y : S8192x128.Idx) h => ?_
  rw [mem_oRest] at h; omega

/-- What is left of the output scratch from block n + 1 on is block n + 1 and what is left from block n + 2 on. -/
theorem aRest_step (n : ℕ) (h : n + 1 < 4) (f : Buf (Elt F) ((thr d L).loc cc0_scratch2)) :
    ((aV).view.loc (thr d L) ↦[aRest (n + 1)]{fullShare} f : sProp 𝕄)
      ⊣⊢ iprop(((aCurAt (n + 1) h).view.loc (thr d L) ↦[(aCurAt (n + 1) h).view.set]{fullShare} f)
          ∗ ((aV).view.loc (thr d L) ↦[aRest (n + 2)]{fullShare} f)) := by
  rw [set_aCurAt, aRest_split (n + 1)]
  exact pointsTo_union (aRest_disjoint (n + 1))

/-- The same for the tile's result rows. -/
theorem oRest_step (n : ℕ) (h : n + 1 < 4) (f : Buf (Elt F) (oLoc d)) :
    ((oV).view.loc (thr d L) ↦[oRest L (n + 1)]{fullShare} f : sProp 𝕄)
      ⊣⊢ iprop(((oCurAt L (n + 1) h).view.loc (thr d L) ↦[(oCurAt L (n + 1) h).view.set]{fullShare} f)
          ∗ ((oV).view.loc (thr d L) ↦[oRest L (n + 2)]{fullShare} f)) := by
  rw [set_oCurAt, oRest_split L (n + 1) h]
  exact pointsTo_union (oRest_disjoint L (n + 1))

/-! ## The start -/

omit [FloatOps F] in
theorem aRest_zero_split : (Finset.univ : Finset S256x128.Idx) = aBlkSet 0 ∪ aRest 1 := by
  rw [← aRest_zero]; exact aRest_split 0

theorem aV_start (f : Buf (Elt F) ((thr d L).loc cc0_scratch2)) :
    ((aV).view.loc (thr d L) ↦{fullShare} f : sProp 𝕄)
      ⊣⊢ iprop(((aCurAt 0 (by decide)).view.loc (thr d L) ↦[(aCurAt 0 (by decide)).view.set]{fullShare} f)
          ∗ ((aV).view.loc (thr d L) ↦[aRest 1]{fullShare} f)) := by
  rw [set_aCurAt]
  show ((aV).view.loc (thr d L) ↦[Finset.univ]{fullShare} f : sProp 𝕄) ⊣⊢ _
  rw [aRest_zero_split]
  exact pointsTo_union (aRest_disjoint 0)

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

/-- The task's four result windows, at one contents, are the four window sets. -/
theorem oWins_eq (f : Buf (Elt F) (oLoc d)) :
    (bigSep Finset.univ fun r : Fin 4 => (oWinK L r).view.loc (thr d L) ↦[(oWinK L r).view.set]{fullShare} f : sProp 𝕄)
      = iprop(((oV).view.loc (thr d L) ↦[oWinSet L 0]{fullShare} f) ∗ ((oV).view.loc (thr d L) ↦[oWinSet L 1]{fullShare} f)
          ∗ ((oV).view.loc (thr d L) ↦[oWinSet L 2]{fullShare} f) ∗ ((oV).view.loc (thr d L) ↦[oWinSet L 3]{fullShare} f)) := by
  rw [bigSep_fin4, set_oWinK', set_oWinK', set_oWinK', set_oWinK']
  rfl

omit [FloatOps F] in
theorem pts_union_eq' {ℓ : Loc nD τ sig} {I J : Finset (Idx ℓ)} (hd : Disjoint I J) (q : PosShare TreeShare) (f : Buf (Elt F) ℓ) :
    (ℓ ↦[I ∪ J]{q} f : sProp 𝕄) = iprop((ℓ ↦[I]{q} f) ∗ ℓ ↦[J]{q} f) :=
  BI.equiv_iff.mp ⟨(pointsTo_union hd).1, (pointsTo_union hd).2⟩

/-- What is left of the tile's result rows from window 1 on is windows 1, 2 and 3. -/
theorem oRest_one (f : Buf (Elt F) (oLoc d)) :
    ((oV).view.loc (thr d L) ↦[oRest L 1]{fullShare} f : sProp 𝕄)
      = iprop(((oV).view.loc (thr d L) ↦[oWinSet L 1]{fullShare} f) ∗ ((oV).view.loc (thr d L) ↦[oWinSet L 2]{fullShare} f)
          ∗ ((oV).view.loc (thr d L) ↦[oWinSet L 3]{fullShare} f)) := by
  rw [oRest_split L 1 (by decide), pts_union_eq' (oRest_disjoint L 1), oRest_split L 2 (by decide), pts_union_eq' (oRest_disjoint L 2),
    oRest_split L 3 (by decide), pts_union_eq' (oRest_disjoint L 3), oRest_four, pointsTo_empty]
  exact congrArg (fun X : sProp 𝕄 => iprop(((oV).view.loc (thr d L) ↦[oWinSet L 1]{fullShare} f) ∗ ((oV).view.loc (thr d L) ↦[oWinSet L 2]{fullShare} f) ∗ X))
    (BI.equiv_iff.mp ⟨sep_emp.1, sep_emp.2⟩)

theorem oWins_start (f : Buf (Elt F) (oLoc d)) :
    (bigSep Finset.univ fun r : Fin 4 => (oWinK L r).view.loc (thr d L) ↦[(oWinK L r).view.set]{fullShare} f : sProp 𝕄)
      ⊣⊢ iprop(((oCurAt L 0 (by decide)).view.loc (thr d L) ↦[(oCurAt L 0 (by decide)).view.set]{fullShare} f)
          ∗ ((oV).view.loc (thr d L) ↦[oRest L 1]{fullShare} f)) := by
  rw [oWins_eq, set_oCurAt, oRest_one]

/-! ## The end -/

theorem oWins_end (f : Buf (Elt F) (oLoc d)) :
    iprop(((oV).view.loc (thr d L) ↦[oWinSet L 0]{fullShare} f) ∗ ((oV).view.loc (thr d L) ↦[oWinSet L 1]{fullShare} f)
        ∗ ((oV).view.loc (thr d L) ↦[oWinSet L 2]{fullShare} f) ∗ ((oV).view.loc (thr d L) ↦[oWinSet L 3]{fullShare} f))
      ⊢ (bigSep Finset.univ fun r : Fin 4 => (oWinK L r).view.loc (thr d L) ↦[(oWinK L r).view.set]{fullShare} f : sProp 𝕄) :=
  Entails.of_eq (oWins_eq d L f).symm

omit [FloatOps F] in
theorem aBlkSets_disjoint {t t' : ℕ} (h : t ≠ t') : Disjoint (aBlkSet t) (aBlkSet t') :=
  Finset.disjoint_left.mpr fun y hy hy' => by rw [mem_aBlkSet] at hy hy'; omega

omit [FloatOps F] in
theorem aBlkSets_cover : aBlkSet 0 ∪ (aBlkSet 1 ∪ (aBlkSet 2 ∪ aBlkSet 3)) = (Finset.univ : Finset S256x128.Idx) := by
  refine Finset.eq_univ_of_forall fun (y : S256x128.Idx) => ?_
  have h0 : (y 0).val < 256 := (y 0).isLt
  rw [Finset.mem_union, Finset.mem_union, Finset.mem_union, mem_aBlkSet, mem_aBlkSet, mem_aBlkSet, mem_aBlkSet]
  omega

theorem aBlks_end (f0 f1 f2 f3 : Buf (Elt F) ((thr d L).loc cc0_scratch2)) :
    iprop(((aV).view.loc (thr d L) ↦[aBlkSet 0]{fullShare} f0) ∗ ((aV).view.loc (thr d L) ↦[aBlkSet 1]{fullShare} f1)
        ∗ ((aV).view.loc (thr d L) ↦[aBlkSet 2]{fullShare} f2) ∗ ((aV).view.loc (thr d L) ↦[aBlkSet 3]{fullShare} f3))
      ⊢ (iprop(∃ f, (aV).view.loc (thr d L) ↦{fullShare} f) : sProp 𝕄) :=
  join_four (ℓ := (thr d L).loc cc0_scratch2) (aBlkSet 0) (aBlkSet 1) (aBlkSet 2) (aBlkSet 3) fullShare f0 f1 f2 f3
    (aBlkSets_disjoint (by decide)) (aBlkSets_disjoint (by decide)) (aBlkSets_disjoint (by decide)) (aBlkSets_disjoint (by decide))
    (aBlkSets_disjoint (by decide)) (aBlkSets_disjoint (by decide)) aBlkSets_cover

end Cert.Kernel.Tile

end
-- ==== Proof.K_TripLo.lean ====
/-
  One trip of the loop before the last: rows 4k … 4k+3 of the tile. The look-ahead gathers for rows 4k+3 … 4k+6 are
  issued, each landed slot is summed lane chunk by lane chunk into the current block of the output scratch, and when
  the block is complete (k % 16 = 15) it is sent out as the next copy of the write-back batch.
-/
import proofs.«208374_g60447369724146_cont_9to1c4b_798_24_alg».proof.Proof.K_OutAt
import proofs.«208374_g60447369724146_cont_9to1c4b_798_24_alg».proof.Proof.K_Spares
import proofs.«208374_g60447369724146_cont_9to1c4b_798_24_alg».proof.Proof.K_TripFacts
import proofs.«208374_g60447369724146_cont_9to1c4b_798_24_alg».proof.Proof.K_TripClose
import proofs.«208374_g60447369724146_cont_9to1c4b_798_24_alg».proof.Proof.K_TripVal
import proofs.«208374_g60447369724146_cont_9to1c4b_798_24_alg».proof.Proof.K_TripVal2
import proofs.«208374_g60447369724146_cont_9to1c4b_798_24_alg».proof.Proof.K_OutGeom

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)
  (fs : Buf (Elt F) ((thr d L).loc cc0_scratch0))

set_option maxRecDepth 65536 in
set_option maxHeartbeats 32000000 in
theorem trip_lo (hpre : PreOK m) (O : CellTallies nD τ sig (HIx 1)) (W : Waits sig (HIx 1)) (v1 : BitVec 32)
    (k : Fin k0_t1_loop.trips) (hk : k.val < 63) (acc : BitVec 32)
    (Q : BitVec 32 → sProp 𝕄) (hQ : ∀ a, inv d L m fs O W (k.val + 1) a ⊢ Q a) :
    inv d L m fs O W k.val acc
      ⊢ wp frame (wpE (defs₀ (F := F)) 𝒱₀ (thr d L) none) Set.univ
          (k0_t1_body L iV (Memref.isWhole_whole _) xV (Memref.isWhole_whole _) oV (Memref.isWhole_whole _)
            sV (Memref.isWhole_whole _) rV (Memref.isWhole_whole _) aV (Memref.isWhole_whole _)
            cc0_scratch3 cc0_scratch4 cc0_scratch5 cc0_scratch6 cc0_scratch7 cc0_scoped0 v1 k acc)
          Q := by
  have hk64 : k.val < 64 := k.isLt
  unfold inv gathersPart outPart
  rw [dif_pos hk64, dif_pos hk64]
  iintro ⟨Hmw, Hi, Hxd, Hx0, Hsd, Hs0, ⟨%w0, %w1, %w2, ⟨Hg0, HxR1, HsR1⟩, ⟨Hg1, HxR2, HsR2⟩, ⟨Hg2, HxR3, HsR3⟩, Hx4, Hs4, ⟨%f3, Hr3⟩, Hg3⟩, ⟨⟨%fa, Ha, %hrows⟩, ⟨%faf, Haf⟩, Hoc, Hof⟩, HB, %W', %hW', HO⟩
  have hin : ∀ (off : Fin 2 → Nat) (hb : ∀ a, off a + S1x20.size a ≤ S256x20.size a) (hs : ∀ a, (Rect.unit (s := S256x20) off S1x20.size hb).stride a = 1) (x : S20.Idx),
      (((sV.slice (Rect.unit (s := S256x20) off S1x20.size hb) hs).squeeze S20 squeezes_S1x20_S20).view.read (Elt F)
        (idxBuf d L (m (iLoc d)) fs) x).toNat < 100000 := hin_all d L (m (iLoc d)) fs (hpre d)
  have hc1 := cond1_all k
  ihave Hsp := (spares_fold d L m fs) $$ [Hxd Hx0 Hsd Hs0]
  · isplitl [Hxd]; · iexact Hxd
    isplitl [Hx0]; · iexact Hx0
    isplitl [Hsd]; · iexact Hsd
    iexact Hs0
  have hc2 := cond2_lo k hk
  have hc3 := cond3_lo k hk
  have hc4 := cond4_lo k hk
  unfold k0_t1_body
  set_option sl_exec.stopBefore "k0_cond5" in sl_exec_parts
  have hn : k.val / 16 < 4 := by omega
  have hk1 : k.val + 1 < 64 := by omega
  -- THE VALUE STEP: the 32 stores leave the rows of the current block below 4k + 4 at the local result
  have hk4 : 4 * k.val + 4 ≤ 256 := by omega
  have hC3 : ∀ (tt : Fin 20) (x : Fin 128),
      ((slot3K).view.writes (Elt F) (slot3K).view.junk [⟨Rect.whole S20x128, trip_lo.sl.gather0 d L m fs k hin hc1⟩])
          (ValueIdx.ix3 (3 : Fin 4) tt x)
        = GR d L (idxPay d L (m (iLoc d))) (m (xLoc d)) ⟨4 * k.val + 3, by omega⟩ (ValueIdx.ix3 (3 : Fin 4) tt x) :=
    fun tt x => gather_writes_val3 d L (m (iLoc d)) (m (xLoc d)) fs _ (k0_off2 k) _ _ _ (hpre d) ⟨4 * k.val + 3, by omega⟩
      (k0_off2_eq k) _ (slot3_mem tt x)
  have hrowsB : ∀ y : S256x128.Idx, 64 * (k.val / 16) ≤ (y 0).val → (y 0).val < 4 * k.val + 4 →
      trip_lo.sl.Ha_w32 d L m fs k hk64 fa hin hc1 y = OutLoc d L m y := by
    refine rows_of_32 d L m k.val hk4 fa hrows _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      ?ok1 ?ok2 ?ok3 ?ok4 ?ok5 ?ok6 ?ok7 ?ok8 ?ok9 ?ok10 ?ok11 ?ok12 ?ok13 ?ok14 ?ok15 ?ok16 ?ok17 ?ok18 ?ok19 ?ok20 ?ok21 ?ok22 ?ok23 ?ok24 ?ok25 ?ok26 ?ok27 ?ok28 ?ok29 ?ok30 ?ok31 ?ok32
    · exact pieceOK_mk d L m k.val hk4 0 0 ⟨4 * k.val, by omega⟩ rfl (k0_off4 k 0#32) (k0_off4_eq k ⟨0, by decide⟩) (GR d L (idxPay d L (m (iLoc d))) (m (xLoc d)) ⟨4 * k.val, by omega⟩) (fun _ _ => rfl) (fun tt => inb_rV 0 tt (16 * 0) (by omega))
    · exact pieceOK_mk d L m k.val hk4 0 1 ⟨4 * k.val, by omega⟩ rfl (k0_off5 k 0#32) (k0_off5_eq k ⟨0, by decide⟩) (GR d L (idxPay d L (m (iLoc d))) (m (xLoc d)) ⟨4 * k.val, by omega⟩) (fun _ _ => rfl) (fun tt => inb_rV 0 tt (16 * 1) (by omega))
    · exact pieceOK_mk d L m k.val hk4 0 2 ⟨4 * k.val, by omega⟩ rfl (k0_off6 k 0#32) (k0_off6_eq k ⟨0, by decide⟩) (GR d L (idxPay d L (m (iLoc d))) (m (xLoc d)) ⟨4 * k.val, by omega⟩) (fun _ _ => rfl) (fun tt => inb_rV 0 tt (16 * 2) (by omega))
    · exact pieceOK_mk d L m k.val hk4 0 3 ⟨4 * k.val, by omega⟩ rfl (k0_off7 k 0#32) (k0_off7_eq k ⟨0, by decide⟩) (GR d L (idxPay d L (m (iLoc d))) (m (xLoc d)) ⟨4 * k.val, by omega⟩) (fun _ _ => rfl) (fun tt => inb_rV 0 tt (16 * 3) (by omega))
    · exact pieceOK_mk d L m k.val hk4 0 4 ⟨4 * k.val, by omega⟩ rfl (k0_off8 k 0#32) (k0_off8_eq k ⟨0, by decide⟩) (GR d L (idxPay d L (m (iLoc d))) (m (xLoc d)) ⟨4 * k.val, by omega⟩) (fun _ _ => rfl) (fun tt => inb_rV 0 tt (16 * 4) (by omega))
    · exact pieceOK_mk d L m k.val hk4 0 5 ⟨4 * k.val, by omega⟩ rfl (k0_off9 k 0#32) (k0_off9_eq k ⟨0, by decide⟩) (GR d L (idxPay d L (m (iLoc d))) (m (xLoc d)) ⟨4 * k.val, by omega⟩) (fun _ _ => rfl) (fun tt => inb_rV 0 tt (16 * 5) (by omega))
    · exact pieceOK_mk d L m k.val hk4 0 6 ⟨4 * k.val, by omega⟩ rfl (k0_off10 k 0#32) (k0_off10_eq k ⟨0, by decide⟩) (GR d L (idxPay d L (m (iLoc d))) (m (xLoc d)) ⟨4 * k.val, by omega⟩) (fun _ _ => rfl) (fun tt => inb_rV 0 tt (16 * 6) (by omega))
    · exact pieceOK_mk d L m k.val hk4 0 7 ⟨4 * k.val, by omega⟩ rfl (k0_off11 k 0#32) (k0_off11_eq k ⟨0, by decide⟩) (GR d L (idxPay d L (m (iLoc d))) (m (xLoc d)) ⟨4 * k.val, by omega⟩) (fun _ _ => rfl) (fun tt => inb_rV 0 tt (16 * 7) (by omega))
    · exact pieceOK_mk d L m k.val hk4 1 0 ⟨4 * k.val + 1, by omega⟩ rfl (k0_off4 k 1#32) (k0_off4_eq k ⟨1, by decide⟩) (GR d L (idxPay d L (m (iLoc d))) (m (xLoc d)) ⟨4 * k.val + 1, by omega⟩) (fun _ _ => rfl) (fun tt => inb_rV 1 tt (16 * 0) (by omega))
    · exact pieceOK_mk d L m k.val hk4 1 1 ⟨4 * k.val + 1, by omega⟩ rfl (k0_off5 k 1#32) (k0_off5_eq k ⟨1, by decide⟩) (GR d L (idxPay d L (m (iLoc d))) (m (xLoc d)) ⟨4 * k.val + 1, by omega⟩) (fun _ _ => rfl) (fun tt => inb_rV 1 tt (16 * 1) (by omega))
    · exact pieceOK_mk d L m k.val hk4 1 2 ⟨4 * k.val + 1, by omega⟩ rfl (k0_off6 k 1#32) (k0_off6_eq k ⟨1, by decide⟩) (GR d L (idxPay d L (m (iLoc d))) (m (xLoc d)) ⟨4 * k.val + 1, by omega⟩) (fun _ _ => rfl) (fun tt => inb_rV 1 tt (16 * 2) (by omega))
    · exact pieceOK_mk d L m k.val hk4 1 3 ⟨4 * k.val + 1, by omega⟩ rfl (k0_off7 k 1#32) (k0_off7_eq k ⟨1, by decide⟩) (GR d L (idxPay d L (m (iLoc d))) (m (xLoc d)) ⟨4 * k.val + 1, by omega⟩) (fun _ _ => rfl) (fun tt => inb_rV 1 tt (16 * 3) (by omega))
    · exact pieceOK_mk d L m k.val hk4 1 4 ⟨4 * k.val + 1, by omega⟩ rfl (k0_off8 k 1#32) (k0_off8_eq k ⟨1, by decide⟩) (GR d L (idxPay d L (m (iLoc d))) (m (xLoc d)) ⟨4 * k.val + 1, by omega⟩) (fun _ _ => rfl) (fun tt => inb_rV 1 tt (16 * 4) (by omega))
    · exact pieceOK_mk d L m k.val hk4 1 5 ⟨4 * k.val + 1, by omega⟩ rfl (k0_off9 k 1#32) (k0_off9_eq k ⟨1, by decide⟩) (GR d L (idxPay d L (m (iLoc d))) (m (xLoc d)) ⟨4 * k.val + 1, by omega⟩) (fun _ _ => rfl) (fun tt => inb_rV 1 tt (16 * 5) (by omega))
    · exact pieceOK_mk d L m k.val hk4 1 6 ⟨4 * k.val + 1, by omega⟩ rfl (k0_off10 k 1#32) (k0_off10_eq k ⟨1, by decide⟩) (GR d L (idxPay d L (m (iLoc d))) (m (xLoc d)) ⟨4 * k.val + 1, by omega⟩) (fun _ _ => rfl) (fun tt => inb_rV 1 tt (16 * 6) (by omega))
    · exact pieceOK_mk d L m k.val hk4 1 7 ⟨4 * k.val + 1, by omega⟩ rfl (k0_off11 k 1#32) (k0_off11_eq k ⟨1, by decide⟩) (GR d L (idxPay d L (m (iLoc d))) (m (xLoc d)) ⟨4 * k.val + 1, by omega⟩) (fun _ _ => rfl) (fun tt => inb_rV 1 tt (16 * 7) (by omega))
    · exact pieceOK_mk d L m k.val hk4 2 0 ⟨4 * k.val + 2, by omega⟩ rfl (k0_off4 k 2#32) (k0_off4_eq k ⟨2, by decide⟩) (GR d L (idxPay d L (m (iLoc d))) (m (xLoc d)) ⟨4 * k.val + 2, by omega⟩) (fun _ _ => rfl) (fun tt => inb_rV 2 tt (16 * 0) (by omega))
    · exact pieceOK_mk d L m k.val hk4 2 1 ⟨4 * k.val + 2, by omega⟩ rfl (k0_off5 k 2#32) (k0_off5_eq k ⟨2, by decide⟩) (GR d L (idxPay d L (m (iLoc d))) (m (xLoc d)) ⟨4 * k.val + 2, by omega⟩) (fun _ _ => rfl) (fun tt => inb_rV 2 tt (16 * 1) (by omega))
    · exact pieceOK_mk d L m k.val hk4 2 2 ⟨4 * k.val + 2, by omega⟩ rfl (k0_off6 k 2#32) (k0_off6_eq k ⟨2, by decide⟩) (GR d L (idxPay d L (m (iLoc d))) (m (xLoc d)) ⟨4 * k.val + 2, by omega⟩) (fun _ _ => rfl) (fun tt => inb_rV 2 tt (16 * 2) (by omega))
    · exact pieceOK_mk d L m k.val hk4 2 3 ⟨4 * k.val + 2, by omega⟩ rfl (k0_off7 k 2#32) (k0_off7_eq k ⟨2, by decide⟩) (GR d L (idxPay d L (m (iLoc d))) (m (xLoc d)) ⟨4 * k.val + 2, by omega⟩) (fun _ _ => rfl) (fun tt => inb_rV 2 tt (16 * 3) (by omega))
    · exact pieceOK_mk d L m k.val hk4 2 4 ⟨4 * k.val + 2, by omega⟩ rfl (k0_off8 k 2#32) (k0_off8_eq k ⟨2, by decide⟩) (GR d L (idxPay d L (m (iLoc d))) (m (xLoc d)) ⟨4 * k.val + 2, by omega⟩) (fun _ _ => rfl) (fun tt => inb_rV 2 tt (16 * 4) (by omega))
    · exact pieceOK_mk d L m k.val hk4 2 5 ⟨4 * k.val + 2, by omega⟩ rfl (k0_off9 k 2#32) (k0_off9_eq k ⟨2, by decide⟩) (GR d L (idxPay d L (m (iLoc d))) (m (xLoc d)) ⟨4 * k.val + 2, by omega⟩) (fun _ _ => rfl) (fun tt => inb_rV 2 tt (16 * 5) (by omega))
    · exact pieceOK_mk d L m k.val hk4 2 6 ⟨4 * k.val + 2, by omega⟩ rfl (k0_off10 k 2#32) (k0_off10_eq k ⟨2, by decide⟩) (GR d L (idxPay d L (m (iLoc d))) (m (xLoc d)) ⟨4 * k.val + 2, by omega⟩) (fun _ _ => rfl) (fun tt => inb_rV 2 tt (16 * 6) (by omega))
    · exact pieceOK_mk d L m k.val hk4 2 7 ⟨4 * k.val + 2, by omega⟩ rfl (k0_off11 k 2#32) (k0_off11_eq k ⟨2, by decide⟩) (GR d L (idxPay d L (m (iLoc d))) (m (xLoc d)) ⟨4 * k.val + 2, by omega⟩) (fun _ _ => rfl) (fun tt => inb_rV 2 tt (16 * 7) (by omega))
    · exact pieceOK_mk d L m k.val hk4 3 0 ⟨4 * k.val + 3, by omega⟩ rfl (k0_off4 k 3#32) (k0_off4_eq k ⟨3, by decide⟩) ((slot3K).view.writes (Elt F) (slot3K).view.junk [⟨Rect.whole S20x128, trip_lo.sl.gather0 d L m fs k hin hc1⟩]) hC3 (fun tt => inb_rV 3 tt (16 * 0) (by omega))
    · exact pieceOK_mk d L m k.val hk4 3 1 ⟨4 * k.val + 3, by omega⟩ rfl (k0_off5 k 3#32) (k0_off5_eq k ⟨3, by decide⟩) ((slot3K).view.writes (Elt F) (slot3K).view.junk [⟨Rect.whole S20x128, trip_lo.sl.gather0 d L m fs k hin hc1⟩]) hC3 (fun tt => inb_rV 3 tt (16 * 1) (by omega))
    · exact pieceOK_mk d L m k.val hk4 3 2 ⟨4 * k.val + 3, by omega⟩ rfl (k0_off6 k 3#32) (k0_off6_eq k ⟨3, by decide⟩) ((slot3K).view.writes (Elt F) (slot3K).view.junk [⟨Rect.whole S20x128, trip_lo.sl.gather0 d L m fs k hin hc1⟩]) hC3 (fun tt => inb_rV 3 tt (16 * 2) (by omega))
    · exact pieceOK_mk d L m k.val hk4 3 3 ⟨4 * k.val + 3, by omega⟩ rfl (k0_off7 k 3#32) (k0_off7_eq k ⟨3, by decide⟩) ((slot3K).view.writes (Elt F) (slot3K).view.junk [⟨Rect.whole S20x128, trip_lo.sl.gather0 d L m fs k hin hc1⟩]) hC3 (fun tt => inb_rV 3 tt (16 * 3) (by omega))
    · exact pieceOK_mk d L m k.val hk4 3 4 ⟨4 * k.val + 3, by omega⟩ rfl (k0_off8 k 3#32) (k0_off8_eq k ⟨3, by decide⟩) ((slot3K).view.writes (Elt F) (slot3K).view.junk [⟨Rect.whole S20x128, trip_lo.sl.gather0 d L m fs k hin hc1⟩]) hC3 (fun tt => inb_rV 3 tt (16 * 4) (by omega))
    · exact pieceOK_mk d L m k.val hk4 3 5 ⟨4 * k.val + 3, by omega⟩ rfl (k0_off9 k 3#32) (k0_off9_eq k ⟨3, by decide⟩) ((slot3K).view.writes (Elt F) (slot3K).view.junk [⟨Rect.whole S20x128, trip_lo.sl.gather0 d L m fs k hin hc1⟩]) hC3 (fun tt => inb_rV 3 tt (16 * 5) (by omega))
    · exact pieceOK_mk d L m k.val hk4 3 6 ⟨4 * k.val + 3, by omega⟩ rfl (k0_off10 k 3#32) (k0_off10_eq k ⟨3, by decide⟩) ((slot3K).view.writes (Elt F) (slot3K).view.junk [⟨Rect.whole S20x128, trip_lo.sl.gather0 d L m fs k hin hc1⟩]) hC3 (fun tt => inb_rV 3 tt (16 * 6) (by omega))
    · exact pieceOK_mk d L m k.val hk4 3 7 ⟨4 * k.val + 3, by omega⟩ rfl (k0_off11 k 3#32) (k0_off11_eq k ⟨3, by decide⟩) ((slot3K).view.writes (Elt F) (slot3K).view.junk [⟨Rect.whole S20x128, trip_lo.sl.gather0 d L m fs k hin hc1⟩]) hC3 (fun tt => inb_rV 3 tt (16 * 7) (by omega))
  have hrowsN : RowsDone d L m (k.val + 1) (trip_lo.sl.Ha_w32 d L m fs k hk64 fa hin hc1) :=
    fun y hlo hhi => hrowsB y (by omega) (by omega)
  have hv0 := gather_writes_val0 d L (m (iLoc d)) (m (xLoc d)) fs (GR d L (idxPay d L (m (iLoc d))) (m (xLoc d)) ⟨4 * k.val, by omega⟩)
    (k0_off12 k) (k0_off12_inb k hc2) rfl (fun x => hin _ _ _ x) (hpre d) ⟨4 * (k.val + 1), by omega⟩
    ((k0_off12_eq k).trans (by rw [show 4 * k.val + 4 = 4 * (k.val + 1) by omega]))
  have hv1 := gather_writes_val1 d L (m (iLoc d)) (m (xLoc d)) fs (GR d L (idxPay d L (m (iLoc d))) (m (xLoc d)) ⟨4 * k.val + 1, by omega⟩)
    (k0_off13 k) (k0_off13_inb k hc3) rfl (fun x => hin _ _ _ x) (hpre d) ⟨4 * (k.val + 1) + 1, by omega⟩
    ((k0_off13_eq k).trans (by rw [show 4 * k.val + 5 = 4 * (k.val + 1) + 1 by omega]))
  have hv2 := gather_writes_val2 d L (m (iLoc d)) (m (xLoc d)) fs (GR d L (idxPay d L (m (iLoc d))) (m (xLoc d)) ⟨4 * k.val + 2, by omega⟩)
    (k0_off14 k) (k0_off14_inb k hc4) rfl (fun x => hin _ _ _ x) (hpre d) ⟨4 * (k.val + 1) + 2, by omega⟩
    ((k0_off14_eq k).trans (by rw [show 4 * k.val + 6 = 4 * (k.val + 1) + 2 by omega]))
  by_cases hc5 : k0_cond5 k = 1#1
  · -- the block is complete: it is sent out, and the next block becomes the current one
    have h15 : k.val % 16 = 15 := (cond5_iff k).mp hc5
    have hn1 : k.val / 16 + 1 < 4 := by omega
    have hdiv : (k.val + 1) / 16 = k.val / 16 + 1 := by omega
    have hrowsBlk : ∀ y : S256x128.Idx, 64 * (k.val / 16) ≤ (y 0).val → (y 0).val < 64 * (k.val / 16) + 64 →
        trip_lo.sl.Ha_w32 d L m fs k hk64 fa hin hc1 y = OutLoc d L m y := fun y h1 h2 => hrowsB y h1 (by omega)
    rw [dif_pos hc5]
    ihave Hsrc := (Entails.of_eq (congrArg (fun S => ((aV).view.loc (thr d L) ↦[S]{fullShare} (trip_lo.sl.Ha_w32 d L m fs k hk64 fa hin hc1) : sProp 𝕄)) (set_prog_src k hc5).symm)) $$ Ha
    ihave Hdst := (Entails.of_eq (congrArg (fun S => ((oV).view.loc (thr d L) ↦[S]{fullShare} m (oLoc d) : sProp 𝕄)) (set_prog_dst L k hc5).symm)) $$ Hoc
    iapply (Transfers.wp_dmaBatch countersEmb 𝒱₀ (thr d L) none (src := ((aV).slice (Rect.unit (s := S256x128) (k0_off15 k) S64x128.size (k0_off15_inb k hc5)) (fun _ => rfl))) (dst := ((oV).slice (Rect.unit (s := S8192x128) (k0_off16 L k) S64x128.size (k0_off16_inb L k hc5)) (fun _ => rfl))) (default : HIx 1) wbN (wbN_eq _ _) (Finset.Subset.refl _) hn (Nat.zero_le _)
        (wb_hD d L m k hc5 (trip_lo.sl.Ha_w32 d L m fs k hk64 fa hin hc1) hrowsBlk hn)) $$ [Hsrc Hdst HB]
    · isplitl [Hsrc]; · iexact Hsrc
      isplitl [Hdst]; · iexact Hdst
      iexact HB
    iintro HB
    rw [Prog.bind]
    first
      | sl_step
      | (sl_exec; sl_step)
      | (beta_reduce; sl_step)
    ihave Hsp' := (spares_open d L m fs) $$ Hsp
    icases Hsp' with ⟨Hxd, Hx0, Hsd, Hs0⟩
    iapply (hQ 0#32)
    unfold inv
    isplitl [Hmw]; · iexact Hmw
    isplitl [Hi]; · iexact Hi
    isplitl [Hxd]; · iexact Hxd
    isplitl [Hx0]; · iexact Hx0
    isplitl [Hsd]; · iexact Hsd
    isplitl [Hs0]; · iexact Hs0
    isplitl [Hg0 HxR1 HsR1 Hg1 HxR2 HsR2 Hg2 HxR3 HsR3 Hx4 Hs4 Hr3 Hg3]
    · iapply (gathers_close d L m fs k.val hk1 _ _ _ _ _ _ _ _ _ _ hv0 hv1 hv2)
      isplitl [Hg0 HxR1 HsR1]
      · isplitl [Hg0]; · iexact Hg0
        isplitl [HxR1]; · iexact HxR1
        iexact HsR1
      isplitl [Hg1 HxR2 HsR2]
      · isplitl [Hg1]; · iexact Hg1
        isplitl [HxR2]; · iexact HxR2
        iexact HsR2
      isplitl [Hg2 HxR3 HsR3]
      · isplitl [Hg2]; · iexact Hg2
        isplitl [HxR3]; · iexact HxR3
        iexact HsR3
      isplitl [Hx4]; · iexact Hx4
      isplitl [Hs4]; · iexact Hs4
      isplitl [Hr3]; · iexact Hr3
      iexact Hg3
    isplitl [Haf Hof]
    · rw [outPart_eq d L m (k.val + 1) hk1 (k.val / 16 + 1) hn1 hdiv]
      unfold outAt
      ihave Ha2 := (aRest_step d L (k.val / 16) hn1 faf).1 $$ Haf
      icases Ha2 with ⟨Hac', Haf'⟩
      ihave Ho2 := (oRest_step d L (k.val / 16) hn1 (m (oLoc d))).1 $$ Hof
      icases Ho2 with ⟨Hoc', Hof'⟩
      isplitl [Hac']
      · iexists faf; isplitl [Hac']; · iexact Hac'
        ipureintro; intro y h1 h2; exfalso; omega
      isplitl [Haf']; · iexists faf; iexact Haf'
      isplitl [Hoc']; · iexact Hoc'
      iexact Hof'
    isplitl [HB]; · rw [hdiv]; iexact HB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · -- the block is not complete
    have h15 : ¬ k.val % 16 = 15 := (cond5_iff k).not.mp hc5
    have hdiv : (k.val + 1) / 16 = k.val / 16 := by omega
    sl_exec
    sl_step
    ihave Hsp' := (spares_open d L m fs) $$ Hsp
    icases Hsp' with ⟨Hxd, Hx0, Hsd, Hs0⟩
    iapply (hQ 0#32)
    unfold inv
    isplitl [Hmw]; · iexact Hmw
    isplitl [Hi]; · iexact Hi
    isplitl [Hxd]; · iexact Hxd
    isplitl [Hx0]; · iexact Hx0
    isplitl [Hsd]; · iexact Hsd
    isplitl [Hs0]; · iexact Hs0
    isplitl [Hg0 HxR1 HsR1 Hg1 HxR2 HsR2 Hg2 HxR3 HsR3 Hx4 Hs4 Hr3 Hg3]
    · iapply (gathers_close d L m fs k.val hk1 _ _ _ _ _ _ _ _ _ _ hv0 hv1 hv2)
      isplitl [Hg0 HxR1 HsR1]
      · isplitl [Hg0]; · iexact Hg0
        isplitl [HxR1]; · iexact HxR1
        iexact HsR1
      isplitl [Hg1 HxR2 HsR2]
      · isplitl [Hg1]; · iexact Hg1
        isplitl [HxR2]; · iexact HxR2
        iexact HsR2
      isplitl [Hg2 HxR3 HsR3]
      · isplitl [Hg2]; · iexact Hg2
        isplitl [HxR3]; · iexact HxR3
        iexact HsR3
      isplitl [Hx4]; · iexact Hx4
      isplitl [Hs4]; · iexact Hs4
      isplitl [Hr3]; · iexact Hr3
      iexact Hg3
    isplitl [Ha Haf Hoc Hof]
    · rw [outPart_eq d L m (k.val + 1) hk1 (k.val / 16) hn hdiv]
      unfold outAt
      isplitl [Ha]
      · iexists _; isplitl [Ha]; · iexact Ha
        ipureintro; intro y h1 h2; exact hrowsB y (by rw [hdiv] at h1; exact h1) (by omega)
      isplitl [Haf]; · iexists faf; iexact Haf
      isplitl [Hoc]; · iexact Hoc
      iexact Hof
    isplitl [HB]; · rw [hdiv]; iexact HB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Cert.Kernel.Tile

end
-- ==== Proof.K_TripHi.lean ====
/-
  The last trip of the loop (rows 252 … 255 of the tile): only the gather for row 255 is still to be issued, every slot
  comes back free, and the fourth block of the output scratch is sent out as the last copy of the write-back batch.
-/
import proofs.«208374_g60447369724146_cont_9to1c4b_798_24_alg».proof.Proof.K_OutAt
import proofs.«208374_g60447369724146_cont_9to1c4b_798_24_alg».proof.Proof.K_Spares
import proofs.«208374_g60447369724146_cont_9to1c4b_798_24_alg».proof.Proof.K_TripFacts
import proofs.«208374_g60447369724146_cont_9to1c4b_798_24_alg».proof.Proof.K_TripClose
import proofs.«208374_g60447369724146_cont_9to1c4b_798_24_alg».proof.Proof.K_TripVal
import proofs.«208374_g60447369724146_cont_9to1c4b_798_24_alg».proof.Proof.K_TripVal2
import proofs.«208374_g60447369724146_cont_9to1c4b_798_24_alg».proof.Proof.K_OutGeom

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (m : (ℓ : Loc nD τ sig) → Buf (Elt F) ℓ)
  (fs : Buf (Elt F) ((thr d L).loc cc0_scratch0))

set_option maxRecDepth 65536 in
set_option maxHeartbeats 32000000 in
theorem trip_hi (hpre : PreOK m) (O : CellTallies nD τ sig (HIx 1)) (W : Waits sig (HIx 1)) (v1 : BitVec 32)
    (k : Fin k0_t1_loop.trips) (hk : ¬ k.val < 63) (acc : BitVec 32)
    (Q : BitVec 32 → sProp 𝕄) (hQ : ∀ a, inv d L m fs O W (k.val + 1) a ⊢ Q a) :
    inv d L m fs O W k.val acc
      ⊢ wp frame (wpE (defs₀ (F := F)) 𝒱₀ (thr d L) none) Set.univ
          (k0_t1_body L iV (Memref.isWhole_whole _) xV (Memref.isWhole_whole _) oV (Memref.isWhole_whole _)
            sV (Memref.isWhole_whole _) rV (Memref.isWhole_whole _) aV (Memref.isWhole_whole _)
            cc0_scratch3 cc0_scratch4 cc0_scratch5 cc0_scratch6 cc0_scratch7 cc0_scoped0 v1 k acc)
          Q := by
  have hk64 : k.val < 64 := k.isLt
  unfold inv gathersPart outPart
  rw [dif_pos hk64, dif_pos hk64]
  iintro ⟨Hmw, Hi, Hxd, Hx0, Hsd, Hs0, ⟨%w0, %w1, %w2, ⟨Hg0, HxR1, HsR1⟩, ⟨Hg1, HxR2, HsR2⟩, ⟨Hg2, HxR3, HsR3⟩, Hx4, Hs4, ⟨%f3, Hr3⟩, Hg3⟩, ⟨⟨%fa, Ha, %hrows⟩, ⟨%faf, Haf⟩, Hoc, Hof⟩, HB, %W', %hW', HO⟩
  have hin : ∀ (off : Fin 2 → Nat) (hb : ∀ a, off a + S1x20.size a ≤ S256x20.size a) (hs : ∀ a, (Rect.unit (s := S256x20) off S1x20.size hb).stride a = 1) (x : S20.Idx),
      (((sV.slice (Rect.unit (s := S256x20) off S1x20.size hb) hs).squeeze S20 squeezes_S1x20_S20).view.read (Elt F)
        (idxBuf d L (m (iLoc d)) fs) x).toNat < 100000 := hin_all d L (m (iLoc d)) fs (hpre d)
  have hc1 := cond1_all k
  ihave Hsp := (spares_fold d L m fs) $$ [Hxd Hx0 Hsd Hs0]
  · isplitl [Hxd]; · iexact Hxd
    isplitl [Hx0]; · iexact Hx0
    isplitl [Hsd]; · iexact Hsd
    iexact Hs0
  have hc2 := cond2_hi k hk
  have hc3 := cond3_hi k hk
  have hc4 := cond4_hi k hk
  have hk63 : k.val = 63 := by omega
  have hc5 : k0_cond5 k = 1#1 := (cond5_iff k).mpr (by omega)
  unfold k0_t1_body
  set_option sl_exec.stopBefore "k0_cond5" in sl_exec_parts
  have hn : k.val / 16 < 4 := by omega
  -- THE VALUE STEP: the 32 stores leave the rows of the current block below 4k + 4 at the local result
  have hk4 : 4 * k.val + 4 ≤ 256 := by omega
  have hC3 : ∀ (tt : Fin 20) (x : Fin 128),
      ((slot3K).view.writes (Elt F) (slot3K).view.junk [⟨Rect.whole S20x128, trip_hi.sl.gather0 d L m fs k hin hc1⟩])
          (ValueIdx.ix3 (3 : Fin 4) tt x)
        = GR d L (idxPay d L (m (iLoc d))) (m (xLoc d)) ⟨4 * k.val + 3, by omega⟩ (ValueIdx.ix3 (3 : Fin 4) tt x) :=
    fun tt x => gather_writes_val3 d L (m (iLoc d)) (m (xLoc d)) fs _ (k0_off2 k) _ _ _ (hpre d) ⟨4 * k.val + 3, by omega⟩
      (k0_off2_eq k) _ (slot3_mem tt x)
  have hrowsB : ∀ y : S256x128.Idx, 64 * (k.val / 16) ≤ (y 0).val → (y 0).val < 4 * k.val + 4 →
      trip_hi.sl.Ha_w32 d L m fs k hk64 fa hin hc1 y = OutLoc d L m y := by
    refine rows_of_32 d L m k.val hk4 fa hrows _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      ?ok1 ?ok2 ?ok3 ?ok4 ?ok5 ?ok6 ?ok7 ?ok8 ?ok9 ?ok10 ?ok11 ?ok12 ?ok13 ?ok14 ?ok15 ?ok16 ?ok17 ?ok18 ?ok19 ?ok20 ?ok21 ?ok22 ?ok23 ?ok24 ?ok25 ?ok26 ?ok27 ?ok28 ?ok29 ?ok30 ?ok31 ?ok32
    · exact pieceOK_mk d L m k.val hk4 0 0 ⟨4 * k.val, by omega⟩ rfl (k0_off4 k 0#32) (k0_off4_eq k ⟨0, by decide⟩) (GR d L (idxPay d L (m (iLoc d))) (m (xLoc d)) ⟨4 * k.val, by omega⟩) (fun _ _ => rfl) (fun tt => inb_rV 0 tt (16 * 0) (by omega))
    · exact pieceOK_mk d L m k.val hk4 0 1 ⟨4 * k.val, by omega⟩ rfl (k0_off5 k 0#32) (k0_off5_eq k ⟨0, by decide⟩) (GR d L (idxPay d L (m (iLoc d))) (m (xLoc d)) ⟨4 * k.val, by omega⟩) (fun _ _ => rfl) (fun tt => inb_rV 0 tt (16 * 1) (by omega))
    · exact pieceOK_mk d L m k.val hk4 0 2 ⟨4 * k.val, by omega⟩ rfl (k0_off6 k 0#32) (k0_off6_eq k ⟨0, by decide⟩) (GR d L (idxPay d L (m (iLoc d))) (m (xLoc d)) ⟨4 * k.val, by omega⟩) (fun _ _ => rfl) (fun tt => inb_rV 0 tt (16 * 2) (by omega))
    · exact pieceOK_mk d L m k.val hk4 0 3 ⟨4 * k.val, by omega⟩ rfl (k0_off7 k 0#32) (k0_off7_eq k ⟨0, by decide⟩) (GR d L (idxPay d L (m (iLoc d))) (m (xLoc d)) ⟨4 * k.val, by omega⟩) (fun _ _ => rfl) (fun tt => inb_rV 0 tt (16 * 3) (by omega))
    · exact pieceOK_mk d L m k.val hk4 0 4 ⟨4 * k.val, by omega⟩ rfl (k0_off8 k 0#32) (k0_off8_eq k ⟨0, by decide⟩) (GR d L (idxPay d L (m (iLoc d))) (m (xLoc d)) ⟨4 * k.val, by omega⟩) (fun _ _ => rfl) (fun tt => inb_rV 0 tt (16 * 4) (by omega))
    · exact pieceOK_mk d L m k.val hk4 0 5 ⟨4 * k.val, by omega⟩ rfl (k0_off9 k 0#32) (k0_off9_eq k ⟨0, by decide⟩) (GR d L (idxPay d L (m (iLoc d))) (m (xLoc d)) ⟨4 * k.val, by omega⟩) (fun _ _ => rfl) (fun tt => inb_rV 0 tt (16 * 5) (by omega))
    · exact pieceOK_mk d L m k.val hk4 0 6 ⟨4 * k.val, by omega⟩ rfl (k0_off10 k 0#32) (k0_off10_eq k ⟨0, by decide⟩) (GR d L (idxPay d L (m (iLoc d))) (m (xLoc d)) ⟨4 * k.val, by omega⟩) (fun _ _ => rfl) (fun tt => inb_rV 0 tt (16 * 6) (by omega))
    · exact pieceOK_mk d L m k.val hk4 0 7 ⟨4 * k.val, by omega⟩ rfl (k0_off11 k 0#32) (k0_off11_eq k ⟨0, by decide⟩) (GR d L (idxPay d L (m (iLoc d))) (m (xLoc d)) ⟨4 * k.val, by omega⟩) (fun _ _ => rfl) (fun tt => inb_rV 0 tt (16 * 7) (by omega))
    · exact pieceOK_mk d L m k.val hk4 1 0 ⟨4 * k.val + 1, by omega⟩ rfl (k0_off4 k 1#32) (k0_off4_eq k ⟨1, by decide⟩) (GR d L (idxPay d L (m (iLoc d))) (m (xLoc d)) ⟨4 * k.val + 1, by omega⟩) (fun _ _ => rfl) (fun tt => inb_rV 1 tt (16 * 0) (by omega))
    · exact pieceOK_mk d L m k.val hk4 1 1 ⟨4 * k.val + 1, by omega⟩ rfl (k0_off5 k 1#32) (k0_off5_eq k ⟨1, by decide⟩) (GR d L (idxPay d L (m (iLoc d))) (m (xLoc d)) ⟨4 * k.val + 1, by omega⟩) (fun _ _ => rfl) (fun tt => inb_rV 1 tt (16 * 1) (by omega))
    · exact pieceOK_mk d L m k.val hk4 1 2 ⟨4 * k.val + 1, by omega⟩ rfl (k0_off6 k 1#32) (k0_off6_eq k ⟨1, by decide⟩) (GR d L (idxPay d L (m (iLoc d))) (m (xLoc d)) ⟨4 * k.val + 1, by omega⟩) (fun _ _ => rfl) (fun tt => inb_rV 1 tt (16 * 2) (by omega))
    · exact pieceOK_mk d L m k.val hk4 1 3 ⟨4 * k.val + 1, by omega⟩ rfl (k0_off7 k 1#32) (k0_off7_eq k ⟨1, by decide⟩) (GR d L (idxPay d L (m (iLoc d))) (m (xLoc d)) ⟨4 * k.val + 1, by omega⟩) (fun _ _ => rfl) (fun tt => inb_rV 1 tt (16 * 3) (by omega))
    · exact pieceOK_mk d L m k.val hk4 1 4 ⟨4 * k.val + 1, by omega⟩ rfl (k0_off8 k 1#32) (k0_off8_eq k ⟨1, by decide⟩) (GR d L (idxPay d L (m (iLoc d))) (m (xLoc d)) ⟨4 * k.val + 1, by omega⟩) (fun _ _ => rfl) (fun tt => inb_rV 1 tt (16 * 4) (by omega))
    · exact pieceOK_mk d L m k.val hk4 1 5 ⟨4 * k.val + 1, by omega⟩ rfl (k0_off9 k 1#32) (k0_off9_eq k ⟨1, by decide⟩) (GR d L (idxPay d L (m (iLoc d))) (m (xLoc d)) ⟨4 * k.val + 1, by omega⟩) (fun _ _ => rfl) (fun tt => inb_rV 1 tt (16 * 5) (by omega))
    · exact pieceOK_mk d L m k.val hk4 1 6 ⟨4 * k.val + 1, by omega⟩ rfl (k0_off10 k 1#32) (k0_off10_eq k ⟨1, by decide⟩) (GR d L (idxPay d L (m (iLoc d))) (m (xLoc d)) ⟨4 * k.val + 1, by omega⟩) (fun _ _ => rfl) (fun tt => inb_rV 1 tt (16 * 6) (by omega))
    · exact pieceOK_mk d L m k.val hk4 1 7 ⟨4 * k.val + 1, by omega⟩ rfl (k0_off11 k 1#32) (k0_off11_eq k ⟨1, by decide⟩) (GR d L (idxPay d L (m (iLoc d))) (m (xLoc d)) ⟨4 * k.val + 1, by omega⟩) (fun _ _ => rfl) (fun tt => inb_rV 1 tt (16 * 7) (by omega))
    · exact pieceOK_mk d L m k.val hk4 2 0 ⟨4 * k.val + 2, by omega⟩ rfl (k0_off4 k 2#32) (k0_off4_eq k ⟨2, by decide⟩) (GR d L (idxPay d L (m (iLoc d))) (m (xLoc d)) ⟨4 * k.val + 2, by omega⟩) (fun _ _ => rfl) (fun tt => inb_rV 2 tt (16 * 0) (by omega))
    · exact pieceOK_mk d L m k.val hk4 2 1 ⟨4 * k.val + 2, by omega⟩ rfl (k0_off5 k 2#32) (k0_off5_eq k ⟨2, by decide⟩) (GR d L (idxPay d L (m (iLoc d))) (m (xLoc d)) ⟨4 * k.val + 2, by omega⟩) (fun _ _ => rfl) (fun tt => inb_rV 2 tt (16 * 1) (by omega))
    · exact pieceOK_mk d L m k.val hk4 2 2 ⟨4 * k.val + 2, by omega⟩ rfl (k0_off6 k 2#32) (k0_off6_eq k ⟨2, by decide⟩) (GR d L (idxPay d L (m (iLoc d))) (m (xLoc d)) ⟨4 * k.val + 2, by omega⟩) (fun _ _ => rfl) (fun tt => inb_rV 2 tt (16 * 2) (by omega))
    · exact pieceOK_mk d L m k.val hk4 2 3 ⟨4 * k.val + 2, by omega⟩ rfl (k0_off7 k 2#32) (k0_off7_eq k ⟨2, by decide⟩) (GR d L (idxPay d L (m (iLoc d))) (m (xLoc d)) ⟨4 * k.val + 2, by omega⟩) (fun _ _ => rfl) (fun tt => inb_rV 2 tt (16 * 3) (by omega))
    · exact pieceOK_mk d L m k.val hk4 2 4 ⟨4 * k.val + 2, by omega⟩ rfl (k0_off8 k 2#32) (k0_off8_eq k ⟨2, by decide⟩) (GR d L (idxPay d L (m (iLoc d))) (m (xLoc d)) ⟨4 * k.val + 2, by omega⟩) (fun _ _ => rfl) (fun tt => inb_rV 2 tt (16 * 4) (by omega))
    · exact pieceOK_mk d L m k.val hk4 2 5 ⟨4 * k.val + 2, by omega⟩ rfl (k0_off9 k 2#32) (k0_off9_eq k ⟨2, by decide⟩) (GR d L (idxPay d L (m (iLoc d))) (m (xLoc d)) ⟨4 * k.val + 2, by omega⟩) (fun _ _ => rfl) (fun tt => inb_rV 2 tt (16 * 5) (by omega))
    · exact pieceOK_mk d L m k.val hk4 2 6 ⟨4 * k.val + 2, by omega⟩ rfl (k0_off10 k 2#32) (k0_off10_eq k ⟨2, by decide⟩) (GR d L (idxPay d L (m (iLoc d))) (m (xLoc d)) ⟨4 * k.val + 2, by omega⟩) (fun _ _ => rfl) (fun tt => inb_rV 2 tt (16 * 6) (by omega))
    · exact pieceOK_mk d L m k.val hk4 2 7 ⟨4 * k.val + 2, by omega⟩ rfl (k0_off11 k 2#32) (k0_off11_eq k ⟨2, by decide⟩) (GR d L (idxPay d L (m (iLoc d))) (m (xLoc d)) ⟨4 * k.val + 2, by omega⟩) (fun _ _ => rfl) (fun tt => inb_rV 2 tt (16 * 7) (by omega))
    · exact pieceOK_mk d L m k.val hk4 3 0 ⟨4 * k.val + 3, by omega⟩ rfl (k0_off4 k 3#32) (k0_off4_eq k ⟨3, by decide⟩) ((slot3K).view.writes (Elt F) (slot3K).view.junk [⟨Rect.whole S20x128, trip_hi.sl.gather0 d L m fs k hin hc1⟩]) hC3 (fun tt => inb_rV 3 tt (16 * 0) (by omega))
    · exact pieceOK_mk d L m k.val hk4 3 1 ⟨4 * k.val + 3, by omega⟩ rfl (k0_off5 k 3#32) (k0_off5_eq k ⟨3, by decide⟩) ((slot3K).view.writes (Elt F) (slot3K).view.junk [⟨Rect.whole S20x128, trip_hi.sl.gather0 d L m fs k hin hc1⟩]) hC3 (fun tt => inb_rV 3 tt (16 * 1) (by omega))
    · exact pieceOK_mk d L m k.val hk4 3 2 ⟨4 * k.val + 3, by omega⟩ rfl (k0_off6 k 3#32) (k0_off6_eq k ⟨3, by decide⟩) ((slot3K).view.writes (Elt F) (slot3K).view.junk [⟨Rect.whole S20x128, trip_hi.sl.gather0 d L m fs k hin hc1⟩]) hC3 (fun tt => inb_rV 3 tt (16 * 2) (by omega))
    · exact pieceOK_mk d L m k.val hk4 3 3 ⟨4 * k.val + 3, by omega⟩ rfl (k0_off7 k 3#32) (k0_off7_eq k ⟨3, by decide⟩) ((slot3K).view.writes (Elt F) (slot3K).view.junk [⟨Rect.whole S20x128, trip_hi.sl.gather0 d L m fs k hin hc1⟩]) hC3 (fun tt => inb_rV 3 tt (16 * 3) (by omega))
    · exact pieceOK_mk d L m k.val hk4 3 4 ⟨4 * k.val + 3, by omega⟩ rfl (k0_off8 k 3#32) (k0_off8_eq k ⟨3, by decide⟩) ((slot3K).view.writes (Elt F) (slot3K).view.junk [⟨Rect.whole S20x128, trip_hi.sl.gather0 d L m fs k hin hc1⟩]) hC3 (fun tt => inb_rV 3 tt (16 * 4) (by omega))
    · exact pieceOK_mk d L m k.val hk4 3 5 ⟨4 * k.val + 3, by omega⟩ rfl (k0_off9 k 3#32) (k0_off9_eq k ⟨3, by decide⟩) ((slot3K).view.writes (Elt F) (slot3K).view.junk [⟨Rect.whole S20x128, trip_hi.sl.gather0 d L m fs k hin hc1⟩]) hC3 (fun tt => inb_rV 3 tt (16 * 5) (by omega))
    · exact pieceOK_mk d L m k.val hk4 3 6 ⟨4 * k.val + 3, by omega⟩ rfl (k0_off10 k 3#32) (k0_off10_eq k ⟨3, by decide⟩) ((slot3K).view.writes (Elt F) (slot3K).view.junk [⟨Rect.whole S20x128, trip_hi.sl.gather0 d L m fs k hin hc1⟩]) hC3 (fun tt => inb_rV 3 tt (16 * 6) (by omega))
    · exact pieceOK_mk d L m k.val hk4 3 7 ⟨4 * k.val + 3, by omega⟩ rfl (k0_off11 k 3#32) (k0_off11_eq k ⟨3, by decide⟩) ((slot3K).view.writes (Elt F) (slot3K).view.junk [⟨Rect.whole S20x128, trip_hi.sl.gather0 d L m fs k hin hc1⟩]) hC3 (fun tt => inb_rV 3 tt (16 * 7) (by omega))
  have hrowsN : RowsDone d L m (k.val + 1) (trip_hi.sl.Ha_w32 d L m fs k hk64 fa hin hc1) :=
    fun y hlo hhi => hrowsB y (by omega) (by omega)
  have hrowsBlk : ∀ y : S256x128.Idx, 64 * (k.val / 16) ≤ (y 0).val → (y 0).val < 64 * (k.val / 16) + 64 →
      trip_hi.sl.Ha_w32 d L m fs k hk64 fa hin hc1 y = OutLoc d L m y := fun y h1 h2 => hrowsB y h1 (by omega)
  have e64 : k.val + 1 = 64 := by omega
  have e4 : k.val / 16 + 1 = 64 / 16 := by omega
  rw [dif_pos hc5]
  ihave Hsrc := (Entails.of_eq (congrArg (fun S => ((aV).view.loc (thr d L) ↦[S]{fullShare} (trip_hi.sl.Ha_w32 d L m fs k hk64 fa hin hc1) : sProp 𝕄)) (set_prog_src k hc5).symm)) $$ Ha
  ihave Hdst := (Entails.of_eq (congrArg (fun S => ((oV).view.loc (thr d L) ↦[S]{fullShare} m (oLoc d) : sProp 𝕄)) (set_prog_dst L k hc5).symm)) $$ Hoc
  iapply (Transfers.wp_dmaBatch countersEmb 𝒱₀ (thr d L) none (src := ((aV).slice (Rect.unit (s := S256x128) (k0_off15 k) S64x128.size (k0_off15_inb k hc5)) (fun _ => rfl))) (dst := ((oV).slice (Rect.unit (s := S8192x128) (k0_off16 L k) S64x128.size (k0_off16_inb L k hc5)) (fun _ => rfl))) (default : HIx 1) wbN (wbN_eq _ _) (Finset.Subset.refl _) hn (Nat.zero_le _)
      (wb_hD d L m k hc5 (trip_hi.sl.Ha_w32 d L m fs k hk64 fa hin hc1) hrowsBlk hn)) $$ [Hsrc Hdst HB]
  · isplitl [Hsrc]; · iexact Hsrc
    isplitl [Hdst]; · iexact Hdst
    iexact HB
  iintro HB
  rw [Prog.bind]
  first
    | sl_step
    | (sl_exec; sl_step)
    | (beta_reduce; sl_step)
  ihave Hsp' := (spares_open d L m fs) $$ Hsp
  icases Hsp' with ⟨Hxd, Hx0, Hsd, Hs0⟩
  rw [e64] at hQ
  iapply (hQ 0#32)
  unfold inv
  isplitl [Hmw]; · iexact Hmw
  isplitl [Hi]; · iexact Hi
  isplitl [Hxd]; · iexact Hxd
  isplitl [Hx0]; · iexact Hx0
  isplitl [Hsd]; · iexact Hsd
  isplitl [Hs0]; · iexact Hs0
  isplitl [HxR1 HxR2 HxR3 Hx4 HsR1 HsR2 HsR3 Hs4 Hg0_dst Hg1_dst Hg2_dst Hr3 Hg0 Hg1 Hg2 Hg3]
  · iapply (gathers_last d L m fs _ _ _ _)
    isplitl [HxR1]; · iexact HxR1
    isplitl [HxR2]; · iexact HxR2
    isplitl [HxR3]; · iexact HxR3
    isplitl [Hx4]; · iexact Hx4
    isplitl [HsR1]; · iexact HsR1
    isplitl [HsR2]; · iexact HsR2
    isplitl [HsR3]; · iexact HsR3
    isplitl [Hs4]; · iexact Hs4
    isplitl [Hg0_dst]; · iexact Hg0_dst
    isplitl [Hg1_dst]; · iexact Hg1_dst
    isplitl [Hg2_dst]; · iexact Hg2_dst
    isplitl [Hr3]; · iexact Hr3
    isplitl [Hg0]; · iexact Hg0
    isplitl [Hg1]; · iexact Hg1
    isplitl [Hg2]; · iexact Hg2
    iexact Hg3
  isplitr
  · rw [outPart_last]; iempintro
  isplitl [HB]; · rw [← e4]; iexact HB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.Kernel.Tile

end
-- ==== Proof.K_Launch.lean ====
/-
  The launch of the kernel program: from the proof of one task's body to the run of all 35 threads. The call hands
  each SparseCore its sixteen tasks' pieces of the three arrays and takes them back, the result's at the one
  whole-array function; the host then reshapes the 8192 result rows to 16 batches of 512. At the end the two
  arguments are as launched and the program's result is the reshaped array.
-/
import proofs.«208374_g60447369724146_cont_9to1c4b_798_24_alg».proof.Proof.K_LaunchGeom

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)

variable [FloatOps F] (m : (ℓ : Loc nD τ sig) → Buf (Elt F) ℓ) (ρ : Dev nD → PrngReg)

/-! ## What the handshakes carry can be stored -/

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance

theorem P_st (d : Dev nD) (c : Fin ((K (F := F)).nCore 0)) :
    (P m).st 0 d c = bigSep Finset.univ fun i : Fin ((K (F := F)).nSub 0) => tileGo m d (coordsK c i) := rfl
theorem P_dn (d : Dev nD) (c : Fin ((K (F := F)).nCore 0)) :
    (P m).dn 0 d c = bigSep Finset.univ fun i : Fin ((K (F := F)).nSub 0) => tileTd m d (coordsK c i) := rfl
theorem P_go (d : Dev nD) (c : Fin ((K (F := F)).nCore 0)) (i : Fin ((K (F := F)).nSub 0)) :
    (P m).go 0 d c i = tileGo m d (coordsK c i) := rfl
theorem P_td (d : Dev nD) (c : Fin ((K (F := F)).nCore 0)) (i : Fin ((K (F := F)).nSub 0)) :
    (P m).td 0 d c i = tileTd m d (coordsK c i) := rfl

instance P_storable : (P (F := F) m).IsStorable where
  st q d c := match q with
    | 0 => (inferInstance : BI.Storable (upEmb : UEmb _ 𝕄) (bigSep Finset.univ fun i : Fin ((K (F := F)).nSub 0) => tileGo m d (coordsK c i)))
  dn q d c := match q with
    | 0 => (inferInstance : BI.Storable (upEmb : UEmb _ 𝕄) (bigSep Finset.univ fun i : Fin ((K (F := F)).nSub 0) => tileTd m d (coordsK c i)))
  go q d c i := match q with
    | 0 => (inferInstance : BI.Storable (upEmb : UEmb _ 𝕄) (tileGo m d (coordsK c i)))
  td q d c i := match q with
    | 0 => (inferInstance : BI.Storable (upEmb : UEmb _ 𝕄) (tileTd m d (coordsK c i)))

/-! ## A SparseCore's operands are its sixteen tasks' -/

theorem vecSplit : (K (F := F)).VecSplit' (P m) 0 := by
  intro d c
  rw [P_st, P_dn]
  simp only [P_go, P_td]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The call's operands for both SparseCores are the three arrays whole -/

theorem tiles_eq (d : Dev nD) (fo : Buf (Elt F) (oLoc d)) :
    (bigSep Finset.univ fun c : Fin 2 => bigSep Finset.univ fun s : Fin 16 =>
      iprop(((iRowK (coordsV c s)).view.loc (thr d (coordsV c s)) ↦[(iRowK (coordsV c s)).view.set]{fullShare} m (iLoc d))
        ∗ ((xV).view.loc (thr d (coordsV c s)) ↦{xq (coordsV c s)} m (xLoc d))
        ∗ bigSep Finset.univ fun r : Fin 4 =>
            (oWinK (coordsV c s) r).view.loc (thr d (coordsV c s)) ↦[(oWinK (coordsV c s) r).view.set]{fullShare} fo) : sProp 𝕄)
      = iprop((iLoc d ↦{fullShare} m (iLoc d)) ∗ (xLoc d ↦{fullShare} m (xLoc d)) ∗ oLoc d ↦{fullShare} fo) := by
  simp only [bigSep_sep']
  rw [← iPts_tiles d (m (iLoc d)), ← xPts_tiles d (m (xLoc d)), ← oPts_tiles d fo]

theorem st0_eq (d : Dev nD) :
    (bigSep Finset.univ fun c : Fin ((K (F := F)).nCore 0) => (P m).st 0 d c)
      = iprop((iLoc d ↦{fullShare} m (iLoc d)) ∗ (xLoc d ↦{fullShare} m (xLoc d)) ∗ oLoc d ↦{fullShare} m (oLoc d)) := by
  simp only [P_st]
  unfold tileGo
  exact tiles_eq m d (m (oLoc d))

theorem dn0_eq (d : Dev nD) :
    (bigSep Finset.univ fun c : Fin ((K (F := F)).nCore 0) => (P m).dn 0 d c)
      = iprop((iLoc d ↦{fullShare} m (iLoc d)) ∗ (xLoc d ↦{fullShare} m (xLoc d)) ∗ oLoc d ↦{fullShare} Out m d) := by
  simp only [P_dn]
  unfold tileTd
  exact tiles_eq m d (Out m d)

/-! ## @main on the TensorCore -/

abbrev rLoc (d : Dev nD) : Loc nD τ sig := (SparseCore.T d).loc main_v1
abbrev v0' : DevRef τ sig := Proc.devRef .tc (main_v0 : Ref sig .tc)
abbrev v1' : DevRef τ sig := Proc.devRef .tc (main_v1 : Ref sig .tc)
/-- The host operation after the call: the 8192 result rows read as 16 batches of 512. -/
abbrev opR : HloOp τ sig (Elt F) := StableHlo.reshape main_v0 main_v1 rfl shapeCasts_S8192x128_S16x512x128
/-- Its two arrays. -/
abbrev S2 : Finset (DevRef τ sig) := {v0', v1'}

omit [FloatOps F] in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (oLoc d ↦{fullShare} W main_v0)
          ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

omit [FloatOps F] in
theorem held_S2 (d : Dev nD) (W : Valuation τ sig (Elt F)) :
    (held (T d) S2 W : sProp 𝕄) = iprop((oLoc d ↦{fullShare} W v0') ∗ rLoc d ↦{fullShare} W v1') := by
  unfold held S2
  rw [SparseCore.bigSep_insert' (by decide), bigSep_singleton]

/-- The program's result on device `d`: the call's result array read in row-major order at the shape [16, 512, 128]. -/
def OutR (d : Dev nD) : Buf (Elt F) (rLoc d) :=
  shapeCast (s := S8192x128) S16x512x128 (Out m d) shapeCasts_S8192x128_S16x512x128

/-- The two arrays' contents after the call: the result array at `Out`, the other as launched. -/
def V1 (d : Dev nD) : Valuation τ sig (Elt F) := Function.update (fun b => m (d, b)) v0' (Out m d)
theorem V1_v0 (d : Dev nD) : V1 m d v0' = Out m d := Function.update_self _ _ _
theorem V1_v1 (d : Dev nD) : V1 m d v1' = m (rLoc d) := Function.update_of_ne (show v1' ≠ v0' by decide) _ _

theorem hR : (opR (F := F)).bufs ⊆ S2 := show ({v0', v1'} : Finset (DevRef τ sig)) ⊆ S2 by decide

theorem result_v1 (d : Dev nD) : (opR (F := F)).result (V1 m d) v1' = OutR m d := by
  rw [show (opR (F := F)).result (V1 m d) v1' = _ from StableHlo.reshape_result main_v0 main_v1 rfl shapeCasts_S8192x128_S16x512x128 _ _ (V1 m d)]
  rw [V1_v0]; rfl

theorem held_R (d : Dev nD) :
    (held (T d) S2 ((opR (F := F)).result (V1 m d)) : sProp 𝕄)
      = iprop((oLoc d ↦{fullShare} (opR (F := F)).result (V1 m d) v0') ∗ rLoc d ↦{fullShare} OutR m d) := by
  rw [held_S2, result_v1]

/-- What @main leaves the claim: the arguments as launched, the result at `OutR`. -/
abbrev FIN (d : Dev nD) : sProp 𝕄 :=
  iprop((iLoc d ↦{fullShare} m (iLoc d)) ∗ (xLoc d ↦{fullShare} m (xLoc d)) ∗ rLoc d ↦{fullShare} OutR m d)

/-- @main on device `d`'s TensorCore: the call, from the three arrays cut into the tasks' pieces and joined again
    with the result at `Out`; then the reshape over the result array and the program's. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho, Hr⟩, -, -⟩, -⟩
  iapply ((K (F := F)).wp_run (D (F := F)) 𝒱 (EH := EH) (P := P m) κ d 0) $$ [Hst Hi Hx Ho Hb Hr]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  iapply (wp_hlo_within 𝒱 (SparseCore.T d) none Set.univ (op := opR) (S := S2) hR (V := V1 m d)) $$ [Hb Ho Hr]
  · isplitl [Hb]; · iexact Hb
    rw [held_S2, V1_v0, V1_v1]
    isplitl [Ho]; · iexact Ho
    iexact Hr
  iintro ⟨Hb, Hheld⟩
  ihave Hh := (Entails.of_eq (held_R (F := F) m d)) $$ Hheld
  icases Hh with ⟨-, Hr⟩
  rw [wp_ret]; imodintro; imodintro
  isplitl [Hst]; · iexact Hst
  isplitl [Hi]; · iexact Hi
  isplitl [Hx]; · iexact Hx
  iexact Hr

def fq (d : Dev nD) (s' : Phys nD τ sig (Elt F)) : Prop :=
  s'.mem.mem (rLoc d) = OutR m d ∧ s'.mem.mem (iLoc d) = m (iLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := OutR m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- At the end, on every device: the program's result is `OutR`, the two arguments are as launched. -/
def QC : PUnit × MemSt nD τ sig (Elt F) → Prop := fun r =>
  ∀ c : Dev nD, r.2.mem (rLoc c) = OutR m c ∧ r.2.mem (iLoc c) = m (iLoc c) ∧ r.2.mem (xLoc c) = m (xLoc c)

/-- The run of the whole program from the proof of one task's body. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Tile

end
-- ==== Proof.K_TileWrap.lean ====
/-
  The task's obligation from the proof of its body. A vector subcore's scoped storage is its three scratch buffers
  and its six transfer semaphores, each at zero, beside a rest the body never touches; the body's proof, stated over
  the kernel function at symbolic grid coordinates, becomes the launch theorem's obligation for task i of SparseCore c.
-/
import proofs.«208374_g60447369724146_cont_9to1c4b_798_24_alg».proof.Proof.K_Launch

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

section Wrap

variable (d : Dev nD) (L : grid0.Coords)

omit [FloatOps F] in
theorem cell_ne {a b : SemLoc sig} (h : a ≠ b) : ((thr d L, a) : GSem nD τ sig) ≠ (thr d L, b) := fun e => h (Prod.mk.inj e).2

/-! ## The subcore's own semaphores and buffers, the kernel's named -/

omit [FloatOps F] in
theorem ownSems0_V :
    (ownSems0 (thr d L) : sProp 𝕄)
      = iprop(semVal ((thr d L, SemLoc.dma cc0_scratch3.sem) : GSem nD τ sig) 0
          ∗ semVal ((thr d L, SemLoc.dma cc0_scratch4.sem) : GSem nD τ sig) 0
          ∗ semVal ((thr d L, SemLoc.dma cc0_scratch5.sem) : GSem nD τ sig) 0
          ∗ semVal ((thr d L, SemLoc.dma cc0_scratch6.sem) : GSem nD τ sig) 0
          ∗ semVal ((thr d L, SemLoc.dma cc0_scratch7.sem) : GSem nD τ sig) 0
          ∗ semVal ((thr d L, SemLoc.dma cc0_scoped0.sem) : GSem nD τ sig) 0
          ∗ bigSep (((((((ownCells (thr d L)).erase ((thr d L, SemLoc.dma cc0_scratch3.sem) : GSem nD τ sig)).erase ((thr d L, SemLoc.dma cc0_scratch4.sem) : GSem nD τ sig)).erase ((thr d L, SemLoc.dma cc0_scratch5.sem) : GSem nD τ sig)).erase ((thr d L, SemLoc.dma cc0_scratch6.sem) : GSem nD τ sig)).erase ((thr d L, SemLoc.dma cc0_scratch7.sem) : GSem nD τ sig)).erase ((thr d L, SemLoc.dma cc0_scoped0.sem) : GSem nD τ sig)) fun g => semVal g 0) := by
  unfold SparseCore.Cfg.ownSems0
  rw [SparseCore.bigSep_erase' ((mem_ownCells (g := ((thr d L, SemLoc.dma cc0_scratch3.sem) : GSem nD τ sig))).mpr ⟨rfl, show (SemLoc.dma cc0_scratch3.sem : SemLoc sig).isScoped .scVector = true by decide⟩),
    SparseCore.bigSep_erase' (Finset.mem_erase.mpr ⟨(cell_ne d L (show (SemLoc.dma cc0_scratch4.sem : SemLoc sig) ≠ SemLoc.dma cc0_scratch3.sem by decide)), ((mem_ownCells (g := ((thr d L, SemLoc.dma cc0_scratch4.sem) : GSem nD τ sig))).mpr ⟨rfl, show (SemLoc.dma cc0_scratch4.sem : SemLoc sig).isScoped .scVector = true by decide⟩)⟩),
    SparseCore.bigSep_erase' (Finset.mem_erase.mpr ⟨(cell_ne d L (show (SemLoc.dma cc0_scratch5.sem : SemLoc sig) ≠ SemLoc.dma cc0_scratch4.sem by decide)), (Finset.mem_erase.mpr ⟨(cell_ne d L (show (SemLoc.dma cc0_scratch5.sem : SemLoc sig) ≠ SemLoc.dma cc0_scratch3.sem by decide)), ((mem_ownCells (g := ((thr d L, SemLoc.dma cc0_scratch5.sem) : GSem nD τ sig))).mpr ⟨rfl, show (SemLoc.dma cc0_scratch5.sem : SemLoc sig).isScoped .scVector = true by decide⟩)⟩)⟩),
    SparseCore.bigSep_erase' (Finset.mem_erase.mpr ⟨(cell_ne d L (show (SemLoc.dma cc0_scratch6.sem : SemLoc sig) ≠ SemLoc.dma cc0_scratch5.sem by decide)), (Finset.mem_erase.mpr ⟨(cell_ne d L (show (SemLoc.dma cc0_scratch6.sem : SemLoc sig) ≠ SemLoc.dma cc0_scratch4.sem by decide)), (Finset.mem_erase.mpr ⟨(cell_ne d L (show (SemLoc.dma cc0_scratch6.sem : SemLoc sig) ≠ SemLoc.dma cc0_scratch3.sem by decide)), ((mem_ownCells (g := ((thr d L, SemLoc.dma cc0_scratch6.sem) : GSem nD τ sig))).mpr ⟨rfl, show (SemLoc.dma cc0_scratch6.sem : SemLoc sig).isScoped .scVector = true by decide⟩)⟩)⟩)⟩),
    SparseCore.bigSep_erase' (Finset.mem_erase.mpr ⟨(cell_ne d L (show (SemLoc.dma cc0_scratch7.sem : SemLoc sig) ≠ SemLoc.dma cc0_scratch6.sem by decide)), (Finset.mem_erase.mpr ⟨(cell_ne d L (show (SemLoc.dma cc0_scratch7.sem : SemLoc sig) ≠ SemLoc.dma cc0_scratch5.sem by decide)), (Finset.mem_erase.mpr ⟨(cell_ne d L (show (SemLoc.dma cc0_scratch7.sem : SemLoc sig) ≠ SemLoc.dma cc0_scratch4.sem by decide)), (Finset.mem_erase.mpr ⟨(cell_ne d L (show (SemLoc.dma cc0_scratch7.sem : SemLoc sig) ≠ SemLoc.dma cc0_scratch3.sem by decide)), ((mem_ownCells (g := ((thr d L, SemLoc.dma cc0_scratch7.sem) : GSem nD τ sig))).mpr ⟨rfl, show (SemLoc.dma cc0_scratch7.sem : SemLoc sig).isScoped .scVector = true by decide⟩)⟩)⟩)⟩)⟩),
    SparseCore.bigSep_erase' (Finset.mem_erase.mpr ⟨(cell_ne d L (show (SemLoc.dma cc0_scoped0.sem : SemLoc sig) ≠ SemLoc.dma cc0_scratch7.sem by decide)), (Finset.mem_erase.mpr ⟨(cell_ne d L (show (SemLoc.dma cc0_scoped0.sem : SemLoc sig) ≠ SemLoc.dma cc0_scratch6.sem by decide)), (Finset.mem_erase.mpr ⟨(cell_ne d L (show (SemLoc.dma cc0_scoped0.sem : SemLoc sig) ≠ SemLoc.dma cc0_scratch5.sem by decide)), (Finset.mem_erase.mpr ⟨(cell_ne d L (show (SemLoc.dma cc0_scoped0.sem : SemLoc sig) ≠ SemLoc.dma cc0_scratch4.sem by decide)), (Finset.mem_erase.mpr ⟨(cell_ne d L (show (SemLoc.dma cc0_scoped0.sem : SemLoc sig) ≠ SemLoc.dma cc0_scratch3.sem by decide)), ((mem_ownCells (g := ((thr d L, SemLoc.dma cc0_scoped0.sem) : GSem nD τ sig))).mpr ⟨rfl, show (SemLoc.dma cc0_scoped0.sem : SemLoc sig).isScoped .scVector = true by decide⟩)⟩)⟩)⟩)⟩)⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cV L) (jV L)) (b := ((Proc.scVector (cV L) (jV L)).devRef cc0_scratch2)) rfl)⟩)⟩)]

/-! ## The scoped storage opened and closed in one step -/

/-- The six transfer semaphores at zero. -/
abbrev semsAt : sProp 𝕄 :=
  iprop(semVal ((thr d L, SemLoc.dma cc0_scratch3.sem) : GSem nD τ sig) 0
    ∗ semVal ((thr d L, SemLoc.dma cc0_scratch4.sem) : GSem nD τ sig) 0
    ∗ semVal ((thr d L, SemLoc.dma cc0_scratch5.sem) : GSem nD τ sig) 0
    ∗ semVal ((thr d L, SemLoc.dma cc0_scratch6.sem) : GSem nD τ sig) 0
    ∗ semVal ((thr d L, SemLoc.dma cc0_scratch7.sem) : GSem nD τ sig) 0
    ∗ semVal ((thr d L, SemLoc.dma cc0_scoped0.sem) : GSem nD τ sig) 0)
/-- The three scratch buffers, each whole at some contents. -/
abbrev bufsAt : sProp 𝕄 :=
  iprop((∃ f, (sV).view.loc (thr d L) ↦{fullShare} f) ∗ (∃ f, (rV).view.loc (thr d L) ↦{fullShare} f) ∗ (∃ f, (aV).view.loc (thr d L) ↦{fullShare} f))

omit [FloatOps F] in
theorem scoped_open (hF : (K (F := F)).Facts) :
    iprop(scopedBufs (thr d L) ∗ scopedSems0 (thr d L))
      ⊢ (iprop(bufsAt d L ∗ semsAt d L ∗ (iprop(bufsAt d L ∗ semsAt d L) -∗ iprop(scopedBufs (thr d L) ∗ scopedSems0 (thr d L)))) : sProp 𝕄) := by
  rw [(K (F := F)).scopedBufs_V hF d (cV L) (jV L), SparseCore.Cfg.scopedSems0_V (Val := Elt F) d (cV L) (jV L), ownSems0_V, ownBufs_V]
  iintro ⟨⟨Hs, Hr, Ha, Hbufs⟩, ⟨H3, H4, H5, H6, H7, H8, Hsems⟩⟩
  isplitl [Hs Hr Ha]
  · isplitl [Hs]; · iexact Hs
    isplitl [Hr]; · iexact Hr
    iexact Ha
  isplitl [H3 H4 H5 H6 H7 H8]
  · isplitl [H3]; · iexact H3
    isplitl [H4]; · iexact H4
    isplitl [H5]; · iexact H5
    isplitl [H6]; · iexact H6
    isplitl [H7]; · iexact H7
    iexact H8
  iintro ⟨⟨Hs, Hr, Ha⟩, ⟨H3, H4, H5, H6, H7, H8⟩⟩
  isplitl [Hs Hr Ha Hbufs]
  · isplitl [Hs]; · iexact Hs
    isplitl [Hr]; · iexact Hr
    isplitl [Ha]; · iexact Ha
    iexact Hbufs
  isplitl [H3]; · iexact H3
  isplitl [H4]; · iexact H4
  isplitl [H5]; · iexact H5
  isplitl [H6]; · iexact H6
  isplitl [H7]; · iexact H7
  isplitl [H8]; · iexact H8
  iexact Hsems

end Wrap

/-! ## The obligation -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch theorem's obligation for the one vector-subcore call, from the body proved at symbolic coordinates. -/
theorem tileObl_of_body (hF : (K (F := F)).Facts)
    (hbody : ∀ (d : Dev nD) (L : grid0.Coords) (O : CellTallies nD τ sig (HIx 1)) (W : Waits sig (HIx 1)), (∀ g, O g none = 0) →
      iprop(levAts (K (F := F)).L (K (F := F)).lev ∗ emp ∗ tileGo m d L ∗ scopedBufs (thr d L) ∗ scopedSems0 (thr d L) ∗ owes (thr d L) O W)
        ⊢ wp frame (wpE (defs₀ (F := F)) 𝒱₀ (thr d L) none) Set.univ
            (cc0_k L iV (Memref.isWhole_whole _) xV (Memref.isWhole_whole _) oV (Memref.isWhole_whole _)
              sV (Memref.isWhole_whole _) rV (Memref.isWhole_whole _) aV (Memref.isWhole_whole _)
              cc0_scratch3 cc0_scratch4 cc0_scratch5 cc0_scratch6 cc0_scratch7 cc0_scoped0)
            fun _ => iprop(tileTd m d L ∗ scopedBufs (thr d L) ∗ scopedSems0 (thr d L)
              ∗ ∃ W', ⌜∀ p ∈ W', p ∈ W ∨ p.2 = none⌝ ∗ owes (thr d L) O W')) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) O W hO).trans (wp_mono frame _ _ fun _ => obl_post)

end Cert.Kernel.Tile

end
-- ==== Proof.K_TileBody.lean ====
/-
  The tile's task around its loop: the fetch of its index rows, the three opening gathers, the loop by its invariant
  (one trip is the hypothesis `htrip`), the four waits that drain the write-back batch, and the resources put back.
-/
import proofs.«208374_g60447369724146_cont_9to1c4b_798_24_alg».proof.Proof.K_TileInv
import proofs.«208374_g60447369724146_cont_9to1c4b_798_24_alg».proof.Proof.K_TripFacts
import proofs.«208374_g60447369724146_cont_9to1c4b_798_24_alg».proof.Proof.K_TileSplit
import proofs.«208374_g60447369724146_cont_9to1c4b_798_24_alg».proof.Proof.K_OutGeom
import proofs.«208374_g60447369724146_cont_9to1c4b_798_24_alg».proof.Proof.K_FlightCanon
import proofs.«208374_g60447369724146_cont_9to1c4b_798_24_alg».proof.Proof.K_TileWrap
import proofs.«208374_g60447369724146_cont_9to1c4b_798_24_alg».proof.Proof.K_OutAt
import proofs.«208374_g60447369724146_cont_9to1c4b_798_24_alg».proof.Proof.K_TripClose

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

instance wbD_storable (d : Dev nD) (L : grid0.Coords) (t : Fin 4) : BI.Storable (upEmb : UEmb _ 𝕄) (wbD d L m t) := by
  unfold wbD; infer_instance

set_option maxHeartbeats 1600000 in
/-- The gather part before the first trip, from the three flights at listed contents. -/
theorem gathers_open (d : Dev nD) (L : grid0.Coords) (fs : Buf (Elt F) ((thr d L).loc cc0_scratch0)) (w0 w1 w2 : Finset S256x20.Idx)
    (base0 base1 base2 : Buf (Elt F) ((thr d L).loc cc0_scratch1)) (pay0 pay1 pay2 : S20x128.Idx → Elt F .f32)
    (f3 : Buf (Elt F) ((thr d L).loc cc0_scratch1))
    (h0 : ∀ y ∈ (slot0K).view.set, (slot0K).view.writes (Elt F) base0 [⟨Rect.whole S20x128, pay0⟩] y = GR d L (idxPay d L (m (iLoc d))) (m (xLoc d)) ⟨4 * 0, by omega⟩ y)
    (h1 : ∀ y ∈ (slot1K).view.set, (slot1K).view.writes (Elt F) base1 [⟨Rect.whole S20x128, pay1⟩] y = GR d L (idxPay d L (m (iLoc d))) (m (xLoc d)) ⟨4 * 0 + 1, by omega⟩ y)
    (h2 : ∀ y ∈ (slot2K).view.set, (slot2K).view.writes (Elt F) base2 [⟨Rect.whole S20x128, pay2⟩] y = GR d L (idxPay d L (m (iLoc d))) (m (xLoc d)) ⟨4 * 0 + 2, by omega⟩ y) :
    iprop((Transfers.Flight countersEmb (thr d L) (.dma cc0_scratch4.sem) (default : HIx 1) 81920 iprop((((slot0K).view.loc (thr d L) ↦[(slot0K).view.set]{fullShare} (slot0K).view.writes (Elt F) base0 [⟨Rect.whole S20x128, pay0⟩]) ∗ ((sV).view.loc (thr d L) ↦[w0]{tokS 1} idxBuf d L (m (iLoc d)) fs)) ∗ ((xV).view.loc (thr d L) ↦[(xAllK).view.set]{tokX L 1} m (xLoc d)))
          ∗ ((xV).view.loc (thr d L) ↦[Finset.univ \ (xAllK).view.set]{tokX L 1} m (xLoc d)) ∗ ((sV).view.loc (thr d L) ↦[Finset.univ \ w0]{tokS 1} idxBuf d L (m (iLoc d)) fs))
        ∗ (Transfers.Flight countersEmb (thr d L) (.dma cc0_scratch5.sem) (default : HIx 1) 81920 iprop((((slot1K).view.loc (thr d L) ↦[(slot1K).view.set]{fullShare} (slot1K).view.writes (Elt F) base1 [⟨Rect.whole S20x128, pay1⟩]) ∗ ((sV).view.loc (thr d L) ↦[w1]{tokS 2} idxBuf d L (m (iLoc d)) fs)) ∗ ((xV).view.loc (thr d L) ↦[(xAllK).view.set]{tokX L 2} m (xLoc d)))
          ∗ ((xV).view.loc (thr d L) ↦[Finset.univ \ (xAllK).view.set]{tokX L 2} m (xLoc d)) ∗ ((sV).view.loc (thr d L) ↦[Finset.univ \ w1]{tokS 2} idxBuf d L (m (iLoc d)) fs))
        ∗ (Transfers.Flight countersEmb (thr d L) (.dma cc0_scratch6.sem) (default : HIx 1) 81920 iprop((((slot2K).view.loc (thr d L) ↦[(slot2K).view.set]{fullShare} (slot2K).view.writes (Elt F) base2 [⟨Rect.whole S20x128, pay2⟩]) ∗ ((sV).view.loc (thr d L) ↦[w2]{tokS 3} idxBuf d L (m (iLoc d)) fs)) ∗ ((xV).view.loc (thr d L) ↦[(xAllK).view.set]{tokX L 3} m (xLoc d)))
          ∗ ((xV).view.loc (thr d L) ↦[Finset.univ \ (xAllK).view.set]{tokX L 3} m (xLoc d)) ∗ ((sV).view.loc (thr d L) ↦[Finset.univ \ w2]{tokS 3} idxBuf d L (m (iLoc d)) fs))
        ∗ ((xV).view.loc (thr d L) ↦{tokX L 4} m (xLoc d)) ∗ ((sV).view.loc (thr d L) ↦{tokS 4} idxBuf d L (m (iLoc d)) fs)
        ∗ ((slot3K).view.loc (thr d L) ↦[(slot3K).view.set]{fullShare} f3)
        ∗ semVal (thr d L, .dma cc0_scratch7.sem) 0)
      ⊢ (gathersPart d L m fs 0 : sProp 𝕄) := by
  unfold gathersPart
  rw [dif_pos (by omega : (0 : ℕ) < 64)]
  rw [slot_canon0 d L (m (iLoc d)) (m (xLoc d)) base0 pay0 _ h0, slot_canon1 d L (m (iLoc d)) (m (xLoc d)) base1 pay1 _ h1,
    slot_canon2 d L (m (iLoc d)) (m (xLoc d)) base2 pay2 _ h2]
  iintro ⟨H0, H1, H2, HT, HS, H3, Hsem⟩
  iexists w0, w1, w2
  isplitl [H0]; · iexact H0
  isplitl [H1]; · iexact H1
  isplitl [H2]; · iexact H2
  isplitl [HT]; · iexact HT
  isplitl [HS]; · iexact HS
  isplitl [H3]
  · iexists f3; iexact H3
  iexact Hsem

set_option maxHeartbeats 1600000 in
/-- After the last trip the gather part is the four read shares of the table and of the index scratch, the four slots
    and the four idle semaphores. -/
theorem gathersPart_last (d : Dev nD) (L : grid0.Coords) (fs : Buf (Elt F) ((thr d L).loc cc0_scratch0)) :
    (gathersPart d L m fs 64 : sProp 𝕄)
      = iprop(((xV).view.loc (thr d L) ↦{tokX L 1} m (xLoc d)) ∗ ((xV).view.loc (thr d L) ↦{tokX L 2} m (xLoc d))
      ∗ ((xV).view.loc (thr d L) ↦{tokX L 3} m (xLoc d)) ∗ ((xV).view.loc (thr d L) ↦{tokX L 4} m (xLoc d))
      ∗ ((sV).view.loc (thr d L) ↦{tokS 1} idxBuf d L (m (iLoc d)) fs) ∗ ((sV).view.loc (thr d L) ↦{tokS 2} idxBuf d L (m (iLoc d)) fs)
      ∗ ((sV).view.loc (thr d L) ↦{tokS 3} idxBuf d L (m (iLoc d)) fs) ∗ ((sV).view.loc (thr d L) ↦{tokS 4} idxBuf d L (m (iLoc d)) fs)
      ∗ (∃ f, (slot0K).view.loc (thr d L) ↦[(slot0K).view.set]{fullShare} f) ∗ (∃ f, (slot1K).view.loc (thr d L) ↦[(slot1K).view.set]{fullShare} f)
      ∗ (∃ f, (slot2K).view.loc (thr d L) ↦[(slot2K).view.set]{fullShare} f) ∗ (∃ f, (slot3K).view.loc (thr d L) ↦[(slot3K).view.set]{fullShare} f)
      ∗ semVal (thr d L, .dma cc0_scratch4.sem) 0 ∗ semVal (thr d L, .dma cc0_scratch5.sem) 0
      ∗ semVal (thr d L, .dma cc0_scratch6.sem) 0 ∗ semVal (thr d L, .dma cc0_scratch7.sem) 0) := by
  unfold gathersPart
  rw [dif_neg (by omega : ¬ (64 < 64))]

omit [FloatOps F] in
theorem wand_use {P Q : sProp 𝕄} : iprop(P ∗ (P -∗ Q)) ⊢ Q := by
  iintro ⟨HP, HW⟩
  iapply HW; iexact HP

set_option maxRecDepth 100000 in
set_option maxHeartbeats 16000000 in
theorem tile_body_of_trips (hF : (K (F := F)).Facts) (hpre : PreOK m)
    (htrip : ∀ (d : Dev nD) (L : grid0.Coords) (fs : Buf (Elt F) ((thr d L).loc cc0_scratch0)) (O : CellTallies nD τ sig (HIx 1)) (W : Waits sig (HIx 1)) (v1 : BitVec 32)
        (k : Fin k0_t1_loop.trips) (acc : BitVec 32),
        inv d L m fs O W k.val acc
          ⊢ wp frame (wpE (defs₀ (F := F)) 𝒱₀ (thr d L) none) Set.univ
              (k0_t1_body L iV (Memref.isWhole_whole _) xV (Memref.isWhole_whole _) oV (Memref.isWhole_whole _)
                sV (Memref.isWhole_whole _) rV (Memref.isWhole_whole _) aV (Memref.isWhole_whole _)
                cc0_scratch3 cc0_scratch4 cc0_scratch5 cc0_scratch6 cc0_scratch7 cc0_scoped0 v1 k acc)
              (inv d L m fs O W (k.val + 1)))
    (d : Dev nD) (L : grid0.Coords) (O : CellTallies nD τ sig (HIx 1)) (W : Waits sig (HIx 1)) (hO : ∀ g, O g none = 0) :
    iprop(levAts (K (F := F)).L (K (F := F)).lev ∗ emp ∗ tileGo m d L ∗ scopedBufs (thr d L) ∗ scopedSems0 (thr d L) ∗ owes (thr d L) O W)
      ⊢ wp frame (wpE (defs₀ (F := F)) 𝒱₀ (thr d L) none) Set.univ
          (cc0_k L iV (Memref.isWhole_whole _) xV (Memref.isWhole_whole _) oV (Memref.isWhole_whole _) sV (Memref.isWhole_whole _) rV (Memref.isWhole_whole _) aV (Memref.isWhole_whole _) cc0_scratch3 cc0_scratch4 cc0_scratch5 cc0_scratch6 cc0_scratch7 cc0_scoped0)
          fun _ => iprop(tileTd m d L ∗ scopedBufs (thr d L) ∗ scopedSems0 (thr d L) ∗ ∃ W', ⌜∀ p ∈ W', p ∈ W ∨ p.2 = none⌝ ∗ owes (thr d L) O W') := by
  simp only [cc0_k_eq_skeleton]; unfold cc0_k_skel
  iintro ⟨#Hlv, -, Hgo, Hsb, Hss, HO⟩
  ihave Hmw := (show levAts (K (F := F)).L (K (F := F)).lev ⊢ Transfers.MayWaits (thr d L) (default : HIx 1) O from
    (K (F := F)).mayWaits_none (thr := thr d L) hO) $$ Hlv
  ihave Hsc := (scoped_open d L hF) $$ [Hsb Hss]
  · isplitl [Hsb] <;> iassumption
  icases Hsc with ⟨⟨⟨%fs, Hs⟩, ⟨%fr, Hr⟩, ⟨%fa, Ha⟩⟩, ⟨Hw, Hg0, Hg1, Hg2, Hg3, Hc⟩, Hclose⟩
  unfold tileGo
  icases Hgo with ⟨Hi, Hx, Hows⟩
  -- the table's share in read tokens, the row scratch in slots, the output scratch and the result rows by block
  ihave Hx' := (toks5 (ℓ := (xV).view.loc (thr d L)) Finset.univ (xq L) (m (xLoc d))).1 $$ Hx
  icases Hx' with ⟨Hxd, Hx0, Hx1, Hx2, Hx3, Hx4⟩
  ihave Hr' := (Entails.of_eq (rV_slots d L fr)) $$ Hr
  icases Hr' with ⟨Hr0, Hr1, Hr2, Hr3⟩
  ihave Ha' := (aV_start d L fa).1 $$ Ha
  icases Ha' with ⟨Hac, Haf⟩
  ihave Ho' := (oWins_start d L (m (oLoc d))).1 $$ Hows
  icases Ho' with ⟨Hoc, Hof⟩
  imod (Transfers.batch_alloc' (Lvl := ℕ) countersEmb (thr d L) (default : HIx 1) wbN (wbD d L m) (sm := .dma cc0_scratch3.sem) (E := Set.univ)) $$ Hw with HB
  -- the fetch of the index rows and its wait
  sl_exec
  ihave Hs := (Entails.of_eq (show ((sV).view.loc (thr d L) ↦{fullShare} View.write (Elt F) (sV).view fs (tile_body_of_trips.sl.dma0 m d L) Finset.univ : sProp 𝕄)
      = ((sV).view.loc (thr d L) ↦[Finset.univ]{fullShare} idxBuf d L (m (iLoc d)) fs) from rfl)) $$ Hs
  ihave Hs' := (toks5 (ℓ := (sV).view.loc (thr d L)) Finset.univ fullShare (idxBuf d L (m (iLoc d)) fs)).1 $$ Hs
  icases Hs' with ⟨Hsd, Hs0, Hs1, Hs2, Hs3, Hs4⟩
  -- the remainder and token 0 of the index scratch are set aside: the three gathers read tokens 1, 2, 3
  ihave Hkeep := (Entails.of_eq (rfl : (iprop(((sV).view.loc (thr d L) ↦{Transfers.shareDrop fullShare 5} idxBuf d L (m (iLoc d)) fs)
      ∗ ((sV).view.loc (thr d L) ↦{tokS 0} idxBuf d L (m (iLoc d)) fs)) : sProp 𝕄) = _)) $$ [Hsd Hs0]
  · isplitl [Hsd]; · iexact Hsd
    iexact Hs0
  have hin : ∀ (off : Fin 2 → Nat) (hb : ∀ a, off a + S1x20.size a ≤ S256x20.size a) (hs : ∀ a, (Rect.unit (s := S256x20) off S1x20.size hb).stride a = 1) (x : S20.Idx),
      (((sV.slice (Rect.unit (s := S256x20) off S1x20.size hb) hs).squeeze S20 squeezes_S1x20_S20).view.read (Elt F)
        (idxBuf d L (m (iLoc d)) fs) x).toNat < 100000 := hin_all d L (m (iLoc d)) fs (hpre d)
  -- the three opening gathers, each reading its own token of the index scratch and of the table
  sl_exec
  icases Hkeep with ⟨Hsd, Hs0⟩
  iclear Hr0 Hr1 Hr2
  sl_for (inv d L m fs O W) $$ [Hmw Hi Hxd Hx0 Hx1 Hx2 Hx3 Hx4 Hsd Hs0 Hs1 Hs2 Hs3 Hs4 Hg0 Hg1 Hg2 Hg3 Hr3 Hac Haf Hoc Hof HB HO]
  case region =>
    intro k acc
    exact htrip d L fs O W _ k acc
  · -- the invariant before the first trip
    have hn : S20.numel = S20x128.size Cert.Kernel.Facts₀.gathers_S100000x128_S20x128.axis' := rfl
    have h0 := gather_writes_val0 d L (m (iLoc d)) (m (xLoc d)) fs fr ![0, 0] inb_S256x20_S1x20_0_0 hn (fun x => hin _ _ _ x) (hpre d) ⟨4 * 0, by omega⟩ rfl
    have h1 := gather_writes_val1 d L (m (iLoc d)) (m (xLoc d)) fs fr ![1, 0] inb_S256x20_S1x20_1_0 hn (fun x => hin _ _ _ x) (hpre d) ⟨4 * 0 + 1, by omega⟩ rfl
    have h2 := gather_writes_val2 d L (m (iLoc d)) (m (xLoc d)) fs fr ![2, 0] inb_S256x20_S1x20_2_0 hn (fun x => hin _ _ _ x) (hpre d) ⟨4 * 0 + 2, by omega⟩ rfl
    unfold inv
    isplitr; · iexact Hmw
    isplitl [Hi]; · iexact Hi
    isplitl [Hxd]; · iexact Hxd
    isplitl [Hx0]; · iexact Hx0
    isplitl [Hsd]; · iexact Hsd
    isplitl [Hs0]; · iexact Hs0
    isplitl [Hg0 Hx1 Hs1 Hg1 Hx2 Hs2 Hg2 Hx3 Hs3 Hx4 Hs4 Hr3 Hg3]
    · iapply (gathers_open m d L fs _ _ _ fr fr fr _ _ _ fr h0 h1 h2)
      isplitl [Hg0 Hx1 Hs1]
      · isplitl [Hg0]; · iexact Hg0
        isplitl [Hx1]; · iexact Hx1
        iexact Hs1
      isplitl [Hg1 Hx2 Hs2]
      · isplitl [Hg1]; · iexact Hg1
        isplitl [Hx2]; · iexact Hx2
        iexact Hs2
      isplitl [Hg2 Hx3 Hs3]
      · isplitl [Hg2]; · iexact Hg2
        isplitl [Hx3]; · iexact Hx3
        iexact Hs3
      isplitl [Hx4]; · iexact Hx4
      isplitl [Hs4]; · iexact Hs4
      isplitl [Hr3]; · iexact Hr3
      iexact Hg3
    isplitl [Hac Haf Hoc Hof]
    · rw [outPart_eq d L m 0 (by omega) 0 (by decide) rfl]; unfold outAt
      isplitl [Hac]
      · iexists fa
        isplitl [Hac]; · iexact Hac
        ipureintro; intro y _ h; exact absurd h (by omega)
      isplitl [Haf]; · iexists fa; iexact Haf
      isplitl [Hoc]; · iexact Hoc
      iexact Hof
    isplitl [HB]; · iexact HB
    iexists (insert (SemLoc.dma ⟨5, by decide⟩, (default : HIx 1)) W); isplitr
    · ipureintro; intro p hp
      rcases Finset.mem_insert.mp hp with hp | hp
      · exact .inr (hp ▸ rfl)
      · exact .inl hp
    · iexact HO
  -- after the loop
  rw [show Scf.trips k0_t1_loop.lb k0_t1_loop.ub k0_t1_loop.st = 64 from rfl]
  iintro %acc HI
  unfold inv
  rw [gathersPart_last, outPart_last, show (64 / 16 : ℕ) = 4 from rfl]
  icases HI with ⟨-, Hi, Hxd, Hx0, Hsd, Hs0, ⟨Hx1, Hx2, Hx3, Hx4, Hs1, Hs2, Hs3, Hs4, ⟨%f0, Hr0⟩, ⟨%f1, Hr1⟩, ⟨%f2, Hr2⟩, ⟨%f3, Hr3⟩, Hg0, Hg1, Hg2, Hg3⟩, -, HB, %W', %hW', HO⟩
  -- the four waits that drain the write-back batch
  sl_exec
  sl_step
  -- the task's operands back, the result windows at the result function
  unfold tileTd
  isplitl [Hi Hxd Hx0 Hx1 Hx2 Hx3 Hx4 HB_dst0 HB_dst1 HB_dst2 HB_dst3]
  · isplitl [Hi]; · iexact Hi
    isplitl [Hxd Hx0 Hx1 Hx2 Hx3 Hx4]
    · iapply (toks5 (ℓ := (xV).view.loc (thr d L)) Finset.univ (xq L) (m (xLoc d))).2
      isplitl [Hxd]; · iexact Hxd
      isplitl [Hx0]; · iexact Hx0
      isplitl [Hx1]; · iexact Hx1
      isplitl [Hx2]; · iexact Hx2
      isplitl [Hx3]; · iexact Hx3
      iexact Hx4
    iapply (oWins_end d L (Out m d))
    isplitl [HB_dst0]; · iexact HB_dst0
    isplitl [HB_dst1]; · iexact HB_dst1
    isplitl [HB_dst2]; · iexact HB_dst2
    iexact HB_dst3
  -- the scoped storage closed again
  ihave Hsc := (wand_use (P := iprop(bufsAt d L ∗ semsAt d L)) (Q := iprop(scopedBufs (thr d L) ∗ scopedSems0 (thr d L)))) $$ [Hclose Hsd Hs0 Hs1 Hs2 Hs3 Hs4 Hr0 Hr1 Hr2 Hr3 HB_src0 HB_src1 HB_src2 HB_src3 HB Hg0 Hg1 Hg2 Hg3 Hc]
  · isplitr [Hclose]
    swap; · iexact Hclose
    unfold bufsAt semsAt
    isplitl [Hsd Hs0 Hs1 Hs2 Hs3 Hs4 Hr0 Hr1 Hr2 Hr3 HB_src0 HB_src1 HB_src2 HB_src3]
    · isplitl [Hsd Hs0 Hs1 Hs2 Hs3 Hs4]
      · iexists (idxBuf d L (m (iLoc d)) fs)
        iapply (toks5 (ℓ := (sV).view.loc (thr d L)) Finset.univ fullShare (idxBuf d L (m (iLoc d)) fs)).2
        isplitl [Hsd]; · iexact Hsd
        isplitl [Hs0]; · iexact Hs0
        isplitl [Hs1]; · iexact Hs1
        isplitl [Hs2]; · iexact Hs2
        isplitl [Hs3]; · iexact Hs3
        iexact Hs4
      isplitl [Hr0 Hr1 Hr2 Hr3]
      · iapply (rV_join d L f0 f1 f2 f3)
        isplitl [Hr0]; · iexact Hr0
        isplitl [Hr1]; · iexact Hr1
        isplitl [Hr2]; · iexact Hr2
        iexact Hr3
      iapply (aBlks_end d L (OutLoc d L m) (OutLoc d L m) (OutLoc d L m) (OutLoc d L m))
      isplitl [HB_src0]; · iexact HB_src0
      isplitl [HB_src1]; · iexact HB_src1
      isplitl [HB_src2]; · iexact HB_src2
      iexact HB_src3
    isplitl [HB]; · iexact HB
    isplitl [Hg0]; · iexact Hg0
    isplitl [Hg1]; · iexact Hg1
    isplitl [Hg2]; · iexact Hg2
    isplitl [Hg3]; · iexact Hg3
    iexact Hc
  icases Hsc with ⟨Hsb, Hss⟩
  isplitl [Hsb]; · iexact Hsb
  isplitl [Hss]; · iexact Hss
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.Kernel.Tile

end
-- ==== Proof.K_Assemble.lean ====
/-
  The kernel program's run, assembled: a trip of the loop is the trip before the last or the last one; the tile's task
  follows; the launch turns the tasks into the run of the whole program, whose result is the reshaped result function
  and whose arguments are unchanged.
-/
import proofs.«208374_g60447369724146_cont_9to1c4b_798_24_alg».proof.Proof.K_TripLo
import proofs.«208374_g60447369724146_cont_9to1c4b_798_24_alg».proof.Proof.K_TripHi
import proofs.«208374_g60447369724146_cont_9to1c4b_798_24_alg».proof.Proof.K_TileBody

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

set_option maxHeartbeats 8000000 in
theorem trip (hpre : PreOK m) (d : Dev nD) (L : grid0.Coords) (fs : Buf (Elt F) ((thr d L).loc cc0_scratch0))
    (O : CellTallies nD τ sig (HIx 1)) (W : Waits sig (HIx 1)) (v1 : BitVec 32) (k : Fin k0_t1_loop.trips) (acc : BitVec 32) :
    inv d L m fs O W k.val acc
      ⊢ wp frame (wpE (defs₀ (F := F)) 𝒱₀ (thr d L) none) Set.univ
          (k0_t1_body L iV (Memref.isWhole_whole _) xV (Memref.isWhole_whole _) oV (Memref.isWhole_whole _)
            sV (Memref.isWhole_whole _) rV (Memref.isWhole_whole _) aV (Memref.isWhole_whole _)
            cc0_scratch3 cc0_scratch4 cc0_scratch5 cc0_scratch6 cc0_scratch7 cc0_scoped0 v1 k acc)
          (inv d L m fs O W (k.val + 1)) :=
  if h : k.val < 63 then trip_lo d L m fs hpre O W v1 k h acc _ (fun _ => .rfl)
  else trip_hi d L m fs hpre O W v1 k h acc _ (fun _ => .rfl)

set_option maxHeartbeats 8000000 in
/-- The program's run from a memory whose index words all name table rows. -/
theorem run [∀ e, Nonempty (Elt F e)] (ρ : Dev nD → PrngReg) (hpre : PreOK m) :
    θ_run (Cert.Kernel.defs (F := F)) (Cert.Kernel.threads (F := F)) ⟨m, fun _ => 0, ρ⟩ (QC m) :=
  run_main m ρ (tileObl_of_body m facts (tile_body_of_trips m facts hpre (trip m hpre)))

end Cert.Kernel.Tile

end
-- ==== Proof.lean ====
/-
  The claim. Both programs compute, for every residue (b, l) and lane x, the sum over the residue's twenty terms of
  the table's entry (row named by the term, x): the kernel by gathering the twenty rows into a scratch slot and adding
  them pairwise, the reference by one gather and one sum; on the extended reals a sum does not depend on its grouping.
  The kernel's three frames and its value come from its run (each tile's task by the loop's invariant, the launch over
  the 32 tiles); the reference's from its run; the precondition is used for the index words' range only.
-/
import proofs.«208374_g60447369724146_cont_9to1c4b_798_24_alg».proof.Defs
import proofs.«208374_g60447369724146_cont_9to1c4b_798_24_alg».proof.Proof.Gen.Kernel
import proofs.«208374_g60447369724146_cont_9to1c4b_798_24_alg».proof.Proof.Gen.Kernel.Skeleton
import proofs.«208374_g60447369724146_cont_9to1c4b_798_24_alg».proof.Proof.Gen.KernelIdeal
import proofs.«208374_g60447369724146_cont_9to1c4b_798_24_alg».proof.Proof.Gen.KernelIdeal.Skeleton
import proofs.«208374_g60447369724146_cont_9to1c4b_798_24_alg».proof.Proof.Gen.ReferenceIdeal
import proofs.«208374_g60447369724146_cont_9to1c4b_798_24_alg».proof.Proof.Gen.Pre_input_domain
import proofs.«208374_g60447369724146_cont_9to1c4b_798_24_alg».proof.Proof.RefRun
import proofs.«208374_g60447369724146_cont_9to1c4b_798_24_alg».proof.Proof.ValueEq
import proofs.«208374_g60447369724146_cont_9to1c4b_798_24_alg».proof.Proof.Assemble
import proofs.«208374_g60447369724146_cont_9to1c4b_798_24_alg».proof.Proof.K_Assemble
import Idealize.ShloMosaic.Adequacy
import Idealize.ShloMosaic.Init

noncomputable section

namespace Cert.Proof

open Idealize.ShloMosaic Idealize.SL.Sem

/-- Under the precondition every index word names a table row (kernel program, as printed). -/
theorem preOK_k (m : (ℓ : Loc Cert.Kernel.nD Cert.Kernel.τ Cert.Kernel.sig) → Buf (Elt Bits) ℓ)
    (h : Cert.Pre_Kernel (hPre_input_domain := Cert.Pre_input_domain.Gen.facts) m) : Cert.Kernel.Tile.PreOK m :=
  fun d j => Cert.ReferenceIdeal.RefRun.inRange_of_fn _ _ (h d) j

/-- The same for the idealized kernel. -/
theorem preOK_ki (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdeal.Tile.PreOK m :=
  fun d j => Cert.ReferenceIdeal.RefRun.inRange_of_fn _ _ (h d) j

theorem frame_k : Cert.frame_Kernel (hKernel := Cert.Kernel.Gen.facts) (hPre_input_domain := Cert.Pre_input_domain.Gen.facts) :=
  fun m ρ hpre => (θ_run Cert.Kernel.defs _ _).mono (fun _ h c => ⟨(h c).2.1, (h c).2.2⟩)
    (Cert.Kernel.Tile.run (F := Bits) m ρ (preOK_k m hpre))

theorem frame_ki : Cert.frame_KernelIdeal (hKernelIdeal := Cert.KernelIdeal.Gen.facts) (hPre_input_domain := Cert.Pre_input_domain.Gen.facts) :=
  fun m ρ hpre => (θ_run Cert.KernelIdeal.defs _ _).mono (fun _ h c => ⟨(h c).2.1, (h c).2.2⟩)
    (Cert.KernelIdeal.Tile.run (F := Ideal) m ρ (preOK_ki m hpre))

theorem frame_r : Cert.frame_ReferenceIdeal (hReferenceIdeal := Cert.ReferenceIdeal.Gen.facts) (hPre_input_domain := Cert.Pre_input_domain.Gen.facts) :=
  fun m ρ hpre => (θ_run Cert.ReferenceIdeal.defs _ _).mono (fun _ h c => ⟨(h c).2.1, (h c).2.2⟩)
    (Cert.ReferenceIdeal.RefRun.run m ρ (fun c => Cert.ReferenceIdeal.RefRun.inRange_of_fn _ _ (hpre c)))

/-- Both idealized programs end at the reshaped result function, which is `Spec.G` of the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.KernelIdeal.Tile.OutR m c, ?_, ?_⟩
  · exact (θ_run Cert.KernelIdeal.defs _ _).mono (fun _ h c => h c) (Cert.KernelIdeal.Tile.run (F := Ideal) m ρ (preOK_ki m hpre))
  · refine (θ_run Cert.ReferenceIdeal.defs _ _).mono (fun _ h c => ⟨(h c).1.trans ?_, (h c).2.1, (h c).2.2⟩)
      (Cert.ReferenceIdeal.RefRun.run m' ρ' (fun c => by
        rw [(hagree c).1]
        exact Cert.ReferenceIdeal.RefRun.inRange_of_fn _ _ (hpre c)))
    rw [(hagree c).1, (hagree c).2]
    exact (Cert.KernelIdeal.Tile.out_eq_G _ _).symm

theorem claim : Cert.Claim :=
  ⟨Cert.Kernel.Gen.facts, Cert.KernelIdeal.Gen.facts, Cert.ReferenceIdeal.Gen.facts, Cert.Pre_input_domain.Gen.facts,
    frame_k, frame_ki, frame_r, trivial, algebraic⟩

end Cert.Proof

end
